-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩
abbrev S4096x1024 : Shape := ⟨2, ![4096, 1024]⟩
abbrev S1x1 : Shape := ⟨2, ![1, 1]⟩
abbrev S1x1024 : Shape := ⟨2, ![1, 1024]⟩
abbrev S512x1024 : Shape := ⟨2, ![512, 1024]⟩
abbrev S2x2048x16x64 : Shape := ⟨4, ![2, 2048, 16, 64]⟩
abbrev S2x16x2048x64 : Shape := ⟨4, ![2, 16, 2048, 64]⟩
abbrev S2x16x2048x1 : Shape := ⟨4, ![2, 16, 2048, 1]⟩
abbrev S1x1x2048x64 : Shape := ⟨4, ![1, 1, 2048, 64]⟩
abbrev S1x1x2048x1 : Shape := ⟨4, ![1, 1, 2048, 1]⟩
abbrev S2048x64 : Shape := ⟨2, ![2048, 64]⟩
abbrev S64x2048 : Shape := ⟨2, ![64, 2048]⟩
abbrev S2048x2048 : Shape := ⟨2, ![2048, 2048]⟩
abbrev S2048 : Shape := ⟨1, ![2048]⟩
abbrev S2048x1 : Shape := ⟨2, ![2048, 1]⟩

abbrev nBuf : Space → Nat
  | .hbm => 141
  | .vmem => 58
  | .smem => 0
  | _ => 0

abbrev hbmTy0_0 (i : Nat) : BufTy := match i % 128 with
  | 0 => ⟨S2x2048x1024, .f32⟩
  | 1 => ⟨S2x2048x1024, .f32⟩
  | 2 => ⟨S2x2048x1024, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S2x2048x1024, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S1024x1024, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S2x2048x1024, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S1024x1024, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S2x2048x1024, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S1024x1024, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S1024x1024, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S4096x1024, .f32⟩
  | 61 => ⟨S4096x1024, .f32⟩
  | 62 => ⟨S4096x1024, .f32⟩
  | 63 => ⟨S1024x1024, .f32⟩
  | 64 => ⟨S1x1, .f32⟩
  | 65 => ⟨S1x1, .f32⟩
  | 66 => ⟨S1x1024, .f32⟩
  | 67 => ⟨S4096x1024, .f32⟩
  | 68 => ⟨S2x2048x1024, .f32⟩
  | 69 => ⟨S1024x1024, .f32⟩
  | 70 => ⟨S1x1, .f32⟩
  | 71 => ⟨S1x1, .f32⟩
  | 72 => ⟨S1x1024, .f32⟩
  | 73 => ⟨S4096x1024, .f32⟩
  | 74 => ⟨S2x2048x1024, .f32⟩
  | 75 => ⟨S1024x1024, .f32⟩
  | 76 => ⟨S1x1, .f32⟩
  | 77 => ⟨S1x1, .f32⟩
  | 78 => ⟨S1x1024, .f32⟩
  | 79 => ⟨S4096x1024, .f32⟩
  | 80 => ⟨S2x2048x1024, .f32⟩
  | 81 => ⟨S2x2048x1024, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S2x2048x1024, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S2x2048x1024, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S2x2048x16x64, .f32⟩
  | 103 => ⟨S2x16x2048x64, .f32⟩
  | 104 => ⟨S2x2048x16x64, .f32⟩
  | 105 => ⟨S2x16x2048x64, .f32⟩
  | 106 => ⟨S2x2048x16x64, .f32⟩
  | 107 => ⟨S2x16x2048x64, .f32⟩
  | 108 => ⟨S1x1, .f32⟩
  | 109 => ⟨S1x1, .f32⟩
  | 110 => ⟨S2x16x2048x1, .f32⟩
  | 111 => ⟨S2x16x2048x1, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S1x1, .f32⟩
  | 121 => ⟨S1x1, .f32⟩
  | 122 => ⟨S1x1, .f32⟩
  | 123 => ⟨S1x1, .f32⟩
  | 124 => ⟨S2x16x2048x64, .f32⟩
  | 125 => ⟨S2x2048x16x64, .f32⟩
  | 126 => ⟨S2x2048x1024, .f32⟩
  | 127 => ⟨S2x2048x1024, .f32⟩
  | _ => ⟨S2x2048x1024, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S4096x1024, .f32⟩
  | 7 => ⟨S1024x1024, .f32⟩
  | 8 => ⟨S1x1, .f32⟩
  | 9 => ⟨S1x1, .f32⟩
  | 10 => ⟨S1x1024, .f32⟩
  | 11 => ⟨S4096x1024, .f32⟩
  | 12 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S1x1, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .f32⟩
  | .local _ .vmem, ⟨11, _⟩ => ⟨S1x1024, .f32⟩
  | .local _ .vmem, ⟨12, _⟩ => ⟨S1x1, .f32⟩
  | .local _ .vmem, ⟨13, _⟩ => ⟨S1x1, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1024x1024, .f32⟩
  | .local _ .vmem, ⟨19, _⟩ => ⟨S1x1024, .f32⟩
  | .local _ .vmem, ⟨20, _⟩ => ⟨S1x1, .f32⟩
  | .local _ .vmem, ⟨21, _⟩ => ⟨S1x1, .f32⟩
  | .local _ .vmem, ⟨22, _⟩ => ⟨S512x1024, .f32⟩
  | .local _ .vmem, ⟨23, _⟩ => ⟨S512x1024, .f32⟩
  | .local _ .vmem, ⟨24, _⟩ => ⟨S1x1x2048x64, .f32⟩
  | .local _ .vmem, ⟨25, _⟩ => ⟨S1x1x2048x64, .f32⟩
  | .local _ .vmem, ⟨26, _⟩ => ⟨S1x1x2048x64, .f32⟩
  | .local _ .vmem, ⟨27, _⟩ => ⟨S1x1x2048x64, .f32⟩
  | .local _ .vmem, ⟨28, _⟩ => ⟨S1x1, .f32⟩
  | .local _ .vmem, ⟨29, _⟩ => ⟨S1x1, .f32⟩
  | .local _ .vmem, ⟨30, _⟩ => ⟨S1x1x2048x1, .f32⟩
  | .local _ .vmem, ⟨31, _⟩ => ⟨S1x1x2048x1, .f32⟩
  | .local _ .vmem, ⟨32, _⟩ => ⟨S1x1x2048x1, .f32⟩
  | .local _ .vmem, ⟨33, _⟩ => ⟨S1x1x2048x1, .f32⟩
  | .local _ .vmem, ⟨34, _⟩ => ⟨S1x1x2048x64, .f32⟩
  | .local _ .vmem, ⟨35, _⟩ => ⟨S1x1x2048x64, .f32⟩
  | .local _ .vmem, ⟨36, _⟩ => ⟨S1x1x2048x64, .f32⟩
  | .local _ .vmem, ⟨37, _⟩ => ⟨S1x1x2048x64, .f32⟩
  | .local _ .vmem, ⟨38, _⟩ => ⟨S1x1x2048x64, .f32⟩
  | .local _ .vmem, ⟨39, _⟩ => ⟨S1x1x2048x64, .f32⟩
  | .local _ .vmem, ⟨40, _⟩ => ⟨S1x1x2048x1, .f32⟩
  | .local _ .vmem, ⟨41, _⟩ => ⟨S1x1x2048x1, .f32⟩
  | .local _ .vmem, ⟨42, _⟩ => ⟨S1x1x2048x1, .f32⟩
  | .local _ .vmem, ⟨43, _⟩ => ⟨S1x1x2048x1, .f32⟩
  | .local _ .vmem, ⟨44, _⟩ => ⟨S1x1, .f32⟩
  | .local _ .vmem, ⟨45, _⟩ => ⟨S1x1, .f32⟩
  | .local _ .vmem, ⟨46, _⟩ => ⟨S1x1, .f32⟩
  | .local _ .vmem, ⟨47, _⟩ => ⟨S1x1, .f32⟩
  | .local _ .vmem, ⟨48, _⟩ => ⟨S1x1x2048x64, .f32⟩
  | .local _ .vmem, ⟨49, _⟩ => ⟨S1x1x2048x64, .f32⟩
  | .local _ .vmem, ⟨50, _⟩ => ⟨S512x1024, .f32⟩
  | .local _ .vmem, ⟨51, _⟩ => ⟨S512x1024, .f32⟩
  | .local _ .vmem, ⟨52, _⟩ => ⟨S1024x1024, .f32⟩
  | .local _ .vmem, ⟨53, _⟩ => ⟨S1x1024, .f32⟩
  | .local _ .vmem, ⟨54, _⟩ => ⟨S1x1, .f32⟩
  | .local _ .vmem, ⟨55, _⟩ => ⟨S1x1, .f32⟩
  | .local _ .vmem, ⟨56, _⟩ => ⟨S512x1024, .f32⟩
  | .local _ .vmem, ⟨57, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_cst_3 : Ref sig .tc := ⟨.hbm, 21, rfl⟩
abbrev main_v6 : Ref sig .tc := ⟨.hbm, 22, rfl⟩
abbrev main_cst_4 : Ref sig .tc := ⟨.hbm, 23, rfl⟩
abbrev main_v7 : Ref sig .tc := ⟨.hbm, 24, rfl⟩
abbrev main_v8 : Ref sig .tc := ⟨.hbm, 25, rfl⟩
abbrev main_cst_5 : Ref sig .tc := ⟨.hbm, 26, rfl⟩
abbrev main_v9 : Ref sig .tc := ⟨.hbm, 27, rfl⟩
abbrev main_cst_6 : Ref sig .tc := ⟨.hbm, 28, rfl⟩
abbrev main_v10 : Ref sig .tc := ⟨.hbm, 29, rfl⟩
abbrev main_cst_7 : Ref sig .tc := ⟨.hbm, 30, rfl⟩
abbrev main_v11 : Ref sig .tc := ⟨.hbm, 31, rfl⟩
abbrev main_v12 : Ref sig .tc := ⟨.hbm, 32, rfl⟩
abbrev main_cst_8 : Ref sig .tc := ⟨.hbm, 33, rfl⟩
abbrev main_v13 : Ref sig .tc := ⟨.hbm, 34, rfl⟩
abbrev main_cst_9 : Ref sig .tc := ⟨.hbm, 35, rfl⟩
abbrev main_v14 : Ref sig .tc := ⟨.hbm, 36, rfl⟩
abbrev main_cst_10 : Ref sig .tc := ⟨.hbm, 37, rfl⟩
abbrev main_v15 : Ref sig .tc := ⟨.hbm, 38, rfl⟩
abbrev main_v16 : Ref sig .tc := ⟨.hbm, 39, rfl⟩
abbrev main_cst_11 : Ref sig .tc := ⟨.hbm, 40, rfl⟩
abbrev main_v17 : Ref sig .tc := ⟨.hbm, 41, rfl⟩
abbrev main_cst_12 : Ref sig .tc := ⟨.hbm, 42, rfl⟩
abbrev main_v18 : Ref sig .tc := ⟨.hbm, 43, rfl⟩
abbrev main_cst_13 : Ref sig .tc := ⟨.hbm, 44, rfl⟩
abbrev main_v19 : Ref sig .tc := ⟨.hbm, 45, rfl⟩
abbrev main_v20 : Ref sig .tc := ⟨.hbm, 46, rfl⟩
abbrev main_cst_14 : Ref sig .tc := ⟨.hbm, 47, rfl⟩
abbrev main_v21 : Ref sig .tc := ⟨.hbm, 48, rfl⟩
abbrev main_cst_15 : Ref sig .tc := ⟨.hbm, 49, rfl⟩
abbrev main_v22 : Ref sig .tc := ⟨.hbm, 50, rfl⟩
abbrev main_cst_16 : Ref sig .tc := ⟨.hbm, 51, rfl⟩
abbrev main_v23 : Ref sig .tc := ⟨.hbm, 52, rfl⟩
abbrev main_v24 : Ref sig .tc := ⟨.hbm, 53, rfl⟩
abbrev main_cst_17 : Ref sig .tc := ⟨.hbm, 54, rfl⟩
abbrev main_v25 : Ref sig .tc := ⟨.hbm, 55, rfl⟩
abbrev main_cst_18 : Ref sig .tc := ⟨.hbm, 56, rfl⟩
abbrev main_v26 : Ref sig .tc := ⟨.hbm, 57, rfl⟩
abbrev main_cst_19 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_20 : Ref sig .tc := ⟨.hbm, 82, rfl⟩
abbrev main_v50 : Ref sig .tc := ⟨.hbm, 83, rfl⟩
abbrev main_cst_21 : Ref sig .tc := ⟨.hbm, 84, rfl⟩
abbrev main_v51 : Ref sig .tc := ⟨.hbm, 85, rfl⟩
abbrev main_cst_22 : Ref sig .tc := ⟨.hbm, 86, rfl⟩
abbrev main_v52 : Ref sig .tc := ⟨.hbm, 87, rfl⟩
abbrev main_v53 : Ref sig .tc := ⟨.hbm, 88, rfl⟩
abbrev main_cst_23 : Ref sig .tc := ⟨.hbm, 89, rfl⟩
abbrev main_v54 : Ref sig .tc := ⟨.hbm, 90, rfl⟩
abbrev main_cst_24 : Ref sig .tc := ⟨.hbm, 91, rfl⟩
abbrev main_v55 : Ref sig .tc := ⟨.hbm, 92, rfl⟩
abbrev main_cst_25 : Ref sig .tc := ⟨.hbm, 93, rfl⟩
abbrev main_v56 : Ref sig .tc := ⟨.hbm, 94, rfl⟩
abbrev main_v57 : Ref sig .tc := ⟨.hbm, 95, rfl⟩
abbrev main_cst_26 : Ref sig .tc := ⟨.hbm, 96, rfl⟩
abbrev main_v58 : Ref sig .tc := ⟨.hbm, 97, rfl⟩
abbrev main_cst_27 : Ref sig .tc := ⟨.hbm, 98, rfl⟩
abbrev main_v59 : Ref sig .tc := ⟨.hbm, 99, rfl⟩
abbrev main_cst_28 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69_0 : Ref sig .tc := ⟨.hbm, 110, rfl⟩
abbrev main_v69_1 : Ref sig .tc := ⟨.hbm, 111, rfl⟩
abbrev main_cst_29 : Ref sig .tc := ⟨.hbm, 112, rfl⟩
abbrev main_v70 : Ref sig .tc := ⟨.hbm, 113, rfl⟩
abbrev main_cst_30 : Ref sig .tc := ⟨.hbm, 114, rfl⟩
abbrev main_v71 : Ref sig .tc := ⟨.hbm, 115, rfl⟩
abbrev main_cst_31 : Ref sig .tc := ⟨.hbm, 116, rfl⟩
abbrev main_v72 : Ref sig .tc := ⟨.hbm, 117, rfl⟩
abbrev main_cst_32 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_33 : Ref sig .tc := ⟨.hbm, 128, rfl⟩
abbrev main_v82 : Ref sig .tc := ⟨.hbm, 129, rfl⟩
abbrev main_cst_34 : Ref sig .tc := ⟨.hbm, 130, rfl⟩
abbrev main_v83 : Ref sig .tc := ⟨.hbm, 131, rfl⟩
abbrev main_cst_35 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg3_1 : Ref sig .tc := ⟨.vmem, 41, rfl⟩
abbrev cc4_stg4_0 : Ref sig .tc := ⟨.vmem, 42, rfl⟩
abbrev cc4_stg4_1 : Ref sig .tc := ⟨.vmem, 43, rfl⟩
abbrev cc4_stg5_0 : Ref sig .tc := ⟨.vmem, 44, rfl⟩
abbrev cc4_stg6_0 : Ref sig .tc := ⟨.vmem, 45, rfl⟩
abbrev cc4_stg7_0 : Ref sig .tc := ⟨.vmem, 46, rfl⟩
abbrev cc4_stg8_0 : Ref sig .tc := ⟨.vmem, 47, rfl⟩
abbrev cc4_stg9_0 : Ref sig .tc := ⟨.vmem, 48, rfl⟩
abbrev cc4_stg9_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg5_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem3_1 : DmaSem sig := 41
abbrev cc4_sem4_0 : DmaSem sig := 42
abbrev cc4_sem4_1 : DmaSem sig := 43
abbrev cc4_sem5_0 : DmaSem sig := 44
abbrev cc4_sem6_0 : DmaSem sig := 45
abbrev cc4_sem7_0 : DmaSem sig := 46
abbrev cc4_sem8_0 : DmaSem sig := 47
abbrev cc4_sem9_0 : DmaSem sig := 48
abbrev cc4_sem9_1 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem4_0 : DmaSem sig := 55
abbrev cc5_sem5_0 : DmaSem sig := 56
abbrev cc5_sem5_1 : DmaSem sig := 57

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![2, 16], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_5 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x1x2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1x2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1x1x2048x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x1x2048x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨2, ![2, 16], ![false, false]⟩

def cc4_transform_0 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc4_transform_1 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc4_transform_2 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc4_transform_3 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc4_transform_4 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage4_0 : Fin 2 → Memref sig .tc .vmem S1x1x2048x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x1x2048x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x1x2048x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1x1x2048x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1x1x2048x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 1 → Memref sig .tc .vmem S1x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false, false]

abbrev stage4_8 : Fin 1 → Memref sig .tc .vmem S1x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false, false]

abbrev stage4_9 : Fin 2 → Memref sig .tc .vmem S1x1x2048x64 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1024x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S512x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  reducesTo_S2x2048x1024_S_d0_1_2 : S2x2048x1024.ReducesTo [0, 1, 2] S_
  h_S_ : 0 < S_.numel
  reducesTo_S1024x1024_S_d0_1 : S1024x1024.ReducesTo [0, 1] S_
  shapeCasts_S2x2048x1024_S4096x1024 : S2x2048x1024.ShapeCasts S4096x1024
  transposes_S1024x1024_S1024x1024_1_0 : S1024x1024.Transposes [1, 0] S1024x1024
  shapeCasts_S_S1x1 : S_.ShapeCasts S1x1
  shapeCasts_S1024_S1x1024 : S1024.ShapeCasts S1x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  reduces_S2048x2048_S2048 : S2048x2048.Reduces [1] S2048
  shapeCasts_S2048_S2048x1 : S2048.ShapeCasts S2048x1
  broadcasts_S2048x1_S2048x2048 : S2048x1.Broadcasts S2048x2048
  inb_S1x1x2048x1_S1x1x2048x1_0_0_0_0 : ∀ a, (![0, 0, 0, 0] : Fin 4 → Nat) a + S1x1x2048x1.size a ≤ S1x1x2048x1.size a
  h_S1x1x2048x1 : 0 < S1x1x2048x1.numel
  shapeCasts_S1x1x2048x1_S2048x1 : S1x1x2048x1.ShapeCasts S2048x1
  shapeCasts_S2048x1_S1x1x2048x1 : S2048x1.ShapeCasts S1x1x2048x1
  reducesTo_S2x16x2048x1_S_d0_1_2_3 : S2x16x2048x1.ReducesTo [0, 1, 2, 3] S_
  shapeCasts_S2048x64_S1x1x2048x64 : S2048x64.ShapeCasts S1x1x2048x64
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S512x1024_S1024x1024_S512x1024_1_0_0_1_n_n_wf : DotDims.WF S512x1024 S1024x1024 S512x1024 [1] [0] [0] [1] [] []
  dot_S2048x64_S64x2048_S2048x2048_1_0_0_1_n_n_wf : DotDims.WF S2048x64 S64x2048 S2048x2048 [1] [0] [0] [1] [] []
  dot_S2048x2048_S2048x64_S2048x64_1_0_0_1_n_n_wf : DotDims.WF S2048x2048 S2048x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .f32 = 32 ∨ (Rect.block (s := S4096x1024) S512x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S4096x1024.size a
  hwx1_5 : ∀ i : grid1.Coords, EltTy.bits .f32 = 32 ∨ (Rect.block (s := S4096x1024) S512x1024.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1024.size a ≤ S4096x1024.size a
  hwx2_5 : ∀ i : grid2.Coords, EltTy.bits .f32 = 32 ∨ (Rect.block (s := S4096x1024) S512x1024.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1x2048x64.size a ≤ S2x16x2048x64.size a
  hwx3_0 : ∀ i : grid3.Coords, EltTy.bits .f32 = 32 ∨ (Rect.block (s := S2x16x2048x64) S1x1x2048x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x2048x64.size a ≤ S2x16x2048x64.size a
  hwx3_1 : ∀ i : grid3.Coords, EltTy.bits .f32 = 32 ∨ (Rect.block (s := S2x16x2048x64) S1x1x2048x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x2048x1.size a ≤ S2x16x2048x1.size a
  hwx3_4 : ∀ i : grid3.Coords, EltTy.bits .f32 = 32 ∨ (Rect.block (s := S2x16x2048x1) S1x1x2048x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1x2048x1.size a ≤ S2x16x2048x1.size a
  hwx3_5 : ∀ i : grid3.Coords, EltTy.bits .f32 = 32 ∨ (Rect.block (s := S2x16x2048x1) S1x1x2048x1.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x1x2048x64.size a ≤ S2x16x2048x64.size a
  hwx4_0 : ∀ i : grid4.Coords, EltTy.bits .f32 = 32 ∨ (Rect.block (s := S2x16x2048x64) S1x1x2048x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x1x2048x64.size a ≤ S2x16x2048x64.size a
  hwx4_1 : ∀ i : grid4.Coords, EltTy.bits .f32 = 32 ∨ (Rect.block (s := S2x16x2048x64) S1x1x2048x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1x2048x64.size a ≤ S2x16x2048x64.size a
  hwx4_2 : ∀ i : grid4.Coords, EltTy.bits .f32 = 32 ∨ (Rect.block (s := S2x16x2048x64) S1x1x2048x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1x2048x1.size a ≤ S2x16x2048x1.size a
  hwx4_3 : ∀ i : grid4.Coords, EltTy.bits .f32 = 32 ∨ (Rect.block (s := S2x16x2048x1) S1x1x2048x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x1x2048x1.size a ≤ S2x16x2048x1.size a
  hwx4_4 : ∀ i : grid4.Coords, EltTy.bits .f32 = 32 ∨ (Rect.block (s := S2x16x2048x1) S1x1x2048x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x1.size a ≤ S1x1.size a
  hwx4_7 : ∀ i : grid4.Coords, EltTy.bits .f32 = 32 ∨ (Rect.block (s := S1x1) S1x1.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x1.size a ≤ S1x1.size a
  hwx4_8 : ∀ i : grid4.Coords, EltTy.bits .f32 = 32 ∨ (Rect.block (s := S1x1) S1x1.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S1x1x2048x64.size a ≤ S2x16x2048x64.size a
  hwx4_9 : ∀ i : grid4.Coords, EltTy.bits .f32 = 32 ∨ (Rect.block (s := S2x16x2048x64) S1x1x2048x64.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x1024.size a ≤ S4096x1024.size a
  hwx5_0 : ∀ i : grid5.Coords, EltTy.bits .f32 = 32 ∨ (Rect.block (s := S4096x1024) S512x1024.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1024x1024.size a ≤ S1024x1024.size a
  hwx5_1 : ∀ i : grid5.Coords, EltTy.bits .f32 = 32 ∨ (Rect.block (s := S1024x1024) S1024x1024.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x1024.size a
  hwx5_2 : ∀ i : grid5.Coords, EltTy.bits .f32 = 32 ∨ (Rect.block (s := S1x1024) S1x1024.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S512x1024.size a ≤ S4096x1024.size a
  hwx5_5 : ∀ i : grid5.Coords, EltTy.bits .f32 = 32 ∨ (Rect.block (s := S4096x1024) S512x1024.size (cc5_transform_5 i) (hinb5_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.ofSpec (Memref.whole main_v28) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v30) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S512x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v62) S1x1x2048x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69_0) S1x1x2048x1.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v69_1) S1x1x2048x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v62) S1x1x2048x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S1x1x2048x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v66) S1x1x2048x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v69_0) S1x1x2048x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v69_1) S1x1x2048x1.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v74) S1x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v75) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v76) S1x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v77) S1x1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v78) S1x1x2048x64.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v85) S512x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S1024x1024.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v89) S1x1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v87) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v88) S1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v90) S512x1024.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 295
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S2x2048x1024, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S2x2048x1024, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S2x2048x1024, .f32⟩
  | 19 => ⟨S2x2048x1024, .f32⟩
  | 20 => ⟨S_, .f32⟩
  | 21 => ⟨S_, .f32⟩
  | 22 => ⟨S_, .f32⟩
  | 23 => ⟨S2x2048x1024, .f32⟩
  | 24 => ⟨S2x2048x1024, .f32⟩
  | 25 => ⟨S_, .f32⟩
  | 26 => ⟨S2x2048x1024, .f32⟩
  | 27 => ⟨S2x2048x1024, .f32⟩
  | 28 => ⟨S2x2048x1024, .f32⟩
  | 29 => ⟨S2x2048x1024, .f32⟩
  | 30 => ⟨S2x2048x1024, .f32⟩
  | 31 => ⟨S1024x1024, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S1024x1024, .f32⟩
  | 39 => ⟨S1024x1024, .f32⟩
  | 40 => ⟨S_, .f32⟩
  | 41 => ⟨S_, .f32⟩
  | 42 => ⟨S_, .f32⟩
  | 43 => ⟨S1024x1024, .f32⟩
  | 44 => ⟨S1024x1024, .f32⟩
  | 45 => ⟨S_, .f32⟩
  | 46 => ⟨S1024x1024, .f32⟩
  | 47 => ⟨S1024x1024, .f32⟩
  | 48 => ⟨S1024x1024, .f32⟩
  | 49 => ⟨S1024x1024, .f32⟩
  | 50 => ⟨S1024x1024, .f32⟩
  | 51 => ⟨S2x2048x1024, .f32⟩
  | 52 => ⟨S1x1x1024, .f32⟩
  | 53 => ⟨S2x2048x1024, .f32⟩
  | 54 => ⟨S2x2048x1024, .f32⟩
  | 55 => ⟨S2x2048x1024, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S2x2048x1024, .f32⟩
  | 63 => ⟨S2x2048x1024, .f32⟩
  | 64 => ⟨S_, .f32⟩
  | 65 => ⟨S_, .f32⟩
  | 66 => ⟨S_, .f32⟩
  | 67 => ⟨S2x2048x1024, .f32⟩
  | 68 => ⟨S2x2048x1024, .f32⟩
  | 69 => ⟨S_, .f32⟩
  | 70 => ⟨S2x2048x1024, .f32⟩
  | 71 => ⟨S2x2048x1024, .f32⟩
  | 72 => ⟨S2x2048x1024, .f32⟩
  | 73 => ⟨S2x2048x1024, .f32⟩
  | 74 => ⟨S2x2048x1024, .f32⟩
  | 75 => ⟨S1024x1024, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S1024x1024, .f32⟩
  | 83 => ⟨S1024x1024, .f32⟩
  | 84 => ⟨S_, .f32⟩
  | 85 => ⟨S_, .f32⟩
  | 86 => ⟨S_, .f32⟩
  | 87 => ⟨S1024x1024, .f32⟩
  | 88 => ⟨S1024x1024, .f32⟩
  | 89 => ⟨S_, .f32⟩
  | 90 => ⟨S1024x1024, .f32⟩
  | 91 => ⟨S1024x1024, .f32⟩
  | 92 => ⟨S1024x1024, .f32⟩
  | 93 => ⟨S1024x1024, .f32⟩
  | 94 => ⟨S1024x1024, .f32⟩
  | 95 => ⟨S2x2048x1024, .f32⟩
  | 96 => ⟨S1x1x1024, .f32⟩
  | 97 => ⟨S2x2048x1024, .f32⟩
  | 98 => ⟨S2x2048x1024, .f32⟩
  | 99 => ⟨S2x2048x1024, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S2x2048x1024, .f32⟩
  | 107 => ⟨S2x2048x1024, .f32⟩
  | 108 => ⟨S_, .f32⟩
  | 109 => ⟨S_, .f32⟩
  | 110 => ⟨S_, .f32⟩
  | 111 => ⟨S2x2048x1024, .f32⟩
  | 112 => ⟨S2x2048x1024, .f32⟩
  | 113 => ⟨S_, .f32⟩
  | 114 => ⟨S2x2048x1024, .f32⟩
  | 115 => ⟨S2x2048x1024, .f32⟩
  | 116 => ⟨S2x2048x1024, .f32⟩
  | 117 => ⟨S2x2048x1024, .f32⟩
  | 118 => ⟨S2x2048x1024, .f32⟩
  | 119 => ⟨S1024x1024, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S1024x1024, .f32⟩
  | 127 => ⟨S1024x1024, .f32⟩
  | _ => ⟨S2x2048x1024, .f32⟩

abbrev hbmTy0_1 (i : Nat) : BufTy := match i % 128 with
  | 0 => ⟨S_, .f32⟩
  | 1 => ⟨S_, .f32⟩
  | 2 => ⟨S_, .f32⟩
  | 3 => ⟨S1024x1024, .f32⟩
  | 4 => ⟨S1024x1024, .f32⟩
  | 5 => ⟨S_, .f32⟩
  | 6 => ⟨S1024x1024, .f32⟩
  | 7 => ⟨S1024x1024, .f32⟩
  | 8 => ⟨S1024x1024, .f32⟩
  | 9 => ⟨S1024x1024, .f32⟩
  | 10 => ⟨S1024x1024, .f32⟩
  | 11 => ⟨S2x2048x1024, .f32⟩
  | 12 => ⟨S1x1x1024, .f32⟩
  | 13 => ⟨S2x2048x1024, .f32⟩
  | 14 => ⟨S2x2048x1024, .f32⟩
  | 15 => ⟨S2x2048x16x64, .f32⟩
  | 16 => ⟨S2x16x2048x64, .f32⟩
  | 17 => ⟨S2x2048x16x64, .f32⟩
  | 18 => ⟨S2x16x2048x64, .f32⟩
  | 19 => ⟨S2x2048x16x64, .f32⟩
  | 20 => ⟨S2x16x2048x64, .f32⟩
  | 21 => ⟨S2x16x2048x64, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S2x16x2048x64, .f32⟩
  | 29 => ⟨S2x16x2048x64, .f32⟩
  | 30 => ⟨S_, .f32⟩
  | 31 => ⟨S_, .f32⟩
  | 32 => ⟨S_, .f32⟩
  | 33 => ⟨S2x16x2048x64, .f32⟩
  | 34 => ⟨S2x16x2048x64, .f32⟩
  | 35 => ⟨S_, .f32⟩
  | 36 => ⟨S2x16x2048x64, .f32⟩
  | 37 => ⟨S2x16x2048x64, .f32⟩
  | 38 => ⟨S2x16x2048x64, .f32⟩
  | 39 => ⟨S2x16x2048x64, .f32⟩
  | 40 => ⟨S2x16x2048x64, .f32⟩
  | 41 => ⟨S2x16x2048x64, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S2x16x2048x64, .f32⟩
  | 49 => ⟨S2x16x2048x64, .f32⟩
  | 50 => ⟨S_, .f32⟩
  | 51 => ⟨S_, .f32⟩
  | 52 => ⟨S_, .f32⟩
  | 53 => ⟨S2x16x2048x64, .f32⟩
  | 54 => ⟨S2x16x2048x64, .f32⟩
  | 55 => ⟨S_, .f32⟩
  | 56 => ⟨S2x16x2048x64, .f32⟩
  | 57 => ⟨S2x16x2048x64, .f32⟩
  | 58 => ⟨S2x16x2048x64, .f32⟩
  | 59 => ⟨S2x16x2048x64, .f32⟩
  | 60 => ⟨S2x16x2048x64, .f32⟩
  | 61 => ⟨S2x16x2048x2048, .f32⟩
  | 62 => ⟨S_, .f32⟩
  | 63 => ⟨S_, .f32⟩
  | 64 => ⟨S2x16x2048x2048, .f32⟩
  | 65 => ⟨S2x16x2048x2048, .f32⟩
  | 66 => ⟨S_, .f32⟩
  | 67 => ⟨S2x16x2048, .f32⟩
  | 68 => ⟨S_, .f32⟩
  | 69 => ⟨S2x16x2048, .f32⟩
  | 70 => ⟨S2x16x2048, .f32⟩
  | 71 => ⟨S2x16x2048x1, .f32⟩
  | 72 => ⟨S2x16x2048x2048, .f32⟩
  | 73 => ⟨S2x16x2048x2048, .f32⟩
  | 74 => ⟨S2x16x2048x2048, .f32⟩
  | 75 => ⟨S_, .f32⟩
  | 76 => ⟨S2x16x2048, .f32⟩
  | 77 => ⟨S2x16x2048x1, .f32⟩
  | 78 => ⟨S2x16x2048x2048, .f32⟩
  | 79 => ⟨S2x16x2048x2048, .f32⟩
  | 80 => ⟨S2x16x2048x2048, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S2x16x2048x2048, .f32⟩
  | 88 => ⟨S2x16x2048x2048, .f32⟩
  | 89 => ⟨S_, .f32⟩
  | 90 => ⟨S_, .f32⟩
  | 91 => ⟨S_, .f32⟩
  | 92 => ⟨S2x16x2048x2048, .f32⟩
  | 93 => ⟨S2x16x2048x2048, .f32⟩
  | 94 => ⟨S_, .f32⟩
  | 95 => ⟨S2x16x2048x2048, .f32⟩
  | 96 => ⟨S2x16x2048x2048, .f32⟩
  | 97 => ⟨S2x16x2048x2048, .f32⟩
  | 98 => ⟨S2x16x2048x2048, .f32⟩
  | 99 => ⟨S2x16x2048x2048, .f32⟩
  | 100 => ⟨S2x16x2048x64, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S2x16x2048x64, .f32⟩
  | 108 => ⟨S2x16x2048x64, .f32⟩
  | 109 => ⟨S_, .f32⟩
  | 110 => ⟨S_, .f32⟩
  | 111 => ⟨S_, .f32⟩
  | 112 => ⟨S2x16x2048x64, .f32⟩
  | 113 => ⟨S2x16x2048x64, .f32⟩
  | 114 => ⟨S_, .f32⟩
  | 115 => ⟨S2x16x2048x64, .f32⟩
  | 116 => ⟨S2x16x2048x64, .f32⟩
  | 117 => ⟨S2x16x2048x64, .f32⟩
  | 118 => ⟨S2x16x2048x64, .f32⟩
  | 119 => ⟨S2x16x2048x64, .f32⟩
  | 120 => ⟨S2x16x2048x64, .f32⟩
  | 121 => ⟨S2x2048x16x64, .f32⟩
  | 122 => ⟨S2x2048x1024, .f32⟩
  | 123 => ⟨S2x2048x1024, .f32⟩
  | 124 => ⟨S_, .f32⟩
  | 125 => ⟨S_, .f32⟩
  | 126 => ⟨S_, .f32⟩
  | 127 => ⟨S_, .f32⟩
  | _ => ⟨S2x2048x1024, .f32⟩

abbrev hbmTy0_2 (i : Nat) : BufTy := match i % 128 with
  | 0 => ⟨S_, .f32⟩
  | 1 => ⟨S_, .f32⟩
  | 2 => ⟨S2x2048x1024, .f32⟩
  | 3 => ⟨S2x2048x1024, .f32⟩
  | 4 => ⟨S_, .f32⟩
  | 5 => ⟨S_, .f32⟩
  | 6 => ⟨S_, .f32⟩
  | 7 => ⟨S2x2048x1024, .f32⟩
  | 8 => ⟨S2x2048x1024, .f32⟩
  | 9 => ⟨S_, .f32⟩
  | 10 => ⟨S2x2048x1024, .f32⟩
  | 11 => ⟨S2x2048x1024, .f32⟩
  | 12 => ⟨S2x2048x1024, .f32⟩
  | 13 => ⟨S2x2048x1024, .f32⟩
  | 14 => ⟨S2x2048x1024, .f32⟩
  | 15 => ⟨S1024x1024, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S1024x1024, .f32⟩
  | 23 => ⟨S1024x1024, .f32⟩
  | 24 => ⟨S_, .f32⟩
  | 25 => ⟨S_, .f32⟩
  | 26 => ⟨S_, .f32⟩
  | 27 => ⟨S1024x1024, .f32⟩
  | 28 => ⟨S1024x1024, .f32⟩
  | 29 => ⟨S_, .f32⟩
  | 30 => ⟨S1024x1024, .f32⟩
  | 31 => ⟨S1024x1024, .f32⟩
  | 32 => ⟨S1024x1024, .f32⟩
  | 33 => ⟨S1024x1024, .f32⟩
  | 34 => ⟨S1024x1024, .f32⟩
  | 35 => ⟨S2x2048x1024, .f32⟩
  | 36 => ⟨S1x1x1024, .f32⟩
  | 37 => ⟨S2x2048x1024, .f32⟩
  | 38 => ⟨S2x2048x1024, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_4 : Ref sig .tc := ⟨.hbm, 32, rfl⟩
abbrev main_v11 : Ref sig .tc := ⟨.hbm, 33, rfl⟩
abbrev main_cst_5 : Ref sig .tc := ⟨.hbm, 34, rfl⟩
abbrev main_v12 : Ref sig .tc := ⟨.hbm, 35, rfl⟩
abbrev main_cst_6 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_7 : Ref sig .tc := ⟨.hbm, 40, rfl⟩
abbrev main_cst_8 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_9 : Ref sig .tc := ⟨.hbm, 56, rfl⟩
abbrev main_v25 : Ref sig .tc := ⟨.hbm, 57, rfl⟩
abbrev main_cst_10 : Ref sig .tc := ⟨.hbm, 58, rfl⟩
abbrev main_v26 : Ref sig .tc := ⟨.hbm, 59, rfl⟩
abbrev main_cst_11 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_12 : Ref sig .tc := ⟨.hbm, 64, rfl⟩
abbrev main_cst_13 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_call4_v3 : Ref sig .tc := ⟨.hbm, 69, rfl⟩
abbrev main_call4_v4 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_14 : Ref sig .tc := ⟨.hbm, 76, rfl⟩
abbrev main_v35 : Ref sig .tc := ⟨.hbm, 77, rfl⟩
abbrev main_cst_15 : Ref sig .tc := ⟨.hbm, 78, rfl⟩
abbrev main_v36 : Ref sig .tc := ⟨.hbm, 79, rfl⟩
abbrev main_cst_16 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_cst_17 : Ref sig .tc := ⟨.hbm, 84, rfl⟩
abbrev main_cst_18 : Ref sig .tc := ⟨.hbm, 85, rfl⟩
abbrev main_call6_v0 : Ref sig .tc := ⟨.hbm, 86, rfl⟩
abbrev main_call6_v1 : Ref sig .tc := ⟨.hbm, 87, rfl⟩
abbrev main_call6_v2 : Ref sig .tc := ⟨.hbm, 88, rfl⟩
abbrev main_call6_v3 : Ref sig .tc := ⟨.hbm, 89, rfl⟩
abbrev main_call6_v4 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_cst_19 : Ref sig .tc := ⟨.hbm, 100, rfl⟩
abbrev main_v49 : Ref sig .tc := ⟨.hbm, 101, rfl⟩
abbrev main_cst_20 : Ref sig .tc := ⟨.hbm, 102, rfl⟩
abbrev main_v50 : Ref sig .tc := ⟨.hbm, 103, rfl⟩
abbrev main_cst_21 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_cst_22 : Ref sig .tc := ⟨.hbm, 108, rfl⟩
abbrev main_cst_23 : Ref sig .tc := ⟨.hbm, 109, rfl⟩
abbrev main_call8_v0 : Ref sig .tc := ⟨.hbm, 110, rfl⟩
abbrev main_call8_v1 : Ref sig .tc := ⟨.hbm, 111, rfl⟩
abbrev main_call8_v2 : Ref sig .tc := ⟨.hbm, 112, rfl⟩
abbrev main_call8_v3 : Ref sig .tc := ⟨.hbm, 113, rfl⟩
abbrev main_call8_v4 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_cst_24 : Ref sig .tc := ⟨.hbm, 120, rfl⟩
abbrev main_v59 : Ref sig .tc := ⟨.hbm, 121, rfl⟩
abbrev main_cst_25 : Ref sig .tc := ⟨.hbm, 122, rfl⟩
abbrev main_v60 : Ref sig .tc := ⟨.hbm, 123, rfl⟩
abbrev main_cst_26 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_27 : Ref sig .tc := ⟨.hbm, 128, rfl⟩
abbrev main_cst_28 : Ref sig .tc := ⟨.hbm, 129, rfl⟩
abbrev main_call10_v0 : Ref sig .tc := ⟨.hbm, 130, rfl⟩
abbrev main_call10_v1 : Ref sig .tc := ⟨.hbm, 131, rfl⟩
abbrev main_call10_v2 : Ref sig .tc := ⟨.hbm, 132, rfl⟩
abbrev main_call10_v3 : Ref sig .tc := ⟨.hbm, 133, rfl⟩
abbrev main_call10_v4 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_cst_29 : Ref sig .tc := ⟨.hbm, 150, rfl⟩
abbrev main_v79 : Ref sig .tc := ⟨.hbm, 151, rfl⟩
abbrev main_cst_30 : Ref sig .tc := ⟨.hbm, 152, rfl⟩
abbrev main_v80 : Ref sig .tc := ⟨.hbm, 153, rfl⟩
abbrev main_cst_31 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_cst_32 : Ref sig .tc := ⟨.hbm, 158, rfl⟩
abbrev main_cst_33 : Ref sig .tc := ⟨.hbm, 159, rfl⟩
abbrev main_call12_v0 : Ref sig .tc := ⟨.hbm, 160, rfl⟩
abbrev main_call12_v1 : Ref sig .tc := ⟨.hbm, 161, rfl⟩
abbrev main_call12_v2 : Ref sig .tc := ⟨.hbm, 162, rfl⟩
abbrev main_call12_v3 : Ref sig .tc := ⟨.hbm, 163, rfl⟩
abbrev main_call12_v4 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_cst_34 : Ref sig .tc := ⟨.hbm, 170, rfl⟩
abbrev main_v89 : Ref sig .tc := ⟨.hbm, 171, rfl⟩
abbrev main_cst_35 : Ref sig .tc := ⟨.hbm, 172, rfl⟩
abbrev main_v90 : Ref sig .tc := ⟨.hbm, 173, rfl⟩
abbrev main_cst_36 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_cst_37 : Ref sig .tc := ⟨.hbm, 178, rfl⟩
abbrev main_cst_38 : Ref sig .tc := ⟨.hbm, 179, rfl⟩
abbrev main_call14_v0 : Ref sig .tc := ⟨.hbm, 180, rfl⟩
abbrev main_call14_v1 : Ref sig .tc := ⟨.hbm, 181, rfl⟩
abbrev main_call14_v2 : Ref sig .tc := ⟨.hbm, 182, rfl⟩
abbrev main_call14_v3 : Ref sig .tc := ⟨.hbm, 183, rfl⟩
abbrev main_call14_v4 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_cst_39 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_cst_40 : Ref sig .tc := ⟨.hbm, 194, rfl⟩
abbrev main_v102 : Ref sig .tc := ⟨.hbm, 195, rfl⟩
abbrev main_cst_41 : Ref sig .tc := ⟨.hbm, 196, rfl⟩
abbrev main_v103 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_cst_42 : Ref sig .tc := ⟨.hbm, 203, rfl⟩
abbrev main_v109 : Ref sig .tc := ⟨.hbm, 204, rfl⟩
abbrev main_v110 : Ref sig .tc := ⟨.hbm, 205, rfl⟩
abbrev main_v111 : Ref sig .tc := ⟨.hbm, 206, rfl⟩
abbrev main_v112 : Ref sig .tc := ⟨.hbm, 207, rfl⟩
abbrev main_v113 : Ref sig .tc := ⟨.hbm, 208, rfl⟩
abbrev main_cst_43 : Ref sig .tc := ⟨.hbm, 209, rfl⟩
abbrev main_v114 : Ref sig .tc := ⟨.hbm, 210, rfl⟩
abbrev main_cst_44 : Ref sig .tc := ⟨.hbm, 211, rfl⟩
abbrev main_v115 : Ref sig .tc := ⟨.hbm, 212, rfl⟩
abbrev main_cst_45 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_cst_46 : Ref sig .tc := ⟨.hbm, 217, rfl⟩
abbrev main_cst_47 : Ref sig .tc := ⟨.hbm, 218, rfl⟩
abbrev main_call16_v0 : Ref sig .tc := ⟨.hbm, 219, rfl⟩
abbrev main_call16_v1 : Ref sig .tc := ⟨.hbm, 220, rfl⟩
abbrev main_call16_v2 : Ref sig .tc := ⟨.hbm, 221, rfl⟩
abbrev main_call16_v3 : Ref sig .tc := ⟨.hbm, 222, rfl⟩
abbrev main_call16_v4 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_cst_48 : Ref sig .tc := ⟨.hbm, 229, rfl⟩
abbrev main_v124 : Ref sig .tc := ⟨.hbm, 230, rfl⟩
abbrev main_cst_49 : Ref sig .tc := ⟨.hbm, 231, rfl⟩
abbrev main_v125 : Ref sig .tc := ⟨.hbm, 232, rfl⟩
abbrev main_cst_50 : Ref sig .tc := ⟨.hbm, 233, rfl⟩
abbrev main_v126 : Ref sig .tc := ⟨.hbm, 234, rfl⟩
abbrev main_v127 : Ref sig .tc := ⟨.hbm, 235, rfl⟩
abbrev main_v128 : Ref sig .tc := ⟨.hbm, 236, rfl⟩
abbrev main_cst_51 : Ref sig .tc := ⟨.hbm, 237, rfl⟩
abbrev main_cst_52 : Ref sig .tc := ⟨.hbm, 238, rfl⟩
abbrev main_call18_v0 : Ref sig .tc := ⟨.hbm, 239, rfl⟩
abbrev main_call18_v1 : Ref sig .tc := ⟨.hbm, 240, rfl⟩
abbrev main_call18_v2 : Ref sig .tc := ⟨.hbm, 241, rfl⟩
abbrev main_call18_v3 : Ref sig .tc := ⟨.hbm, 242, rfl⟩
abbrev main_call18_v4 : Ref sig .tc := ⟨.hbm, 243, rfl⟩
abbrev main_v129 : Ref sig .tc := ⟨.hbm, 244, rfl⟩
abbrev main_v130 : Ref sig .tc := ⟨.hbm, 245, rfl⟩
abbrev main_v131 : Ref sig .tc := ⟨.hbm, 246, rfl⟩
abbrev main_v132 : Ref sig .tc := ⟨.hbm, 247, rfl⟩
abbrev main_v133 : Ref sig .tc := ⟨.hbm, 248, rfl⟩
abbrev main_v134 : Ref sig .tc := ⟨.hbm, 249, rfl⟩
abbrev main_v135 : Ref sig .tc := ⟨.hbm, 250, rfl⟩
abbrev main_v136 : Ref sig .tc := ⟨.hbm, 251, rfl⟩
abbrev main_cst_53 : Ref sig .tc := ⟨.hbm, 252, rfl⟩
abbrev main_v137 : Ref sig .tc := ⟨.hbm, 253, rfl⟩
abbrev main_cst_54 : Ref sig .tc := ⟨.hbm, 254, rfl⟩
abbrev main_v138 : Ref sig .tc := ⟨.hbm, 255, rfl⟩
abbrev main_cst_55 : Ref sig .tc := ⟨.hbm, 256, rfl⟩
abbrev main_v139 : Ref sig .tc := ⟨.hbm, 257, rfl⟩
abbrev main_v140 : Ref sig .tc := ⟨.hbm, 258, rfl⟩
abbrev main_v141 : Ref sig .tc := ⟨.hbm, 259, rfl⟩
abbrev main_cst_56 : Ref sig .tc := ⟨.hbm, 260, rfl⟩
abbrev main_cst_57 : Ref sig .tc := ⟨.hbm, 261, rfl⟩
abbrev main_call20_v0 : Ref sig .tc := ⟨.hbm, 262, rfl⟩
abbrev main_call20_v1 : Ref sig .tc := ⟨.hbm, 263, rfl⟩
abbrev main_call20_v2 : Ref sig .tc := ⟨.hbm, 264, rfl⟩
abbrev main_call20_v3 : Ref sig .tc := ⟨.hbm, 265, rfl⟩
abbrev main_call20_v4 : Ref sig .tc := ⟨.hbm, 266, rfl⟩
abbrev main_v142 : Ref sig .tc := ⟨.hbm, 267, rfl⟩
abbrev main_v143 : Ref sig .tc := ⟨.hbm, 268, rfl⟩
abbrev main_v144 : Ref sig .tc := ⟨.hbm, 269, rfl⟩
abbrev main_v145 : Ref sig .tc := ⟨.hbm, 270, rfl⟩
abbrev main_v146 : Ref sig .tc := ⟨.hbm, 271, rfl⟩
abbrev main_cst_58 : Ref sig .tc := ⟨.hbm, 272, rfl⟩
abbrev main_v147 : Ref sig .tc := ⟨.hbm, 273, rfl⟩
abbrev main_cst_59 : Ref sig .tc := ⟨.hbm, 274, rfl⟩
abbrev main_v148 : Ref sig .tc := ⟨.hbm, 275, rfl⟩
abbrev main_cst_60 : Ref sig .tc := ⟨.hbm, 276, rfl⟩
abbrev main_v149 : Ref sig .tc := ⟨.hbm, 277, rfl⟩
abbrev main_v150 : Ref sig .tc := ⟨.hbm, 278, rfl⟩
abbrev main_v151 : Ref sig .tc := ⟨.hbm, 279, rfl⟩
abbrev main_cst_61 : Ref sig .tc := ⟨.hbm, 280, rfl⟩
abbrev main_cst_62 : Ref sig .tc := ⟨.hbm, 281, rfl⟩
abbrev main_call22_v0 : Ref sig .tc := ⟨.hbm, 282, rfl⟩
abbrev main_call22_v1 : Ref sig .tc := ⟨.hbm, 283, rfl⟩
abbrev main_call22_v2 : Ref sig .tc := ⟨.hbm, 284, rfl⟩
abbrev main_call22_v3 : Ref sig .tc := ⟨.hbm, 285, rfl⟩
abbrev main_call22_v4 : Ref sig .tc := ⟨.hbm, 286, rfl⟩
abbrev main_v152 : Ref sig .tc := ⟨.hbm, 287, rfl⟩
abbrev main_v153 : Ref sig .tc := ⟨.hbm, 288, rfl⟩
abbrev main_v154 : Ref sig .tc := ⟨.hbm, 289, rfl⟩
abbrev main_v155 : Ref sig .tc := ⟨.hbm, 290, rfl⟩
abbrev main_v156 : Ref sig .tc := ⟨.hbm, 291, rfl⟩
abbrev main_v157 : Ref sig .tc := ⟨.hbm, 292, rfl⟩
abbrev main_v158 : Ref sig .tc := ⟨.hbm, 293, rfl⟩
abbrev main_v159 : Ref sig .tc := ⟨.hbm, 294, rfl⟩

abbrev nD : Nat := 1
abbrev τ : Topo := Topo.v7x

variable {F : FTy → Type} [FloatOps F]

class Facts₀ : Prop where
  reducesTo_S2x2048x1024_S_d0_1_2 : S2x2048x1024.ReducesTo [0, 1, 2] S_
  h_S_ : 0 < S_.numel
  bcast_S_S2x2048x1024 : S_.BroadcastsInDim S2x2048x1024 (![] : Fin 0 → Fin S2x2048x1024.rank)
  reducesTo_S1024x1024_S_d0_1 : S1024x1024.ReducesTo [0, 1] S_
  bcast_S_S1024x1024 : S_.BroadcastsInDim S1024x1024 (![] : Fin 0 → Fin S1024x1024.rank)
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  reducesTo_S2x16x2048x64_S_d0_1_2_3 : S2x16x2048x64.ReducesTo [0, 1, 2, 3] S_
  bcast_S_S2x16x2048x64 : S_.BroadcastsInDim S2x16x2048x64 (![] : Fin 0 → Fin S2x16x2048x64.rank)
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  reducesTo_S2x16x2048x2048_S_d0_1_2_3 : S2x16x2048x2048.ReducesTo [0, 1, 2, 3] S_
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KernelRun.lean ====
/- The idealized kernel's run with its result named.

   @main is six grid regions among stretches of host operations. The buffer contents at each boundary are a fold
   from the launch memory: a host stretch applies its operations, a region replaces its arrays by what its
   write-backs leave. When the run ends every unscoped buffer holds the last boundary's contents; read at the
   result buffer this names the result, and read at the eleven argument buffers it gives the launch contents. -/
import proofs.«148380_j86835648790565_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair run of @main from the launch memory `m` (zero counters) terminates without a fault; in the final
    state the result buffer holds the last boundary's contents `W13 m ρ c` at that buffer, and each of the eleven
    argument buffers holds what it held at launch. -/
theorem run_value : θ_run defs (onTc (τ := τ) (main (F := F))) ⟨m, fun _ => 0, ρ⟩ (fun r => ∀ c : Dev nD,
      r.2.mem ((c.tc : Thread nD τ).loc main_v91) = W13 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v91 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Cert.KernelIdeal.RunValue

end
-- ==== Proof.KernelGlueBase.lean ====
/- The shapes that recur in the host operations between the regions of the idealized kernel: the quantisation scale
   of a whole tensor, the scale of the attention weights, and names for the launch contents of an argument buffer
   and for the arrays the regions leave. -/
import proofs.«148380_j86835648790565_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.ShloMosaic.StableHlo (after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)

variable {F : FTy → Type} [FloatOps F]

/-- The quantisation scale of a whole tensor, as a rank-zero tensor: the largest magnitude (a maximum fold from -∞),
    divided by 127, plus 1e-12. -/
def scaleOf {s : Shape} {axes : List (Fin s.rank)} (x : FVec F s .f32) (h : s.ReducesTo axes S_) : FVec F S_ .f32 :=
  addf (Host.divf (Host.reduce FloatOps.maximumf (Host.absf x) (constant S_ .f32 0xFF800000#32) h Gen.h_S_)
    (constant S_ .f32 0x42FE0000#32)) (constant S_ .f32 0x2B8CBCCC#32)

/-- The scale of the attention weights from the rows' sums of exponentials `l`: one over the least row sum (a minimum
    fold from +∞), divided by 127, plus 1e-12. -/
def attnScaleOf (l : FVec F S2x16x2048x1 .f32) : FVec F S_ .f32 :=
  addf (Host.divf (Host.divf (constant S_ .f32 0x3F800000#32)
      (Host.reduce FloatOps.minimumf l (constant S_ .f32 0x7F800000#32) Gen.reducesTo_S2x16x2048x1_S_d0_1_2_3 Gen.h_S_))
    (constant S_ .f32 0x42FE0000#32)) (constant S_ .f32 0x2B8CBCCC#32)

/-- Heads split: `[2, 2048, 1024]` read as `[2, 2048, 16, 64]` and the head axis moved before the sequence axis. -/
def splitHeads (x : FVec F S2x2048x1024 .f32) : FVec F S2x16x2048x64 .f32 :=
  transpose S2x16x2048x64 [0, 2, 1, 3] (shapeCast S2x2048x16x64 x Gen.shapeCasts_S2x2048x1024_S2x2048x16x64)
    Gen.transposes_S2x2048x16x64_S2x16x2048x64_0_2_1_3

/-- Heads merged back: the head axis moved behind the sequence axis and `[2, 2048, 16, 64]` read as `[2, 2048, 1024]`. -/
def mergeHeads (x : FVec F S2x16x2048x64 .f32) : FVec F S2x2048x1024 .f32 :=
  shapeCast S2x2048x1024 (transpose S2x2048x16x64 [0, 2, 1, 3] x Gen.transposes_S2x16x2048x64_S2x2048x16x64_0_2_1_3)
    Gen.shapeCasts_S2x2048x16x64_S2x2048x1024

variable (m : (ℓ : Loc nD τ sig) → Buf (Elt F) ℓ) (ρ : Dev nD → PrngReg)

/-- An argument buffer's contents at launch. -/
abbrev arg (c : Dev nD) (b : Ref sig .tc) : Buf (Elt F) ((c : Thread nD τ).loc b) := m ((c : Thread nD τ).loc b)

/-- The arrays the regions leave: the three projections, the rows' maxima and sums of exponentials, the attention
    output, and the output projection. -/
abbrev out0 (c : Dev nD) : FVec F S4096x1024 .f32 := (dat0 (V1 m ρ) c).arrAt 5 cfg0.N
abbrev out1 (c : Dev nD) : FVec F S4096x1024 .f32 := (dat1 (V3 m ρ) c).arrAt 5 cfg1.N
abbrev out2 (c : Dev nD) : FVec F S4096x1024 .f32 := (dat2 (V5 m ρ) c).arrAt 5 cfg2.N
abbrev out3m (c : Dev nD) : FVec F S2x16x2048x1 .f32 := (dat3 (V7 m ρ) c).arrAt 4 cfg3.N
abbrev out3l (c : Dev nD) : FVec F S2x16x2048x1 .f32 := (dat3 (V7 m ρ) c).arrAt 5 cfg3.N
abbrev out4 (c : Dev nD) : FVec F S2x16x2048x64 .f32 := (dat4 (V9 m ρ) c).arrAt 9 cfg4.N
abbrev out5 (c : Dev nD) : FVec F S4096x1024 .f32 := (dat5 (V11 m ρ) c).arrAt 5 cfg5.N

end Cert.KernelIdeal.RunValue

end
-- ==== Proof.KernelGlueS0a.lean ====
/- The host operations between the regions of the idealized kernel, read one stretch at a time: the first stretch: the seven quantisation scales, the three inputs with their leading axes merged, the query weight transposed, the query bias as a row. -/
import proofs.«148380_j86835648790565_1_alg».proof.Proof.KernelGlueBase

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.ShloMosaic.StableHlo (after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)

variable {F : FTy → Type} [FloatOps F]

/-! ## Reading the first stretch: the seven quantisation scales, the three inputs with their leading axes merged, the query weight transposed, the query bias as a row

    Each lemma reads one buffer after the stretch, run from ANY contents `V`, as the operations' term of `V` at the
    buffers the stretch reads; a buffer the stretch does not write keeps its contents. -/

theorem host0_v28 (V : Valuation τ sig (Elt F)) :
    (StableHlo.after hostOps0 V (Proc.devRef .tc main_v28) : FVec F S4096x1024 .f32)
      = shapeCast S4096x1024 (V (Proc.devRef .tc main_arg0) : FVec F S2x2048x1024 .f32) Gen.shapeCasts_S2x2048x1024_S4096x1024 := by
  after_results; try rfl

theorem host0_v31 (V : Valuation τ sig (Elt F)) :
    (StableHlo.after hostOps0 V (Proc.devRef .tc main_v31) : FVec F S1024x1024 .f32)
      = transpose S1024x1024 [1, 0] (V (Proc.devRef .tc main_arg3) : FVec F S1024x1024 .f32) Gen.transposes_S1024x1024_S1024x1024_1_0 := by
  after_results; try rfl

theorem host0_v34 (V : Valuation τ sig (Elt F)) :
    (StableHlo.after hostOps0 V (Proc.devRef .tc main_v34) : FVec F S1x1024 .f32)
      = shapeCast S1x1024 (V (Proc.devRef .tc main_arg4) : FVec F S1024 .f32) Gen.shapeCasts_S1024_S1x1024 := by
  after_results; try rfl

theorem host0_v32 (V : Valuation τ sig (Elt F)) :
    (StableHlo.after hostOps0 V (Proc.devRef .tc main_v32) : FVec F S1x1 .f32)
      = shapeCast S1x1 (scaleOf (V (Proc.devRef .tc main_arg0) : FVec F S2x2048x1024 .f32) Gen.reducesTo_S2x2048x1024_S_d0_1_2) Gen.shapeCasts_S_S1x1 := by
  after_results; try rfl

theorem host0_v33 (V : Valuation τ sig (Elt F)) :
    (StableHlo.after hostOps0 V (Proc.devRef .tc main_v33) : FVec F S1x1 .f32)
      = shapeCast S1x1 (scaleOf (V (Proc.devRef .tc main_arg3) : FVec F S1024x1024 .f32) Gen.reducesTo_S1024x1024_S_d0_1) Gen.shapeCasts_S_S1x1 := by
  after_results; try rfl

end Cert.KernelIdeal.RunValue

end
-- ==== Proof.KernelGlueS0b.lean ====
/- The host operations between the regions of the idealized kernel, read one stretch at a time: the first stretch: the seven quantisation scales, the three inputs with their leading axes merged, the query weight transposed, the query bias as a row. -/
import proofs.«148380_j86835648790565_1_alg».proof.Proof.KernelGlueBase

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.ShloMosaic.StableHlo (after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)

variable {F : FTy → Type} [FloatOps F]

/-! ## Reading the first stretch: the seven quantisation scales, the three inputs with their leading axes merged, the query weight transposed, the query bias as a row

    Each lemma reads one buffer after the stretch, run from ANY contents `V`, as the operations' term of `V` at the
    buffers the stretch reads; a buffer the stretch does not write keeps its contents. -/

theorem host0_v29 (V : Valuation τ sig (Elt F)) :
    (StableHlo.after hostOps0 V (Proc.devRef .tc main_v29) : FVec F S4096x1024 .f32)
      = shapeCast S4096x1024 (V (Proc.devRef .tc main_arg1) : FVec F S2x2048x1024 .f32) Gen.shapeCasts_S2x2048x1024_S4096x1024 := by
  after_results; try rfl

theorem host0_v30 (V : Valuation τ sig (Elt F)) :
    (StableHlo.after hostOps0 V (Proc.devRef .tc main_v30) : FVec F S4096x1024 .f32)
      = shapeCast S4096x1024 (V (Proc.devRef .tc main_arg2) : FVec F S2x2048x1024 .f32) Gen.shapeCasts_S2x2048x1024_S4096x1024 := by
  after_results; try rfl

theorem host0_v11 (V : Valuation τ sig (Elt F)) :
    (StableHlo.after hostOps0 V (Proc.devRef .tc main_v11) : FVec F S_ .f32)
      = scaleOf (V (Proc.devRef .tc main_arg1) : FVec F S2x2048x1024 .f32) Gen.reducesTo_S2x2048x1024_S_d0_1_2 := by
  after_results; try rfl

theorem host0_v15 (V : Valuation τ sig (Elt F)) :
    (StableHlo.after hostOps0 V (Proc.devRef .tc main_v15) : FVec F S_ .f32)
      = scaleOf (V (Proc.devRef .tc main_arg5) : FVec F S1024x1024 .f32) Gen.reducesTo_S1024x1024_S_d0_1 := by
  after_results; try rfl

theorem host0_v19 (V : Valuation τ sig (Elt F)) :
    (StableHlo.after hostOps0 V (Proc.devRef .tc main_v19) : FVec F S_ .f32)
      = scaleOf (V (Proc.devRef .tc main_arg2) : FVec F S2x2048x1024 .f32) Gen.reducesTo_S2x2048x1024_S_d0_1_2 := by
  after_results; try rfl

theorem host0_v23 (V : Valuation τ sig (Elt F)) :
    (StableHlo.after hostOps0 V (Proc.devRef .tc main_v23) : FVec F S_ .f32)
      = scaleOf (V (Proc.devRef .tc main_arg7) : FVec F S1024x1024 .f32) Gen.reducesTo_S1024x1024_S_d0_1 := by
  after_results; try rfl

theorem host0_v27 (V : Valuation τ sig (Elt F)) :
    (StableHlo.after hostOps0 V (Proc.devRef .tc main_v27) : FVec F S_ .f32)
      = scaleOf (V (Proc.devRef .tc main_arg9) : FVec F S1024x1024 .f32) Gen.reducesTo_S1024x1024_S_d0_1 := by
  after_results; try rfl

end Cert.KernelIdeal.RunValue

end
-- ==== Proof.KernelGlueS0c.lean ====
/- The host operations between the regions of the idealized kernel, read one stretch at a time: the first stretch: the seven quantisation scales, the three inputs with their leading axes merged, the query weight transposed, the query bias as a row. -/
import proofs.«148380_j86835648790565_1_alg».proof.Proof.KernelGlueBase

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.ShloMosaic.StableHlo (after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)

variable {F : FTy → Type} [FloatOps F]

/-! ## Reading the first stretch: the seven quantisation scales, the three inputs with their leading axes merged, the query weight transposed, the query bias as a row

    Each lemma reads one buffer after the stretch, run from ANY contents `V`, as the operations' term of `V` at the
    buffers the stretch reads; a buffer the stretch does not write keeps its contents. -/

theorem host0_keep_arg5 (V : Valuation τ sig (Elt F)) :
    StableHlo.after hostOps0 V (Proc.devRef .tc main_arg5) = V (Proc.devRef .tc main_arg5) := by
  after_results; try rfl

theorem host0_keep_arg6 (V : Valuation τ sig (Elt F)) :
    StableHlo.after hostOps0 V (Proc.devRef .tc main_arg6) = V (Proc.devRef .tc main_arg6) := by
  after_results; try rfl

theorem host0_keep_arg7 (V : Valuation τ sig (Elt F)) :
    StableHlo.after hostOps0 V (Proc.devRef .tc main_arg7) = V (Proc.devRef .tc main_arg7) := by
  after_results; try rfl

theorem host0_keep_arg8 (V : Valuation τ sig (Elt F)) :
    StableHlo.after hostOps0 V (Proc.devRef .tc main_arg8) = V (Proc.devRef .tc main_arg8) := by
  after_results; try rfl

theorem host0_keep_arg9 (V : Valuation τ sig (Elt F)) :
    StableHlo.after hostOps0 V (Proc.devRef .tc main_arg9) = V (Proc.devRef .tc main_arg9) := by
  after_results; try rfl

theorem host0_keep_arg10 (V : Valuation τ sig (Elt F)) :
    StableHlo.after hostOps0 V (Proc.devRef .tc main_arg10) = V (Proc.devRef .tc main_arg10) := by
  after_results; try rfl

end Cert.KernelIdeal.RunValue

end
-- ==== Proof.KernelGlueS1.lean ====
/- The host operations between the regions of the idealized kernel, read one stretch at a time: the second stretch: the query projection restored to three axes, the key weight transposed, the key scales and bias re-shaped. -/
import proofs.«148380_j86835648790565_1_alg».proof.Proof.KernelGlueBase

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.ShloMosaic.StableHlo (after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)

variable {F : FTy → Type} [FloatOps F]

/-! ## Reading the second stretch: the query projection restored to three axes, the key weight transposed, the key scales and bias re-shaped

    Each lemma reads one buffer after the stretch, run from ANY contents `V`, as the operations' term of `V` at the
    buffers the stretch reads; a buffer the stretch does not write keeps its contents. -/

theorem host1_v36 (V : Valuation τ sig (Elt F)) :
    (StableHlo.after hostOps1 V (Proc.devRef .tc main_v36) : FVec F S2x2048x1024 .f32)
      = shapeCast S2x2048x1024 (V (Proc.devRef .tc main_v35) : FVec F S4096x1024 .f32) Gen.shapeCasts_S4096x1024_S2x2048x1024 := by
  after_results; try rfl

theorem host1_v37 (V : Valuation τ sig (Elt F)) :
    (StableHlo.after hostOps1 V (Proc.devRef .tc main_v37) : FVec F S1024x1024 .f32)
      = transpose S1024x1024 [1, 0] (V (Proc.devRef .tc main_arg5) : FVec F S1024x1024 .f32) Gen.transposes_S1024x1024_S1024x1024_1_0 := by
  after_results; try rfl

theorem host1_v38 (V : Valuation τ sig (Elt F)) :
    (StableHlo.after hostOps1 V (Proc.devRef .tc main_v38) : FVec F S1x1 .f32)
      = shapeCast S1x1 (V (Proc.devRef .tc main_v11) : FVec F S_ .f32) Gen.shapeCasts_S_S1x1 := by
  after_results; try rfl

theorem host1_v39 (V : Valuation τ sig (Elt F)) :
    (StableHlo.after hostOps1 V (Proc.devRef .tc main_v39) : FVec F S1x1 .f32)
      = shapeCast S1x1 (V (Proc.devRef .tc main_v15) : FVec F S_ .f32) Gen.shapeCasts_S_S1x1 := by
  after_results; try rfl

theorem host1_v40 (V : Valuation τ sig (Elt F)) :
    (StableHlo.after hostOps1 V (Proc.devRef .tc main_v40) : FVec F S1x1024 .f32)
      = shapeCast S1x1024 (V (Proc.devRef .tc main_arg6) : FVec F S1024 .f32) Gen.shapeCasts_S1024_S1x1024 := by
  after_results; try rfl

theorem host1_keep_v29 (V : Valuation τ sig (Elt F)) :
    StableHlo.after hostOps1 V (Proc.devRef .tc main_v29) = V (Proc.devRef .tc main_v29) := by
  after_results; try rfl

theorem host1_keep_v30 (V : Valuation τ sig (Elt F)) :
    StableHlo.after hostOps1 V (Proc.devRef .tc main_v30) = V (Proc.devRef .tc main_v30) := by
  after_results; try rfl

theorem host1_keep_v19 (V : Valuation τ sig (Elt F)) :
    StableHlo.after hostOps1 V (Proc.devRef .tc main_v19) = V (Proc.devRef .tc main_v19) := by
  after_results; try rfl

theorem host1_keep_v23 (V : Valuation τ sig (Elt F)) :
    StableHlo.after hostOps1 V (Proc.devRef .tc main_v23) = V (Proc.devRef .tc main_v23) := by
  after_results; try rfl

theorem host1_keep_v27 (V : Valuation τ sig (Elt F)) :
    StableHlo.after hostOps1 V (Proc.devRef .tc main_v27) = V (Proc.devRef .tc main_v27) := by
  after_results; try rfl

theorem host1_keep_arg7 (V : Valuation τ sig (Elt F)) :
    StableHlo.after hostOps1 V (Proc.devRef .tc main_arg7) = V (Proc.devRef .tc main_arg7) := by
  after_results; try rfl

theorem host1_keep_arg8 (V : Valuation τ sig (Elt F)) :
    StableHlo.after hostOps1 V (Proc.devRef .tc main_arg8) = V (Proc.devRef .tc main_arg8) := by
  after_results; try rfl

theorem host1_keep_arg9 (V : Valuation τ sig (Elt F)) :
    StableHlo.after hostOps1 V (Proc.devRef .tc main_arg9) = V (Proc.devRef .tc main_arg9) := by
  after_results; try rfl

theorem host1_keep_arg10 (V : Valuation τ sig (Elt F)) :
    StableHlo.after hostOps1 V (Proc.devRef .tc main_arg10) = V (Proc.devRef .tc main_arg10) := by
  after_results; try rfl

end Cert.KernelIdeal.RunValue

end
-- ==== Proof.KernelGlueS2.lean ====
/- The host operations between the regions of the idealized kernel, read one stretch at a time: the third stretch: the key projection restored to three axes, the value weight transposed, the value scales and bias re-shaped. -/
import proofs.«148380_j86835648790565_1_alg».proof.Proof.KernelGlueBase

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.ShloMosaic.StableHlo (after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)

variable {F : FTy → Type} [FloatOps F]

/-! ## Reading the third stretch: the key projection restored to three axes, the value weight transposed, the value scales and bias re-shaped

    Each lemma reads one buffer after the stretch, run from ANY contents `V`, as the operations' term of `V` at the
    buffers the stretch reads; a buffer the stretch does not write keeps its contents. -/

theorem host2_v42 (V : Valuation τ sig (Elt F)) :
    (StableHlo.after hostOps2 V (Proc.devRef .tc main_v42) : FVec F S2x2048x1024 .f32)
      = shapeCast S2x2048x1024 (V (Proc.devRef .tc main_v41) : FVec F S4096x1024 .f32) Gen.shapeCasts_S4096x1024_S2x2048x1024 := by
  after_results; try rfl

theorem host2_v43 (V : Valuation τ sig (Elt F)) :
    (StableHlo.after hostOps2 V (Proc.devRef .tc main_v43) : FVec F S1024x1024 .f32)
      = transpose S1024x1024 [1, 0] (V (Proc.devRef .tc main_arg7) : FVec F S1024x1024 .f32) Gen.transposes_S1024x1024_S1024x1024_1_0 := by
  after_results; try rfl

theorem host2_v44 (V : Valuation τ sig (Elt F)) :
    (StableHlo.after hostOps2 V (Proc.devRef .tc main_v44) : FVec F S1x1 .f32)
      = shapeCast S1x1 (V (Proc.devRef .tc main_v19) : FVec F S_ .f32) Gen.shapeCasts_S_S1x1 := by
  after_results; try rfl

theorem host2_v45 (V : Valuation τ sig (Elt F)) :
    (StableHlo.after hostOps2 V (Proc.devRef .tc main_v45) : FVec F S1x1 .f32)
      = shapeCast S1x1 (V (Proc.devRef .tc main_v23) : FVec F S_ .f32) Gen.shapeCasts_S_S1x1 := by
  after_results; try rfl

theorem host2_v46 (V : Valuation τ sig (Elt F)) :
    (StableHlo.after hostOps2 V (Proc.devRef .tc main_v46) : FVec F S1x1024 .f32)
      = shapeCast S1x1024 (V (Proc.devRef .tc main_arg8) : FVec F S1024 .f32) Gen.shapeCasts_S1024_S1x1024 := by
  after_results; try rfl

theorem host2_keep_v30 (V : Valuation τ sig (Elt F)) :
    StableHlo.after hostOps2 V (Proc.devRef .tc main_v30) = V (Proc.devRef .tc main_v30) := by
  after_results; try rfl

theorem host2_keep_v36 (V : Valuation τ sig (Elt F)) :
    StableHlo.after hostOps2 V (Proc.devRef .tc main_v36) = V (Proc.devRef .tc main_v36) := by
  after_results; try rfl

theorem host2_keep_v27 (V : Valuation τ sig (Elt F)) :
    StableHlo.after hostOps2 V (Proc.devRef .tc main_v27) = V (Proc.devRef .tc main_v27) := by
  after_results; try rfl

theorem host2_keep_arg9 (V : Valuation τ sig (Elt F)) :
    StableHlo.after hostOps2 V (Proc.devRef .tc main_arg9) = V (Proc.devRef .tc main_arg9) := by
  after_results; try rfl

theorem host2_keep_arg10 (V : Valuation τ sig (Elt F)) :
    StableHlo.after hostOps2 V (Proc.devRef .tc main_arg10) = V (Proc.devRef .tc main_arg10) := by
  after_results; try rfl

end Cert.KernelIdeal.RunValue

end
-- ==== Proof.KernelGlueFoldA.lean ====
/- What each region of the idealized kernel finds in its input arrays (the three projections).

   The buffer contents at the boundaries of @main's segments are a fold from the launch memory: a host stretch
   applies its operations, a region replaces its arrays by what its write-backs leave and keeps every other buffer.
   `Wk_b` reads boundary `k` at buffer `b` back through that fold, down to the launch contents of the argument
   buffers (`arg`) and to the arrays the earlier regions leave (`out0` … `out5`); an input array of a region is
   never written by it. `foundP_W` is that reading at window `W` of region `P`'s entry. -/
import proofs.«148380_j86835648790565_1_alg».proof.Proof.KernelGlueS0a
import proofs.«148380_j86835648790565_1_alg».proof.Proof.KernelGlueS0b
import proofs.«148380_j86835648790565_1_alg».proof.Proof.KernelGlueS0c
import proofs.«148380_j86835648790565_1_alg».proof.Proof.KernelGlueS1
import proofs.«148380_j86835648790565_1_alg».proof.Proof.KernelGlueS2

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.ShloMosaic.StableHlo (after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)

variable {F : FTy → Type} [FloatOps F]

variable (m : (ℓ : Loc nD τ sig) → Buf (Elt F) ℓ) (ρ : Dev nD → PrngReg)

/-! ## The boundaries up to region 2's exit -/

theorem W0_arg0 (c : Dev nD) :
    (W0 m ρ c (Proc.devRef .tc main_arg0) : FVec F S2x2048x1024 .f32)
      = arg m c main_arg0 := rfl

theorem W1_v28 (c : Dev nD) :
    (W1 m ρ c (Proc.devRef .tc main_v28) : FVec F S4096x1024 .f32)
      = shapeCast S4096x1024 (arg m c main_arg0) Gen.shapeCasts_S2x2048x1024_S4096x1024 := by
  show StableHlo.after hostOps0 (W0 m ρ c) (Proc.devRef .tc main_v28) = _
  rw [host0_v28, W0_arg0]

theorem W0_arg3 (c : Dev nD) :
    (W0 m ρ c (Proc.devRef .tc main_arg3) : FVec F S1024x1024 .f32)
      = arg m c main_arg3 := rfl

theorem W1_v31 (c : Dev nD) :
    (W1 m ρ c (Proc.devRef .tc main_v31) : FVec F S1024x1024 .f32)
      = transpose S1024x1024 [1, 0] (arg m c main_arg3) Gen.transposes_S1024x1024_S1024x1024_1_0 := by
  show StableHlo.after hostOps0 (W0 m ρ c) (Proc.devRef .tc main_v31) = _
  rw [host0_v31, W0_arg3]

theorem W0_arg4 (c : Dev nD) :
    (W0 m ρ c (Proc.devRef .tc main_arg4) : FVec F S1024 .f32)
      = arg m c main_arg4 := rfl

theorem W1_v34 (c : Dev nD) :
    (W1 m ρ c (Proc.devRef .tc main_v34) : FVec F S1x1024 .f32)
      = shapeCast S1x1024 (arg m c main_arg4) Gen.shapeCasts_S1024_S1x1024 := by
  show StableHlo.after hostOps0 (W0 m ρ c) (Proc.devRef .tc main_v34) = _
  rw [host0_v34, W0_arg4]

theorem W1_v32 (c : Dev nD) :
    (W1 m ρ c (Proc.devRef .tc main_v32) : FVec F S1x1 .f32)
      = shapeCast S1x1 (scaleOf (arg m c main_arg0) Gen.reducesTo_S2x2048x1024_S_d0_1_2) Gen.shapeCasts_S_S1x1 := by
  show StableHlo.after hostOps0 (W0 m ρ c) (Proc.devRef .tc main_v32) = _
  rw [host0_v32, W0_arg0]

theorem W1_v33 (c : Dev nD) :
    (W1 m ρ c (Proc.devRef .tc main_v33) : FVec F S1x1 .f32)
      = shapeCast S1x1 (scaleOf (arg m c main_arg3) Gen.reducesTo_S1024x1024_S_d0_1) Gen.shapeCasts_S_S1x1 := by
  show StableHlo.after hostOps0 (W0 m ρ c) (Proc.devRef .tc main_v33) = _
  rw [host0_v33, W0_arg3]

theorem W0_arg1 (c : Dev nD) :
    (W0 m ρ c (Proc.devRef .tc main_arg1) : FVec F S2x2048x1024 .f32)
      = arg m c main_arg1 := rfl

theorem W1_v29 (c : Dev nD) :
    (W1 m ρ c (Proc.devRef .tc main_v29) : FVec F S4096x1024 .f32)
      = shapeCast S4096x1024 (arg m c main_arg1) Gen.shapeCasts_S2x2048x1024_S4096x1024 := by
  show StableHlo.after hostOps0 (W0 m ρ c) (Proc.devRef .tc main_v29) = _
  rw [host0_v29, W0_arg1]

theorem W2_v29 (c : Dev nD) :
    (W2 m ρ c (Proc.devRef .tc main_v29) : FVec F S4096x1024 .f32)
      = shapeCast S4096x1024 (arg m c main_arg1) Gen.shapeCasts_S2x2048x1024_S4096x1024 := by
  rw [W2_of_ne m ρ c main_v29 (by decide)]; exact W1_v29 m ρ c

theorem W3_v29 (c : Dev nD) :
    (W3 m ρ c (Proc.devRef .tc main_v29) : FVec F S4096x1024 .f32)
      = shapeCast S4096x1024 (arg m c main_arg1) Gen.shapeCasts_S2x2048x1024_S4096x1024 := by
  show StableHlo.after hostOps1 (W2 m ρ c) (Proc.devRef .tc main_v29) = _
  rw [host1_keep_v29, W2_v29]

theorem W0_arg5 (c : Dev nD) :
    (W0 m ρ c (Proc.devRef .tc main_arg5) : FVec F S1024x1024 .f32)
      = arg m c main_arg5 := rfl

theorem W1_arg5 (c : Dev nD) :
    (W1 m ρ c (Proc.devRef .tc main_arg5) : FVec F S1024x1024 .f32)
      = arg m c main_arg5 := by
  show StableHlo.after hostOps0 (W0 m ρ c) (Proc.devRef .tc main_arg5) = _
  rw [host0_keep_arg5, W0_arg5]

theorem W2_arg5 (c : Dev nD) :
    (W2 m ρ c (Proc.devRef .tc main_arg5) : FVec F S1024x1024 .f32)
      = arg m c main_arg5 := by
  rw [W2_of_ne m ρ c main_arg5 (by decide)]; exact W1_arg5 m ρ c

theorem W3_v37 (c : Dev nD) :
    (W3 m ρ c (Proc.devRef .tc main_v37) : FVec F S1024x1024 .f32)
      = transpose S1024x1024 [1, 0] (arg m c main_arg5) Gen.transposes_S1024x1024_S1024x1024_1_0 := by
  show StableHlo.after hostOps1 (W2 m ρ c) (Proc.devRef .tc main_v37) = _
  rw [host1_v37, W2_arg5]

theorem W0_arg6 (c : Dev nD) :
    (W0 m ρ c (Proc.devRef .tc main_arg6) : FVec F S1024 .f32)
      = arg m c main_arg6 := rfl

theorem W1_arg6 (c : Dev nD) :
    (W1 m ρ c (Proc.devRef .tc main_arg6) : FVec F S1024 .f32)
      = arg m c main_arg6 := by
  show StableHlo.after hostOps0 (W0 m ρ c) (Proc.devRef .tc main_arg6) = _
  rw [host0_keep_arg6, W0_arg6]

theorem W2_arg6 (c : Dev nD) :
    (W2 m ρ c (Proc.devRef .tc main_arg6) : FVec F S1024 .f32)
      = arg m c main_arg6 := by
  rw [W2_of_ne m ρ c main_arg6 (by decide)]; exact W1_arg6 m ρ c

theorem W3_v40 (c : Dev nD) :
    (W3 m ρ c (Proc.devRef .tc main_v40) : FVec F S1x1024 .f32)
      = shapeCast S1x1024 (arg m c main_arg6) Gen.shapeCasts_S1024_S1x1024 := by
  show StableHlo.after hostOps1 (W2 m ρ c) (Proc.devRef .tc main_v40) = _
  rw [host1_v40, W2_arg6]

theorem W1_v11 (c : Dev nD) :
    (W1 m ρ c (Proc.devRef .tc main_v11) : FVec F S_ .f32)
      = scaleOf (arg m c main_arg1) Gen.reducesTo_S2x2048x1024_S_d0_1_2 := by
  show StableHlo.after hostOps0 (W0 m ρ c) (Proc.devRef .tc main_v11) = _
  rw [host0_v11, W0_arg1]

theorem W2_v11 (c : Dev nD) :
    (W2 m ρ c (Proc.devRef .tc main_v11) : FVec F S_ .f32)
      = scaleOf (arg m c main_arg1) Gen.reducesTo_S2x2048x1024_S_d0_1_2 := by
  rw [W2_of_ne m ρ c main_v11 (by decide)]; exact W1_v11 m ρ c

theorem W3_v38 (c : Dev nD) :
    (W3 m ρ c (Proc.devRef .tc main_v38) : FVec F S1x1 .f32)
      = shapeCast S1x1 (scaleOf (arg m c main_arg1) Gen.reducesTo_S2x2048x1024_S_d0_1_2) Gen.shapeCasts_S_S1x1 := by
  show StableHlo.after hostOps1 (W2 m ρ c) (Proc.devRef .tc main_v38) = _
  rw [host1_v38, W2_v11]

theorem W1_v15 (c : Dev nD) :
    (W1 m ρ c (Proc.devRef .tc main_v15) : FVec F S_ .f32)
      = scaleOf (arg m c main_arg5) Gen.reducesTo_S1024x1024_S_d0_1 := by
  show StableHlo.after hostOps0 (W0 m ρ c) (Proc.devRef .tc main_v15) = _
  rw [host0_v15, W0_arg5]

theorem W2_v15 (c : Dev nD) :
    (W2 m ρ c (Proc.devRef .tc main_v15) : FVec F S_ .f32)
      = scaleOf (arg m c main_arg5) Gen.reducesTo_S1024x1024_S_d0_1 := by
  rw [W2_of_ne m ρ c main_v15 (by decide)]; exact W1_v15 m ρ c

theorem W3_v39 (c : Dev nD) :
    (W3 m ρ c (Proc.devRef .tc main_v39) : FVec F S1x1 .f32)
      = shapeCast S1x1 (scaleOf (arg m c main_arg5) Gen.reducesTo_S1024x1024_S_d0_1) Gen.shapeCasts_S_S1x1 := by
  show StableHlo.after hostOps1 (W2 m ρ c) (Proc.devRef .tc main_v39) = _
  rw [host1_v39, W2_v15]

theorem W0_arg2 (c : Dev nD) :
    (W0 m ρ c (Proc.devRef .tc main_arg2) : FVec F S2x2048x1024 .f32)
      = arg m c main_arg2 := rfl

theorem W1_v30 (c : Dev nD) :
    (W1 m ρ c (Proc.devRef .tc main_v30) : FVec F S4096x1024 .f32)
      = shapeCast S4096x1024 (arg m c main_arg2) Gen.shapeCasts_S2x2048x1024_S4096x1024 := by
  show StableHlo.after hostOps0 (W0 m ρ c) (Proc.devRef .tc main_v30) = _
  rw [host0_v30, W0_arg2]

theorem W2_v30 (c : Dev nD) :
    (W2 m ρ c (Proc.devRef .tc main_v30) : FVec F S4096x1024 .f32)
      = shapeCast S4096x1024 (arg m c main_arg2) Gen.shapeCasts_S2x2048x1024_S4096x1024 := by
  rw [W2_of_ne m ρ c main_v30 (by decide)]; exact W1_v30 m ρ c

theorem W3_v30 (c : Dev nD) :
    (W3 m ρ c (Proc.devRef .tc main_v30) : FVec F S4096x1024 .f32)
      = shapeCast S4096x1024 (arg m c main_arg2) Gen.shapeCasts_S2x2048x1024_S4096x1024 := by
  show StableHlo.after hostOps1 (W2 m ρ c) (Proc.devRef .tc main_v30) = _
  rw [host1_keep_v30, W2_v30]

theorem W4_v30 (c : Dev nD) :
    (W4 m ρ c (Proc.devRef .tc main_v30) : FVec F S4096x1024 .f32)
      = shapeCast S4096x1024 (arg m c main_arg2) Gen.shapeCasts_S2x2048x1024_S4096x1024 := by
  rw [W4_of_ne m ρ c main_v30 (by decide)]; exact W3_v30 m ρ c

theorem W5_v30 (c : Dev nD) :
    (W5 m ρ c (Proc.devRef .tc main_v30) : FVec F S4096x1024 .f32)
      = shapeCast S4096x1024 (arg m c main_arg2) Gen.shapeCasts_S2x2048x1024_S4096x1024 := by
  show StableHlo.after hostOps2 (W4 m ρ c) (Proc.devRef .tc main_v30) = _
  rw [host2_keep_v30, W4_v30]

theorem W0_arg7 (c : Dev nD) :
    (W0 m ρ c (Proc.devRef .tc main_arg7) : FVec F S1024x1024 .f32)
      = arg m c main_arg7 := rfl

theorem W1_arg7 (c : Dev nD) :
    (W1 m ρ c (Proc.devRef .tc main_arg7) : FVec F S1024x1024 .f32)
      = arg m c main_arg7 := by
  show StableHlo.after hostOps0 (W0 m ρ c) (Proc.devRef .tc main_arg7) = _
  rw [host0_keep_arg7, W0_arg7]

theorem W2_arg7 (c : Dev nD) :
    (W2 m ρ c (Proc.devRef .tc main_arg7) : FVec F S1024x1024 .f32)
      = arg m c main_arg7 := by
  rw [W2_of_ne m ρ c main_arg7 (by decide)]; exact W1_arg7 m ρ c

theorem W3_arg7 (c : Dev nD) :
    (W3 m ρ c (Proc.devRef .tc main_arg7) : FVec F S1024x1024 .f32)
      = arg m c main_arg7 := by
  show StableHlo.after hostOps1 (W2 m ρ c) (Proc.devRef .tc main_arg7) = _
  rw [host1_keep_arg7, W2_arg7]

theorem W4_arg7 (c : Dev nD) :
    (W4 m ρ c (Proc.devRef .tc main_arg7) : FVec F S1024x1024 .f32)
      = arg m c main_arg7 := by
  rw [W4_of_ne m ρ c main_arg7 (by decide)]; exact W3_arg7 m ρ c

theorem W5_v43 (c : Dev nD) :
    (W5 m ρ c (Proc.devRef .tc main_v43) : FVec F S1024x1024 .f32)
      = transpose S1024x1024 [1, 0] (arg m c main_arg7) Gen.transposes_S1024x1024_S1024x1024_1_0 := by
  show StableHlo.after hostOps2 (W4 m ρ c) (Proc.devRef .tc main_v43) = _
  rw [host2_v43, W4_arg7]

theorem W0_arg8 (c : Dev nD) :
    (W0 m ρ c (Proc.devRef .tc main_arg8) : FVec F S1024 .f32)
      = arg m c main_arg8 := rfl

theorem W1_arg8 (c : Dev nD) :
    (W1 m ρ c (Proc.devRef .tc main_arg8) : FVec F S1024 .f32)
      = arg m c main_arg8 := by
  show StableHlo.after hostOps0 (W0 m ρ c) (Proc.devRef .tc main_arg8) = _
  rw [host0_keep_arg8, W0_arg8]

theorem W2_arg8 (c : Dev nD) :
    (W2 m ρ c (Proc.devRef .tc main_arg8) : FVec F S1024 .f32)
      = arg m c main_arg8 := by
  rw [W2_of_ne m ρ c main_arg8 (by decide)]; exact W1_arg8 m ρ c

theorem W3_arg8 (c : Dev nD) :
    (W3 m ρ c (Proc.devRef .tc main_arg8) : FVec F S1024 .f32)
      = arg m c main_arg8 := by
  show StableHlo.after hostOps1 (W2 m ρ c) (Proc.devRef .tc main_arg8) = _
  rw [host1_keep_arg8, W2_arg8]

theorem W4_arg8 (c : Dev nD) :
    (W4 m ρ c (Proc.devRef .tc main_arg8) : FVec F S1024 .f32)
      = arg m c main_arg8 := by
  rw [W4_of_ne m ρ c main_arg8 (by decide)]; exact W3_arg8 m ρ c

theorem W5_v46 (c : Dev nD) :
    (W5 m ρ c (Proc.devRef .tc main_v46) : FVec F S1x1024 .f32)
      = shapeCast S1x1024 (arg m c main_arg8) Gen.shapeCasts_S1024_S1x1024 := by
  show StableHlo.after hostOps2 (W4 m ρ c) (Proc.devRef .tc main_v46) = _
  rw [host2_v46, W4_arg8]

theorem W1_v19 (c : Dev nD) :
    (W1 m ρ c (Proc.devRef .tc main_v19) : FVec F S_ .f32)
      = scaleOf (arg m c main_arg2) Gen.reducesTo_S2x2048x1024_S_d0_1_2 := by
  show StableHlo.after hostOps0 (W0 m ρ c) (Proc.devRef .tc main_v19) = _
  rw [host0_v19, W0_arg2]

theorem W2_v19 (c : Dev nD) :
    (W2 m ρ c (Proc.devRef .tc main_v19) : FVec F S_ .f32)
      = scaleOf (arg m c main_arg2) Gen.reducesTo_S2x2048x1024_S_d0_1_2 := by
  rw [W2_of_ne m ρ c main_v19 (by decide)]; exact W1_v19 m ρ c

theorem W3_v19 (c : Dev nD) :
    (W3 m ρ c (Proc.devRef .tc main_v19) : FVec F S_ .f32)
      = scaleOf (arg m c main_arg2) Gen.reducesTo_S2x2048x1024_S_d0_1_2 := by
  show StableHlo.after hostOps1 (W2 m ρ c) (Proc.devRef .tc main_v19) = _
  rw [host1_keep_v19, W2_v19]

theorem W4_v19 (c : Dev nD) :
    (W4 m ρ c (Proc.devRef .tc main_v19) : FVec F S_ .f32)
      = scaleOf (arg m c main_arg2) Gen.reducesTo_S2x2048x1024_S_d0_1_2 := by
  rw [W4_of_ne m ρ c main_v19 (by decide)]; exact W3_v19 m ρ c

theorem W5_v44 (c : Dev nD) :
    (W5 m ρ c (Proc.devRef .tc main_v44) : FVec F S1x1 .f32)
      = shapeCast S1x1 (scaleOf (arg m c main_arg2) Gen.reducesTo_S2x2048x1024_S_d0_1_2) Gen.shapeCasts_S_S1x1 := by
  show StableHlo.after hostOps2 (W4 m ρ c) (Proc.devRef .tc main_v44) = _
  rw [host2_v44, W4_v19]

theorem W1_v23 (c : Dev nD) :
    (W1 m ρ c (Proc.devRef .tc main_v23) : FVec F S_ .f32)
      = scaleOf (arg m c main_arg7) Gen.reducesTo_S1024x1024_S_d0_1 := by
  show StableHlo.after hostOps0 (W0 m ρ c) (Proc.devRef .tc main_v23) = _
  rw [host0_v23, W0_arg7]

theorem W2_v23 (c : Dev nD) :
    (W2 m ρ c (Proc.devRef .tc main_v23) : FVec F S_ .f32)
      = scaleOf (arg m c main_arg7) Gen.reducesTo_S1024x1024_S_d0_1 := by
  rw [W2_of_ne m ρ c main_v23 (by decide)]; exact W1_v23 m ρ c

theorem W3_v23 (c : Dev nD) :
    (W3 m ρ c (Proc.devRef .tc main_v23) : FVec F S_ .f32)
      = scaleOf (arg m c main_arg7) Gen.reducesTo_S1024x1024_S_d0_1 := by
  show StableHlo.after hostOps1 (W2 m ρ c) (Proc.devRef .tc main_v23) = _
  rw [host1_keep_v23, W2_v23]

theorem W4_v23 (c : Dev nD) :
    (W4 m ρ c (Proc.devRef .tc main_v23) : FVec F S_ .f32)
      = scaleOf (arg m c main_arg7) Gen.reducesTo_S1024x1024_S_d0_1 := by
  rw [W4_of_ne m ρ c main_v23 (by decide)]; exact W3_v23 m ρ c

theorem W5_v45 (c : Dev nD) :
    (W5 m ρ c (Proc.devRef .tc main_v45) : FVec F S1x1 .f32)
      = shapeCast S1x1 (scaleOf (arg m c main_arg7) Gen.reducesTo_S1024x1024_S_d0_1) Gen.shapeCasts_S_S1x1 := by
  show StableHlo.after hostOps2 (W4 m ρ c) (Proc.devRef .tc main_v45) = _
  rw [host2_v45, W4_v23]

theorem W2_v35 (c : Dev nD) :
    (W2 m ρ c (Proc.devRef .tc main_v35) : FVec F S4096x1024 .f32)
      = out0 m ρ c := W2_arr m ρ c 5

theorem W3_v36 (c : Dev nD) :
    (W3 m ρ c (Proc.devRef .tc main_v36) : FVec F S2x2048x1024 .f32)
      = shapeCast S2x2048x1024 (out0 m ρ c) Gen.shapeCasts_S4096x1024_S2x2048x1024 := by
  show StableHlo.after hostOps1 (W2 m ρ c) (Proc.devRef .tc main_v36) = _
  rw [host1_v36, W2_v35]

theorem W4_v36 (c : Dev nD) :
    (W4 m ρ c (Proc.devRef .tc main_v36) : FVec F S2x2048x1024 .f32)
      = shapeCast S2x2048x1024 (out0 m ρ c) Gen.shapeCasts_S4096x1024_S2x2048x1024 := by
  rw [W4_of_ne m ρ c main_v36 (by decide)]; exact W3_v36 m ρ c

theorem W5_v36 (c : Dev nD) :
    (W5 m ρ c (Proc.devRef .tc main_v36) : FVec F S2x2048x1024 .f32)
      = shapeCast S2x2048x1024 (out0 m ρ c) Gen.shapeCasts_S4096x1024_S2x2048x1024 := by
  show StableHlo.after hostOps2 (W4 m ρ c) (Proc.devRef .tc main_v36) = _
  rw [host2_keep_v36, W4_v36]

theorem W6_v36 (c : Dev nD) :
    (W6 m ρ c (Proc.devRef .tc main_v36) : FVec F S2x2048x1024 .f32)
      = shapeCast S2x2048x1024 (out0 m ρ c) Gen.shapeCasts_S4096x1024_S2x2048x1024 := by
  rw [W6_of_ne m ρ c main_v36 (by decide)]; exact W5_v36 m ρ c

theorem W4_v41 (c : Dev nD) :
    (W4 m ρ c (Proc.devRef .tc main_v41) : FVec F S4096x1024 .f32)
      = out1 m ρ c := W4_arr m ρ c 5

theorem W5_v42 (c : Dev nD) :
    (W5 m ρ c (Proc.devRef .tc main_v42) : FVec F S2x2048x1024 .f32)
      = shapeCast S2x2048x1024 (out1 m ρ c) Gen.shapeCasts_S4096x1024_S2x2048x1024 := by
  show StableHlo.after hostOps2 (W4 m ρ c) (Proc.devRef .tc main_v42) = _
  rw [host2_v42, W4_v41]

theorem W6_v42 (c : Dev nD) :
    (W6 m ρ c (Proc.devRef .tc main_v42) : FVec F S2x2048x1024 .f32)
      = shapeCast S2x2048x1024 (out1 m ρ c) Gen.shapeCasts_S4096x1024_S2x2048x1024 := by
  rw [W6_of_ne m ρ c main_v42 (by decide)]; exact W5_v42 m ρ c

theorem W6_v47 (c : Dev nD) :
    (W6 m ρ c (Proc.devRef .tc main_v47) : FVec F S4096x1024 .f32)
      = out2 m ρ c := W6_arr m ρ c 5

theorem W0_arg9 (c : Dev nD) :
    (W0 m ρ c (Proc.devRef .tc main_arg9) : FVec F S1024x1024 .f32)
      = arg m c main_arg9 := rfl

theorem W1_arg9 (c : Dev nD) :
    (W1 m ρ c (Proc.devRef .tc main_arg9) : FVec F S1024x1024 .f32)
      = arg m c main_arg9 := by
  show StableHlo.after hostOps0 (W0 m ρ c) (Proc.devRef .tc main_arg9) = _
  rw [host0_keep_arg9, W0_arg9]

theorem W2_arg9 (c : Dev nD) :
    (W2 m ρ c (Proc.devRef .tc main_arg9) : FVec F S1024x1024 .f32)
      = arg m c main_arg9 := by
  rw [W2_of_ne m ρ c main_arg9 (by decide)]; exact W1_arg9 m ρ c

theorem W3_arg9 (c : Dev nD) :
    (W3 m ρ c (Proc.devRef .tc main_arg9) : FVec F S1024x1024 .f32)
      = arg m c main_arg9 := by
  show StableHlo.after hostOps1 (W2 m ρ c) (Proc.devRef .tc main_arg9) = _
  rw [host1_keep_arg9, W2_arg9]

theorem W4_arg9 (c : Dev nD) :
    (W4 m ρ c (Proc.devRef .tc main_arg9) : FVec F S1024x1024 .f32)
      = arg m c main_arg9 := by
  rw [W4_of_ne m ρ c main_arg9 (by decide)]; exact W3_arg9 m ρ c

theorem W5_arg9 (c : Dev nD) :
    (W5 m ρ c (Proc.devRef .tc main_arg9) : FVec F S1024x1024 .f32)
      = arg m c main_arg9 := by
  show StableHlo.after hostOps2 (W4 m ρ c) (Proc.devRef .tc main_arg9) = _
  rw [host2_keep_arg9, W4_arg9]

theorem W6_arg9 (c : Dev nD) :
    (W6 m ρ c (Proc.devRef .tc main_arg9) : FVec F S1024x1024 .f32)
      = arg m c main_arg9 := by
  rw [W6_of_ne m ρ c main_arg9 (by decide)]; exact W5_arg9 m ρ c

theorem W0_arg10 (c : Dev nD) :
    (W0 m ρ c (Proc.devRef .tc main_arg10) : FVec F S1024 .f32)
      = arg m c main_arg10 := rfl

theorem W1_arg10 (c : Dev nD) :
    (W1 m ρ c (Proc.devRef .tc main_arg10) : FVec F S1024 .f32)
      = arg m c main_arg10 := by
  show StableHlo.after hostOps0 (W0 m ρ c) (Proc.devRef .tc main_arg10) = _
  rw [host0_keep_arg10, W0_arg10]

theorem W2_arg10 (c : Dev nD) :
    (W2 m ρ c (Proc.devRef .tc main_arg10) : FVec F S1024 .f32)
      = arg m c main_arg10 := by
  rw [W2_of_ne m ρ c main_arg10 (by decide)]; exact W1_arg10 m ρ c

theorem W3_arg10 (c : Dev nD) :
    (W3 m ρ c (Proc.devRef .tc main_arg10) : FVec F S1024 .f32)
      = arg m c main_arg10 := by
  show StableHlo.after hostOps1 (W2 m ρ c) (Proc.devRef .tc main_arg10) = _
  rw [host1_keep_arg10, W2_arg10]

theorem W4_arg10 (c : Dev nD) :
    (W4 m ρ c (Proc.devRef .tc main_arg10) : FVec F S1024 .f32)
      = arg m c main_arg10 := by
  rw [W4_of_ne m ρ c main_arg10 (by decide)]; exact W3_arg10 m ρ c

theorem W5_arg10 (c : Dev nD) :
    (W5 m ρ c (Proc.devRef .tc main_arg10) : FVec F S1024 .f32)
      = arg m c main_arg10 := by
  show StableHlo.after hostOps2 (W4 m ρ c) (Proc.devRef .tc main_arg10) = _
  rw [host2_keep_arg10, W4_arg10]

theorem W6_arg10 (c : Dev nD) :
    (W6 m ρ c (Proc.devRef .tc main_arg10) : FVec F S1024 .f32)
      = arg m c main_arg10 := by
  rw [W6_of_ne m ρ c main_arg10 (by decide)]; exact W5_arg10 m ρ c

theorem W1_v27 (c : Dev nD) :
    (W1 m ρ c (Proc.devRef .tc main_v27) : FVec F S_ .f32)
      = scaleOf (arg m c main_arg9) Gen.reducesTo_S1024x1024_S_d0_1 := by
  show StableHlo.after hostOps0 (W0 m ρ c) (Proc.devRef .tc main_v27) = _
  rw [host0_v27, W0_arg9]

theorem W2_v27 (c : Dev nD) :
    (W2 m ρ c (Proc.devRef .tc main_v27) : FVec F S_ .f32)
      = scaleOf (arg m c main_arg9) Gen.reducesTo_S1024x1024_S_d0_1 := by
  rw [W2_of_ne m ρ c main_v27 (by decide)]; exact W1_v27 m ρ c

theorem W3_v27 (c : Dev nD) :
    (W3 m ρ c (Proc.devRef .tc main_v27) : FVec F S_ .f32)
      = scaleOf (arg m c main_arg9) Gen.reducesTo_S1024x1024_S_d0_1 := by
  show StableHlo.after hostOps1 (W2 m ρ c) (Proc.devRef .tc main_v27) = _
  rw [host1_keep_v27, W2_v27]

theorem W4_v27 (c : Dev nD) :
    (W4 m ρ c (Proc.devRef .tc main_v27) : FVec F S_ .f32)
      = scaleOf (arg m c main_arg9) Gen.reducesTo_S1024x1024_S_d0_1 := by
  rw [W4_of_ne m ρ c main_v27 (by decide)]; exact W3_v27 m ρ c

theorem W5_v27 (c : Dev nD) :
    (W5 m ρ c (Proc.devRef .tc main_v27) : FVec F S_ .f32)
      = scaleOf (arg m c main_arg9) Gen.reducesTo_S1024x1024_S_d0_1 := by
  show StableHlo.after hostOps2 (W4 m ρ c) (Proc.devRef .tc main_v27) = _
  rw [host2_keep_v27, W4_v27]

theorem W6_v27 (c : Dev nD) :
    (W6 m ρ c (Proc.devRef .tc main_v27) : FVec F S_ .f32)
      = scaleOf (arg m c main_arg9) Gen.reducesTo_S1024x1024_S_d0_1 := by
  rw [W6_of_ne m ρ c main_v27 (by decide)]; exact W5_v27 m ρ c

/-! ## What regions 0, 1, 2 find -/

/-- Region 0, window 0: the query input with its leading axes merged. -/
theorem found0_0 (c : Dev nD) :
    (V1 m ρ c (Pipeline.arrRef spec0 0) : FVec F S4096x1024 .f32)
      = shapeCast S4096x1024 (arg m c main_arg0) Gen.shapeCasts_S2x2048x1024_S4096x1024 :=
  W1_v28 m ρ c

/-- Region 0, window 1: the query weight transposed. -/
theorem found0_1 (c : Dev nD) :
    (V1 m ρ c (Pipeline.arrRef spec0 1) : FVec F S1024x1024 .f32)
      = transpose S1024x1024 [1, 0] (arg m c main_arg3) Gen.transposes_S1024x1024_S1024x1024_1_0 :=
  W1_v31 m ρ c

/-- Region 0, window 2: the query bias as a row. -/
theorem found0_2 (c : Dev nD) :
    (V1 m ρ c (Pipeline.arrRef spec0 2) : FVec F S1x1024 .f32)
      = shapeCast S1x1024 (arg m c main_arg4) Gen.shapeCasts_S1024_S1x1024 :=
  W1_v34 m ρ c

/-- Region 0, window 3: the scale of the query input. -/
theorem found0_3 (c : Dev nD) :
    (V1 m ρ c (Pipeline.arrRef spec0 3) : FVec F S1x1 .f32)
      = shapeCast S1x1 (scaleOf (arg m c main_arg0) Gen.reducesTo_S2x2048x1024_S_d0_1_2) Gen.shapeCasts_S_S1x1 :=
  W1_v32 m ρ c

/-- Region 0, window 4: the scale of the query weight. -/
theorem found0_4 (c : Dev nD) :
    (V1 m ρ c (Pipeline.arrRef spec0 4) : FVec F S1x1 .f32)
      = shapeCast S1x1 (scaleOf (arg m c main_arg3) Gen.reducesTo_S1024x1024_S_d0_1) Gen.shapeCasts_S_S1x1 :=
  W1_v33 m ρ c

/-- Region 1, window 0: the key input with its leading axes merged. -/
theorem found1_0 (c : Dev nD) :
    (V3 m ρ c (Pipeline.arrRef spec1 0) : FVec F S4096x1024 .f32)
      = shapeCast S4096x1024 (arg m c main_arg1) Gen.shapeCasts_S2x2048x1024_S4096x1024 :=
  W3_v29 m ρ c

/-- Region 1, window 1: the key weight transposed. -/
theorem found1_1 (c : Dev nD) :
    (V3 m ρ c (Pipeline.arrRef spec1 1) : FVec F S1024x1024 .f32)
      = transpose S1024x1024 [1, 0] (arg m c main_arg5) Gen.transposes_S1024x1024_S1024x1024_1_0 :=
  W3_v37 m ρ c

/-- Region 1, window 2: the key bias as a row. -/
theorem found1_2 (c : Dev nD) :
    (V3 m ρ c (Pipeline.arrRef spec1 2) : FVec F S1x1024 .f32)
      = shapeCast S1x1024 (arg m c main_arg6) Gen.shapeCasts_S1024_S1x1024 :=
  W3_v40 m ρ c

/-- Region 1, window 3: the scale of the key input. -/
theorem found1_3 (c : Dev nD) :
    (V3 m ρ c (Pipeline.arrRef spec1 3) : FVec F S1x1 .f32)
      = shapeCast S1x1 (scaleOf (arg m c main_arg1) Gen.reducesTo_S2x2048x1024_S_d0_1_2) Gen.shapeCasts_S_S1x1 :=
  W3_v38 m ρ c

/-- Region 1, window 4: the scale of the key weight. -/
theorem found1_4 (c : Dev nD) :
    (V3 m ρ c (Pipeline.arrRef spec1 4) : FVec F S1x1 .f32)
      = shapeCast S1x1 (scaleOf (arg m c main_arg5) Gen.reducesTo_S1024x1024_S_d0_1) Gen.shapeCasts_S_S1x1 :=
  W3_v39 m ρ c

/-- Region 2, window 0: the value input with its leading axes merged. -/
theorem found2_0 (c : Dev nD) :
    (V5 m ρ c (Pipeline.arrRef spec2 0) : FVec F S4096x1024 .f32)
      = shapeCast S4096x1024 (arg m c main_arg2) Gen.shapeCasts_S2x2048x1024_S4096x1024 :=
  W5_v30 m ρ c

/-- Region 2, window 1: the value weight transposed. -/
theorem found2_1 (c : Dev nD) :
    (V5 m ρ c (Pipeline.arrRef spec2 1) : FVec F S1024x1024 .f32)
      = transpose S1024x1024 [1, 0] (arg m c main_arg7) Gen.transposes_S1024x1024_S1024x1024_1_0 :=
  W5_v43 m ρ c

/-- Region 2, window 2: the value bias as a row. -/
theorem found2_2 (c : Dev nD) :
    (V5 m ρ c (Pipeline.arrRef spec2 2) : FVec F S1x1024 .f32)
      = shapeCast S1x1024 (arg m c main_arg8) Gen.shapeCasts_S1024_S1x1024 :=
  W5_v46 m ρ c

/-- Region 2, window 3: the scale of the value input. -/
theorem found2_3 (c : Dev nD) :
    (V5 m ρ c (Pipeline.arrRef spec2 3) : FVec F S1x1 .f32)
      = shapeCast S1x1 (scaleOf (arg m c main_arg2) Gen.reducesTo_S2x2048x1024_S_d0_1_2) Gen.shapeCasts_S_S1x1 :=
  W5_v44 m ρ c

/-- Region 2, window 4: the scale of the value weight. -/
theorem found2_4 (c : Dev nD) :
    (V5 m ρ c (Pipeline.arrRef spec2 4) : FVec F S1x1 .f32)
      = shapeCast S1x1 (scaleOf (arg m c main_arg7) Gen.reducesTo_S1024x1024_S_d0_1) Gen.shapeCasts_S_S1x1 :=
  W5_v45 m ρ c

end Cert.KernelIdeal.RunValue

end
-- ==== Proof.KernelGlueS3.lean ====
/- The host operations between the regions of the idealized kernel, read one stretch at a time: the fourth stretch: the value projection restored to three axes, the scales of the three projections, and the three projections split into heads. -/
import proofs.«148380_j86835648790565_1_alg».proof.Proof.KernelGlueBase

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.ShloMosaic.StableHlo (after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)

variable {F : FTy → Type} [FloatOps F]

/-! ## Reading the fourth stretch: the value projection restored to three axes, the scales of the three projections, and the three projections split into heads

    Each lemma reads one buffer after the stretch, run from ANY contents `V`, as the operations' term of `V` at the
    buffers the stretch reads; a buffer the stretch does not write keeps its contents. -/

theorem host3_v48 (V : Valuation τ sig (Elt F)) :
    (StableHlo.after hostOps3 V (Proc.devRef .tc main_v48) : FVec F S2x2048x1024 .f32)
      = shapeCast S2x2048x1024 (V (Proc.devRef .tc main_v47) : FVec F S4096x1024 .f32) Gen.shapeCasts_S4096x1024_S2x2048x1024 := by
  after_results; try rfl

theorem host3_v52 (V : Valuation τ sig (Elt F)) :
    (StableHlo.after hostOps3 V (Proc.devRef .tc main_v52) : FVec F S_ .f32)
      = scaleOf (V (Proc.devRef .tc main_v36) : FVec F S2x2048x1024 .f32) Gen.reducesTo_S2x2048x1024_S_d0_1_2 := by
  after_results; try rfl

theorem host3_v56 (V : Valuation τ sig (Elt F)) :
    (StableHlo.after hostOps3 V (Proc.devRef .tc main_v56) : FVec F S_ .f32)
      = scaleOf (V (Proc.devRef .tc main_v42) : FVec F S2x2048x1024 .f32) Gen.reducesTo_S2x2048x1024_S_d0_1_2 := by
  after_results; try rfl

theorem host3_v60 (V : Valuation τ sig (Elt F)) :
    (StableHlo.after hostOps3 V (Proc.devRef .tc main_v60) : FVec F S_ .f32)
      = scaleOf (shapeCast S2x2048x1024 (V (Proc.devRef .tc main_v47) : FVec F S4096x1024 .f32) Gen.shapeCasts_S4096x1024_S2x2048x1024) Gen.reducesTo_S2x2048x1024_S_d0_1_2 := by
  after_results; try rfl

theorem host3_v62 (V : Valuation τ sig (Elt F)) :
    (StableHlo.after hostOps3 V (Proc.devRef .tc main_v62) : FVec F S2x16x2048x64 .f32)
      = splitHeads (V (Proc.devRef .tc main_v36) : FVec F S2x2048x1024 .f32) := by
  after_results; try rfl

theorem host3_v64 (V : Valuation τ sig (Elt F)) :
    (StableHlo.after hostOps3 V (Proc.devRef .tc main_v64) : FVec F S2x16x2048x64 .f32)
      = splitHeads (V (Proc.devRef .tc main_v42) : FVec F S2x2048x1024 .f32) := by
  after_results; try rfl

theorem host3_v66 (V : Valuation τ sig (Elt F)) :
    (StableHlo.after hostOps3 V (Proc.devRef .tc main_v66) : FVec F S2x16x2048x64 .f32)
      = splitHeads (shapeCast S2x2048x1024 (V (Proc.devRef .tc main_v47) : FVec F S4096x1024 .f32) Gen.shapeCasts_S4096x1024_S2x2048x1024) := by
  after_results; try rfl

theorem host3_v67 (V : Valuation τ sig (Elt F)) :
    (StableHlo.after hostOps3 V (Proc.devRef .tc main_v67) : FVec F S1x1 .f32)
      = shapeCast S1x1 (scaleOf (V (Proc.devRef .tc main_v36) : FVec F S2x2048x1024 .f32) Gen.reducesTo_S2x2048x1024_S_d0_1_2) Gen.shapeCasts_S_S1x1 := by
  after_results; try rfl

theorem host3_v68 (V : Valuation τ sig (Elt F)) :
    (StableHlo.after hostOps3 V (Proc.devRef .tc main_v68) : FVec F S1x1 .f32)
      = shapeCast S1x1 (scaleOf (V (Proc.devRef .tc main_v42) : FVec F S2x2048x1024 .f32) Gen.reducesTo_S2x2048x1024_S_d0_1_2) Gen.shapeCasts_S_S1x1 := by
  after_results; try rfl

theorem host3_keep_v27 (V : Valuation τ sig (Elt F)) :
    StableHlo.after hostOps3 V (Proc.devRef .tc main_v27) = V (Proc.devRef .tc main_v27) := by
  after_results; try rfl

theorem host3_keep_arg9 (V : Valuation τ sig (Elt F)) :
    StableHlo.after hostOps3 V (Proc.devRef .tc main_arg9) = V (Proc.devRef .tc main_arg9) := by
  after_results; try rfl

theorem host3_keep_arg10 (V : Valuation τ sig (Elt F)) :
    StableHlo.after hostOps3 V (Proc.devRef .tc main_arg10) = V (Proc.devRef .tc main_arg10) := by
  after_results; try rfl

end Cert.KernelIdeal.RunValue

end
-- ==== Proof.KernelGlueS4.lean ====
/- The host operations between the regions of the idealized kernel, read one stretch at a time: the fifth stretch: the scale of the attention weights from the least row sum, and the four scales re-shaped. -/
import proofs.«148380_j86835648790565_1_alg».proof.Proof.KernelGlueBase

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.ShloMosaic.StableHlo (after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)

variable {F : FTy → Type} [FloatOps F]

/-! ## Reading the fifth stretch: the scale of the attention weights from the least row sum, and the four scales re-shaped

    Each lemma reads one buffer after the stretch, run from ANY contents `V`, as the operations' term of `V` at the
    buffers the stretch reads; a buffer the stretch does not write keeps its contents. -/

theorem host4_v74 (V : Valuation τ sig (Elt F)) :
    (StableHlo.after hostOps4 V (Proc.devRef .tc main_v74) : FVec F S1x1 .f32)
      = shapeCast S1x1 (V (Proc.devRef .tc main_v52) : FVec F S_ .f32) Gen.shapeCasts_S_S1x1 := by
  after_results; try rfl

theorem host4_v75 (V : Valuation τ sig (Elt F)) :
    (StableHlo.after hostOps4 V (Proc.devRef .tc main_v75) : FVec F S1x1 .f32)
      = shapeCast S1x1 (V (Proc.devRef .tc main_v56) : FVec F S_ .f32) Gen.shapeCasts_S_S1x1 := by
  after_results; try rfl

theorem host4_v76 (V : Valuation τ sig (Elt F)) :
    (StableHlo.after hostOps4 V (Proc.devRef .tc main_v76) : FVec F S1x1 .f32)
      = shapeCast S1x1 (V (Proc.devRef .tc main_v60) : FVec F S_ .f32) Gen.shapeCasts_S_S1x1 := by
  after_results; try rfl

theorem host4_v77 (V : Valuation τ sig (Elt F)) :
    (StableHlo.after hostOps4 V (Proc.devRef .tc main_v77) : FVec F S1x1 .f32)
      = shapeCast S1x1 (attnScaleOf (V (Proc.devRef .tc main_v69_1) : FVec F S2x16x2048x1 .f32)) Gen.shapeCasts_S_S1x1 := by
  after_results; try rfl

theorem host4_keep_v62 (V : Valuation τ sig (Elt F)) :
    StableHlo.after hostOps4 V (Proc.devRef .tc main_v62) = V (Proc.devRef .tc main_v62) := by
  after_results; try rfl

theorem host4_keep_v64 (V : Valuation τ sig (Elt F)) :
    StableHlo.after hostOps4 V (Proc.devRef .tc main_v64) = V (Proc.devRef .tc main_v64) := by
  after_results; try rfl

theorem host4_keep_v66 (V : Valuation τ sig (Elt F)) :
    StableHlo.after hostOps4 V (Proc.devRef .tc main_v66) = V (Proc.devRef .tc main_v66) := by
  after_results; try rfl

theorem host4_keep_v69_0 (V : Valuation τ sig (Elt F)) :
    StableHlo.after hostOps4 V (Proc.devRef .tc main_v69_0) = V (Proc.devRef .tc main_v69_0) := by
  after_results; try rfl

theorem host4_keep_v69_1 (V : Valuation τ sig (Elt F)) :
    StableHlo.after hostOps4 V (Proc.devRef .tc main_v69_1) = V (Proc.devRef .tc main_v69_1) := by
  after_results; try rfl

theorem host4_keep_v27 (V : Valuation τ sig (Elt F)) :
    StableHlo.after hostOps4 V (Proc.devRef .tc main_v27) = V (Proc.devRef .tc main_v27) := by
  after_results; try rfl

theorem host4_keep_arg9 (V : Valuation τ sig (Elt F)) :
    StableHlo.after hostOps4 V (Proc.devRef .tc main_arg9) = V (Proc.devRef .tc main_arg9) := by
  after_results; try rfl

theorem host4_keep_arg10 (V : Valuation τ sig (Elt F)) :
    StableHlo.after hostOps4 V (Proc.devRef .tc main_arg10) = V (Proc.devRef .tc main_arg10) := by
  after_results; try rfl

end Cert.KernelIdeal.RunValue

end
-- ==== Proof.KernelGlueS56.lean ====
/- The host operations between the regions of the idealized kernel, read one stretch at a time: the sixth stretch: the attention output merged back from heads, its scale, the output weight transposed, the output bias as a row; and the last stretch: the output projection restored to three axes. -/
import proofs.«148380_j86835648790565_1_alg».proof.Proof.KernelGlueBase

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.ShloMosaic.StableHlo (after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)

variable {F : FTy → Type} [FloatOps F]

/-! ## Reading the sixth stretch: the attention output merged back from heads, its scale, the output weight transposed, the output bias as a row

    Each lemma reads one buffer after the stretch, run from ANY contents `V`, as the operations' term of `V` at the
    buffers the stretch reads; a buffer the stretch does not write keeps its contents. -/

theorem host5_v85 (V : Valuation τ sig (Elt F)) :
    (StableHlo.after hostOps5 V (Proc.devRef .tc main_v85) : FVec F S4096x1024 .f32)
      = shapeCast S4096x1024 (mergeHeads (V (Proc.devRef .tc main_v78) : FVec F S2x16x2048x64 .f32)) Gen.shapeCasts_S2x2048x1024_S4096x1024 := by
  after_results; try rfl

theorem host5_v86 (V : Valuation τ sig (Elt F)) :
    (StableHlo.after hostOps5 V (Proc.devRef .tc main_v86) : FVec F S1024x1024 .f32)
      = transpose S1024x1024 [1, 0] (V (Proc.devRef .tc main_arg9) : FVec F S1024x1024 .f32) Gen.transposes_S1024x1024_S1024x1024_1_0 := by
  after_results; try rfl

theorem host5_v87 (V : Valuation τ sig (Elt F)) :
    (StableHlo.after hostOps5 V (Proc.devRef .tc main_v87) : FVec F S1x1 .f32)
      = shapeCast S1x1 (scaleOf (mergeHeads (V (Proc.devRef .tc main_v78) : FVec F S2x16x2048x64 .f32)) Gen.reducesTo_S2x2048x1024_S_d0_1_2) Gen.shapeCasts_S_S1x1 := by
  after_results; try rfl

theorem host5_v88 (V : Valuation τ sig (Elt F)) :
    (StableHlo.after hostOps5 V (Proc.devRef .tc main_v88) : FVec F S1x1 .f32)
      = shapeCast S1x1 (V (Proc.devRef .tc main_v27) : FVec F S_ .f32) Gen.shapeCasts_S_S1x1 := by
  after_results; try rfl

theorem host5_v89 (V : Valuation τ sig (Elt F)) :
    (StableHlo.after hostOps5 V (Proc.devRef .tc main_v89) : FVec F S1x1024 .f32)
      = shapeCast S1x1024 (V (Proc.devRef .tc main_arg10) : FVec F S1024 .f32) Gen.shapeCasts_S1024_S1x1024 := by
  after_results; try rfl

/-! ## Reading the last stretch: the output projection restored to three axes -/

theorem host6_v91 (V : Valuation τ sig (Elt F)) :
    (StableHlo.after hostOps6 V (Proc.devRef .tc main_v91) : FVec F S2x2048x1024 .f32)
      = shapeCast S2x2048x1024 (V (Proc.devRef .tc main_v90) : FVec F S4096x1024 .f32) Gen.shapeCasts_S4096x1024_S2x2048x1024 := by
  after_results; try rfl

end Cert.KernelIdeal.RunValue

end
-- ==== Proof.KernelGlueFoldB.lean ====
/- What each region of the idealized kernel finds in its input arrays (the attention statistics, the attention, the output projection) and what the result buffer holds at the end.

   The buffer contents at the boundaries of @main's segments are a fold from the launch memory: a host stretch
   applies its operations, a region replaces its arrays by what its write-backs leave and keeps every other buffer.
   `Wk_b` reads boundary `k` at buffer `b` back through that fold, down to the launch contents of the argument
   buffers (`arg`) and to the arrays the earlier regions leave (`out0` … `out5`); an input array of a region is
   never written by it. `foundP_W` is that reading at window `W` of region `P`'s entry. -/
import proofs.«148380_j86835648790565_1_alg».proof.Proof.KernelGlueFoldA
import proofs.«148380_j86835648790565_1_alg».proof.Proof.KernelGlueS3
import proofs.«148380_j86835648790565_1_alg».proof.Proof.KernelGlueS4
import proofs.«148380_j86835648790565_1_alg».proof.Proof.KernelGlueS56

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.ShloMosaic.StableHlo (after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)

variable {F : FTy → Type} [FloatOps F]

variable (m : (ℓ : Loc nD τ sig) → Buf (Elt F) ℓ) (ρ : Dev nD → PrngReg)

/-! ## The boundaries from region 3's entry to the return -/

theorem W7_v62 (c : Dev nD) :
    (W7 m ρ c (Proc.devRef .tc main_v62) : FVec F S2x16x2048x64 .f32)
      = splitHeads (shapeCast S2x2048x1024 (out0 m ρ c) Gen.shapeCasts_S4096x1024_S2x2048x1024) := by
  show StableHlo.after hostOps3 (W6 m ρ c) (Proc.devRef .tc main_v62) = _
  rw [host3_v62, W6_v36]

theorem W7_v64 (c : Dev nD) :
    (W7 m ρ c (Proc.devRef .tc main_v64) : FVec F S2x16x2048x64 .f32)
      = splitHeads (shapeCast S2x2048x1024 (out1 m ρ c) Gen.shapeCasts_S4096x1024_S2x2048x1024) := by
  show StableHlo.after hostOps3 (W6 m ρ c) (Proc.devRef .tc main_v64) = _
  rw [host3_v64, W6_v42]

theorem W7_v67 (c : Dev nD) :
    (W7 m ρ c (Proc.devRef .tc main_v67) : FVec F S1x1 .f32)
      = shapeCast S1x1 (scaleOf (shapeCast S2x2048x1024 (out0 m ρ c) Gen.shapeCasts_S4096x1024_S2x2048x1024) Gen.reducesTo_S2x2048x1024_S_d0_1_2) Gen.shapeCasts_S_S1x1 := by
  show StableHlo.after hostOps3 (W6 m ρ c) (Proc.devRef .tc main_v67) = _
  rw [host3_v67, W6_v36]

theorem W7_v68 (c : Dev nD) :
    (W7 m ρ c (Proc.devRef .tc main_v68) : FVec F S1x1 .f32)
      = shapeCast S1x1 (scaleOf (shapeCast S2x2048x1024 (out1 m ρ c) Gen.shapeCasts_S4096x1024_S2x2048x1024) Gen.reducesTo_S2x2048x1024_S_d0_1_2) Gen.shapeCasts_S_S1x1 := by
  show StableHlo.after hostOps3 (W6 m ρ c) (Proc.devRef .tc main_v68) = _
  rw [host3_v68, W6_v42]

theorem W8_v62 (c : Dev nD) :
    (W8 m ρ c (Proc.devRef .tc main_v62) : FVec F S2x16x2048x64 .f32)
      = splitHeads (shapeCast S2x2048x1024 (out0 m ρ c) Gen.shapeCasts_S4096x1024_S2x2048x1024) := by
  rw [show W8 m ρ c (Proc.devRef .tc main_v62) = _ from W8_arr m ρ c 0, (dat3 (V7 m ρ) c).arrAt_in 0 rfl]
  exact W7_v62 m ρ c

theorem W9_v62 (c : Dev nD) :
    (W9 m ρ c (Proc.devRef .tc main_v62) : FVec F S2x16x2048x64 .f32)
      = splitHeads (shapeCast S2x2048x1024 (out0 m ρ c) Gen.shapeCasts_S4096x1024_S2x2048x1024) := by
  show StableHlo.after hostOps4 (W8 m ρ c) (Proc.devRef .tc main_v62) = _
  rw [host4_keep_v62, W8_v62]

theorem W8_v64 (c : Dev nD) :
    (W8 m ρ c (Proc.devRef .tc main_v64) : FVec F S2x16x2048x64 .f32)
      = splitHeads (shapeCast S2x2048x1024 (out1 m ρ c) Gen.shapeCasts_S4096x1024_S2x2048x1024) := by
  rw [show W8 m ρ c (Proc.devRef .tc main_v64) = _ from W8_arr m ρ c 1, (dat3 (V7 m ρ) c).arrAt_in 1 rfl]
  exact W7_v64 m ρ c

theorem W9_v64 (c : Dev nD) :
    (W9 m ρ c (Proc.devRef .tc main_v64) : FVec F S2x16x2048x64 .f32)
      = splitHeads (shapeCast S2x2048x1024 (out1 m ρ c) Gen.shapeCasts_S4096x1024_S2x2048x1024) := by
  show StableHlo.after hostOps4 (W8 m ρ c) (Proc.devRef .tc main_v64) = _
  rw [host4_keep_v64, W8_v64]

theorem W7_v66 (c : Dev nD) :
    (W7 m ρ c (Proc.devRef .tc main_v66) : FVec F S2x16x2048x64 .f32)
      = splitHeads (shapeCast S2x2048x1024 (out2 m ρ c) Gen.shapeCasts_S4096x1024_S2x2048x1024) := by
  show StableHlo.after hostOps3 (W6 m ρ c) (Proc.devRef .tc main_v66) = _
  rw [host3_v66, W6_v47]

theorem W8_v66 (c : Dev nD) :
    (W8 m ρ c (Proc.devRef .tc main_v66) : FVec F S2x16x2048x64 .f32)
      = splitHeads (shapeCast S2x2048x1024 (out2 m ρ c) Gen.shapeCasts_S4096x1024_S2x2048x1024) := by
  rw [W8_of_ne m ρ c main_v66 (by decide)]; exact W7_v66 m ρ c

theorem W9_v66 (c : Dev nD) :
    (W9 m ρ c (Proc.devRef .tc main_v66) : FVec F S2x16x2048x64 .f32)
      = splitHeads (shapeCast S2x2048x1024 (out2 m ρ c) Gen.shapeCasts_S4096x1024_S2x2048x1024) := by
  show StableHlo.after hostOps4 (W8 m ρ c) (Proc.devRef .tc main_v66) = _
  rw [host4_keep_v66, W8_v66]

theorem W8_v69_0 (c : Dev nD) :
    (W8 m ρ c (Proc.devRef .tc main_v69_0) : FVec F S2x16x2048x1 .f32)
      = out3m m ρ c := W8_arr m ρ c 4

theorem W9_v69_0 (c : Dev nD) :
    (W9 m ρ c (Proc.devRef .tc main_v69_0) : FVec F S2x16x2048x1 .f32)
      = out3m m ρ c := by
  show StableHlo.after hostOps4 (W8 m ρ c) (Proc.devRef .tc main_v69_0) = _
  rw [host4_keep_v69_0, W8_v69_0]

theorem W8_v69_1 (c : Dev nD) :
    (W8 m ρ c (Proc.devRef .tc main_v69_1) : FVec F S2x16x2048x1 .f32)
      = out3l m ρ c := W8_arr m ρ c 5

theorem W9_v69_1 (c : Dev nD) :
    (W9 m ρ c (Proc.devRef .tc main_v69_1) : FVec F S2x16x2048x1 .f32)
      = out3l m ρ c := by
  show StableHlo.after hostOps4 (W8 m ρ c) (Proc.devRef .tc main_v69_1) = _
  rw [host4_keep_v69_1, W8_v69_1]

theorem W7_v52 (c : Dev nD) :
    (W7 m ρ c (Proc.devRef .tc main_v52) : FVec F S_ .f32)
      = scaleOf (shapeCast S2x2048x1024 (out0 m ρ c) Gen.shapeCasts_S4096x1024_S2x2048x1024) Gen.reducesTo_S2x2048x1024_S_d0_1_2 := by
  show StableHlo.after hostOps3 (W6 m ρ c) (Proc.devRef .tc main_v52) = _
  rw [host3_v52, W6_v36]

theorem W8_v52 (c : Dev nD) :
    (W8 m ρ c (Proc.devRef .tc main_v52) : FVec F S_ .f32)
      = scaleOf (shapeCast S2x2048x1024 (out0 m ρ c) Gen.shapeCasts_S4096x1024_S2x2048x1024) Gen.reducesTo_S2x2048x1024_S_d0_1_2 := by
  rw [W8_of_ne m ρ c main_v52 (by decide)]; exact W7_v52 m ρ c

theorem W9_v74 (c : Dev nD) :
    (W9 m ρ c (Proc.devRef .tc main_v74) : FVec F S1x1 .f32)
      = shapeCast S1x1 (scaleOf (shapeCast S2x2048x1024 (out0 m ρ c) Gen.shapeCasts_S4096x1024_S2x2048x1024) Gen.reducesTo_S2x2048x1024_S_d0_1_2) Gen.shapeCasts_S_S1x1 := by
  show StableHlo.after hostOps4 (W8 m ρ c) (Proc.devRef .tc main_v74) = _
  rw [host4_v74, W8_v52]

theorem W7_v56 (c : Dev nD) :
    (W7 m ρ c (Proc.devRef .tc main_v56) : FVec F S_ .f32)
      = scaleOf (shapeCast S2x2048x1024 (out1 m ρ c) Gen.shapeCasts_S4096x1024_S2x2048x1024) Gen.reducesTo_S2x2048x1024_S_d0_1_2 := by
  show StableHlo.after hostOps3 (W6 m ρ c) (Proc.devRef .tc main_v56) = _
  rw [host3_v56, W6_v42]

theorem W8_v56 (c : Dev nD) :
    (W8 m ρ c (Proc.devRef .tc main_v56) : FVec F S_ .f32)
      = scaleOf (shapeCast S2x2048x1024 (out1 m ρ c) Gen.shapeCasts_S4096x1024_S2x2048x1024) Gen.reducesTo_S2x2048x1024_S_d0_1_2 := by
  rw [W8_of_ne m ρ c main_v56 (by decide)]; exact W7_v56 m ρ c

theorem W9_v75 (c : Dev nD) :
    (W9 m ρ c (Proc.devRef .tc main_v75) : FVec F S1x1 .f32)
      = shapeCast S1x1 (scaleOf (shapeCast S2x2048x1024 (out1 m ρ c) Gen.shapeCasts_S4096x1024_S2x2048x1024) Gen.reducesTo_S2x2048x1024_S_d0_1_2) Gen.shapeCasts_S_S1x1 := by
  show StableHlo.after hostOps4 (W8 m ρ c) (Proc.devRef .tc main_v75) = _
  rw [host4_v75, W8_v56]

theorem W7_v60 (c : Dev nD) :
    (W7 m ρ c (Proc.devRef .tc main_v60) : FVec F S_ .f32)
      = scaleOf (shapeCast S2x2048x1024 (out2 m ρ c) Gen.shapeCasts_S4096x1024_S2x2048x1024) Gen.reducesTo_S2x2048x1024_S_d0_1_2 := by
  show StableHlo.after hostOps3 (W6 m ρ c) (Proc.devRef .tc main_v60) = _
  rw [host3_v60, W6_v47]

theorem W8_v60 (c : Dev nD) :
    (W8 m ρ c (Proc.devRef .tc main_v60) : FVec F S_ .f32)
      = scaleOf (shapeCast S2x2048x1024 (out2 m ρ c) Gen.shapeCasts_S4096x1024_S2x2048x1024) Gen.reducesTo_S2x2048x1024_S_d0_1_2 := by
  rw [W8_of_ne m ρ c main_v60 (by decide)]; exact W7_v60 m ρ c

theorem W9_v76 (c : Dev nD) :
    (W9 m ρ c (Proc.devRef .tc main_v76) : FVec F S1x1 .f32)
      = shapeCast S1x1 (scaleOf (shapeCast S2x2048x1024 (out2 m ρ c) Gen.shapeCasts_S4096x1024_S2x2048x1024) Gen.reducesTo_S2x2048x1024_S_d0_1_2) Gen.shapeCasts_S_S1x1 := by
  show StableHlo.after hostOps4 (W8 m ρ c) (Proc.devRef .tc main_v76) = _
  rw [host4_v76, W8_v60]

theorem W9_v77 (c : Dev nD) :
    (W9 m ρ c (Proc.devRef .tc main_v77) : FVec F S1x1 .f32)
      = shapeCast S1x1 (attnScaleOf (out3l m ρ c)) Gen.shapeCasts_S_S1x1 := by
  show StableHlo.after hostOps4 (W8 m ρ c) (Proc.devRef .tc main_v77) = _
  rw [host4_v77, W8_v69_1]

theorem W10_v78 (c : Dev nD) :
    (W10 m ρ c (Proc.devRef .tc main_v78) : FVec F S2x16x2048x64 .f32)
      = out4 m ρ c := W10_arr m ρ c 9

theorem W11_v85 (c : Dev nD) :
    (W11 m ρ c (Proc.devRef .tc main_v85) : FVec F S4096x1024 .f32)
      = shapeCast S4096x1024 (mergeHeads (out4 m ρ c)) Gen.shapeCasts_S2x2048x1024_S4096x1024 := by
  show StableHlo.after hostOps5 (W10 m ρ c) (Proc.devRef .tc main_v85) = _
  rw [host5_v85, W10_v78]

theorem W7_arg9 (c : Dev nD) :
    (W7 m ρ c (Proc.devRef .tc main_arg9) : FVec F S1024x1024 .f32)
      = arg m c main_arg9 := by
  show StableHlo.after hostOps3 (W6 m ρ c) (Proc.devRef .tc main_arg9) = _
  rw [host3_keep_arg9, W6_arg9]

theorem W8_arg9 (c : Dev nD) :
    (W8 m ρ c (Proc.devRef .tc main_arg9) : FVec F S1024x1024 .f32)
      = arg m c main_arg9 := by
  rw [W8_of_ne m ρ c main_arg9 (by decide)]; exact W7_arg9 m ρ c

theorem W9_arg9 (c : Dev nD) :
    (W9 m ρ c (Proc.devRef .tc main_arg9) : FVec F S1024x1024 .f32)
      = arg m c main_arg9 := by
  show StableHlo.after hostOps4 (W8 m ρ c) (Proc.devRef .tc main_arg9) = _
  rw [host4_keep_arg9, W8_arg9]

theorem W10_arg9 (c : Dev nD) :
    (W10 m ρ c (Proc.devRef .tc main_arg9) : FVec F S1024x1024 .f32)
      = arg m c main_arg9 := by
  rw [W10_of_ne m ρ c main_arg9 (by decide)]; exact W9_arg9 m ρ c

theorem W11_v86 (c : Dev nD) :
    (W11 m ρ c (Proc.devRef .tc main_v86) : FVec F S1024x1024 .f32)
      = transpose S1024x1024 [1, 0] (arg m c main_arg9) Gen.transposes_S1024x1024_S1024x1024_1_0 := by
  show StableHlo.after hostOps5 (W10 m ρ c) (Proc.devRef .tc main_v86) = _
  rw [host5_v86, W10_arg9]

theorem W7_arg10 (c : Dev nD) :
    (W7 m ρ c (Proc.devRef .tc main_arg10) : FVec F S1024 .f32)
      = arg m c main_arg10 := by
  show StableHlo.after hostOps3 (W6 m ρ c) (Proc.devRef .tc main_arg10) = _
  rw [host3_keep_arg10, W6_arg10]

theorem W8_arg10 (c : Dev nD) :
    (W8 m ρ c (Proc.devRef .tc main_arg10) : FVec F S1024 .f32)
      = arg m c main_arg10 := by
  rw [W8_of_ne m ρ c main_arg10 (by decide)]; exact W7_arg10 m ρ c

theorem W9_arg10 (c : Dev nD) :
    (W9 m ρ c (Proc.devRef .tc main_arg10) : FVec F S1024 .f32)
      = arg m c main_arg10 := by
  show StableHlo.after hostOps4 (W8 m ρ c) (Proc.devRef .tc main_arg10) = _
  rw [host4_keep_arg10, W8_arg10]

theorem W10_arg10 (c : Dev nD) :
    (W10 m ρ c (Proc.devRef .tc main_arg10) : FVec F S1024 .f32)
      = arg m c main_arg10 := by
  rw [W10_of_ne m ρ c main_arg10 (by decide)]; exact W9_arg10 m ρ c

theorem W11_v89 (c : Dev nD) :
    (W11 m ρ c (Proc.devRef .tc main_v89) : FVec F S1x1024 .f32)
      = shapeCast S1x1024 (arg m c main_arg10) Gen.shapeCasts_S1024_S1x1024 := by
  show StableHlo.after hostOps5 (W10 m ρ c) (Proc.devRef .tc main_v89) = _
  rw [host5_v89, W10_arg10]

theorem W11_v87 (c : Dev nD) :
    (W11 m ρ c (Proc.devRef .tc main_v87) : FVec F S1x1 .f32)
      = shapeCast S1x1 (scaleOf (mergeHeads (out4 m ρ c)) Gen.reducesTo_S2x2048x1024_S_d0_1_2) Gen.shapeCasts_S_S1x1 := by
  show StableHlo.after hostOps5 (W10 m ρ c) (Proc.devRef .tc main_v87) = _
  rw [host5_v87, W10_v78]

theorem W7_v27 (c : Dev nD) :
    (W7 m ρ c (Proc.devRef .tc main_v27) : FVec F S_ .f32)
      = scaleOf (arg m c main_arg9) Gen.reducesTo_S1024x1024_S_d0_1 := by
  show StableHlo.after hostOps3 (W6 m ρ c) (Proc.devRef .tc main_v27) = _
  rw [host3_keep_v27, W6_v27]

theorem W8_v27 (c : Dev nD) :
    (W8 m ρ c (Proc.devRef .tc main_v27) : FVec F S_ .f32)
      = scaleOf (arg m c main_arg9) Gen.reducesTo_S1024x1024_S_d0_1 := by
  rw [W8_of_ne m ρ c main_v27 (by decide)]; exact W7_v27 m ρ c

theorem W9_v27 (c : Dev nD) :
    (W9 m ρ c (Proc.devRef .tc main_v27) : FVec F S_ .f32)
      = scaleOf (arg m c main_arg9) Gen.reducesTo_S1024x1024_S_d0_1 := by
  show StableHlo.after hostOps4 (W8 m ρ c) (Proc.devRef .tc main_v27) = _
  rw [host4_keep_v27, W8_v27]

theorem W10_v27 (c : Dev nD) :
    (W10 m ρ c (Proc.devRef .tc main_v27) : FVec F S_ .f32)
      = scaleOf (arg m c main_arg9) Gen.reducesTo_S1024x1024_S_d0_1 := by
  rw [W10_of_ne m ρ c main_v27 (by decide)]; exact W9_v27 m ρ c

theorem W11_v88 (c : Dev nD) :
    (W11 m ρ c (Proc.devRef .tc main_v88) : FVec F S1x1 .f32)
      = shapeCast S1x1 (scaleOf (arg m c main_arg9) Gen.reducesTo_S1024x1024_S_d0_1) Gen.shapeCasts_S_S1x1 := by
  show StableHlo.after hostOps5 (W10 m ρ c) (Proc.devRef .tc main_v88) = _
  rw [host5_v88, W10_v27]

theorem W12_v90 (c : Dev nD) :
    (W12 m ρ c (Proc.devRef .tc main_v90) : FVec F S4096x1024 .f32)
      = out5 m ρ c := W12_arr m ρ c 5

theorem W13_v91 (c : Dev nD) :
    (W13 m ρ c (Proc.devRef .tc main_v91) : FVec F S2x2048x1024 .f32)
      = shapeCast S2x2048x1024 (out5 m ρ c) Gen.shapeCasts_S4096x1024_S2x2048x1024 := by
  show StableHlo.after hostOps6 (W12 m ρ c) (Proc.devRef .tc main_v91) = _
  rw [host6_v91, W12_v90]

/-! ## What regions 3, 4, 5 find, and the result -/

/-- Region 3, window 0: the query projection split into heads. -/
theorem found3_0 (c : Dev nD) :
    (V7 m ρ c (Pipeline.arrRef spec3 0) : FVec F S2x16x2048x64 .f32)
      = splitHeads (shapeCast S2x2048x1024 (out0 m ρ c) Gen.shapeCasts_S4096x1024_S2x2048x1024) :=
  W7_v62 m ρ c

/-- Region 3, window 1: the key projection split into heads. -/
theorem found3_1 (c : Dev nD) :
    (V7 m ρ c (Pipeline.arrRef spec3 1) : FVec F S2x16x2048x64 .f32)
      = splitHeads (shapeCast S2x2048x1024 (out1 m ρ c) Gen.shapeCasts_S4096x1024_S2x2048x1024) :=
  W7_v64 m ρ c

/-- Region 3, window 2: the scale of the query projection. -/
theorem found3_2 (c : Dev nD) :
    (V7 m ρ c (Pipeline.arrRef spec3 2) : FVec F S1x1 .f32)
      = shapeCast S1x1 (scaleOf (shapeCast S2x2048x1024 (out0 m ρ c) Gen.shapeCasts_S4096x1024_S2x2048x1024) Gen.reducesTo_S2x2048x1024_S_d0_1_2) Gen.shapeCasts_S_S1x1 :=
  W7_v67 m ρ c

/-- Region 3, window 3: the scale of the key projection. -/
theorem found3_3 (c : Dev nD) :
    (V7 m ρ c (Pipeline.arrRef spec3 3) : FVec F S1x1 .f32)
      = shapeCast S1x1 (scaleOf (shapeCast S2x2048x1024 (out1 m ρ c) Gen.shapeCasts_S4096x1024_S2x2048x1024) Gen.reducesTo_S2x2048x1024_S_d0_1_2) Gen.shapeCasts_S_S1x1 :=
  W7_v68 m ρ c

/-- Region 4, window 0: the query projection split into heads. -/
theorem found4_0 (c : Dev nD) :
    (V9 m ρ c (Pipeline.arrRef spec4 0) : FVec F S2x16x2048x64 .f32)
      = splitHeads (shapeCast S2x2048x1024 (out0 m ρ c) Gen.shapeCasts_S4096x1024_S2x2048x1024) :=
  W9_v62 m ρ c

/-- Region 4, window 1: the key projection split into heads. -/
theorem found4_1 (c : Dev nD) :
    (V9 m ρ c (Pipeline.arrRef spec4 1) : FVec F S2x16x2048x64 .f32)
      = splitHeads (shapeCast S2x2048x1024 (out1 m ρ c) Gen.shapeCasts_S4096x1024_S2x2048x1024) :=
  W9_v64 m ρ c

/-- Region 4, window 2: the value projection split into heads. -/
theorem found4_2 (c : Dev nD) :
    (V9 m ρ c (Pipeline.arrRef spec4 2) : FVec F S2x16x2048x64 .f32)
      = splitHeads (shapeCast S2x2048x1024 (out2 m ρ c) Gen.shapeCasts_S4096x1024_S2x2048x1024) :=
  W9_v66 m ρ c

/-- Region 4, window 3: the rows' maxima. -/
theorem found4_3 (c : Dev nD) :
    (V9 m ρ c (Pipeline.arrRef spec4 3) : FVec F S2x16x2048x1 .f32)
      = out3m m ρ c :=
  W9_v69_0 m ρ c

/-- Region 4, window 4: the rows' sums of exponentials. -/
theorem found4_4 (c : Dev nD) :
    (V9 m ρ c (Pipeline.arrRef spec4 4) : FVec F S2x16x2048x1 .f32)
      = out3l m ρ c :=
  W9_v69_1 m ρ c

/-- Region 4, window 5: the scale of the query projection. -/
theorem found4_5 (c : Dev nD) :
    (V9 m ρ c (Pipeline.arrRef spec4 5) : FVec F S1x1 .f32)
      = shapeCast S1x1 (scaleOf (shapeCast S2x2048x1024 (out0 m ρ c) Gen.shapeCasts_S4096x1024_S2x2048x1024) Gen.reducesTo_S2x2048x1024_S_d0_1_2) Gen.shapeCasts_S_S1x1 :=
  W9_v74 m ρ c

/-- Region 4, window 6: the scale of the key projection. -/
theorem found4_6 (c : Dev nD) :
    (V9 m ρ c (Pipeline.arrRef spec4 6) : FVec F S1x1 .f32)
      = shapeCast S1x1 (scaleOf (shapeCast S2x2048x1024 (out1 m ρ c) Gen.shapeCasts_S4096x1024_S2x2048x1024) Gen.reducesTo_S2x2048x1024_S_d0_1_2) Gen.shapeCasts_S_S1x1 :=
  W9_v75 m ρ c

/-- Region 4, window 7: the scale of the value projection. -/
theorem found4_7 (c : Dev nD) :
    (V9 m ρ c (Pipeline.arrRef spec4 7) : FVec F S1x1 .f32)
      = shapeCast S1x1 (scaleOf (shapeCast S2x2048x1024 (out2 m ρ c) Gen.shapeCasts_S4096x1024_S2x2048x1024) Gen.reducesTo_S2x2048x1024_S_d0_1_2) Gen.shapeCasts_S_S1x1 :=
  W9_v76 m ρ c

/-- Region 4, window 8: the scale of the attention weights. -/
theorem found4_8 (c : Dev nD) :
    (V9 m ρ c (Pipeline.arrRef spec4 8) : FVec F S1x1 .f32)
      = shapeCast S1x1 (attnScaleOf (out3l m ρ c)) Gen.shapeCasts_S_S1x1 :=
  W9_v77 m ρ c

/-- Region 5, window 0: the attention output merged from heads, its leading axes merged. -/
theorem found5_0 (c : Dev nD) :
    (V11 m ρ c (Pipeline.arrRef spec5 0) : FVec F S4096x1024 .f32)
      = shapeCast S4096x1024 (mergeHeads (out4 m ρ c)) Gen.shapeCasts_S2x2048x1024_S4096x1024 :=
  W11_v85 m ρ c

/-- Region 5, window 1: the output weight transposed. -/
theorem found5_1 (c : Dev nD) :
    (V11 m ρ c (Pipeline.arrRef spec5 1) : FVec F S1024x1024 .f32)
      = transpose S1024x1024 [1, 0] (arg m c main_arg9) Gen.transposes_S1024x1024_S1024x1024_1_0 :=
  W11_v86 m ρ c

/-- Region 5, window 2: the output bias as a row. -/
theorem found5_2 (c : Dev nD) :
    (V11 m ρ c (Pipeline.arrRef spec5 2) : FVec F S1x1024 .f32)
      = shapeCast S1x1024 (arg m c main_arg10) Gen.shapeCasts_S1024_S1x1024 :=
  W11_v89 m ρ c

/-- Region 5, window 3: the scale of the attention output. -/
theorem found5_3 (c : Dev nD) :
    (V11 m ρ c (Pipeline.arrRef spec5 3) : FVec F S1x1 .f32)
      = shapeCast S1x1 (scaleOf (mergeHeads (out4 m ρ c)) Gen.reducesTo_S2x2048x1024_S_d0_1_2) Gen.shapeCasts_S_S1x1 :=
  W11_v87 m ρ c

/-- Region 5, window 4: the scale of the output weight. -/
theorem found5_4 (c : Dev nD) :
    (V11 m ρ c (Pipeline.arrRef spec5 4) : FVec F S1x1 .f32)
      = shapeCast S1x1 (scaleOf (arg m c main_arg9) Gen.reducesTo_S1024x1024_S_d0_1) Gen.shapeCasts_S_S1x1 :=
  W11_v88 m ρ c

/-- The result buffer at the end: the output projection restored to three axes. -/
theorem result_array (c : Dev nD) :
    (W13 m ρ c (Proc.devRef .tc main_v91) : FVec F S2x2048x1024 .f32)
      = shapeCast S2x2048x1024 (out5 m ρ c) Gen.shapeCasts_S4096x1024_S2x2048x1024 :=
  W13_v91 m ρ c

end Cert.KernelIdeal.RunValue

end
-- ==== Proof.KernelGlue.lean ====
/- What each region of the idealized kernel finds in its input arrays, and what the result buffer holds at the
   end: the host stretches read one at a time, then composed along @main's segments. -/
import proofs.«148380_j86835648790565_1_alg».proof.Proof.KernelGlueFoldB
-- ==== Proof.QuantSpec.lean ====
/-
  Quantised attention, entry by entry, over the extended reals.

  An entry `x` is put on the signed eight-bit grid of step `s`: divide by the step, clamp to [-128, 127], round to
  the nearest integer (ties to even), multiply the step back. A quantised linear layer is the product of a quantised
  activation matrix with a quantised weight matrix plus a bias row; row `r` of its result depends on row `r` of the
  activations only, which is what lets a row block of the result be computed from the same row block of the input.
-/
import Idealize.ShloMosaic.PureOps.Ideal
import Idealize.ShloMosaic.Lib.ValueIdx

noncomputable section

namespace Cert.QAttn

open Idealize.ShloMosaic Idealize.ShloMosaic.ValueIdx

/-- One entry on the eight-bit grid of step `s`: `round (clamp (x / s)) * s`, the clamp written as the programs write
    it (the upper bound taken last). -/
def fq (s x : EReal) : EReal :=
  Ideal.liftRound Ideal.roundHalfEven
      (min (Ideal.ofBits .f32 0x42FE0000#32) (max (Ideal.ofBits .f32 0xC3000000#32) (Ideal.div x s))) * s

/-- The quantised linear layer at row `i 0` and output feature `i 1`: the sum over the 1024 input features of the
    quantised activation times the quantised weight (stored transposed: input feature first), plus the bias. -/
def qmm {M : Nat} (X : (⟨2, ![M, 1024]⟩ : Shape).Idx → EReal) (WT : (⟨2, ![1024, 1024]⟩ : Shape).Idx → EReal)
    (B : (⟨2, ![1, 1024]⟩ : Shape).Idx → EReal) (sx sw : EReal) : (⟨2, ![M, 1024]⟩ : Shape).Idx → EReal :=
  fun i => (∑ k : Fin 1024, fq sx (X (ix2 (i 0) k)) * fq sw (WT (ix2 k (i 1)))) + B (ix2 0 (i 1))

/-- A row of the layer's result is a function of the same row of the activations: two activation matrices that agree
    on a row (possibly at different row numbers) give the same result row. -/
theorem qmm_row {M M' : Nat} (X : (⟨2, ![M, 1024]⟩ : Shape).Idx → EReal) (X' : (⟨2, ![M', 1024]⟩ : Shape).Idx → EReal)
    (WT : (⟨2, ![1024, 1024]⟩ : Shape).Idx → EReal) (B : (⟨2, ![1, 1024]⟩ : Shape).Idx → EReal) (sx sw : EReal)
    (r : Fin M) (r' : Fin M') (d : Fin 1024) (h : ∀ k : Fin 1024, X (ix2 r k) = X' (ix2 r' k)) :
    qmm X WT B sx sw (ix2 r d) = qmm X' WT B sx sw (ix2 r' d) := by
  unfold qmm
  congr 1
  exact Finset.sum_congr rfl fun k _ => congrArg (fun z => fq sx z * fq sw (WT (ix2 k d))) (h k)

/-! ## Attention over heads: scores, row statistics, output -/

/-- The score of query row `n` against key row `j` in batch `b`, head `h`: the product of the quantised query and key
    rows over the 64 head features, times one eighth. -/
def scores (Q K : (⟨4, ![2, 16, 2048, 64]⟩ : Shape).Idx → EReal) (sq sk : EReal) (b : Fin 2) (h : Fin 16) (n j : Fin 2048) : EReal :=
  (∑ c : Fin 64, fq sq (Q (ix4 b h n c)) * fq sk (K (ix4 b h j c))) * Ideal.ofBits .f32 0x3E000000#32

/-- A score row's largest entry. -/
def rowMax (Q K : (⟨4, ![2, 16, 2048, 64]⟩ : Shape).Idx → EReal) (sq sk : EReal) (b : Fin 2) (h : Fin 16) (n : Fin 2048) : EReal :=
  ⨆ j : Fin 2048, scores Q K sq sk b h n j

/-- A score row's sum of exponentials taken relative to its largest entry. -/
def rowSum (Q K : (⟨4, ![2, 16, 2048, 64]⟩ : Shape).Idx → EReal) (sq sk : EReal) (b : Fin 2) (h : Fin 16) (n : Fin 2048) : EReal :=
  ∑ j : Fin 2048, Ideal.exp (scores Q K sq sk b h n j - rowMax Q K sq sk b h n)

/-- The attention output: each score row is turned into weights `exp (s - m) / l` with the row statistics `m`, `l` it is
    GIVEN (arrays with a trailing axis of extent one), the weights are quantised at the step `sa`, the values at `sv`, and
    the quantised weights multiply the quantised value rows. -/
def attnOut (Q K Vv : (⟨4, ![2, 16, 2048, 64]⟩ : Shape).Idx → EReal) (Mx Lx : (⟨4, ![2, 16, 2048, 1]⟩ : Shape).Idx → EReal)
    (sq sk sv sa : EReal) : (⟨4, ![2, 16, 2048, 64]⟩ : Shape).Idx → EReal :=
  fun i => ∑ j : Fin 2048,
    fq sa (Ideal.div (Ideal.exp (scores Q K sq sk (i 0) (i 1) (i 2) j - Mx (ix4 (i 0) (i 1) (i 2) 0))) (Lx (ix4 (i 0) (i 1) (i 2) 0)))
      * fq sv (Vv (ix4 (i 0) (i 1) j (i 3)))

end Cert.QAttn

end
-- ==== Proof.LibPlainDot.lean ====
/-
  A plain matrix product read at an index, at the ideal instance.

  For the dimension numbers of an `M × K` by `K × N` product (contract the left operand's second axis with the right
  operand's first), a kernel's matrix product into a zero accumulator and the host's `dot_general` are both, at the output
  index `(r, c)`, the sum over `k : Fin K` of `lhs (r, k) * rhs (k, c)`.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The contraction shape of a plain product has one axis, of extent `K`. -/
theorem plain_contr_rank : (DotDims.plain M K N).contr.rank = 1 := rfl
theorem plain_contr_size : (DotDims.plain M K N).contr.size ⟨0, by rw [plain_contr_rank]; exact Nat.one_pos⟩ = K := rfl

/-- The operand indices of a plain product at the output index `j` and the contraction coordinate `k`. -/
theorem plain_lhsIdx (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

theorem plain_rhsIdx (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- A kernel's plain product into the zero accumulator, at an index. -/
theorem plain_matmul_apply (prec : Option ContractPrecision) (lhs : FVec Ideal ⟨2, ![M, K]⟩ φ₁) (rhs : FVec Ideal ⟨2, ![K, N]⟩ φ₂)
    (j : (⟨2, ![M, N]⟩ : Shape).Idx) :
    FloatOps.matmul (DotDims.plain M K N) prec lhs rhs (constant ⟨2, ![M, N]⟩ .f32 0x00000000#32) j
      = ∑ k : Fin K, lhs (ix2 (j 0) k) * rhs (ix2 k (j 1)) := by
  rw [Ideal.matmul_constant_zero_apply, ← Equiv.sum_comp (contrEquiv1 (DotDims.plain M K N) K rfl rfl).symm]
  exact Finset.sum_congr rfl fun k _ => by rw [plain_lhsIdx, plain_rhsIdx]; rfl

/-- The host's plain product, at an index. -/
theorem plain_dotGeneral_apply (prec : Option ContractPrecision) (sched : HostSchedule) (lhs : FVec Ideal ⟨2, ![M, K]⟩ φ₁)
    (rhs : FVec Ideal ⟨2, ![K, N]⟩ φ₂) (j : (⟨2, ![M, N]⟩ : Shape).Idx) :
    FloatOps.dotGeneral (DotDims.plain M K N) prec sched lhs rhs j
      = ∑ k : Fin K, lhs (ix2 (j 0) k) * rhs (ix2 k (j 1)) := by
  rw [Ideal.dotGeneral_apply, ← Equiv.sum_comp (contrEquiv1 (DotDims.plain M K N) K rfl rfl).symm]
  exact Finset.sum_congr rfl fun k _ => by rw [plain_lhsIdx, plain_rhsIdx]; rfl

end Cert.LibPlainDot

end
-- ==== Proof.LibReduceExtremum.lean ====
/-
  Reductions by maximum and minimum over the extended reals, read as suprema and infima.

  On the extended reals `max` and `min` are the join and the meet of a complete lattice whose least
  element is `-∞` and whose greatest is `+∞`. A fold of `max` that starts from `-∞` over a finite
  family is therefore the supremum of the family, whatever the order of the fold, and a fold of `min`
  from `+∞` is its infimum. The statements below read the host's `reduce` and a kernel's
  `multi_reduction` that way: over every axis at once (the result has one index, and the value there
  is the supremum over every source index), and over one axis (the value at a result index is the
  supremum over that axis's coordinates). A supremum over all indices does not change when the
  family is re-indexed along a surjection, and it is the supremum over the result indices of the
  one-axis suprema.
-/
import Idealize.ShloMosaic.PureOps.Ideal
import Idealize.ShloMosaic.PureOps.Ideal.Laws
import Idealize.ShloMosaic.PureOps.Reduce
import Idealize.ShloMosaic.Lib.Pipeline.Value
import Idealize.ShloMosaic.Lib.ValueIdx

namespace Idealize.ShloMosaic.ReduceExtremum

open Idealize.ShloMosaic

/-! ## The two infinities as bit patterns -/

/-- The f32 pattern `0xFF800000` (sign 1, exponent all ones, fraction 0) denotes `-∞`, the least extended real. -/
theorem ofBits_negInf_f32 : Ideal.ofBits .f32 0xFF800000#32 = ⊥ := by simp [Ideal.ofBits, Ideal.ieee]

/-- The f32 pattern `0x7F800000` (sign 0, exponent all ones, fraction 0) denotes `+∞`, the greatest extended real. -/
theorem ofBits_posInf_f32 : Ideal.ofBits .f32 0x7F800000#32 = ⊤ := by simp [Ideal.ofBits, Ideal.ieee]

/-! ## Folds of `max` from `-∞` and of `min` from `+∞` -/

/-- A fold of `max` from `-∞` over a finite set is the supremum over the set. -/
theorem fold_max_bot {ι : Type} (S : Finset ι) (x : ι → EReal) :
    S.fold max ⊥ x = ⨆ i ∈ S, x i := by
  rw [← Finset.sup_eq_iSup]; rfl

/-- A fold of `min` from `+∞` over a finite set is the infimum over the set. -/
theorem fold_min_top {ι : Type} (S : Finset ι) (x : ι → EReal) :
    S.fold min ⊤ x = ⨅ i ∈ S, x i := by
  rw [← Finset.inf_eq_iInf]; rfl

/-- Over a whole finite type: the fold of `max` from `-∞` is the supremum of the family. -/
theorem fold_max_bot_univ {ι : Type} [Fintype ι] (x : ι → EReal) :
    (Finset.univ : Finset ι).fold max ⊥ x = ⨆ i, x i := by
  rw [fold_max_bot]; simp

/-- Over a whole finite type: the fold of `min` from `+∞` is the infimum of the family. -/
theorem fold_min_top_univ {ι : Type} [Fintype ι] (x : ι → EReal) :
    (Finset.univ : Finset ι).fold min ⊤ x = ⨅ i, x i := by
  rw [fold_min_top]; simp

/-! ## A reduction over every axis: the supremum, or the infimum, of the whole array -/

section AllAxes
variable {s t u : Shape} {axes : List (Fin s.rank)} {φ : FTy}

/-- A result shape of rank zero has no axis, so each of its axes has size one. -/
theorem size_eq_one_of_rank_zero {d : Fin 0 → Nat} (b : Fin (⟨0, d⟩ : Shape).rank) : (⟨0, d⟩ : Shape).size b = 1 :=
  b.elim0

/-- The host's reduction by `max` into a shape whose every axis has size one (every source index reduces to the one
    result index), started from `-∞`, is at that index the supremum of the source over ALL its indices. -/
theorem hostReduce_max_all (x : s.Idx → EReal) (init : u.Idx → EReal) (h : s.ReducesTo axes t) (hu : 0 < u.numel)
    (ht : ∀ b, t.size b = 1) (hinit : init (Shape.Idx.first hu) = ⊥) (j : t.Idx) :
    Host.reduce (FloatOps.maximumf (F := Ideal) (φ := φ)) x init h hu j = ⨆ i : s.Idx, x i := by
  rw [Host.reduce_eq_fold, hinit,
    Finset.filter_true_of_mem fun i _ => funext fun b => Fin.ext (by
      have := (h.drop i b).isLt; have := (j b).isLt; have := ht b; omega)]
  exact fold_max_bot_univ x

/-- The same for `min` started from `+∞`: the infimum of the source over all its indices. -/
theorem hostReduce_min_all (x : s.Idx → EReal) (init : u.Idx → EReal) (h : s.ReducesTo axes t) (hu : 0 < u.numel)
    (ht : ∀ b, t.size b = 1) (hinit : init (Shape.Idx.first hu) = ⊤) (j : t.Idx) :
    Host.reduce (FloatOps.minimumf (F := Ideal) (φ := φ)) x init h hu j = ⨅ i : s.Idx, x i := by
  rw [Host.reduce_eq_fold, hinit,
    Finset.filter_true_of_mem fun i _ => funext fun b => Fin.ext (by
      have := (h.drop i b).isLt; have := (j b).isLt; have := ht b; omega)]
  exact fold_min_top_univ x

/-- In the form a program prints it: the f32 maximum over all axes, from the constant `0xFF800000` (`-∞`), is the
    constant array whose value is the supremum of the source. -/
theorem hostReduce_max_all_negInf (x : FVec Ideal s .f32) (h : s.ReducesTo axes t) (hu : 0 < u.numel)
    (ht : ∀ b, t.size b = 1) :
    Host.reduce FloatOps.maximumf x (constant (F := Ideal) u .f32 0xFF800000#32) h hu = fun _ => ⨆ i : s.Idx, x i :=
  funext fun j => hostReduce_max_all (φ := .f32) x _ h hu ht ofBits_negInf_f32 j

/-- The f32 minimum over all axes, from the constant `0x7F800000` (`+∞`), is the constant array whose value is the
    infimum of the source. -/
theorem hostReduce_min_all_posInf (x : FVec Ideal s .f32) (h : s.ReducesTo axes t) (hu : 0 < u.numel)
    (ht : ∀ b, t.size b = 1) :
    Host.reduce FloatOps.minimumf x (constant (F := Ideal) u .f32 0x7F800000#32) h hu = fun _ => ⨅ i : s.Idx, x i :=
  funext fun j => hostReduce_min_all (φ := .f32) x _ h hu ht ofBits_posInf_f32 j

/-- Into a result of rank zero (a scalar) no condition on the result's sizes is left. -/
theorem hostReduce_max_scalar_negInf {d : Fin 0 → Nat} (x : FVec Ideal s .f32) (h : s.ReducesTo axes ⟨0, d⟩)
    (hu : 0 < u.numel) :
    Host.reduce FloatOps.maximumf x (constant (F := Ideal) u .f32 0xFF800000#32) h hu = fun _ => ⨆ i : s.Idx, x i :=
  hostReduce_max_all_negInf x h hu size_eq_one_of_rank_zero

theorem hostReduce_min_scalar_posInf {d : Fin 0 → Nat} (x : FVec Ideal s .f32) (h : s.ReducesTo axes ⟨0, d⟩)
    (hu : 0 < u.numel) :
    Host.reduce FloatOps.minimumf x (constant (F := Ideal) u .f32 0x7F800000#32) h hu = fun _ => ⨅ i : s.Idx, x i :=
  hostReduce_min_all_posInf x h hu size_eq_one_of_rank_zero

end AllAxes

/-! ## Re-indexing: a supremum over all indices does not see the arrangement -/

section Reindex
variable {s s' t t' u u' : Shape} {axes : List (Fin s.rank)} {axes' : List (Fin s'.rank)} {φ : FTy}

/-- The maximum over all axes of an array read through a surjective index map `e` (every source element is read at
    least once: a reshape, a transpose, their composite) is the maximum over all axes of the array itself. -/
theorem hostReduce_max_all_reindex (x : s.Idx → EReal) (e : s'.Idx → s.Idx) (he : Function.Surjective e)
    (init : u.Idx → EReal) (init' : u'.Idx → EReal) (h : s.ReducesTo axes t) (h' : s'.ReducesTo axes' t')
    (hu : 0 < u.numel) (hu' : 0 < u'.numel) (ht : ∀ b, t.size b = 1) (ht' : ∀ b, t'.size b = 1)
    (hinit : init (Shape.Idx.first hu) = ⊥) (hinit' : init' (Shape.Idx.first hu') = ⊥) (j : t.Idx) (j' : t'.Idx) :
    Host.reduce (FloatOps.maximumf (F := Ideal) (φ := φ)) (fun i => x (e i)) init' h' hu' j'
      = Host.reduce (FloatOps.maximumf (F := Ideal) (φ := φ)) x init h hu j := by
  rw [hostReduce_max_all (φ := φ) _ init' h' hu' ht' hinit', hostReduce_max_all (φ := φ) x init h hu ht hinit]
  exact he.iSup_comp x

/-- The same for the minimum over all axes. -/
theorem hostReduce_min_all_reindex (x : s.Idx → EReal) (e : s'.Idx → s.Idx) (he : Function.Surjective e)
    (init : u.Idx → EReal) (init' : u'.Idx → EReal) (h : s.ReducesTo axes t) (h' : s'.ReducesTo axes' t')
    (hu : 0 < u.numel) (hu' : 0 < u'.numel) (ht : ∀ b, t.size b = 1) (ht' : ∀ b, t'.size b = 1)
    (hinit : init (Shape.Idx.first hu) = ⊤) (hinit' : init' (Shape.Idx.first hu') = ⊤) (j : t.Idx) (j' : t'.Idx) :
    Host.reduce (FloatOps.minimumf (F := Ideal) (φ := φ)) (fun i => x (e i)) init' h' hu' j'
      = Host.reduce (FloatOps.minimumf (F := Ideal) (φ := φ)) x init h hu j := by
  rw [hostReduce_min_all (φ := φ) _ init' h' hu' ht' hinit', hostReduce_min_all (φ := φ) x init h hu ht hinit]
  exact he.iInf_comp x

/-- A reshape (the same elements in row-major order under another shape) reads every source element exactly once, so
    the supremum of the reshaped array is the supremum of the array. -/
theorem iSup_shapeCast (x : s.Idx → EReal) (h : s.ShapeCasts t) : ⨆ j : t.Idx, shapeCast t x h j = ⨆ i : s.Idx, x i :=
  (Shape.reshapeEquiv h).iSup_comp (g := x)

theorem iInf_shapeCast (x : s.Idx → EReal) (h : s.ShapeCasts t) : ⨅ j : t.Idx, shapeCast t x h j = ⨅ i : s.Idx, x i :=
  (Shape.reshapeEquiv h).iInf_comp (g := x)

/-- Every source index is read by some result index of a transpose: the result index whose coordinate on axis `b` is
    the source's coordinate on axis `perm[b]`. -/
theorem transposes_src_surjective (perm : List (Fin s.rank)) (h : s.Transposes perm t) :
    Function.Surjective (h.src) := by
  intro k
  let j : t.Idx := fun b => ⟨(k perm[b.cast h.2.1]).val, by rw [h.2.2 b]; exact (k _).isLt⟩
  exact ⟨j, transpose_apply perm (fun i : s.Idx => i) h j k fun _ => rfl⟩

/-- So the supremum of a transposed array is the supremum of the array. -/
theorem iSup_transpose (perm : List (Fin s.rank)) (x : s.Idx → EReal) (h : s.Transposes perm t) :
    ⨆ j : t.Idx, transpose t perm x h j = ⨆ i : s.Idx, x i :=
  (transposes_src_surjective perm h).iSup_comp x

theorem iInf_transpose (perm : List (Fin s.rank)) (x : s.Idx → EReal) (h : s.Transposes perm t) :
    ⨅ j : t.Idx, transpose t perm x h j = ⨅ i : s.Idx, x i :=
  (transposes_src_surjective perm h).iInf_comp x

/-- The largest absolute value (the supremum of `max x (-x)`) of a transposed array is that of the array. -/
theorem iSup_abs_transpose (perm : List (Fin s.rank)) (x : s.Idx → EReal) (h : s.Transposes perm t) :
    ⨆ j : t.Idx, max (transpose t perm x h j) (-(transpose t perm x h j)) = ⨆ i : s.Idx, max (x i) (-(x i)) :=
  iSup_transpose perm (fun i => max (x i) (-(x i))) h

/-- The largest absolute value of a reshaped array is that of the array. -/
theorem iSup_abs_shapeCast (x : s.Idx → EReal) (h : s.ShapeCasts t) :
    ⨆ j : t.Idx, max (shapeCast t x h j) (-(shapeCast t x h j)) = ⨆ i : s.Idx, max (x i) (-(x i)) :=
  iSup_shapeCast (fun i => max (x i) (-(x i))) h

end Reindex

/-! ## A reduction over one axis: the supremum over that axis's coordinates -/

section OneAxis
variable {s t u : Shape} {a : Fin s.rank} {φ : FTy}

/-- The host's reduction by `max` over ONE axis, started from `-∞`, is at result index `j` the supremum over the
    coordinates `k` of that axis of the source at `j` with `k` inserted on the axis. -/
theorem hostReduce_max_single (x : s.Idx → EReal) (init : u.Idx → EReal) (h' : s.ReducesTo [a] t) (h : s.Reduces [a] t)
    (hu : 0 < u.numel) (hinit : init (Shape.Idx.first hu) = ⊥) (j : t.Idx) :
    Host.reduce (FloatOps.maximumf (F := Ideal) (φ := φ)) x init h' hu j = ⨆ k : Fin (s.size a), x (h.lift j k) := by
  rw [Host.reduce_eq_fold_single _ x init h' h hu j, hinit]
  exact fold_max_bot_univ _

/-- The same for `min` from `+∞`. -/
theorem hostReduce_min_single (x : s.Idx → EReal) (init : u.Idx → EReal) (h' : s.ReducesTo [a] t) (h : s.Reduces [a] t)
    (hu : 0 < u.numel) (hinit : init (Shape.Idx.first hu) = ⊤) (j : t.Idx) :
    Host.reduce (FloatOps.minimumf (F := Ideal) (φ := φ)) x init h' hu j = ⨅ k : Fin (s.size a), x (h.lift j k) := by
  rw [Host.reduce_eq_fold_single _ x init h' h hu j, hinit]
  exact fold_min_top_univ _

/-- In the printed form: the f32 maximum over one axis from the constant `0xFF800000`. -/
theorem hostReduce_max_single_negInf (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) :=
  hostReduce_max_single (φ := .f32) x _ h' h hu ofBits_negInf_f32 j

/-- A kernel's `multi_reduction <maximumf>` over one axis whose accumulator pattern denotes `-∞` is at `j` the
    supremum over that axis's coordinates. -/
theorem multiReduction_max_single (src : FVec Ideal s φ) (acc : BitVec φ.bits) (h : s.Reduces [a] t)
    (hφ : FKind.Formats φ) (hacc : acc = FKind.maximumf.neutral φ hφ) (hbot : Ideal.ofBits φ acc = ⊥) (j : t.Idx) :
    multiReduction .maximumf [a] t src acc h hφ hacc j = ⨆ k : Fin (s.size a), src (h.lift j k) := by
  rw [Ideal.multiReduction_maximumf_single]
  show (Finset.univ : Finset (Fin (s.size a))).fold max (Ideal.ofBits φ acc) (src ∘ h.lift j) = _
  rw [hbot]
  exact fold_max_bot_univ _

/-- At f32 with the accumulator `0xFF800000`, as a kernel prints a row maximum. -/
theorem multiReduction_max_single_f32 (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j = ⨆ k : Fin (s.size a), src (h.lift j k) :=
  multiReduction_max_single src _ h hφ hacc ofBits_negInf_f32 j

/-- The same with the accumulator's side condition spelt as a printed program carries it (a proof that the
    pattern equals itself), so that the lemma applies to the printed term as it stands. -/
theorem multiReduction_max_single_f32_printed (src : FVec Ideal s .f32) (h : s.Reduces [a] t)
    (hφ : FKind.Formats .f32) (hacc : (0xFF800000#32 : BitVec 32) = 0xFF800000#32) (j : t.Idx) :
    multiReduction .maximumf [a] t src 0xFF800000#32 h hφ hacc j = ⨆ k : Fin (s.size a), src (h.lift j k) :=
  multiReduction_max_single_f32 src h hφ hacc j

/-- The supremum over all indices is the supremum, over the indices with one axis dropped, of the suprema along that
    axis: every index is its own image with that axis dropped, with its own coordinate put back. -/
theorem iSup_eq_iSup_iSup_lift (h : s.Reduces [a] t) (x : s.Idx → EReal) :
    ⨆ i : s.Idx, x i = ⨆ j : t.Idx, ⨆ k : Fin (s.size a), x (h.lift j k) := by
  refine le_antisymm (iSup_le fun i => ?_) (iSup_le fun j => iSup_le fun k => le_iSup x _)
  rw [← h.lift_drop i]
  exact le_iSup_of_le (h.drop i) (le_iSup (fun k => x (h.lift (h.drop i) k)) (i a))

/-- The same for infima. -/
theorem iInf_eq_iInf_iInf_lift (h : s.Reduces [a] t) (x : s.Idx → EReal) :
    ⨅ i : s.Idx, x i = ⨅ j : t.Idx, ⨅ k : Fin (s.size a), x (h.lift j k) := by
  refine le_antisymm (le_iInf fun j => le_iInf fun k => iInf_le x _) (le_iInf fun i => ?_)
  rw [← h.lift_drop i]
  exact iInf_le_of_le (h.drop i) (iInf_le (fun k => x (h.lift (h.drop i) k)) (i a))

/-- Along an axis of size one (a kept unit axis, as in a column `[…, 1]`) the inner infimum is the one value. -/
theorem iInf_eq_iInf_lift_of_size_one (h : s.Reduces [a] t) (hs : s.size a = 1) (x : s.Idx → EReal) :
    ⨅ i : s.Idx, x i = ⨅ j : t.Idx, x (h.lift j ⟨0, by omega⟩) := by
  rw [iInf_eq_iInf_iInf_lift h x]
  refine iInf_congr fun j => ?_
  haveI : Unique (Fin (s.size a)) := by rw [hs]; exact inferInstance
  rw [iInf_unique]
  exact congrArg (fun k => x (h.lift j k)) (Subsingleton.elim _ _)

theorem iSup_eq_iSup_lift_of_size_one (h : s.Reduces [a] t) (hs : s.size a = 1) (x : s.Idx → EReal) :
    ⨆ i : s.Idx, x i = ⨆ j : t.Idx, x (h.lift j ⟨0, by omega⟩) := by
  rw [iSup_eq_iSup_iSup_lift h x]
  refine iSup_congr fun j => ?_
  haveI : Unique (Fin (s.size a)) := by rw [hs]; exact inferInstance
  rw [iSup_unique]
  exact congrArg (fun k => x (h.lift j k)) (Subsingleton.elim _ _)

end OneAxis

/-! ## The index with a coordinate put back on the last axis, by coordinates -/

section LastAxis
open Idealize.ShloMosaic.ValueIdx

/-- Rank 4, last axis dropped: the index over `j` with coordinate `k` on the last axis is `(j 0, j 1, j 2, k)`. -/
theorem lift_last4 {n0 n1 n2 n3 : Nat}
    (h : (⟨4, ![n0, n1, n2, n3]⟩ : Shape).Reduces [3] (⟨3, ![n0, n1, n2]⟩ : Shape))
    (j : (⟨3, ![n0, n1, n2]⟩ : Shape).Idx) (k : Fin n3) : h.lift j k = ix4 (j 0) (j 1) (j 2) k := by
  funext c; apply Fin.ext
  match c with | ⟨0, _⟩ => rfl | ⟨1, _⟩ => rfl | ⟨2, _⟩ => rfl | ⟨3, _⟩ => rfl

/-- Rank 2, last axis dropped: the index over `j` with coordinate `k` on the last axis is `(j 0, k)`. -/
theorem lift_last2 {n0 n1 : Nat}
    (h : (⟨2, ![n0, n1]⟩ : Shape).Reduces [1] (⟨1, ![n0]⟩ : Shape))
    (j : (⟨1, ![n0]⟩ : Shape).Idx) (k : Fin n1) : h.lift j k = ix2 (j 0) k := by
  funext c; apply Fin.ext
  match c with | ⟨0, _⟩ => rfl | ⟨1, _⟩ => rfl

/-- A supremum over all rank-4 indices is the nested supremum over the four coordinates. -/
theorem iSup_ix4 {n0 n1 n2 n3 : Nat} (f : (⟨4, ![n0, n1, n2, n3]⟩ : Shape).Idx → EReal) :
    ⨆ i, f i = ⨆ a : Fin n0, ⨆ b : Fin n1, ⨆ c : Fin n2, ⨆ d : Fin n3, f (ix4 a b c d) := by
  refine le_antisymm (iSup_le fun i => ?_)
    (iSup_le fun a => iSup_le fun b => iSup_le fun c => iSup_le fun d => le_iSup f _)
  rw [eq_ix4 i]
  exact le_iSup_of_le (i 0) (le_iSup_of_le (i 1) (le_iSup_of_le (i 2)
    (le_iSup (fun d => f (ix4 (i 0) (i 1) (i 2) d)) (i 3))))

/-- An infimum over all rank-4 indices is the nested infimum over the four coordinates. -/
theorem iInf_ix4 {n0 n1 n2 n3 : Nat} (f : (⟨4, ![n0, n1, n2, n3]⟩ : Shape).Idx → EReal) :
    ⨅ i, f i = ⨅ a : Fin n0, ⨅ b : Fin n1, ⨅ c : Fin n2, ⨅ d : Fin n3, f (ix4 a b c d) := by
  refine le_antisymm
    (le_iInf fun a => le_iInf fun b => le_iInf fun c => le_iInf fun d => iInf_le f _) (le_iInf fun i => ?_)
  rw [eq_ix4 i]
  exact iInf_le_of_le (i 0) (iInf_le_of_le (i 1) (iInf_le_of_le (i 2)
    (iInf_le (fun d => f (ix4 (i 0) (i 1) (i 2) d)) (i 3))))

/-- A supremum over all rank-3 indices is the nested supremum over the three coordinates. -/
theorem iSup_ix3 {n0 n1 n2 : Nat} (f : (⟨3, ![n0, n1, n2]⟩ : Shape).Idx → EReal) :
    ⨆ i, f i = ⨆ a : Fin n0, ⨆ b : Fin n1, ⨆ c : Fin n2, f (ix3 a b c) := by
  refine le_antisymm (iSup_le fun i => ?_) (iSup_le fun a => iSup_le fun b => iSup_le fun c => le_iSup f _)
  rw [eq_ix3 i]
  exact le_iSup_of_le (i 0) (le_iSup_of_le (i 1) (le_iSup (fun c => f (ix3 (i 0) (i 1) c)) (i 2)))

/-- An infimum over all rank-3 indices is the nested infimum over the three coordinates. -/
theorem iInf_ix3 {n0 n1 n2 : Nat} (f : (⟨3, ![n0, n1, n2]⟩ : Shape).Idx → EReal) :
    ⨅ i, f i = ⨅ a : Fin n0, ⨅ b : Fin n1, ⨅ c : Fin n2, f (ix3 a b c) := by
  refine le_antisymm (le_iInf fun a => le_iInf fun b => le_iInf fun c => iInf_le f _) (le_iInf fun i => ?_)
  rw [eq_ix3 i]
  exact iInf_le_of_le (i 0) (iInf_le_of_le (i 1) (iInf_le (fun c => f (ix3 (i 0) (i 1) c)) (i 2)))

end LastAxis

end Idealize.ShloMosaic.ReduceExtremum
-- ==== Proof.StatsBody.lean ====
/-
  The attention-statistics body, read at an index.

  For one batch and one head the body quantises the 2048 x 64 block of query rows and the block of key rows (divide by
  the step, clamp, round, multiply the step back), multiplies the quantised queries by the transposed quantised keys
  into a zero accumulator and scales by one eighth: entry (n, j) of that 2048 x 2048 matrix is the score of query row
  n against key row j, a sum over the 64 head features. The row maxima are a maximum over j started from minus
  infinity, which over the extended reals is the supremum of the row; the row sums add, over j, the exponential of the
  score minus that row's maximum. Both are stored as columns of shape 1 x 1 x 2048 x 1 after changes of shape that keep
  the row-major position, so entry (0, 0, n, 0) of what is stored is the statistic of row n.
-/
import proofs.«148380_j86835648790565_1_alg».proof.Proof.Gen.KernelIdeal.Skeleton
import proofs.«148380_j86835648790565_1_alg».proof.Proof.QuantSpec
import proofs.«148380_j86835648790565_1_alg».proof.Proof.LibPlainDot
import proofs.«148380_j86835648790565_1_alg».proof.Proof.LibReduceExtremum
import Idealize.ShloMosaic.Lib.Pipeline.Value
import Idealize.ShloMosaic.Lib.ValueIdx

noncomputable section

namespace Cert.KernelIdeal.StatsBody

open Idealize.ShloMosaic Idealize.ShloMosaic.ValueIdx Idealize.ShloMosaic.Pipeline Cert.KernelIdeal Cert.KernelIdeal.Gen Cert.QAttn

/-- The score of row `n` of a query block against row `j` of a key block, the blocks of shape 1 x 1 x 2048 x 64 and the
    steps given: the product of the quantised rows over the 64 head features, times one eighth. -/
def blockScore (sq sk : EReal) (q k : S1x1x2048x64.Idx → EReal) (n j : Fin 2048) : EReal :=
  (∑ c : Fin 64, fq sq (q (ix4 0 0 n c)) * fq sk (k (ix4 0 0 j c))) * Ideal.ofBits .f32 0x3E000000#32

/-- The one entry of a 1 x 1 block. -/
theorem extract00 (v : Vec Ideal S1x1 .f32) : extractAt ![0, 0] v inpos_S1x1_p0_0 = v (ix2 0 0) :=
  congrArg v (funext fun a => Fin.ext (by match a with | ⟨0, _⟩ => rfl | ⟨1, _⟩ => rfl))

/-- A block of shape 1 x 1 x 2048 x 64 viewed as a 2048 x 64 matrix: entry (n, c) is entry (0, 0, n, c). -/
theorem heads_as_matrix (v : S1x1x2048x64.Idx → EReal) (n : Fin 2048) (c : Fin 64) :
    shapeCast S2048x64 v shapeCasts_S1x1x2048x64_S2048x64 (ix2 n c) = v (ix4 0 0 n c) := by
  refine shapeCast_apply v _ (ix2 n c) (ix4 0 0 n c) ?_
  rw [Shape.rowMajor_val_four, Shape.rowMajor_val_two]
  show ((0 * 1 + 0) * 2048 + n.val) * 64 + c.val = n.val * 64 + c.val
  omega

/-- The transposed key matrix at (c, j) is the key matrix at (j, c). -/
theorem keys_transposed {φ : FTy} (x : FVec Ideal S2048x64 φ) (c : Fin 64) (j : Fin 2048) :
    transpose S64x2048 [1, 0] x transposes_S2048x64_p1_0_S64x2048 (ix2 c j) = x (ix2 j c) :=
  transpose_apply [1, 0] x _ (ix2 c j) (ix2 j c) fun b => by
    match b with
    | ⟨0, _⟩ => rfl
    | ⟨1, _⟩ => rfl

/-- A vector of 2048 entries stood up as a column. -/
theorem column_of_vector (v : S2048.Idx → EReal) (n : Fin 2048) :
    shapeCast S2048x1 v shapeCasts_S2048_S2048x1 (ix2 n 0) = v (ix1 n) := by
  refine shapeCast_apply v _ (ix2 n 0) (ix1 n) ?_
  rw [Shape.rowMajor_val_one, Shape.rowMajor_val_two]
  show n.val = n.val * 1 + 0
  omega

/-- A column of 2048 entries stored as a block of shape 1 x 1 x 2048 x 1. -/
theorem block_of_column (v : S2048x1.Idx → EReal) (n : Fin 2048) :
    shapeCast S1x1x2048x1 v shapeCasts_S2048x1_S1x1x2048x1 (ix4 0 0 n 0) = v (ix2 n 0) := by
  refine shapeCast_apply v _ (ix4 0 0 n 0) (ix2 n 0) ?_
  rw [Shape.rowMajor_val_four, Shape.rowMajor_val_two]
  show n.val * 1 + 0 = ((0 * 1 + 0) * 2048 + n.val) * 1 + 0
  omega

/-- A column spread along the rows: entry (n, j) of the result is entry (n, 0) of the column. -/
theorem column_spread (v : S2048x1.Idx → EReal) (n j : Fin 2048) :
    broadcastTo S2048x2048 v broadcasts_S2048x1_S2048x2048 (ix2 n j) = v (ix2 n 0) :=
  broadcastTo_apply v _ (ix2 n j) (ix2 n 0) fun a => by
    match a with
    | ⟨0, _⟩ => rfl
    | ⟨1, _⟩ => rfl

/-- Row `n` of a 2048 x 2048 matrix with the column coordinate `k` put back. -/
theorem row_entry (n k : Fin 2048) : reduces_S2048x2048_S2048.lift (ix1 n) k = (ix2 n k : S2048x2048.Idx) := by
  funext a
  apply Fin.ext
  match a with
  | ⟨0, _⟩ => rfl
  | ⟨1, _⟩ => rfl

/-- THE SCORES: entry (n, j) of the body's score matrix is the score of query row `n` against key row `j`. -/
theorem scores_at (v0 v2 : Vec Ideal S1x1 .f32) (v4 v16 : Vec Ideal S1x1x2048x64 .f32) (n j : Fin 2048) :
    k3_pay3 (F := Ideal) v0 v2 v4 v16 (ix2 n j) = blockScore (v0 (ix2 0 0)) (v2 (ix2 0 0)) v4 v16 n j := by
  unfold k3_pay3 blockScore
  rw [extract00 v0, extract00 v2]
  refine congrArg (fun z : EReal => z * Ideal.ofBits .f32 0x3E000000#32) ?_
  refine (Cert.LibPlainDot.plain_matmul_apply (M := 2048) (K := 64) (N := 2048) none _ _ (ix2 n j)).trans ?_
  refine Finset.sum_congr rfl fun c _ => congrArg₂ (fun a b : EReal => a * b) ?_ ?_
  · exact congrArg (fun x : EReal => fq (v0 (ix2 0 0)) x) (heads_as_matrix v4 n c)
  · refine (keys_transposed _ c j).trans ?_
    exact congrArg (fun x : EReal => fq (v2 (ix2 0 0)) x) (heads_as_matrix v16 j c)

/-- THE ROW MAXIMA as the body computes them (a column): entry (n, 0) is the supremum of score row `n`. -/
theorem rowmax_column_at (v0 v2 : Vec Ideal S1x1 .f32) (v4 v16 : Vec Ideal S1x1x2048x64 .f32) (n : Fin 2048) :
    k3_pay4 (F := Ideal) v0 v2 v4 v16 (ix2 n 0) = ⨆ j : Fin 2048, blockScore (v0 (ix2 0 0)) (v2 (ix2 0 0)) v4 v16 n j := by
  unfold k3_pay4
  refine (column_of_vector _ n).trans ?_
  refine (Idealize.ShloMosaic.ReduceExtremum.multiReduction_max_single_f32 (k3_pay3 (F := Ideal) v0 v2 v4 v16)
    reduces_S2048x2048_S2048 _ _ (ix1 n)).trans ?_
  show (⨆ k : Fin 2048, k3_pay3 (F := Ideal) v0 v2 v4 v16 (reduces_S2048x2048_S2048.lift (ix1 n) k)) = _
  exact iSup_congr fun k => by rw [row_entry n k]; exact scores_at v0 v2 v4 v16 n k

/-- The row maxima as stored: entry (0, 0, n, 0). -/
theorem rowmax_at (v0 v2 : Vec Ideal S1x1 .f32) (v4 v16 : Vec Ideal S1x1x2048x64 .f32) (n : Fin 2048) :
    k3_pay1 (F := Ideal) (k3_pay4 v0 v2 v4 v16) (ix4 0 0 n 0)
      = ⨆ j : Fin 2048, blockScore (v0 (ix2 0 0)) (v2 (ix2 0 0)) v4 v16 n j := by
  unfold k3_pay1
  exact (block_of_column _ n).trans (rowmax_column_at v0 v2 v4 v16 n)

/-- THE ROW SUMS as the body computes them (a vector): entry `n` adds, over the key rows, the exponential of the score
    minus the row's supremum. -/
theorem rowsum_vector_at (v0 v2 : Vec Ideal S1x1 .f32) (v4 v16 : Vec Ideal S1x1x2048x64 .f32) (n : Fin 2048) :
    k3_pay5 (F := Ideal) v0 v2 v4 v16 (ix1 n)
      = ∑ j : Fin 2048, Ideal.exp (blockScore (v0 (ix2 0 0)) (v2 (ix2 0 0)) v4 v16 n j
          - ⨆ j' : Fin 2048, blockScore (v0 (ix2 0 0)) (v2 (ix2 0 0)) v4 v16 n j') := by
  unfold k3_pay5
  refine (Ideal.multiReduction_add_single _ 0x00000000#32 reduces_S2048x2048_S2048 _ _ (ix1 n)).trans ?_
  show (∑ k : Fin 2048, _) = _
  refine Finset.sum_congr rfl fun k _ => ?_
  rw [row_entry n k]
  refine congrArg Ideal.exp (congrArg₂ (fun a b : EReal => a - b) (scores_at v0 v2 v4 v16 n k) ?_)
  exact (column_spread _ n k).trans (rowmax_column_at v0 v2 v4 v16 n)

/-- The row sums as stored: entry (0, 0, n, 0). -/
theorem rowsum_at (v0 v2 : Vec Ideal S1x1 .f32) (v4 v16 : Vec Ideal S1x1x2048x64 .f32) (n : Fin 2048) :
    k3_pay2 (F := Ideal) (k3_pay5 v0 v2 v4 v16) (ix4 0 0 n 0)
      = ∑ j : Fin 2048, Ideal.exp (blockScore (v0 (ix2 0 0)) (v2 (ix2 0 0)) v4 v16 n j
          - ⨆ j' : Fin 2048, blockScore (v0 (ix2 0 0)) (v2 (ix2 0 0)) v4 v16 n j') := by
  unfold k3_pay2
  exact ((block_of_column _ n).trans (column_of_vector _ n)).trans (rowsum_vector_at v0 v2 v4 v16 n)

/-- What the body stores for the maxima, as one function of the block index: the statistic of row `i 2`. -/
theorem stored_max_eq (v0 v2 : Vec Ideal S1x1 .f32) (v4 v16 : Vec Ideal S1x1x2048x64 .f32) :
    k3_pay1 (F := Ideal) (k3_pay4 v0 v2 v4 v16)
      = fun i : S1x1x2048x1.Idx => ⨆ j : Fin 2048, blockScore (v0 (ix2 0 0)) (v2 (ix2 0 0)) v4 v16 (i 2) j := by
  funext i
  obtain ⟨a0, a1, n, a3, rfl⟩ : ∃ (a0 : Fin 1) (a1 : Fin 1) (n : Fin 2048) (a3 : Fin 1), i = ix4 a0 a1 n a3 :=
    ⟨i 0, i 1, i 2, i 3, eq_ix4 i⟩
  obtain rfl : a0 = 0 := Fin.fin_one_eq_zero a0
  obtain rfl : a1 = 0 := Fin.fin_one_eq_zero a1
  obtain rfl : a3 = 0 := Fin.fin_one_eq_zero a3
  exact rowmax_at v0 v2 v4 v16 n

/-- What the body stores for the sums, as one function of the block index. -/
theorem stored_sum_eq (v0 v2 : Vec Ideal S1x1 .f32) (v4 v16 : Vec Ideal S1x1x2048x64 .f32) :
    k3_pay2 (F := Ideal) (k3_pay5 v0 v2 v4 v16)
      = fun i : S1x1x2048x1.Idx => ∑ j : Fin 2048, Ideal.exp (blockScore (v0 (ix2 0 0)) (v2 (ix2 0 0)) v4 v16 (i 2) j
          - ⨆ j' : Fin 2048, blockScore (v0 (ix2 0 0)) (v2 (ix2 0 0)) v4 v16 (i 2) j') := by
  funext i
  obtain ⟨a0, a1, n, a3, rfl⟩ : ∃ (a0 : Fin 1) (a1 : Fin 1) (n : Fin 2048) (a3 : Fin 1), i = ix4 a0 a1 n a3 :=
    ⟨i 0, i 1, i 2, i 3, eq_ix4 i⟩
  obtain rfl : a0 = 0 := Fin.fin_one_eq_zero a0
  obtain rfl : a1 = 0 := Fin.fin_one_eq_zero a1
  obtain rfl : a3 = 0 := Fin.fin_one_eq_zero a3
  exact rowsum_at v0 v2 v4 v16 n

end Cert.KernelIdeal.StatsBody

end
-- ==== Proof.StatsRegion.lean ====
/-
  Region 3: the attention statistics, as two functions of the arrays the region finds.

  The grid has 2 x 16 points, one per batch and head; point `t` is batch `t / 16`, head `t % 16`. It reads the
  2048 x 64 block of that batch and head from the query heads and from the key heads, and the two quantisation steps,
  and writes the 2048 row maxima and the 2048 row sums of that batch and head. A row's statistic depends on the blocks
  of its own batch and head only, so the 32 written columns are the blocks of ONE array each: the row maxima and the row
  sums of the scores over the whole arrays of heads. The blocks tile the result arrays, so these end holding exactly that.
-/
import proofs.«148380_j86835648790565_1_alg».proof.Proof.Gen.KernelIdeal.Frame
import proofs.«148380_j86835648790565_1_alg».proof.Proof.StatsBody

set_option maxRecDepth 16384

noncomputable section

namespace Cert.KernelIdeal.StatsRegion

open Idealize.ShloMosaic Idealize.ShloMosaic.TcCoe Idealize.ShloMosaic.ValueIdx Idealize.ShloMosaic.Pipeline
open Idealize.SL.Sem Cert.KernelIdeal Cert.KernelIdeal.Gen Cert.QAttn Cert.KernelIdeal.StatsBody

variable (V : (c : Dev nD) → (b : Ref sig .tc) → Buf (Elt Ideal) ((c : Thread nD τ).loc b))

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## The printed index maps over the grid -/

/-- The query window's block at point `t` is the block of batch `t / 16`, head `t % 16`. -/
theorem idx_q : ∀ t : Fin cfg3.N, win3_0.index t (0 : Fin 4) = t.val / 16 ∧ win3_0.index t (1 : Fin 4) = t.val % 16
    ∧ win3_0.index t (2 : Fin 4) = 0 ∧ win3_0.index t (3 : Fin 4) = 0 :=
  (by decide +kernel : ∀ t : Fin grid3.N, _)

/-- So is the key window's. -/
theorem idx_k : ∀ t : Fin cfg3.N, win3_1.index t (0 : Fin 4) = t.val / 16 ∧ win3_1.index t (1 : Fin 4) = t.val % 16
    ∧ win3_1.index t (2 : Fin 4) = 0 ∧ win3_1.index t (3 : Fin 4) = 0 :=
  (by decide +kernel : ∀ t : Fin grid3.N, _)

/-- The two step windows stay at the origin. -/
theorem idx_steps : ∀ t : Fin cfg3.N, win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The two result windows move with the batch and the head. -/
theorem idx_max : ∀ t : Fin cfg3.N, win3_4.index t (0 : Fin 4) = t.val / 16 ∧ win3_4.index t (1 : Fin 4) = t.val % 16
    ∧ win3_4.index t (2 : Fin 4) = 0 ∧ win3_4.index t (3 : Fin 4) = 0 :=
  (by decide +kernel : ∀ t : Fin grid3.N, _)

theorem idx_sum : ∀ t : Fin cfg3.N, win3_5.index t (0 : Fin 4) = t.val / 16 ∧ win3_5.index t (1 : Fin 4) = t.val % 16
    ∧ win3_5.index t (2 : Fin 4) = 0 ∧ win3_5.index t (3 : Fin 4) = 0 :=
  (by decide +kernel : ∀ t : Fin grid3.N, _)

/-! ## The statistics over the whole arrays -/

/-- The query step and the key step the region finds. -/
abbrev stepQ (c : Dev nD) : EReal := (V c main_v67 : S1x1.Idx → EReal) (ix2 0 0)
abbrev stepK (c : Dev nD) : EReal := (V c main_v68 : S1x1.Idx → EReal) (ix2 0 0)

/-- The row maxima of the scores of the query heads against the key heads the region finds. -/
abbrev maxima (c : Dev nD) : S2x16x2048x1.Idx → EReal :=
  fun i => rowMax (V c main_v62) (V c main_v64) (stepQ V c) (stepK V c) (i 0) (i 1) (i 2)

/-- The row sums of exponentials of the same scores. -/
abbrev sums (c : Dev nD) : S2x16x2048x1.Idx → EReal :=
  fun i => rowSum (V c main_v62) (V c main_v64) (stepQ V c) (stepK V c) (i 0) (i 1) (i 2)

/-! ## The input blocks -/

/-- Row `n` of the query block at point `t` is row `n` of batch `t / 16`, head `t % 16` of the query heads. -/
theorem iblk_q (c : Dev nD) (t : Fin cfg3.N) (b : Fin 2) (h : Fin 16) (hb : b.val = t.val / 16) (hh : h.val = t.val % 16)
    (n : Fin 2048) (k : Fin 64) :
    (iblk3 V c 0 t : Vec Ideal S1x1x2048x64 .f32) (ix4 0 0 n k) = (V c main_v62 : S2x16x2048x64.Idx → EReal) (ix4 b h n k) := by
  obtain ⟨e0, e1, e2, e3⟩ := idx_q t
  unfold iblk3
  rw [View.read_apply]
  show (V c main_v62 : S2x16x2048x64.Idx → EReal) _ = V c main_v62 _
  congr 1
  funext a
  apply Fin.ext
  match a with
  | ⟨0, _⟩ => show win3_0.index t (0 : Fin 4) * 1 + 1 * 0 = b.val; rw [e0, hb]; omega
  | ⟨1, _⟩ => show win3_0.index t (1 : Fin 4) * 1 + 1 * 0 = h.val; rw [e1, hh]; omega
  | ⟨2, _⟩ => show win3_0.index t (2 : Fin 4) * 2048 + 1 * n.val = n.val; rw [e2]; omega
  | ⟨3, _⟩ => show win3_0.index t (3 : Fin 4) * 64 + 1 * k.val = k.val; rw [e3]; omega

/-- The same for the key block. -/
theorem iblk_k (c : Dev nD) (t : Fin cfg3.N) (b : Fin 2) (h : Fin 16) (hb : b.val = t.val / 16) (hh : h.val = t.val % 16)
    (n : Fin 2048) (k : Fin 64) :
    (iblk3 V c 1 t : Vec Ideal S1x1x2048x64 .f32) (ix4 0 0 n k) = (V c main_v64 : S2x16x2048x64.Idx → EReal) (ix4 b h n k) := by
  obtain ⟨e0, e1, e2, e3⟩ := idx_k t
  unfold iblk3
  rw [View.read_apply]
  show (V c main_v64 : S2x16x2048x64.Idx → EReal) _ = V c main_v64 _
  congr 1
  funext a
  apply Fin.ext
  match a with
  | ⟨0, _⟩ => show win3_1.index t (0 : Fin 4) * 1 + 1 * 0 = b.val; rw [e0, hb]; omega
  | ⟨1, _⟩ => show win3_1.index t (1 : Fin 4) * 1 + 1 * 0 = h.val; rw [e1, hh]; omega
  | ⟨2, _⟩ => show win3_1.index t (2 : Fin 4) * 2048 + 1 * n.val = n.val; rw [e2]; omega
  | ⟨3, _⟩ => show win3_1.index t (3 : Fin 4) * 64 + 1 * k.val = k.val; rw [e3]; omega

/-- The query step's window holds the step at every point. -/
theorem iblk_sq (c : Dev nD) (t : Fin cfg3.N) : (iblk3 V c 2 t : Vec Ideal S1x1 .f32) = V c main_v67 := by
  obtain ⟨e0, e1, -⟩ := idx_steps t
  funext y
  unfold iblk3
  rw [View.read_apply]
  show (V c main_v67 : S1x1.Idx → EReal) _ = V c main_v67 y
  congr 1
  funext a
  apply Fin.ext
  match a with
  | ⟨0, _⟩ => show win3_2.index t (0 : Fin 2) * 1 + 1 * (y 0).val = (y 0).val; rw [e0]; omega
  | ⟨1, _⟩ => show win3_2.index t (1 : Fin 2) * 1 + 1 * (y 1).val = (y 1).val; rw [e1]; omega

/-- The key step's window holds the step at every point. -/
theorem iblk_sk (c : Dev nD) (t : Fin cfg3.N) : (iblk3 V c 3 t : Vec Ideal S1x1 .f32) = V c main_v68 := by
  obtain ⟨-, -, e0, e1⟩ := idx_steps t
  funext y
  unfold iblk3
  rw [View.read_apply]
  show (V c main_v68 : S1x1.Idx → EReal) _ = V c main_v68 y
  congr 1
  funext a
  apply Fin.ext
  match a with
  | ⟨0, _⟩ => show win3_3.index t (0 : Fin 2) * 1 + 1 * (y 0).val = (y 0).val; rw [e0]; omega
  | ⟨1, _⟩ => show win3_3.index t (1 : Fin 2) * 1 + 1 * (y 1).val = (y 1).val; rw [e1]; omega

/-- A score inside the blocks at point `t` is the score of batch `t / 16`, head `t % 16` over the whole arrays. -/
theorem blockScore_eq (c : Dev nD) (t : Fin cfg3.N) (b : Fin 2) (h : Fin 16) (hb : b.val = t.val / 16) (hh : h.val = t.val % 16)
    (sq sk : EReal) (n j : Fin 2048) :
    blockScore sq sk (iblk3 V c 0 t : Vec Ideal S1x1x2048x64 .f32) (iblk3 V c 1 t : Vec Ideal S1x1x2048x64 .f32) n j
      = scores (V c main_v62) (V c main_v64) sq sk b h n j := by
  unfold blockScore scores
  refine congrArg (fun z : EReal => z * Ideal.ofBits .f32 0x3E000000#32) ?_
  exact Finset.sum_congr rfl fun k _ => congrArg₂ (fun x y : EReal => fq sq x * fq sk y)
    (iblk_q V c t b h hb hh n k) (iblk_k V c t b h hb hh j k)

/-! ## What a point writes back -/

/-- Where entry (0, 0, n, 0) of the maxima block at point `t` lies in the array. -/
theorem emb_max (t : Fin cfg3.N) (a0 a1 : Fin 1) (n : Fin 2048) (a3 : Fin 1) (b : Fin 2) (h : Fin 16)
    (hb : b.val = t.val / 16) (hh : h.val = t.val % 16) :
    ((cfg3.win 4).blk t).view.emb (ix4 a0 a1 n a3) = (ix4 b h n 0 : S2x16x2048x1.Idx) := by
  obtain ⟨e0, e1, e2, e3⟩ := idx_max t
  have h0 : a0.val = 0 := by omega
  have h1 : a1.val = 0 := by omega
  have h3 : a3.val = 0 := by omega
  funext a
  apply Fin.ext
  match a with
  | ⟨0, _⟩ => show win3_4.index t (0 : Fin 4) * 1 + 1 * a0.val = b.val; rw [e0, hb, h0]; omega
  | ⟨1, _⟩ => show win3_4.index t (1 : Fin 4) * 1 + 1 * a1.val = h.val; rw [e1, hh, h1]; omega
  | ⟨2, _⟩ => show win3_4.index t (2 : Fin 4) * 2048 + 1 * n.val = n.val; rw [e2]; omega
  | ⟨3, _⟩ => show win3_4.index t (3 : Fin 4) * 1 + 1 * a3.val = 0; rw [e3, h3]

theorem emb_sum (t : Fin cfg3.N) (a0 a1 : Fin 1) (n : Fin 2048) (a3 : Fin 1) (b : Fin 2) (h : Fin 16)
    (hb : b.val = t.val / 16) (hh : h.val = t.val % 16) :
    ((cfg3.win 5).blk t).view.emb (ix4 a0 a1 n a3) = (ix4 b h n 0 : S2x16x2048x1.Idx) := by
  obtain ⟨e0, e1, e2, e3⟩ := idx_sum t
  have h0 : a0.val = 0 := by omega
  have h1 : a1.val = 0 := by omega
  have h3 : a3.val = 0 := by omega
  funext a
  apply Fin.ext
  match a with
  | ⟨0, _⟩ => show win3_5.index t (0 : Fin 4) * 1 + 1 * a0.val = b.val; rw [e0, hb, h0]; omega
  | ⟨1, _⟩ => show win3_5.index t (1 : Fin 4) * 1 + 1 * a1.val = h.val; rw [e1, hh, h1]; omega
  | ⟨2, _⟩ => show win3_5.index t (2 : Fin 4) * 2048 + 1 * n.val = n.val; rw [e2]; omega
  | ⟨3, _⟩ => show win3_5.index t (3 : Fin 4) * 1 + 1 * a3.val = 0; rw [e3, h3]

/-- What point `t` writes back through the maxima window is block `t` of the row maxima over the whole arrays. -/
theorem flushed_max (c : Dev nD) (t : Fin cfg3.N) :
    (dat3 V c).flushed 4 t = ((cfg3.win 4).blk t).view.read (Elt Ideal) (maxima V c) := by
  have hN : grid3.N = 32 := N_3
  have ht : t.val < 32 := hN ▸ t.isLt
  show (cfg3.win 4).cut (grid3.coords t) ((dat3 V c).after 4 t) = _
  rw [after3_4]
  unfold out3_4
  rw [View.canon_unit_zero hz4]
  simp only [View.ld_unit_zero (S := S1x1) hz2, View.ld_unit_zero (S := S1x1x2048x64) hz4]
  refine (stored_max_eq (iblk3 V c 2 t) (iblk3 V c 3 t) (iblk3 V c 0 t) (iblk3 V c 1 t)).trans ?_
  rw [iblk_sq V c t, iblk_sk V c t]
  funext y
  obtain ⟨a0, a1, n, a3, rfl⟩ : ∃ (a0 : Fin 1) (a1 : Fin 1) (n : Fin 2048) (a3 : Fin 1), y = ix4 a0 a1 n a3 :=
    ⟨y 0, y 1, y 2, y 3, eq_ix4 y⟩
  rw [View.read_apply, emb_max t a0 a1 n a3 ⟨t.val / 16, by omega⟩ ⟨t.val % 16, by omega⟩ rfl rfl]
  show (⨆ j : Fin 2048, _) = ⨆ j : Fin 2048, scores (V c main_v62) (V c main_v64) (stepQ V c) (stepK V c) _ _ n j
  exact iSup_congr fun j => blockScore_eq V c t _ _ rfl rfl _ _ n j

/-- What point `t` writes back through the sums window is block `t` of the row sums over the whole arrays. -/
theorem flushed_sum (c : Dev nD) (t : Fin cfg3.N) :
    (dat3 V c).flushed 5 t = ((cfg3.win 5).blk t).view.read (Elt Ideal) (sums V c) := by
  have hN : grid3.N = 32 := N_3
  have ht : t.val < 32 := hN ▸ t.isLt
  show (cfg3.win 5).cut (grid3.coords t) ((dat3 V c).after 5 t) = _
  rw [after3_5]
  unfold out3_5
  rw [View.canon_unit_zero hz4]
  simp only [View.ld_unit_zero (S := S1x1) hz2, View.ld_unit_zero (S := S1x1x2048x64) hz4]
  refine (stored_sum_eq (iblk3 V c 2 t) (iblk3 V c 3 t) (iblk3 V c 0 t) (iblk3 V c 1 t)).trans ?_
  rw [iblk_sq V c t, iblk_sk V c t]
  funext y
  obtain ⟨a0, a1, n, a3, rfl⟩ : ∃ (a0 : Fin 1) (a1 : Fin 1) (n : Fin 2048) (a3 : Fin 1), y = ix4 a0 a1 n a3 :=
    ⟨y 0, y 1, y 2, y 3, eq_ix4 y⟩
  rw [View.read_apply, emb_sum t a0 a1 n a3 ⟨t.val / 16, by omega⟩ ⟨t.val % 16, by omega⟩ rfl rfl]
  show (∑ j : Fin 2048, Ideal.exp (_ - ⨆ j' : Fin 2048, _))
    = ∑ j : Fin 2048, Ideal.exp (scores (V c main_v62) (V c main_v64) (stepQ V c) (stepK V c) _ _ n j
        - ⨆ j' : Fin 2048, scores (V c main_v62) (V c main_v64) (stepQ V c) (stepK V c) _ _ n j')
  exact Finset.sum_congr rfl fun j _ => congrArg Ideal.exp (congrArg₂ (fun x y : EReal => x - y)
    (blockScore_eq V c t _ _ rfl rfl _ _ n j) (iSup_congr fun j' => blockScore_eq V c t _ _ rfl rfl _ _ n j'))

/-! ## The blocks tile the result arrays -/

/-- An index of the maxima array is in point `t`'s block iff each coordinate is in the block's range on its axis. -/
theorem mem_blk_max (t : Fin cfg3.N) (i : S2x16x2048x1.Idx) :
    i ∈ ((cfg3.win 4).blk t).view.set ↔ ∀ a : Fin 4, win3_4.index t a * S1x1x2048x1.size a ≤ (i a).val
      ∧ (i a).val < win3_4.index t a * S1x1x2048x1.size a + S1x1x2048x1.size a := by
  show i ∈ ((View.whole main_v69_0).slice (win3_4.rect t)).set ↔ _
  rw [View.set_slice_whole, Rect.mem_set_unit]
  exact Iff.rfl

theorem mem_blk_sum (t : Fin cfg3.N) (i : S2x16x2048x1.Idx) :
    i ∈ ((cfg3.win 5).blk t).view.set ↔ ∀ a : Fin 4, win3_5.index t a * S1x1x2048x1.size a ≤ (i a).val
      ∧ (i a).val < win3_5.index t a * S1x1x2048x1.size a + S1x1x2048x1.size a := by
  show i ∈ ((View.whole main_v69_1).slice (win3_5.rect t)).set ↔ _
  rw [View.set_slice_whole, Rect.mem_set_unit]
  exact Iff.rfl

/-- Batch `b`, head `h` is written by point `16 b + h`. -/
theorem cover_max (i : S2x16x2048x1.Idx) : ∃ t : Fin cfg3.N, (cfg3.win 4).flush t = true ∧ i ∈ ((cfg3.win 4).blk t).view.set := by
  have hi0 : (i 0).val < 2 := (i 0).isLt
  have hi1 : (i 1).val < 16 := (i 1).isLt
  have hi2 : (i 2).val < 2048 := (i 2).isLt
  have hi3 : (i 3).val < 1 := (i 3).isLt
  have hN : grid3.N = 32 := N_3
  have hlt : (i 0).val * 16 + (i 1).val < grid3.N := by omega
  refine ⟨⟨(i 0).val * 16 + (i 1).val, hlt⟩, flush3_4 _, ?_⟩
  obtain ⟨e0, e1, e2, e3⟩ := idx_max ⟨(i 0).val * 16 + (i 1).val, hlt⟩
  rw [mem_blk_max]
  intro a
  match a with
  | ⟨0, _⟩ =>
    show win3_4.index ⟨(i 0).val * 16 + (i 1).val, hlt⟩ (0 : Fin 4) * 1 ≤ (i 0).val
      ∧ (i 0).val < win3_4.index ⟨(i 0).val * 16 + (i 1).val, hlt⟩ (0 : Fin 4) * 1 + 1
    rw [e0]; show ((i 0).val * 16 + (i 1).val) / 16 * 1 ≤ _ ∧ _ < ((i 0).val * 16 + (i 1).val) / 16 * 1 + 1; omega
  | ⟨1, _⟩ =>
    show win3_4.index ⟨(i 0).val * 16 + (i 1).val, hlt⟩ (1 : Fin 4) * 1 ≤ (i 1).val
      ∧ (i 1).val < win3_4.index ⟨(i 0).val * 16 + (i 1).val, hlt⟩ (1 : Fin 4) * 1 + 1
    rw [e1]; show ((i 0).val * 16 + (i 1).val) % 16 * 1 ≤ _ ∧ _ < ((i 0).val * 16 + (i 1).val) % 16 * 1 + 1; omega
  | ⟨2, _⟩ =>
    show win3_4.index ⟨(i 0).val * 16 + (i 1).val, hlt⟩ (2 : Fin 4) * 2048 ≤ (i 2).val
      ∧ (i 2).val < win3_4.index ⟨(i 0).val * 16 + (i 1).val, hlt⟩ (2 : Fin 4) * 2048 + 2048
    rw [e2]; omega
  | ⟨3, _⟩ =>
    show win3_4.index ⟨(i 0).val * 16 + (i 1).val, hlt⟩ (3 : Fin 4) * 1 ≤ (i 3).val
      ∧ (i 3).val < win3_4.index ⟨(i 0).val * 16 + (i 1).val, hlt⟩ (3 : Fin 4) * 1 + 1
    rw [e3]; omega

theorem cover_sum (i : S2x16x2048x1.Idx) : ∃ t : Fin cfg3.N, (cfg3.win 5).flush t = true ∧ i ∈ ((cfg3.win 5).blk t).view.set := by
  have hi0 : (i 0).val < 2 := (i 0).isLt
  have hi1 : (i 1).val < 16 := (i 1).isLt
  have hi2 : (i 2).val < 2048 := (i 2).isLt
  have hi3 : (i 3).val < 1 := (i 3).isLt
  have hN : grid3.N = 32 := N_3
  have hlt : (i 0).val * 16 + (i 1).val < grid3.N := by omega
  refine ⟨⟨(i 0).val * 16 + (i 1).val, hlt⟩, flush3_5 _, ?_⟩
  obtain ⟨e0, e1, e2, e3⟩ := idx_sum ⟨(i 0).val * 16 + (i 1).val, hlt⟩
  rw [mem_blk_sum]
  intro a
  match a with
  | ⟨0, _⟩ =>
    show win3_5.index ⟨(i 0).val * 16 + (i 1).val, hlt⟩ (0 : Fin 4) * 1 ≤ (i 0).val
      ∧ (i 0).val < win3_5.index ⟨(i 0).val * 16 + (i 1).val, hlt⟩ (0 : Fin 4) * 1 + 1
    rw [e0]; show ((i 0).val * 16 + (i 1).val) / 16 * 1 ≤ _ ∧ _ < ((i 0).val * 16 + (i 1).val) / 16 * 1 + 1; omega
  | ⟨1, _⟩ =>
    show win3_5.index ⟨(i 0).val * 16 + (i 1).val, hlt⟩ (1 : Fin 4) * 1 ≤ (i 1).val
      ∧ (i 1).val < win3_5.index ⟨(i 0).val * 16 + (i 1).val, hlt⟩ (1 : Fin 4) * 1 + 1
    rw [e1]; show ((i 0).val * 16 + (i 1).val) % 16 * 1 ≤ _ ∧ _ < ((i 0).val * 16 + (i 1).val) % 16 * 1 + 1; omega
  | ⟨2, _⟩ =>
    show win3_5.index ⟨(i 0).val * 16 + (i 1).val, hlt⟩ (2 : Fin 4) * 2048 ≤ (i 2).val
      ∧ (i 2).val < win3_5.index ⟨(i 0).val * 16 + (i 1).val, hlt⟩ (2 : Fin 4) * 2048 + 2048
    rw [e2]; omega
  | ⟨3, _⟩ =>
    show win3_5.index ⟨(i 0).val * 16 + (i 1).val, hlt⟩ (3 : Fin 4) * 1 ≤ (i 3).val
      ∧ (i 3).val < win3_5.index ⟨(i 0).val * 16 + (i 1).val, hlt⟩ (3 : Fin 4) * 1 + 1
    rw [e3]; omega

/-! ## The two result arrays after the region -/

/-- THE MAXIMA ARRAY after the region: the row maxima of the scores over the arrays found at entry. -/
theorem final_max (c : Dev nD) :
    (dat3 V c).arrAt 4 cfg3.N = fun i => rowMax (V c main_v62) (V c main_v64)
      ((V c main_v67 : S1x1.Idx → EReal) (ix2 0 0)) ((V c main_v68 : S1x1.Idx → EReal) (ix2 0 0)) (i 0) (i 1) (i 2) :=
  (dat3 V c).arrAt_eq_of_cover 4 (maxima V c) (fun t _ => flushed_max V c t) cover_max

/-- THE SUMS ARRAY after the region: the row sums of exponentials of the same scores. -/
theorem final_sum (c : Dev nD) :
    (dat3 V c).arrAt 5 cfg3.N = fun i => rowSum (V c main_v62) (V c main_v64)
      ((V c main_v67 : S1x1.Idx → EReal) (ix2 0 0)) ((V c main_v68 : S1x1.Idx → EReal) (ix2 0 0)) (i 0) (i 1) (i 2) :=
  (dat3 V c).arrAt_eq_of_cover 5 (sums V c) (fun t _ => flushed_sum V c t) cover_sum

end Cert.KernelIdeal.StatsRegion

end
-- ==== Proof.OutBody.lean ====
/-
  The body of the attention-output region, read at an index.

  For one batch and one head the body holds the 2048 × 64 blocks of queries, keys and values, the columns of row maxima
  and row sums, and four steps. It puts queries, keys and values on their eight-bit grids, multiplies the quantised
  queries with the transposed quantised keys and scales by one eighth (the scores), turns row n of the scores into
  weights exp (s - m n) / l n with the GIVEN row statistics, puts the weights on the grid of the attention step, and
  multiplies them with the quantised values. Read at row n and feature c that is the sum over the key rows j of
  quantised weight (n, j) times quantised value (j, c).
-/
import proofs.«148380_j86835648790565_1_alg».proof.Proof.Gen.KernelIdeal.Skeleton
import proofs.«148380_j86835648790565_1_alg».proof.Proof.QuantSpec
import proofs.«148380_j86835648790565_1_alg».proof.Proof.LibPlainDot
import Idealize.ShloMosaic.Lib.Pipeline.Value
import Idealize.ShloMosaic.Lib.ValueIdx

noncomputable section

namespace Cert.KernelIdeal.OutBody

open Idealize.ShloMosaic Idealize.ShloMosaic.ValueIdx Idealize.ShloMosaic.Pipeline Cert.KernelIdeal Cert.KernelIdeal.Gen Cert.QAttn

/-- The one entry of a 1 × 1 block. -/
theorem extract00 (v : Vec Ideal S1x1 .f32) : extractAt ![0, 0] v inpos_S1x1_p0_0 = v (ix2 0 0) :=
  congrArg v (funext fun a => Fin.ext (by match a with | ⟨0, _⟩ => rfl | ⟨1, _⟩ => rfl))

/-- A [1, 1, 2048, 64] block viewed as a 2048 × 64 matrix: entry (p, q) is entry (0, 0, p, q). -/
theorem mat_of_block (v : Vec Ideal S1x1x2048x64 .f32) (p : Fin 2048) (q : Fin 64) :
    shapeCast S2048x64 v shapeCasts_S1x1x2048x64_S2048x64 (ix2 p q) = v (ix4 0 0 p q) := by
  refine shapeCast_apply v _ (ix2 p q) (ix4 0 0 p q) ?_
  rw [Shape.rowMajor_val_four, Shape.rowMajor_val_two]
  show ((0 * 1 + 0) * 2048 + p.val) * 64 + q.val = p.val * 64 + q.val
  omega

/-- A 2048 × 64 matrix stored as a [1, 1, 2048, 64] block: entry (0, 0, p, q) is entry (p, q). -/
theorem block_of_mat (x : FVec Ideal S2048x64 .f32) (p : Fin 2048) (q : Fin 64) :
    shapeCast S1x1x2048x64 x shapeCasts_S2048x64_S1x1x2048x64 (ix4 0 0 p q) = x (ix2 p q) := by
  refine shapeCast_apply x _ (ix4 0 0 p q) (ix2 p q) ?_
  rw [Shape.rowMajor_val_four, Shape.rowMajor_val_two]
  show p.val * 64 + q.val = ((0 * 1 + 0) * 2048 + p.val) * 64 + q.val
  omega

/-- A [1, 1, 2048, 1] block of row statistics, viewed as a column and broadcast along the rows of a 2048 × 2048 matrix:
    entry (n, j) is the statistic of row n. -/
theorem stat_col (v : Vec Ideal S1x1x2048x1 .f32) (n j : Fin 2048) :
    broadcastTo S2048x2048 (shapeCast S2048x1 v shapeCasts_S1x1x2048x1_S2048x1) broadcasts_S2048x1_S2048x2048 (ix2 n j)
      = v (ix4 0 0 n 0) := by
  refine (broadcastTo_apply (shapeCast S2048x1 v shapeCasts_S1x1x2048x1_S2048x1) _ (ix2 n j) (ix2 n 0) fun a => ?_).trans ?_
  · match a with
    | ⟨0, _⟩ => rfl
    | ⟨1, _⟩ => rfl
  · refine shapeCast_apply v _ (ix2 n 0) (ix4 0 0 n 0) ?_
    rw [Shape.rowMajor_val_four, Shape.rowMajor_val_two]
    show ((0 * 1 + 0) * 2048 + n.val) * 1 + 0 = n.val * 1 + 0
    omega

/-- The transposed key block: entry (c, j) is entry (j, c). -/
theorem keys_T (x : FVec Ideal S2048x64 .bf16) (c : Fin 64) (j : Fin 2048) :
    transpose S64x2048 [1, 0] x transposes_S2048x64_p1_0_S64x2048 (ix2 c j) = x (ix2 j c) := by
  refine transpose_apply [1, 0] x _ (ix2 c j) (ix2 j c) fun b => ?_
  match b with
  | ⟨0, _⟩ => rfl
  | ⟨1, _⟩ => rfl

/-- Queries times transposed keys: entry (n, j) is the product of query row n with key row j over the 64 features. -/
theorem qk_apply (a b : FVec Ideal S2048x64 .bf16) (n j : Fin 2048) :
    matmul dot_S2048x64_S64x2048_S2048x2048_1_0_0_1_n_n none a (transpose S64x2048 [1, 0] b transposes_S2048x64_p1_0_S64x2048)
        (constant (F := Ideal) S2048x2048 .f32 0x00000000#32) (ix2 n j)
      = ∑ c' : Fin 64, a (ix2 n c') * b (ix2 j c') := by
  refine (Cert.LibPlainDot.plain_matmul_apply (M := 2048) (K := 64) (N := 2048) none _ _ (ix2 n j)).trans ?_
  exact Finset.sum_congr rfl fun c' _ => congrArg (fun z : EReal => a (ix2 n c') * z) (keys_T b c' j)

/-- A quantised attention weight depends on its score, its row maximum and its row sum only. -/
theorem weight_congr (sa : EReal) {s s' m m' l l' : EReal} (hs : s = s') (hm : m = m') (hl : l = l') :
    fq sa (Ideal.div (Ideal.exp (s * Ideal.ofBits .f32 0x3E000000#32 - m)) l)
      = fq sa (Ideal.div (Ideal.exp (s' * Ideal.ofBits .f32 0x3E000000#32 - m')) l') := by
  rw [hs, hm, hl]

/-- The stored value over the quantised blocks: at row n and feature c the sum over the key rows of quantised weight
    times quantised value. -/
theorem k4_pay1_apply (sv sa : EReal) (qq kq : FVec Ideal S2048x64 .bf16) (vv : FVec Ideal S2048x64 .f32)
    (m l : Vec Ideal S1x1x2048x1 .f32) (n : Fin 2048) (c : Fin 64) :
    k4_pay1 (F := Ideal) sv sa qq kq vv m l (ix4 0 0 n c)
      = ∑ j : Fin 2048,
          fq sa (Ideal.div (Ideal.exp ((∑ c' : Fin 64, qq (ix2 n c') * kq (ix2 j c')) * Ideal.ofBits .f32 0x3E000000#32
              - m (ix4 0 0 n 0))) (l (ix4 0 0 n 0)))
            * fq sv (vv (ix2 j c)) := by
  unfold k4_pay1
  refine (block_of_mat _ n c).trans ?_
  refine (Cert.LibPlainDot.plain_matmul_apply (M := 2048) (K := 2048) (N := 64) none _ _ (ix2 n c)).trans ?_
  refine Finset.sum_congr rfl fun j _ => ?_
  refine congrArg₂ (fun a b : EReal => a * b) ?_ rfl
  exact weight_congr sa (qk_apply qq kq n j) (stat_col m n j) (stat_col l n j)

/-- A block put on the eight-bit grid of its step, entry by entry. -/
theorem k4_pay4_apply (s : Vec Ideal S1x1 .f32) (x : Vec Ideal S1x1x2048x64 .f32) (p : Fin 2048) (q : Fin 64) :
    k4_pay4 (F := Ideal) s x (ix2 p q) = fq (s (ix2 0 0)) (x (ix4 0 0 p q)) := by
  unfold k4_pay4
  rw [extract00 s]
  exact congrArg (fq (s (ix2 0 0))) (mat_of_block x p q)

theorem k4_pay5_apply (s : Vec Ideal S1x1 .f32) (x : Vec Ideal S1x1x2048x64 .f32) (p : Fin 2048) (q : Fin 64) :
    k4_pay5 (F := Ideal) s x (ix2 p q) = fq (s (ix2 0 0)) (x (ix4 0 0 p q)) := by
  unfold k4_pay5
  rw [extract00 s]
  exact congrArg (fq (s (ix2 0 0))) (mat_of_block x p q)

/-- THE BODY AT AN INDEX: what the body stores at row n and feature c, from the blocks it loads. -/
theorem body_apply (q k v : Vec Ideal S1x1x2048x64 .f32) (m l : Vec Ideal S1x1x2048x1 .f32) (sq sk sv sa : Vec Ideal S1x1 .f32)
    (n : Fin 2048) (c : Fin 64) :
    k4_pay1 (F := Ideal) (k4_pay2 sv) (k4_pay3 sa) (k4_pay4 sq q) (k4_pay5 sk k) (k4_pay6 v) m l (ix4 0 0 n c)
      = ∑ j : Fin 2048,
          fq (sa (ix2 0 0)) (Ideal.div (Ideal.exp ((∑ c' : Fin 64, fq (sq (ix2 0 0)) (q (ix4 0 0 n c')) * fq (sk (ix2 0 0)) (k (ix4 0 0 j c')))
              * Ideal.ofBits .f32 0x3E000000#32 - m (ix4 0 0 n 0))) (l (ix4 0 0 n 0)))
            * fq (sv (ix2 0 0)) (v (ix4 0 0 j c)) := by
  refine (k4_pay1_apply _ _ _ _ _ m l n c).trans ?_
  have hsv : k4_pay2 (F := Ideal) sv = sv (ix2 0 0) := extract00 sv
  have hsa : k4_pay3 (F := Ideal) sa = sa (ix2 0 0) := extract00 sa
  rw [hsv, hsa]
  refine Finset.sum_congr rfl fun j _ => ?_
  refine congrArg₂ (fun a b : EReal => a * b) ?_ ?_
  · refine weight_congr _ ?_ rfl rfl
    exact Finset.sum_congr rfl fun c' _ => congrArg₂ (fun a b : EReal => a * b) (k4_pay4_apply sq q n c') (k4_pay5_apply sk k j c')
  · exact congrArg (fq (sv (ix2 0 0))) (mat_of_block v j c)

end Cert.KernelIdeal.OutBody

end
-- ==== Proof.OutRegion.lean ====
/-
  Region 4: the attention output, as one function of the arrays the region finds.

  The grid has 2 × 16 points, one per batch and head; point t (batch t / 16, head t mod 16) reads that batch-and-head's
  2048 × 64 blocks of the query, key and value heads, its columns of row maxima and row sums and the four steps, and
  writes the same batch-and-head's block of the output. The block written at (batch, head) depends on the blocks read at
  (batch, head) only, so the 32 written blocks are the blocks of ONE array: the attention output of the whole head
  arrays with the given row statistics. The blocks tile the output array, so it ends holding exactly that.
-/
import proofs.«148380_j86835648790565_1_alg».proof.Proof.Gen.KernelIdeal.Frame
import proofs.«148380_j86835648790565_1_alg».proof.Proof.OutBody

set_option maxRecDepth 16384

noncomputable section

namespace Cert.KernelIdeal.OutRegion

open Idealize.ShloMosaic Idealize.ShloMosaic.TcCoe Idealize.ShloMosaic.ValueIdx Idealize.ShloMosaic.Pipeline
open Idealize.SL.Sem Cert.KernelIdeal Cert.KernelIdeal.Gen Cert.QAttn

variable (V : (c : Dev nD) → (b : Ref sig .tc) → Buf (Elt Ideal) ((c : Thread nD τ).loc b))

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## The printed index maps over the grid

Point t is batch t / 16 and head t mod 16. The head windows, the statistics windows and the output window sit at
block (batch, head, 0, 0); the step windows stay at the origin. -/

theorem idx_q : ∀ t : Fin cfg4.N, win4_0.index t (0 : Fin 4) = t.val / 16 ∧ win4_0.index t (1 : Fin 4) = t.val % 16
    ∧ win4_0.index t (2 : Fin 4) = 0 ∧ win4_0.index t (3 : Fin 4) = 0 :=
  (by decide +kernel : ∀ t : Fin grid4.N, _)
theorem idx_k : ∀ t : Fin cfg4.N, win4_1.index t (0 : Fin 4) = t.val / 16 ∧ win4_1.index t (1 : Fin 4) = t.val % 16
    ∧ win4_1.index t (2 : Fin 4) = 0 ∧ win4_1.index t (3 : Fin 4) = 0 :=
  (by decide +kernel : ∀ t : Fin grid4.N, _)
theorem idx_v : ∀ t : Fin cfg4.N, win4_2.index t (0 : Fin 4) = t.val / 16 ∧ win4_2.index t (1 : Fin 4) = t.val % 16
    ∧ win4_2.index t (2 : Fin 4) = 0 ∧ win4_2.index t (3 : Fin 4) = 0 :=
  (by decide +kernel : ∀ t : Fin grid4.N, _)
theorem idx_m : ∀ t : Fin cfg4.N, win4_3.index t (0 : Fin 4) = t.val / 16 ∧ win4_3.index t (1 : Fin 4) = t.val % 16
    ∧ win4_3.index t (2 : Fin 4) = 0 ∧ win4_3.index t (3 : Fin 4) = 0 :=
  (by decide +kernel : ∀ t : Fin grid4.N, _)
theorem idx_l : ∀ t : Fin cfg4.N, win4_4.index t (0 : Fin 4) = t.val / 16 ∧ win4_4.index t (1 : Fin 4) = t.val % 16
    ∧ win4_4.index t (2 : Fin 4) = 0 ∧ win4_4.index t (3 : Fin 4) = 0 :=
  (by decide +kernel : ∀ t : Fin grid4.N, _)
theorem idx_o : ∀ t : Fin cfg4.N, win4_9.index t (0 : Fin 4) = t.val / 16 ∧ win4_9.index t (1 : Fin 4) = t.val % 16
    ∧ win4_9.index t (2 : Fin 4) = 0 ∧ win4_9.index t (3 : Fin 4) = 0 :=
  (by decide +kernel : ∀ t : Fin grid4.N, _)
theorem idx_steps : ∀ t : Fin cfg4.N, win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

/-- The attention output of the whole head arrays the region finds, with the row statistics and steps it finds. -/
abbrev result (c : Dev nD) : S2x16x2048x64.Idx → EReal :=
  attnOut (V c main_v62) (V c main_v64) (V c main_v66) (V c main_v69_0) (V c main_v69_1)
    ((V c main_v74 : S1x1.Idx → EReal) (ix2 0 0)) ((V c main_v75 : S1x1.Idx → EReal) (ix2 0 0))
    ((V c main_v76 : S1x1.Idx → EReal) (ix2 0 0)) ((V c main_v77 : S1x1.Idx → EReal) (ix2 0 0))

/-- The attention output at batch b, head h, row n and feature f, written out: the sum over the key rows j of the quantised
    weight of (n, j) times the quantised value (j, f). -/
theorem attnOut_apply (Q K Vv : (⟨4, ![2, 16, 2048, 64]⟩ : Shape).Idx → EReal) (Mx Lx : (⟨4, ![2, 16, 2048, 1]⟩ : Shape).Idx → EReal)
    (sq sk sv sa : EReal) (b : Fin 2) (h : Fin 16) (n : Fin 2048) (f : Fin 64) :
    attnOut Q K Vv Mx Lx sq sk sv sa (ix4 b h n f)
      = ∑ j : Fin 2048,
          fq sa (Ideal.div (Ideal.exp ((∑ c' : Fin 64, fq sq (Q (ix4 b h n c')) * fq sk (K (ix4 b h j c'))) * Ideal.ofBits .f32 0x3E000000#32
              - Mx (ix4 b h n 0))) (Lx (ix4 b h n 0)))
            * fq sv (Vv (ix4 b h j f)) := rfl

/-! ## The input blocks at a point, read off the arrays -/

/-- Row n of the query block at point t is row n of batch t / 16, head t mod 16 of the query heads. -/
theorem iblk_q (c : Dev nD) (t : Fin cfg4.N) (b : Fin 2) (h : Fin 16) (hb : b.val = t.val / 16) (hh : h.val = t.val % 16)
    (n : Fin 2048) (f : Fin 64) :
    (iblk4 V c 0 t : Vec Ideal S1x1x2048x64 .f32) (ix4 0 0 n f) = (V c main_v62 : S2x16x2048x64.Idx → EReal) (ix4 b h n f) := by
  obtain ⟨e0, e1, e2, e3⟩ := idx_q t
  unfold iblk4
  rw [View.read_apply]
  show (V c main_v62 : S2x16x2048x64.Idx → EReal) _ = V c main_v62 _
  congr 1
  funext a
  apply Fin.ext
  match a with
  | ⟨0, _⟩ => show win4_0.index t (0 : Fin 4) * 1 + 1 * 0 = b.val; rw [e0, hb]; omega
  | ⟨1, _⟩ => show win4_0.index t (1 : Fin 4) * 1 + 1 * 0 = h.val; rw [e1, hh]; omega
  | ⟨2, _⟩ => show win4_0.index t (2 : Fin 4) * 2048 + 1 * n.val = n.val; rw [e2]; omega
  | ⟨3, _⟩ => show win4_0.index t (3 : Fin 4) * 64 + 1 * f.val = f.val; rw [e3]; omega

/-- The same for the key heads. -/
theorem iblk_k (c : Dev nD) (t : Fin cfg4.N) (b : Fin 2) (h : Fin 16) (hb : b.val = t.val / 16) (hh : h.val = t.val % 16)
    (n : Fin 2048) (f : Fin 64) :
    (iblk4 V c 1 t : Vec Ideal S1x1x2048x64 .f32) (ix4 0 0 n f) = (V c main_v64 : S2x16x2048x64.Idx → EReal) (ix4 b h n f) := by
  obtain ⟨e0, e1, e2, e3⟩ := idx_k t
  unfold iblk4
  rw [View.read_apply]
  show (V c main_v64 : S2x16x2048x64.Idx → EReal) _ = V c main_v64 _
  congr 1
  funext a
  apply Fin.ext
  match a with
  | ⟨0, _⟩ => show win4_1.index t (0 : Fin 4) * 1 + 1 * 0 = b.val; rw [e0, hb]; omega
  | ⟨1, _⟩ => show win4_1.index t (1 : Fin 4) * 1 + 1 * 0 = h.val; rw [e1, hh]; omega
  | ⟨2, _⟩ => show win4_1.index t (2 : Fin 4) * 2048 + 1 * n.val = n.val; rw [e2]; omega
  | ⟨3, _⟩ => show win4_1.index t (3 : Fin 4) * 64 + 1 * f.val = f.val; rw [e3]; omega

/-- The same for the value heads. -/
theorem iblk_v (c : Dev nD) (t : Fin cfg4.N) (b : Fin 2) (h : Fin 16) (hb : b.val = t.val / 16) (hh : h.val = t.val % 16)
    (n : Fin 2048) (f : Fin 64) :
    (iblk4 V c 2 t : Vec Ideal S1x1x2048x64 .f32) (ix4 0 0 n f) = (V c main_v66 : S2x16x2048x64.Idx → EReal) (ix4 b h n f) := by
  obtain ⟨e0, e1, e2, e3⟩ := idx_v t
  unfold iblk4
  rw [View.read_apply]
  show (V c main_v66 : S2x16x2048x64.Idx → EReal) _ = V c main_v66 _
  congr 1
  funext a
  apply Fin.ext
  match a with
  | ⟨0, _⟩ => show win4_2.index t (0 : Fin 4) * 1 + 1 * 0 = b.val; rw [e0, hb]; omega
  | ⟨1, _⟩ => show win4_2.index t (1 : Fin 4) * 1 + 1 * 0 = h.val; rw [e1, hh]; omega
  | ⟨2, _⟩ => show win4_2.index t (2 : Fin 4) * 2048 + 1 * n.val = n.val; rw [e2]; omega
  | ⟨3, _⟩ => show win4_2.index t (3 : Fin 4) * 64 + 1 * f.val = f.val; rw [e3]; omega

/-- Entry n of the row-maximum block at point t is the maximum of row n of batch t / 16, head t mod 16. -/
theorem iblk_m (c : Dev nD) (t : Fin cfg4.N) (b : Fin 2) (h : Fin 16) (hb : b.val = t.val / 16) (hh : h.val = t.val % 16)
    (n : Fin 2048) :
    (iblk4 V c 3 t : Vec Ideal S1x1x2048x1 .f32) (ix4 0 0 n 0) = (V c main_v69_0 : S2x16x2048x1.Idx → EReal) (ix4 b h n 0) := by
  obtain ⟨e0, e1, e2, e3⟩ := idx_m t
  unfold iblk4
  rw [View.read_apply]
  show (V c main_v69_0 : S2x16x2048x1.Idx → EReal) _ = V c main_v69_0 _
  congr 1
  funext a
  apply Fin.ext
  match a with
  | ⟨0, _⟩ => show win4_3.index t (0 : Fin 4) * 1 + 1 * 0 = b.val; rw [e0, hb]; omega
  | ⟨1, _⟩ => show win4_3.index t (1 : Fin 4) * 1 + 1 * 0 = h.val; rw [e1, hh]; omega
  | ⟨2, _⟩ => show win4_3.index t (2 : Fin 4) * 2048 + 1 * n.val = n.val; rw [e2]; omega
  | ⟨3, _⟩ => show win4_3.index t (3 : Fin 4) * 1 + 1 * 0 = 0; rw [e3]

/-- The same for the row sums. -/
theorem iblk_l (c : Dev nD) (t : Fin cfg4.N) (b : Fin 2) (h : Fin 16) (hb : b.val = t.val / 16) (hh : h.val = t.val % 16)
    (n : Fin 2048) :
    (iblk4 V c 4 t : Vec Ideal S1x1x2048x1 .f32) (ix4 0 0 n 0) = (V c main_v69_1 : S2x16x2048x1.Idx → EReal) (ix4 b h n 0) := by
  obtain ⟨e0, e1, e2, e3⟩ := idx_l t
  unfold iblk4
  rw [View.read_apply]
  show (V c main_v69_1 : S2x16x2048x1.Idx → EReal) _ = V c main_v69_1 _
  congr 1
  funext a
  apply Fin.ext
  match a with
  | ⟨0, _⟩ => show win4_4.index t (0 : Fin 4) * 1 + 1 * 0 = b.val; rw [e0, hb]; omega
  | ⟨1, _⟩ => show win4_4.index t (1 : Fin 4) * 1 + 1 * 0 = h.val; rw [e1, hh]; omega
  | ⟨2, _⟩ => show win4_4.index t (2 : Fin 4) * 2048 + 1 * n.val = n.val; rw [e2]; omega
  | ⟨3, _⟩ => show win4_4.index t (3 : Fin 4) * 1 + 1 * 0 = 0; rw [e3]

/-- The query step's window holds the step at every point. -/
theorem iblk_sq (c : Dev nD) (t : Fin cfg4.N) : (iblk4 V c 5 t : Vec Ideal S1x1 .f32) = V c main_v74 := by
  obtain ⟨e0, e1, -⟩ := idx_steps t
  funext y
  unfold iblk4
  rw [View.read_apply]
  show (V c main_v74 : S1x1.Idx → EReal) _ = V c main_v74 y
  congr 1
  funext a
  apply Fin.ext
  match a with
  | ⟨0, _⟩ => show win4_5.index t (0 : Fin 2) * 1 + 1 * (y 0).val = (y 0).val; rw [e0]; omega
  | ⟨1, _⟩ => show win4_5.index t (1 : Fin 2) * 1 + 1 * (y 1).val = (y 1).val; rw [e1]; omega

/-- The key step's window holds the step at every point. -/
theorem iblk_sk (c : Dev nD) (t : Fin cfg4.N) : (iblk4 V c 6 t : Vec Ideal S1x1 .f32) = V c main_v75 := by
  obtain ⟨-, -, e0, e1, -⟩ := idx_steps t
  funext y
  unfold iblk4
  rw [View.read_apply]
  show (V c main_v75 : S1x1.Idx → EReal) _ = V c main_v75 y
  congr 1
  funext a
  apply Fin.ext
  match a with
  | ⟨0, _⟩ => show win4_6.index t (0 : Fin 2) * 1 + 1 * (y 0).val = (y 0).val; rw [e0]; omega
  | ⟨1, _⟩ => show win4_6.index t (1 : Fin 2) * 1 + 1 * (y 1).val = (y 1).val; rw [e1]; omega

/-- The value step's window holds the step at every point. -/
theorem iblk_sv (c : Dev nD) (t : Fin cfg4.N) : (iblk4 V c 7 t : Vec Ideal S1x1 .f32) = V c main_v76 := by
  obtain ⟨-, -, -, -, e0, e1, -⟩ := idx_steps t
  funext y
  unfold iblk4
  rw [View.read_apply]
  show (V c main_v76 : S1x1.Idx → EReal) _ = V c main_v76 y
  congr 1
  funext a
  apply Fin.ext
  match a with
  | ⟨0, _⟩ => show win4_7.index t (0 : Fin 2) * 1 + 1 * (y 0).val = (y 0).val; rw [e0]; omega
  | ⟨1, _⟩ => show win4_7.index t (1 : Fin 2) * 1 + 1 * (y 1).val = (y 1).val; rw [e1]; omega

/-- The attention-weight step's window holds the step at every point. -/
theorem iblk_sa (c : Dev nD) (t : Fin cfg4.N) : (iblk4 V c 8 t : Vec Ideal S1x1 .f32) = V c main_v77 := by
  obtain ⟨-, -, -, -, -, -, e0, e1⟩ := idx_steps t
  funext y
  unfold iblk4
  rw [View.read_apply]
  show (V c main_v77 : S1x1.Idx → EReal) _ = V c main_v77 y
  congr 1
  funext a
  apply Fin.ext
  match a with
  | ⟨0, _⟩ => show win4_8.index t (0 : Fin 2) * 1 + 1 * (y 0).val = (y 0).val; rw [e0]; omega
  | ⟨1, _⟩ => show win4_8.index t (1 : Fin 2) * 1 + 1 * (y 1).val = (y 1).val; rw [e1]; omega

/-! ## What a point writes back -/

/-- What point t writes back is block t of the attention output of the whole arrays. -/
theorem flushed_eq (c : Dev nD) (t : Fin cfg4.N) :
    (dat4 V c).flushed 9 t = ((cfg4.win 9).blk t).view.read (Elt Ideal) (result V c) := by
  obtain ⟨e0, e1, e2, e3⟩ := idx_o t
  have hN : grid4.N = 32 := N_4
  have ht : t.val < 32 := hN ▸ t.isLt
  show (cfg4.win 9).cut (grid4.coords t) ((dat4 V c).after 9 t) = _
  rw [after4_9]
  unfold out4_9
  rw [View.canon_unit_zero hz4]
  simp only [View.ld_unit_zero (S := S1x1) hz2, View.ld_unit_zero (S := S1x1x2048x64) hz4, View.ld_unit_zero (S := S1x1x2048x1) hz4]
  funext y
  obtain ⟨a0, a1, n, f, rfl⟩ : ∃ (a0 a1 : Fin 1) (n : Fin 2048) (f : Fin 64), y = ix4 a0 a1 n f := ⟨y 0, y 1, y 2, y 3, eq_ix4 y⟩
  obtain rfl : a0 = 0 := Subsingleton.elim _ _
  obtain rfl : a1 = 0 := Subsingleton.elim _ _
  refine (Cert.KernelIdeal.OutBody.body_apply (iblk4 V c 0 t) (iblk4 V c 1 t) (iblk4 V c 2 t) (iblk4 V c 3 t) (iblk4 V c 4 t)
    (iblk4 V c 5 t) (iblk4 V c 6 t) (iblk4 V c 7 t) (iblk4 V c 8 t) n f).trans ?_
  rw [iblk_sq V c t, iblk_sk V c t, iblk_sv V c t, iblk_sa V c t]
  rw [View.read_apply]
  have hb : t.val / 16 < 2 := by omega
  have hh : t.val % 16 < 16 := by omega
  have hemb : ((cfg4.win 9).blk t).view.emb (ix4 0 0 n f)
      = (ix4 (⟨t.val / 16, hb⟩ : Fin 2) (⟨t.val % 16, hh⟩ : Fin 16) n f : S2x16x2048x64.Idx) := by
    funext a
    apply Fin.ext
    match a with
    | ⟨0, _⟩ => show win4_9.index t (0 : Fin 4) * 1 + 1 * 0 = t.val / 16; rw [e0]; omega
    | ⟨1, _⟩ => show win4_9.index t (1 : Fin 4) * 1 + 1 * 0 = t.val % 16; rw [e1]; omega
    | ⟨2, _⟩ => show win4_9.index t (2 : Fin 4) * 2048 + 1 * n.val = n.val; rw [e2]; omega
    | ⟨3, _⟩ => show win4_9.index t (3 : Fin 4) * 64 + 1 * f.val = f.val; rw [e3]; omega
  rw [hemb]
  refine Eq.trans ?_ (attnOut_apply (V c main_v62) (V c main_v64) (V c main_v66) (V c main_v69_0) (V c main_v69_1) _ _ _ _
    ⟨t.val / 16, hb⟩ ⟨t.val % 16, hh⟩ n f).symm
  refine Finset.sum_congr rfl fun j _ => ?_
  refine congrArg₂ (fun a b : EReal => a * b) ?_ ?_
  · refine Cert.KernelIdeal.OutBody.weight_congr _ ?_ (iblk_m V c t ⟨t.val / 16, hb⟩ ⟨t.val % 16, hh⟩ rfl rfl n) (iblk_l V c t ⟨t.val / 16, hb⟩ ⟨t.val % 16, hh⟩ rfl rfl n)
    exact Finset.sum_congr rfl fun c' _ => congrArg₂ (fun a b : EReal => fq _ a * fq _ b)
      (iblk_q V c t ⟨t.val / 16, hb⟩ ⟨t.val % 16, hh⟩ rfl rfl n c') (iblk_k V c t ⟨t.val / 16, hb⟩ ⟨t.val % 16, hh⟩ rfl rfl j c')
  · exact congrArg (fq _) (iblk_v V c t ⟨t.val / 16, hb⟩ ⟨t.val % 16, hh⟩ rfl rfl j f)

/-! ## The blocks tile the output array -/

/-- An index of the output array is in point t's block iff each coordinate is in the block's range on its axis. -/
theorem mem_blk (t : Fin cfg4.N) (i : S2x16x2048x64.Idx) :
    i ∈ ((cfg4.win 9).blk t).view.set ↔ ∀ a : Fin 4, win4_9.index t a * S1x1x2048x64.size a ≤ (i a).val ∧ (i a).val < win4_9.index t a * S1x1x2048x64.size a + S1x1x2048x64.size a := by
  show i ∈ ((View.whole main_v78).slice (win4_9.rect t)).set ↔ _
  rw [View.set_slice_whole, Rect.mem_set_unit]
  exact Iff.rfl

/-- Batch b, head h is written by point 16 b + h: the 32 blocks tile the output array. -/
theorem cover (i : S2x16x2048x64.Idx) : ∃ t : Fin cfg4.N, (cfg4.win 9).flush t = true ∧ i ∈ ((cfg4.win 9).blk t).view.set := by
  have hi0 : (i 0).val < 2 := (i 0).isLt
  have hi1 : (i 1).val < 16 := (i 1).isLt
  have hi2 : (i 2).val < 2048 := (i 2).isLt
  have hi3 : (i 3).val < 64 := (i 3).isLt
  have hN : grid4.N = 32 := N_4
  have hlt : 16 * (i 0).val + (i 1).val < grid4.N := by omega
  refine ⟨⟨16 * (i 0).val + (i 1).val, hlt⟩, flush4_9 _, ?_⟩
  obtain ⟨e0, e1, e2, e3⟩ := idx_o ⟨16 * (i 0).val + (i 1).val, hlt⟩
  rw [mem_blk]
  intro a
  match a with
  | ⟨0, _⟩ => show win4_9.index ⟨16 * (i 0).val + (i 1).val, hlt⟩ (0 : Fin 4) * 1 ≤ (i 0).val ∧ (i 0).val < win4_9.index ⟨16 * (i 0).val + (i 1).val, hlt⟩ (0 : Fin 4) * 1 + 1; rw [e0]; show (16 * (i 0).val + (i 1).val) / 16 * 1 ≤ _ ∧ _ < (16 * (i 0).val + (i 1).val) / 16 * 1 + 1; omega
  | ⟨1, _⟩ => show win4_9.index ⟨16 * (i 0).val + (i 1).val, hlt⟩ (1 : Fin 4) * 1 ≤ (i 1).val ∧ (i 1).val < win4_9.index ⟨16 * (i 0).val + (i 1).val, hlt⟩ (1 : Fin 4) * 1 + 1; rw [e1]; show (16 * (i 0).val + (i 1).val) % 16 * 1 ≤ _ ∧ _ < (16 * (i 0).val + (i 1).val) % 16 * 1 + 1; omega
  | ⟨2, _⟩ => show win4_9.index ⟨16 * (i 0).val + (i 1).val, hlt⟩ (2 : Fin 4) * 2048 ≤ (i 2).val ∧ (i 2).val < win4_9.index ⟨16 * (i 0).val + (i 1).val, hlt⟩ (2 : Fin 4) * 2048 + 2048; rw [e2]; omega
  | ⟨3, _⟩ => show win4_9.index ⟨16 * (i 0).val + (i 1).val, hlt⟩ (3 : Fin 4) * 64 ≤ (i 3).val ∧ (i 3).val < win4_9.index ⟨16 * (i 0).val + (i 1).val, hlt⟩ (3 : Fin 4) * 64 + 64; rw [e3]; omega

/-- THE OUTPUT ARRAY after the region: the attention output of the whole head arrays found at entry, with the row
    statistics and steps found at entry. -/
theorem final (c : Dev nD) : (dat4 V c).arrAt 9 cfg4.N = result V c :=
  (dat4 V c).arrAt_eq_of_cover 9 (result V c) (fun t _ => flushed_eq V c t) cover

end Cert.KernelIdeal.OutRegion

end
-- ==== Proof.QmmBody.lean ====
/-
  The body of the quantised linear layer, read at an index.

  The body divides its activation block and its weight matrix by their steps, clamps, rounds and multiplies the steps
  back, multiplies the two quantised matrices into a zero accumulator, and adds the bias row to every row. Read at row
  `p` and output feature `q` that is the sum over the input features of quantised activation times quantised weight,
  plus the bias at `q`: the layer of `Cert.QAttn.qmm` on the block.
-/
import proofs.«148380_j86835648790565_1_alg».proof.Proof.Gen.KernelIdeal.Skeleton
import proofs.«148380_j86835648790565_1_alg».proof.Proof.QuantSpec
import proofs.«148380_j86835648790565_1_alg».proof.Proof.LibPlainDot
import Idealize.ShloMosaic.Lib.Pipeline.Value
import Idealize.ShloMosaic.Lib.ValueIdx

noncomputable section

namespace Cert.KernelIdeal.QmmBody

open Idealize.ShloMosaic Idealize.ShloMosaic.ValueIdx Idealize.ShloMosaic.Pipeline Cert.KernelIdeal Cert.KernelIdeal.Gen Cert.QAttn

/-- The one entry of a 1 × 1 block. -/
theorem extract00 (v : Vec Ideal S1x1 .f32) : extractAt ![0, 0] v inpos_S1x1_p0_0 = v (ix2 0 0) :=
  congrArg v (funext fun a => Fin.ext (by match a with | ⟨0, _⟩ => rfl | ⟨1, _⟩ => rfl))

/-- The bias row broadcast to every row of the block. -/
theorem bias_row (b : Vec Ideal S1x1024 .f32) (p : Fin 512) (q : Fin 1024) :
    broadcastTo S512x1024 (shapeCast S1x1024 b shapeCasts_S1x1024_S1x1024) broadcasts_S1x1024_S512x1024 (ix2 p q) = b (ix2 0 q) := by
  rw [shapeCast_self]
  refine broadcastTo_apply b _ (ix2 p q) (ix2 0 q) fun a => ?_
  match a with
  | ⟨0, _⟩ => rfl
  | ⟨1, _⟩ => rfl

/-- The layer's body is the quantised linear layer of its blocks. -/
theorem k0_pay1_eq (v0 v2 : Vec Ideal S1x1 .f32) (v4 : Vec Ideal S512x1024 .f32) (v16 : Vec Ideal S1024x1024 .f32)
    (v29 : Vec Ideal S1x1024 .f32) :
    k0_pay1 (F := Ideal) v0 v2 v4 v16 v29 = qmm v4 v16 v29 (v0 (ix2 0 0)) (v2 (ix2 0 0)) := by
  funext j
  obtain ⟨p, q, rfl⟩ : ∃ (p : Fin 512) (q : Fin 1024), j = ix2 p q := ⟨j 0, j 1, eq_ix2 j⟩
  unfold k0_pay1 qmm
  rw [extract00 v0, extract00 v2]
  simp only [shapeCast_self (s := S512x1024), shapeCast_self (s := S1024x1024)]
  refine congrArg₂ (fun a b : EReal => a + b) ?_ (bias_row v29 p q)
  refine (Cert.LibPlainDot.plain_matmul_apply (M := 512) (K := 1024) (N := 1024) none _ _ (ix2 p q)).trans ?_
  exact Finset.sum_congr rfl fun k _ => rfl

/-- The other three launches of the layer have the same body. -/
theorem k1_pay1_eq (v0 v2 : Vec Ideal S1x1 .f32) (v4 : Vec Ideal S512x1024 .f32) (v16 : Vec Ideal S1024x1024 .f32)
    (v29 : Vec Ideal S1x1024 .f32) :
    k1_pay1 (F := Ideal) v0 v2 v4 v16 v29 = qmm v4 v16 v29 (v0 (ix2 0 0)) (v2 (ix2 0 0)) :=
  (show k1_pay1 (F := Ideal) v0 v2 v4 v16 v29 = k0_pay1 (F := Ideal) v0 v2 v4 v16 v29 from rfl).trans (k0_pay1_eq v0 v2 v4 v16 v29)
theorem k2_pay1_eq (v0 v2 : Vec Ideal S1x1 .f32) (v4 : Vec Ideal S512x1024 .f32) (v16 : Vec Ideal S1024x1024 .f32)
    (v29 : Vec Ideal S1x1024 .f32) :
    k2_pay1 (F := Ideal) v0 v2 v4 v16 v29 = qmm v4 v16 v29 (v0 (ix2 0 0)) (v2 (ix2 0 0)) :=
  (show k2_pay1 (F := Ideal) v0 v2 v4 v16 v29 = k0_pay1 (F := Ideal) v0 v2 v4 v16 v29 from rfl).trans (k0_pay1_eq v0 v2 v4 v16 v29)
theorem k5_pay1_eq (v0 v2 : Vec Ideal S1x1 .f32) (v4 : Vec Ideal S512x1024 .f32) (v16 : Vec Ideal S1024x1024 .f32)
    (v29 : Vec Ideal S1x1024 .f32) :
    k5_pay1 (F := Ideal) v0 v2 v4 v16 v29 = qmm v4 v16 v29 (v0 (ix2 0 0)) (v2 (ix2 0 0)) :=
  (show k5_pay1 (F := Ideal) v0 v2 v4 v16 v29 = k0_pay1 (F := Ideal) v0 v2 v4 v16 v29 from rfl).trans (k0_pay1_eq v0 v2 v4 v16 v29)

end Cert.KernelIdeal.QmmBody

end
-- ==== Proof.QmmRegion0.lean ====
/-
  Region 0: the quantised linear layer of the first projection, as one function of the arrays the region finds.

  The grid has eight points; point `t` reads rows 512 t … 512 t + 511 of the activations, the whole (transposed)
  weight matrix, the bias row and the two steps, and writes the same rows of the result. A result row depends on the
  same activation row only, so the eight written blocks are the row blocks of ONE array: the layer applied to the whole
  activation matrix. The blocks tile the 4096 rows, so the result array ends holding exactly that.
-/
import proofs.«148380_j86835648790565_1_alg».proof.Proof.Gen.KernelIdeal.Frame
import proofs.«148380_j86835648790565_1_alg».proof.Proof.QmmBody

set_option maxRecDepth 16384

noncomputable section

namespace Cert.KernelIdeal.QmmRegion0

open Idealize.ShloMosaic Idealize.ShloMosaic.TcCoe Idealize.ShloMosaic.ValueIdx Idealize.ShloMosaic.Pipeline
open Idealize.SL.Sem Cert.KernelIdeal Cert.KernelIdeal.Gen Cert.QAttn

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the activation and result windows move one row block per point, the other
    windows stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer applied to the whole activation matrix the region finds. -/
abbrev result (c : Dev nD) : S4096x1024.Idx → EReal :=
  qmm (V c main_v28) (V c main_v31) (V c main_v34) ((V c main_v32 : S1x1.Idx → EReal) (ix2 0 0)) ((V c main_v33 : S1x1.Idx → EReal) (ix2 0 0))

/-- Row `p` of the activation block at point `t` is row `512 t + p` of the activation matrix. -/
theorem iblk_act (c : Dev nD) (t : Fin cfg0.N) (p : Fin 512) (k : Fin 1024) (r : Fin 4096) (hr : r.val = 512 * t.val + p.val) :
    (iblk0 V c 0 t : Vec Ideal S512x1024 .f32) (ix2 p k) = (V c main_v28 : S4096x1024.Idx → EReal) (ix2 r k) := by
  obtain ⟨e0, e1, -⟩ := idx_facts t
  unfold iblk0
  rw [View.read_apply]
  show (V c main_v28 : S4096x1024.Idx → EReal) _ = V c main_v28 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- The weight window's block is the whole weight matrix at every point. -/
theorem iblk_w (c : Dev nD) (t : Fin cfg0.N) : (iblk0 V c 1 t : Vec Ideal S1024x1024 .f32) = V c main_v31 := by
  obtain ⟨-, -, e0, e1, -⟩ := idx_facts t
  funext y
  unfold iblk0
  rw [View.read_apply]
  show (V c main_v31 : S1024x1024.Idx → EReal) _ = V c main_v31 y
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega

/-- The bias window's block is the whole bias row at every point. -/
theorem iblk_b (c : Dev nD) (t : Fin cfg0.N) : (iblk0 V c 2 t : Vec Ideal S1x1024 .f32) = V c main_v34 := by
  obtain ⟨-, -, -, -, e0, e1, -⟩ := idx_facts t
  funext y
  unfold iblk0
  rw [View.read_apply]
  show (V c main_v34 : S1x1024.Idx → EReal) _ = V c main_v34 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega

/-- The activation step's window holds the step at every point. -/
theorem iblk_sx (c : Dev nD) (t : Fin cfg0.N) : (iblk0 V c 3 t : Vec Ideal S1x1 .f32) = V c main_v32 := by
  obtain ⟨-, -, -, -, -, -, e0, e1, -⟩ := idx_facts t
  funext y
  unfold iblk0
  rw [View.read_apply]
  show (V c main_v32 : S1x1.Idx → EReal) _ = V c main_v32 y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 1 + 1 * (y 1).val = (y 1).val; rw [e1]; omega

/-- The weight step's window holds the step at every point. -/
theorem iblk_sw (c : Dev nD) (t : Fin cfg0.N) : (iblk0 V c 4 t : Vec Ideal S1x1 .f32) = V c main_v33 := by
  obtain ⟨-, -, -, -, -, -, -, -, e0, e1, -⟩ := idx_facts t
  funext y
  unfold iblk0
  rw [View.read_apply]
  show (V c main_v33 : S1x1.Idx → EReal) _ = V c main_v33 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 1 + 1 * (y 1).val = (y 1).val; rw [e1]; omega

/-- What point `t` writes back is block `t` of the layer's result on the whole activation matrix. -/
theorem flushed_eq (c : Dev nD) (t : Fin cfg0.N) :
    (dat0 V c).flushed 5 t = ((cfg0.win 5).blk t).view.read (Elt Ideal) (result V c) := by
  obtain ⟨-, -, -, -, -, -, -, -, -, -, e0, e1⟩ := idx_facts t
  have hN : grid0.N = 8 := N_0
  have ht : t.val < 8 := hN ▸ t.isLt
  show (cfg0.win 5).cut (grid0.coords t) ((dat0 V c).after 5 t) = _
  rw [after0_5]
  unfold out0_5
  rw [View.canon_unit_zero hz2]
  simp only [View.ld_unit_zero (S := S1x1) hz2, View.ld_unit_zero (S := S512x1024) hz2, View.ld_unit_zero (S := S1024x1024) hz2,
    View.ld_unit_zero (S := S1x1024) hz2]
  refine (Cert.KernelIdeal.QmmBody.k0_pay1_eq (iblk0 V c 3 t) (iblk0 V c 4 t) (iblk0 V c 0 t) (iblk0 V c 1 t) (iblk0 V c 2 t)).trans ?_
  rw [iblk_w V c t, iblk_b V c t, iblk_sx V c t, iblk_sw V c t]
  funext j
  obtain ⟨p, q, rfl⟩ : ∃ (p : Fin 512) (q : Fin 1024), j = ix2 p q := ⟨j 0, j 1, eq_ix2 j⟩
  have hp : p.val < 512 := p.isLt
  rw [View.read_apply]
  have hemb : ((cfg0.win 5).blk t).view.emb (ix2 p q) = (ix2 (⟨512 * t.val + p.val, by omega⟩ : Fin 4096) q : S4096x1024.Idx) := by
    funext a
    apply Fin.ext
    match a with
    | ⟨0, _⟩ => show win0_5.index t (0 : Fin 2) * 512 + 1 * p.val = 512 * t.val + p.val; rw [e0]; omega
    | ⟨1, _⟩ => show win0_5.index t (1 : Fin 2) * 1024 + 1 * q.val = q.val; rw [e1]; omega
  rw [hemb]
  exact qmm_row _ _ _ _ _ _ p ⟨512 * t.val + p.val, by omega⟩ q fun k => iblk_act V c t p k _ rfl

/-- An index of the result array is in point `t`'s block iff each coordinate is in the block's range on its axis. -/
theorem mem_blk (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v35).slice (win0_5.rect t)).set ↔ _
  rw [View.set_slice_whole, Rect.mem_set_unit]
  exact Iff.rfl

/-- Row `r` is written by point `r / 512`: the eight blocks tile the result array. -/
theorem cover (i : S4096x1024.Idx) : ∃ t : Fin cfg0.N, (cfg0.win 5).flush t = true ∧ i ∈ ((cfg0.win 5).blk t).view.set := by
  have hi0 : (i 0).val < 4096 := (i 0).isLt
  have hi1 : (i 1).val < 1024 := (i 1).isLt
  have hN : grid0.N = 8 := N_0
  have hlt : (i 0).val / 512 < grid0.N := by omega
  refine ⟨⟨(i 0).val / 512, hlt⟩, flush0_5 _, ?_⟩
  obtain ⟨-, -, -, -, -, -, -, -, -, -, e0, e1⟩ := idx_facts ⟨(i 0).val / 512, hlt⟩
  rw [mem_blk]
  intro a
  match a with
  | ⟨0, _⟩ => show win0_5.index ⟨(i 0).val / 512, hlt⟩ (0 : Fin 2) * 512 ≤ (i 0).val ∧ (i 0).val < win0_5.index ⟨(i 0).val / 512, hlt⟩ (0 : Fin 2) * 512 + 512; rw [e0]; show (i 0).val / 512 * 512 ≤ _ ∧ _ < (i 0).val / 512 * 512 + 512; omega
  | ⟨1, _⟩ => show win0_5.index ⟨(i 0).val / 512, hlt⟩ (1 : Fin 2) * 1024 ≤ (i 1).val ∧ (i 1).val < win0_5.index ⟨(i 0).val / 512, hlt⟩ (1 : Fin 2) * 1024 + 1024; rw [e1]; omega

/-- THE RESULT ARRAY after the region: the layer applied to the whole activation matrix found at entry. -/
theorem final (c : Dev nD) : (dat0 V c).arrAt 5 cfg0.N = result V c :=
  (dat0 V c).arrAt_eq_of_cover 5 (result V c) (fun t _ => flushed_eq V c t) cover

end Cert.KernelIdeal.QmmRegion0

end
-- ==== Proof.QmmRegion1.lean ====
/-
  Region 1: the quantised linear layer of the key projection, as one function of the arrays the region finds.

  The grid has eight points; point `t` reads rows 512 t … 512 t + 511 of the activations, the whole (transposed)
  weight matrix, the bias row and the two steps, and writes the same rows of the result. A result row depends on the
  same activation row only, so the eight written blocks are the row blocks of ONE array: the layer applied to the whole
  activation matrix. The blocks tile the 4096 rows, so the result array ends holding exactly that.
-/
import proofs.«148380_j86835648790565_1_alg».proof.Proof.Gen.KernelIdeal.Frame
import proofs.«148380_j86835648790565_1_alg».proof.Proof.QmmBody

set_option maxRecDepth 16384

noncomputable section

namespace Cert.KernelIdeal.QmmRegion1

open Idealize.ShloMosaic Idealize.ShloMosaic.TcCoe Idealize.ShloMosaic.ValueIdx Idealize.ShloMosaic.Pipeline
open Idealize.SL.Sem Cert.KernelIdeal Cert.KernelIdeal.Gen Cert.QAttn

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the activation and result windows move one row block per point, the other
    windows stay at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer applied to the whole activation matrix the region finds. -/
abbrev result (c : Dev nD) : S4096x1024.Idx → EReal :=
  qmm (V c main_v29) (V c main_v37) (V c main_v40) ((V c main_v38 : S1x1.Idx → EReal) (ix2 0 0)) ((V c main_v39 : S1x1.Idx → EReal) (ix2 0 0))

/-- Row `p` of the activation block at point `t` is row `512 t + p` of the activation matrix. -/
theorem iblk_act (c : Dev nD) (t : Fin cfg1.N) (p : Fin 512) (k : Fin 1024) (r : Fin 4096) (hr : r.val = 512 * t.val + p.val) :
    (iblk1 V c 0 t : Vec Ideal S512x1024 .f32) (ix2 p k) = (V c main_v29 : S4096x1024.Idx → EReal) (ix2 r k) := by
  obtain ⟨e0, e1, -⟩ := idx_facts t
  unfold iblk1
  rw [View.read_apply]
  show (V c main_v29 : S4096x1024.Idx → EReal) _ = V c main_v29 _
  congr 1
  funext a
  apply Fin.ext
  match a with
  | ⟨0, _⟩ => show win1_0.index t (0 : Fin 2) * 512 + 1 * p.val = r.val; rw [e0, hr]; omega
  | ⟨1, _⟩ => show win1_0.index t (1 : Fin 2) * 1024 + 1 * k.val = k.val; rw [e1]; omega

/-- The weight window's block is the whole weight matrix at every point. -/
theorem iblk_w (c : Dev nD) (t : Fin cfg1.N) : (iblk1 V c 1 t : Vec Ideal S1024x1024 .f32) = V c main_v37 := by
  obtain ⟨-, -, e0, e1, -⟩ := idx_facts t
  funext y
  unfold iblk1
  rw [View.read_apply]
  show (V c main_v37 : S1024x1024.Idx → EReal) _ = V c main_v37 y
  congr 1
  funext a
  apply Fin.ext
  match a with
  | ⟨0, _⟩ => show win1_1.index t (0 : Fin 2) * 1024 + 1 * (y 0).val = (y 0).val; rw [e0]; omega
  | ⟨1, _⟩ => show win1_1.index t (1 : Fin 2) * 1024 + 1 * (y 1).val = (y 1).val; rw [e1]; omega

/-- The bias window's block is the whole bias row at every point. -/
theorem iblk_b (c : Dev nD) (t : Fin cfg1.N) : (iblk1 V c 2 t : Vec Ideal S1x1024 .f32) = V c main_v40 := by
  obtain ⟨-, -, -, -, e0, e1, -⟩ := idx_facts t
  funext y
  unfold iblk1
  rw [View.read_apply]
  show (V c main_v40 : S1x1024.Idx → EReal) _ = V c main_v40 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 1024 + 1 * (y 1).val = (y 1).val; rw [e1]; omega

/-- The activation step's window holds the step at every point. -/
theorem iblk_sx (c : Dev nD) (t : Fin cfg1.N) : (iblk1 V c 3 t : Vec Ideal S1x1 .f32) = V c main_v38 := by
  obtain ⟨-, -, -, -, -, -, e0, e1, -⟩ := idx_facts t
  funext y
  unfold iblk1
  rw [View.read_apply]
  show (V c main_v38 : S1x1.Idx → EReal) _ = V c main_v38 y
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 1 + 1 * (y 1).val = (y 1).val; rw [e1]; omega

/-- The weight step's window holds the step at every point. -/
theorem iblk_sw (c : Dev nD) (t : Fin cfg1.N) : (iblk1 V c 4 t : Vec Ideal S1x1 .f32) = V c main_v39 := by
  obtain ⟨-, -, -, -, -, -, -, -, e0, e1, -⟩ := idx_facts t
  funext y
  unfold iblk1
  rw [View.read_apply]
  show (V c main_v39 : S1x1.Idx → EReal) _ = V c main_v39 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 1 + 1 * (y 1).val = (y 1).val; rw [e1]; omega

/-- What point `t` writes back is block `t` of the layer's result on the whole activation matrix. -/
theorem flushed_eq (c : Dev nD) (t : Fin cfg1.N) :
    (dat1 V c).flushed 5 t = ((cfg1.win 5).blk t).view.read (Elt Ideal) (result V c) := by
  obtain ⟨-, -, -, -, -, -, -, -, -, -, e0, e1⟩ := idx_facts t
  have hN : grid1.N = 8 := N_1
  have ht : t.val < 8 := hN ▸ t.isLt
  show (cfg1.win 5).cut (grid1.coords t) ((dat1 V c).after 5 t) = _
  rw [after1_5]
  unfold out1_5
  rw [View.canon_unit_zero hz2]
  simp only [View.ld_unit_zero (S := S1x1) hz2, View.ld_unit_zero (S := S512x1024) hz2, View.ld_unit_zero (S := S1024x1024) hz2,
    View.ld_unit_zero (S := S1x1024) hz2]
  refine (Cert.KernelIdeal.QmmBody.k1_pay1_eq (iblk1 V c 3 t) (iblk1 V c 4 t) (iblk1 V c 0 t) (iblk1 V c 1 t) (iblk1 V c 2 t)).trans ?_
  rw [iblk_w V c t, iblk_b V c t, iblk_sx V c t, iblk_sw V c t]
  funext j
  obtain ⟨p, q, rfl⟩ : ∃ (p : Fin 512) (q : Fin 1024), j = ix2 p q := ⟨j 0, j 1, eq_ix2 j⟩
  have hp : p.val < 512 := p.isLt
  rw [View.read_apply]
  have hemb : ((cfg1.win 5).blk t).view.emb (ix2 p q) = (ix2 (⟨512 * t.val + p.val, by omega⟩ : Fin 4096) q : S4096x1024.Idx) := by
    funext a
    apply Fin.ext
    match a with
    | ⟨0, _⟩ => show win1_5.index t (0 : Fin 2) * 512 + 1 * p.val = 512 * t.val + p.val; rw [e0]; omega
    | ⟨1, _⟩ => show win1_5.index t (1 : Fin 2) * 1024 + 1 * q.val = q.val; rw [e1]; omega
  rw [hemb]
  exact qmm_row _ _ _ _ _ _ p ⟨512 * t.val + p.val, by omega⟩ q fun k => iblk_act V c t p k _ rfl

/-- An index of the result array is in point `t`'s block iff each coordinate is in the block's range on its axis. -/
theorem mem_blk (t : Fin cfg1.N) (i : S4096x1024.Idx) :
    i ∈ ((cfg1.win 5).blk t).view.set ↔ ∀ a : Fin 2, win1_5.index t a * S512x1024.size a ≤ (i a).val ∧ (i a).val < win1_5.index t a * S512x1024.size a + S512x1024.size a := by
  show i ∈ ((View.whole main_v41).slice (win1_5.rect t)).set ↔ _
  rw [View.set_slice_whole, Rect.mem_set_unit]
  exact Iff.rfl

/-- Row `r` is written by point `r / 512`: the eight blocks tile the result array. -/
theorem cover (i : S4096x1024.Idx) : ∃ t : Fin cfg1.N, (cfg1.win 5).flush t = true ∧ i ∈ ((cfg1.win 5).blk t).view.set := by
  have hi0 : (i 0).val < 4096 := (i 0).isLt
  have hi1 : (i 1).val < 1024 := (i 1).isLt
  have hN : grid1.N = 8 := N_1
  have hlt : (i 0).val / 512 < grid1.N := by omega
  refine ⟨⟨(i 0).val / 512, hlt⟩, flush1_5 _, ?_⟩
  obtain ⟨-, -, -, -, -, -, -, -, -, -, e0, e1⟩ := idx_facts ⟨(i 0).val / 512, hlt⟩
  rw [mem_blk]
  intro a
  match a with
  | ⟨0, _⟩ => show win1_5.index ⟨(i 0).val / 512, hlt⟩ (0 : Fin 2) * 512 ≤ (i 0).val ∧ (i 0).val < win1_5.index ⟨(i 0).val / 512, hlt⟩ (0 : Fin 2) * 512 + 512; rw [e0]; show (i 0).val / 512 * 512 ≤ _ ∧ _ < (i 0).val / 512 * 512 + 512; omega
  | ⟨1, _⟩ => show win1_5.index ⟨(i 0).val / 512, hlt⟩ (1 : Fin 2) * 1024 ≤ (i 1).val ∧ (i 1).val < win1_5.index ⟨(i 0).val / 512, hlt⟩ (1 : Fin 2) * 1024 + 1024; rw [e1]; omega

/-- THE RESULT ARRAY after the region: the layer applied to the whole activation matrix found at entry. -/
theorem final (c : Dev nD) : (dat1 V c).arrAt 5 cfg1.N = result V c :=
  (dat1 V c).arrAt_eq_of_cover 5 (result V c) (fun t _ => flushed_eq V c t) cover

end Cert.KernelIdeal.QmmRegion1

end
-- ==== Proof.QmmRegion2.lean ====
/-
  Region 2: the quantised linear layer of the value projection, as one function of the arrays the region finds.

  The grid has eight points; point `t` reads rows 512 t … 512 t + 511 of the activations, the whole (transposed)
  weight matrix, the bias row and the two steps, and writes the same rows of the result. A result row depends on the
  same activation row only, so the eight written blocks are the row blocks of ONE array: the layer applied to the whole
  activation matrix. The blocks tile the 4096 rows, so the result array ends holding exactly that.
-/
import proofs.«148380_j86835648790565_1_alg».proof.Proof.Gen.KernelIdeal.Frame
import proofs.«148380_j86835648790565_1_alg».proof.Proof.QmmBody

set_option maxRecDepth 16384

noncomputable section

namespace Cert.KernelIdeal.QmmRegion2

open Idealize.ShloMosaic Idealize.ShloMosaic.TcCoe Idealize.ShloMosaic.ValueIdx Idealize.ShloMosaic.Pipeline
open Idealize.SL.Sem Cert.KernelIdeal Cert.KernelIdeal.Gen Cert.QAttn

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the activation and result windows move one row block per point, the other
    windows stay at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The layer applied to the whole activation matrix the region finds. -/
abbrev result (c : Dev nD) : S4096x1024.Idx → EReal :=
  qmm (V c main_v30) (V c main_v43) (V c main_v46) ((V c main_v44 : S1x1.Idx → EReal) (ix2 0 0)) ((V c main_v45 : S1x1.Idx → EReal) (ix2 0 0))

/-- Row `p` of the activation block at point `t` is row `512 t + p` of the activation matrix. -/
theorem iblk_act (c : Dev nD) (t : Fin cfg2.N) (p : Fin 512) (k : Fin 1024) (r : Fin 4096) (hr : r.val = 512 * t.val + p.val) :
    (iblk2 V c 0 t : Vec Ideal S512x1024 .f32) (ix2 p k) = (V c main_v30 : S4096x1024.Idx → EReal) (ix2 r k) := by
  obtain ⟨e0, e1, -⟩ := idx_facts t
  unfold iblk2
  rw [View.read_apply]
  show (V c main_v30 : S4096x1024.Idx → EReal) _ = V c main_v30 _
  congr 1
  funext a
  apply Fin.ext
  match a with
  | ⟨0, _⟩ => show win2_0.index t (0 : Fin 2) * 512 + 1 * p.val = r.val; rw [e0, hr]; omega
  | ⟨1, _⟩ => show win2_0.index t (1 : Fin 2) * 1024 + 1 * k.val = k.val; rw [e1]; omega

/-- The weight window's block is the whole weight matrix at every point. -/
theorem iblk_w (c : Dev nD) (t : Fin cfg2.N) : (iblk2 V c 1 t : Vec Ideal S1024x1024 .f32) = V c main_v43 := by
  obtain ⟨-, -, e0, e1, -⟩ := idx_facts t
  funext y
  unfold iblk2
  rw [View.read_apply]
  show (V c main_v43 : S1024x1024.Idx → EReal) _ = V c main_v43 y
  congr 1
  funext a
  apply Fin.ext
  match a with
  | ⟨0, _⟩ => show win2_1.index t (0 : Fin 2) * 1024 + 1 * (y 0).val = (y 0).val; rw [e0]; omega
  | ⟨1, _⟩ => show win2_1.index t (1 : Fin 2) * 1024 + 1 * (y 1).val = (y 1).val; rw [e1]; omega

/-- The bias window's block is the whole bias row at every point. -/
theorem iblk_b (c : Dev nD) (t : Fin cfg2.N) : (iblk2 V c 2 t : Vec Ideal S1x1024 .f32) = V c main_v46 := by
  obtain ⟨-, -, -, -, e0, e1, -⟩ := idx_facts t
  funext y
  unfold iblk2
  rw [View.read_apply]
  show (V c main_v46 : S1x1024.Idx → EReal) _ = V c main_v46 y
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 1024 + 1 * (y 1).val = (y 1).val; rw [e1]; omega

/-- The activation step's window holds the step at every point. -/
theorem iblk_sx (c : Dev nD) (t : Fin cfg2.N) : (iblk2 V c 3 t : Vec Ideal S1x1 .f32) = V c main_v44 := by
  obtain ⟨-, -, -, -, -, -, e0, e1, -⟩ := idx_facts t
  funext y
  unfold iblk2
  rw [View.read_apply]
  show (V c main_v44 : S1x1.Idx → EReal) _ = V c main_v44 y
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 1 + 1 * (y 1).val = (y 1).val; rw [e1]; omega

/-- The weight step's window holds the step at every point. -/
theorem iblk_sw (c : Dev nD) (t : Fin cfg2.N) : (iblk2 V c 4 t : Vec Ideal S1x1 .f32) = V c main_v45 := by
  obtain ⟨-, -, -, -, -, -, -, -, e0, e1, -⟩ := idx_facts t
  funext y
  unfold iblk2
  rw [View.read_apply]
  show (V c main_v45 : S1x1.Idx → EReal) _ = V c main_v45 y
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 1 + 1 * (y 1).val = (y 1).val; rw [e1]; omega

/-- What point `t` writes back is block `t` of the layer's result on the whole activation matrix. -/
theorem flushed_eq (c : Dev nD) (t : Fin cfg2.N) :
    (dat2 V c).flushed 5 t = ((cfg2.win 5).blk t).view.read (Elt Ideal) (result V c) := by
  obtain ⟨-, -, -, -, -, -, -, -, -, -, e0, e1⟩ := idx_facts t
  have hN : grid2.N = 8 := N_2
  have ht : t.val < 8 := hN ▸ t.isLt
  show (cfg2.win 5).cut (grid2.coords t) ((dat2 V c).after 5 t) = _
  rw [after2_5]
  unfold out2_5
  rw [View.canon_unit_zero hz2]
  simp only [View.ld_unit_zero (S := S1x1) hz2, View.ld_unit_zero (S := S512x1024) hz2, View.ld_unit_zero (S := S1024x1024) hz2,
    View.ld_unit_zero (S := S1x1024) hz2]
  refine (Cert.KernelIdeal.QmmBody.k2_pay1_eq (iblk2 V c 3 t) (iblk2 V c 4 t) (iblk2 V c 0 t) (iblk2 V c 1 t) (iblk2 V c 2 t)).trans ?_
  rw [iblk_w V c t, iblk_b V c t, iblk_sx V c t, iblk_sw V c t]
  funext j
  obtain ⟨p, q, rfl⟩ : ∃ (p : Fin 512) (q : Fin 1024), j = ix2 p q := ⟨j 0, j 1, eq_ix2 j⟩
  have hp : p.val < 512 := p.isLt
  rw [View.read_apply]
  have hemb : ((cfg2.win 5).blk t).view.emb (ix2 p q) = (ix2 (⟨512 * t.val + p.val, by omega⟩ : Fin 4096) q : S4096x1024.Idx) := by
    funext a
    apply Fin.ext
    match a with
    | ⟨0, _⟩ => show win2_5.index t (0 : Fin 2) * 512 + 1 * p.val = 512 * t.val + p.val; rw [e0]; omega
    | ⟨1, _⟩ => show win2_5.index t (1 : Fin 2) * 1024 + 1 * q.val = q.val; rw [e1]; omega
  rw [hemb]
  exact qmm_row _ _ _ _ _ _ p ⟨512 * t.val + p.val, by omega⟩ q fun k => iblk_act V c t p k _ rfl

/-- An index of the result array is in point `t`'s block iff each coordinate is in the block's range on its axis. -/
theorem mem_blk (t : Fin cfg2.N) (i : S4096x1024.Idx) :
    i ∈ ((cfg2.win 5).blk t).view.set ↔ ∀ a : Fin 2, win2_5.index t a * S512x1024.size a ≤ (i a).val ∧ (i a).val < win2_5.index t a * S512x1024.size a + S512x1024.size a := by
  show i ∈ ((View.whole main_v47).slice (win2_5.rect t)).set ↔ _
  rw [View.set_slice_whole, Rect.mem_set_unit]
  exact Iff.rfl

/-- Row `r` is written by point `r / 512`: the eight blocks tile the result array. -/
theorem cover (i : S4096x1024.Idx) : ∃ t : Fin cfg2.N, (cfg2.win 5).flush t = true ∧ i ∈ ((cfg2.win 5).blk t).view.set := by
  have hi0 : (i 0).val < 4096 := (i 0).isLt
  have hi1 : (i 1).val < 1024 := (i 1).isLt
  have hN : grid2.N = 8 := N_2
  have hlt : (i 0).val / 512 < grid2.N := by omega
  refine ⟨⟨(i 0).val / 512, hlt⟩, flush2_5 _, ?_⟩
  obtain ⟨-, -, -, -, -, -, -, -, -, -, e0, e1⟩ := idx_facts ⟨(i 0).val / 512, hlt⟩
  rw [mem_blk]
  intro a
  match a with
  | ⟨0, _⟩ => show win2_5.index ⟨(i 0).val / 512, hlt⟩ (0 : Fin 2) * 512 ≤ (i 0).val ∧ (i 0).val < win2_5.index ⟨(i 0).val / 512, hlt⟩ (0 : Fin 2) * 512 + 512; rw [e0]; show (i 0).val / 512 * 512 ≤ _ ∧ _ < (i 0).val / 512 * 512 + 512; omega
  | ⟨1, _⟩ => show win2_5.index ⟨(i 0).val / 512, hlt⟩ (1 : Fin 2) * 1024 ≤ (i 1).val ∧ (i 1).val < win2_5.index ⟨(i 0).val / 512, hlt⟩ (1 : Fin 2) * 1024 + 1024; rw [e1]; omega

/-- THE RESULT ARRAY after the region: the layer applied to the whole activation matrix found at entry. -/
theorem final (c : Dev nD) : (dat2 V c).arrAt 5 cfg2.N = result V c :=
  (dat2 V c).arrAt_eq_of_cover 5 (result V c) (fun t _ => flushed_eq V c t) cover

end Cert.KernelIdeal.QmmRegion2

end
-- ==== Proof.QmmRegion5.lean ====
/-
  Region 5: the quantised linear layer of the output projection, as one function of the arrays the region finds.

  The grid has eight points; point `t` reads rows 512 t … 512 t + 511 of the activations, the whole (transposed)
  weight matrix, the bias row and the two steps, and writes the same rows of the result. A result row depends on the
  same activation row only, so the eight written blocks are the row blocks of ONE array: the layer applied to the whole
  activation matrix. The blocks tile the 4096 rows, so the result array ends holding exactly that.
-/
import proofs.«148380_j86835648790565_1_alg».proof.Proof.Gen.KernelIdeal.Frame
import proofs.«148380_j86835648790565_1_alg».proof.Proof.QmmBody

set_option maxRecDepth 16384

noncomputable section

namespace Cert.KernelIdeal.QmmRegion5

open Idealize.ShloMosaic Idealize.ShloMosaic.TcCoe Idealize.ShloMosaic.ValueIdx Idealize.ShloMosaic.Pipeline
open Idealize.SL.Sem Cert.KernelIdeal Cert.KernelIdeal.Gen Cert.QAttn

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the activation and result windows move one row block per point, the other
    windows stay at the origin. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The layer applied to the whole activation matrix the region finds. -/
abbrev result (c : Dev nD) : S4096x1024.Idx → EReal :=
  qmm (V c main_v85) (V c main_v86) (V c main_v89) ((V c main_v87 : S1x1.Idx → EReal) (ix2 0 0)) ((V c main_v88 : S1x1.Idx → EReal) (ix2 0 0))

/-- Row `p` of the activation block at point `t` is row `512 t + p` of the activation matrix. -/
theorem iblk_act (c : Dev nD) (t : Fin cfg5.N) (p : Fin 512) (k : Fin 1024) (r : Fin 4096) (hr : r.val = 512 * t.val + p.val) :
    (iblk5 V c 0 t : Vec Ideal S512x1024 .f32) (ix2 p k) = (V c main_v85 : S4096x1024.Idx → EReal) (ix2 r k) := by
  obtain ⟨e0, e1, -⟩ := idx_facts t
  unfold iblk5
  rw [View.read_apply]
  show (V c main_v85 : S4096x1024.Idx → EReal) _ = V c main_v85 _
  congr 1
  funext a
  apply Fin.ext
  match a with
  | ⟨0, _⟩ => show win5_0.index t (0 : Fin 2) * 512 + 1 * p.val = r.val; rw [e0, hr]; omega
  | ⟨1, _⟩ => show win5_0.index t (1 : Fin 2) * 1024 + 1 * k.val = k.val; rw [e1]; omega

/-- The weight window's block is the whole weight matrix at every point. -/
theorem iblk_w (c : Dev nD) (t : Fin cfg5.N) : (iblk5 V c 1 t : Vec Ideal S1024x1024 .f32) = V c main_v86 := by
  obtain ⟨-, -, e0, e1, -⟩ := idx_facts t
  funext y
  unfold iblk5
  rw [View.read_apply]
  show (V c main_v86 : S1024x1024.Idx → EReal) _ = V c main_v86 y
  congr 1
  funext a
  apply Fin.ext
  match a with
  | ⟨0, _⟩ => show win5_1.index t (0 : Fin 2) * 1024 + 1 * (y 0).val = (y 0).val; rw [e0]; omega
  | ⟨1, _⟩ => show win5_1.index t (1 : Fin 2) * 1024 + 1 * (y 1).val = (y 1).val; rw [e1]; omega

/-- The bias window's block is the whole bias row at every point. -/
theorem iblk_b (c : Dev nD) (t : Fin cfg5.N) : (iblk5 V c 2 t : Vec Ideal S1x1024 .f32) = V c main_v89 := by
  obtain ⟨-, -, -, -, e0, e1, -⟩ := idx_facts t
  funext y
  unfold iblk5
  rw [View.read_apply]
  show (V c main_v89 : S1x1024.Idx → EReal) _ = V c main_v89 y
  congr 1
  funext a
  apply Fin.ext
  match a with
  | ⟨0, _⟩ => show win5_2.index t (0 : Fin 2) * 1 + 1 * (y 0).val = (y 0).val; rw [e0]; omega
  | ⟨1, _⟩ => show win5_2.index t (1 : Fin 2) * 1024 + 1 * (y 1).val = (y 1).val; rw [e1]; omega

/-- The activation step's window holds the step at every point. -/
theorem iblk_sx (c : Dev nD) (t : Fin cfg5.N) : (iblk5 V c 3 t : Vec Ideal S1x1 .f32) = V c main_v87 := by
  obtain ⟨-, -, -, -, -, -, e0, e1, -⟩ := idx_facts t
  funext y
  unfold iblk5
  rw [View.read_apply]
  show (V c main_v87 : S1x1.Idx → EReal) _ = V c main_v87 y
  congr 1
  funext a
  apply Fin.ext
  match a with
  | ⟨0, _⟩ => show win5_3.index t (0 : Fin 2) * 1 + 1 * (y 0).val = (y 0).val; rw [e0]; omega
  | ⟨1, _⟩ => show win5_3.index t (1 : Fin 2) * 1 + 1 * (y 1).val = (y 1).val; rw [e1]; omega

/-- The weight step's window holds the step at every point. -/
theorem iblk_sw (c : Dev nD) (t : Fin cfg5.N) : (iblk5 V c 4 t : Vec Ideal S1x1 .f32) = V c main_v88 := by
  obtain ⟨-, -, -, -, -, -, -, -, e0, e1, -⟩ := idx_facts t
  funext y
  unfold iblk5
  rw [View.read_apply]
  show (V c main_v88 : S1x1.Idx → EReal) _ = V c main_v88 y
  congr 1
  funext a
  apply Fin.ext
  match a with
  | ⟨0, _⟩ => show win5_4.index t (0 : Fin 2) * 1 + 1 * (y 0).val = (y 0).val; rw [e0]; omega
  | ⟨1, _⟩ => show win5_4.index t (1 : Fin 2) * 1 + 1 * (y 1).val = (y 1).val; rw [e1]; omega

/-- What point `t` writes back is block `t` of the layer's result on the whole activation matrix. -/
theorem flushed_eq (c : Dev nD) (t : Fin cfg5.N) :
    (dat5 V c).flushed 5 t = ((cfg5.win 5).blk t).view.read (Elt Ideal) (result V c) := by
  obtain ⟨-, -, -, -, -, -, -, -, -, -, e0, e1⟩ := idx_facts t
  have hN : grid5.N = 8 := N_5
  have ht : t.val < 8 := hN ▸ t.isLt
  show (cfg5.win 5).cut (grid5.coords t) ((dat5 V c).after 5 t) = _
  rw [after5_5]
  unfold out5_5
  rw [View.canon_unit_zero hz2]
  simp only [View.ld_unit_zero (S := S1x1) hz2, View.ld_unit_zero (S := S512x1024) hz2, View.ld_unit_zero (S := S1024x1024) hz2,
    View.ld_unit_zero (S := S1x1024) hz2]
  refine (Cert.KernelIdeal.QmmBody.k5_pay1_eq (iblk5 V c 3 t) (iblk5 V c 4 t) (iblk5 V c 0 t) (iblk5 V c 1 t) (iblk5 V c 2 t)).trans ?_
  rw [iblk_w V c t, iblk_b V c t, iblk_sx V c t, iblk_sw V c t]
  funext j
  obtain ⟨p, q, rfl⟩ : ∃ (p : Fin 512) (q : Fin 1024), j = ix2 p q := ⟨j 0, j 1, eq_ix2 j⟩
  have hp : p.val < 512 := p.isLt
  rw [View.read_apply]
  have hemb : ((cfg5.win 5).blk t).view.emb (ix2 p q) = (ix2 (⟨512 * t.val + p.val, by omega⟩ : Fin 4096) q : S4096x1024.Idx) := by
    funext a
    apply Fin.ext
    match a with
    | ⟨0, _⟩ => show win5_5.index t (0 : Fin 2) * 512 + 1 * p.val = 512 * t.val + p.val; rw [e0]; omega
    | ⟨1, _⟩ => show win5_5.index t (1 : Fin 2) * 1024 + 1 * q.val = q.val; rw [e1]; omega
  rw [hemb]
  exact qmm_row _ _ _ _ _ _ p ⟨512 * t.val + p.val, by omega⟩ q fun k => iblk_act V c t p k _ rfl

/-- An index of the result array is in point `t`'s block iff each coordinate is in the block's range on its axis. -/
theorem mem_blk (t : Fin cfg5.N) (i : S4096x1024.Idx) :
    i ∈ ((cfg5.win 5).blk t).view.set ↔ ∀ a : Fin 2, win5_5.index t a * S512x1024.size a ≤ (i a).val ∧ (i a).val < win5_5.index t a * S512x1024.size a + S512x1024.size a := by
  show i ∈ ((View.whole main_v90).slice (win5_5.rect t)).set ↔ _
  rw [View.set_slice_whole, Rect.mem_set_unit]
  exact Iff.rfl

/-- Row `r` is written by point `r / 512`: the eight blocks tile the result array. -/
theorem cover (i : S4096x1024.Idx) : ∃ t : Fin cfg5.N, (cfg5.win 5).flush t = true ∧ i ∈ ((cfg5.win 5).blk t).view.set := by
  have hi0 : (i 0).val < 4096 := (i 0).isLt
  have hi1 : (i 1).val < 1024 := (i 1).isLt
  have hN : grid5.N = 8 := N_5
  have hlt : (i 0).val / 512 < grid5.N := by omega
  refine ⟨⟨(i 0).val / 512, hlt⟩, flush5_5 _, ?_⟩
  obtain ⟨-, -, -, -, -, -, -, -, -, -, e0, e1⟩ := idx_facts ⟨(i 0).val / 512, hlt⟩
  rw [mem_blk]
  intro a
  match a with
  | ⟨0, _⟩ => show win5_5.index ⟨(i 0).val / 512, hlt⟩ (0 : Fin 2) * 512 ≤ (i 0).val ∧ (i 0).val < win5_5.index ⟨(i 0).val / 512, hlt⟩ (0 : Fin 2) * 512 + 512; rw [e0]; show (i 0).val / 512 * 512 ≤ _ ∧ _ < (i 0).val / 512 * 512 + 512; omega
  | ⟨1, _⟩ => show win5_5.index ⟨(i 0).val / 512, hlt⟩ (1 : Fin 2) * 1024 ≤ (i 1).val ∧ (i 1).val < win5_5.index ⟨(i 0).val / 512, hlt⟩ (1 : Fin 2) * 1024 + 1024; rw [e1]; omega

/-- THE RESULT ARRAY after the region: the layer applied to the whole activation matrix found at entry. -/
theorem final (c : Dev nD) : (dat5 V c).arrAt 5 cfg5.N = result V c :=
  (dat5 V c).arrAt_eq_of_cover 5 (result V c) (fun t _ => flushed_eq V c t) cover

end Cert.KernelIdeal.QmmRegion5

end
-- ==== Proof.LinearLayout.lean ====
/-
  The quantised linear layer on re-laid operands.

  The kernel feeds the layer the activations flattened to 4096 rows (batch-major), the weight matrix transposed, and
  the bias as a 1 × 1024 row. Row `2048 b + n` of the flattened activations is row `n` of batch `b`, the transposed
  weight at `(k, d)` is the weight at `(d, k)`, so the layer's value at `(2048 b + n, d)` is the sum over input features
  `k` of quantised activation `(b, n, k)` times quantised weight `(d, k)`, plus the bias at `d`.
-/
import proofs.«148380_j86835648790565_1_alg».proof.Proof.QuantSpec
import Idealize.ShloMosaic.Lib.Pipeline.Value

noncomputable section

namespace Cert.QAttn

open Idealize.ShloMosaic Idealize.ShloMosaic.ValueIdx Idealize.ShloMosaic.Pipeline

/-- The flattened activations at row `2048 b + n`. -/
theorem flat_act (x : (⟨3, ![2, 2048, 1024]⟩ : Shape).Idx → EReal)
    (h : (⟨3, ![2, 2048, 1024]⟩ : Shape).ShapeCasts ⟨2, ![4096, 1024]⟩) (r : Fin 4096) (b : Fin 2) (n : Fin 2048) (k : Fin 1024)
    (hr : r.val = 2048 * b.val + n.val) :
    shapeCast ⟨2, ![4096, 1024]⟩ x h (ix2 r k) = x (ix3 b n k) := by
  refine shapeCast_apply x h (ix2 r k) (ix3 b n k) ?_
  rw [Shape.rowMajor_val_three, Shape.rowMajor_val_two]
  show (b.val * 2048 + n.val) * 1024 + k.val = r.val * 1024 + k.val
  rw [hr]; ring

/-- The transposed weights at `(k, d)`. -/
theorem transposed_wgt (w : (⟨2, ![1024, 1024]⟩ : Shape).Idx → EReal)
    (h : (⟨2, ![1024, 1024]⟩ : Shape).Transposes [1, 0] ⟨2, ![1024, 1024]⟩) (k d : Fin 1024) :
    transpose ⟨2, ![1024, 1024]⟩ [1, 0] w h (ix2 k d) = w (ix2 d k) := by
  refine transpose_apply [1, 0] w h (ix2 k d) (ix2 d k) fun b => ?_
  match b with
  | ⟨0, _⟩ => rfl
  | ⟨1, _⟩ => rfl

/-- The bias as a row. -/
theorem row_bias (bias : (⟨1, ![1024]⟩ : Shape).Idx → EReal)
    (h : (⟨1, ![1024]⟩ : Shape).ShapeCasts ⟨2, ![1, 1024]⟩) (d : Fin 1024) :
    shapeCast ⟨2, ![1, 1024]⟩ bias h (ix2 0 d) = bias (ix1 d) := by
  refine shapeCast_apply bias h (ix2 0 d) (ix1 d) ?_
  rw [Shape.rowMajor_val_one, Shape.rowMajor_val_two]
  show d.val = 0 * 1024 + d.val
  omega

/-- A scalar as a 1 × 1 array. -/
theorem unit_scalar (s : (⟨0, ![]⟩ : Shape).Idx → EReal) (h : (⟨0, ![]⟩ : Shape).ShapeCasts ⟨2, ![1, 1]⟩) :
    shapeCast ⟨2, ![1, 1]⟩ s h (ix2 0 0) = s ix0 :=
  congrArg s (Subsingleton.elim (α := (⟨0, ![]⟩ : Shape).Idx) (h := ⟨fun a b => funext fun d => d.elim0⟩) _ _) |>.trans rfl |> fun e =>
    (show shapeCast ⟨2, ![1, 1]⟩ s h (ix2 0 0) = s _ from rfl).trans e

/-- THE LAYER ON RE-LAID OPERANDS, at row `2048 b + n` and output feature `d`. -/
theorem qmm_relaid (x : (⟨3, ![2, 2048, 1024]⟩ : Shape).Idx → EReal) (w : (⟨2, ![1024, 1024]⟩ : Shape).Idx → EReal)
    (bias : (⟨1, ![1024]⟩ : Shape).Idx → EReal) (sx sw : EReal)
    (h1 : (⟨3, ![2, 2048, 1024]⟩ : Shape).ShapeCasts ⟨2, ![4096, 1024]⟩)
    (h2 : (⟨2, ![1024, 1024]⟩ : Shape).Transposes [1, 0] ⟨2, ![1024, 1024]⟩)
    (h3 : (⟨1, ![1024]⟩ : Shape).ShapeCasts ⟨2, ![1, 1024]⟩)
    (r : Fin 4096) (b : Fin 2) (n : Fin 2048) (d : Fin 1024) (hr : r.val = 2048 * b.val + n.val) :
    qmm (shapeCast ⟨2, ![4096, 1024]⟩ x h1) (transpose ⟨2, ![1024, 1024]⟩ [1, 0] w h2) (shapeCast ⟨2, ![1, 1024]⟩ bias h3) sx sw (ix2 r d)
      = (∑ k : Fin 1024, fq sx (x (ix3 b n k)) * fq sw (w (ix2 d k))) + bias (ix1 d) := by
  unfold qmm
  refine congrArg₂ (fun u v : EReal => u + v) (Finset.sum_congr rfl fun k _ => ?_) (row_bias bias h3 d)
  show fq sx (shapeCast ⟨2, ![4096, 1024]⟩ x h1 (ix2 r k)) * fq sw (transpose ⟨2, ![1024, 1024]⟩ [1, 0] w h2 (ix2 k d)) = _
  rw [flat_act x h1 r b n k hr, transposed_wgt w h2 k d]

/-- THE LAYER'S RESULT READ BACK AS `[2, 2048, 1024]`: entry `(b, n, d)` is the sum over input features of quantised
    activation `(b, n, k)` times quantised weight `(d, k)`, plus the bias at `d`. -/
theorem qmm_relaid_unflat (x : (⟨3, ![2, 2048, 1024]⟩ : Shape).Idx → EReal) (w : (⟨2, ![1024, 1024]⟩ : Shape).Idx → EReal)
    (bias : (⟨1, ![1024]⟩ : Shape).Idx → EReal) (sx sw : EReal)
    (h1 : (⟨3, ![2, 2048, 1024]⟩ : Shape).ShapeCasts ⟨2, ![4096, 1024]⟩)
    (h2 : (⟨2, ![1024, 1024]⟩ : Shape).Transposes [1, 0] ⟨2, ![1024, 1024]⟩)
    (h3 : (⟨1, ![1024]⟩ : Shape).ShapeCasts ⟨2, ![1, 1024]⟩)
    (h4 : (⟨2, ![4096, 1024]⟩ : Shape).ShapeCasts ⟨3, ![2, 2048, 1024]⟩) :
    shapeCast ⟨3, ![2, 2048, 1024]⟩
        (qmm (shapeCast ⟨2, ![4096, 1024]⟩ x h1) (transpose ⟨2, ![1024, 1024]⟩ [1, 0] w h2) (shapeCast ⟨2, ![1, 1024]⟩ bias h3) sx sw) h4
      = fun i => (∑ k : Fin 1024, fq sx (x (ix3 (i 0) (i 1) k)) * fq sw (w (ix2 (i 2) k))) + bias (ix1 (i 2)) := by
  funext i
  obtain ⟨b, n, d, rfl⟩ : ∃ (b : Fin 2) (n : Fin 2048) (d : Fin 1024), i = ix3 b n d := ⟨i 0, i 1, i 2, eq_ix3 i⟩
  have hb : b.val < 2 := b.isLt
  have hn : n.val < 2048 := n.isLt
  refine (shapeCast_apply _ h4 (ix3 b n d) (ix2 (⟨2048 * b.val + n.val, by omega⟩ : Fin 4096) d) ?_).trans
    (qmm_relaid x w bias sx sw h1 h2 h3 _ b n d rfl)
  rw [Shape.rowMajor_val_three, Shape.rowMajor_val_two]
  show (2048 * b.val + n.val) * 1024 + d.val = (b.val * 2048 + n.val) * 1024 + d.val
  ring

end Cert.QAttn

end
-- ==== Proof.ProjValue.lean ====
/-
  The four quantised linear layers of the kernel, as functions of the launch contents of the argument buffers.

  Each projection region finds its activations flattened to 4096 rows, its weight matrix transposed, its bias as a row
  and the two quantisation steps as 1 × 1 arrays; it leaves the layer applied to those. Read back as [2, 2048, 1024],
  entry (b, n, d) of what it leaves is the sum over the 1024 input features k of quantised activation (b, n, k) times
  quantised weight (d, k), plus the bias at d, with the steps the scales of the whole activation tensor and of the
  whole weight matrix.
-/
import proofs.«148380_j86835648790565_1_alg».proof.Proof.KernelGlueBase
import proofs.«148380_j86835648790565_1_alg».proof.Proof.KernelGlue
import proofs.«148380_j86835648790565_1_alg».proof.Proof.QmmRegion0
import proofs.«148380_j86835648790565_1_alg».proof.Proof.QmmRegion1
import proofs.«148380_j86835648790565_1_alg».proof.Proof.QmmRegion2
import proofs.«148380_j86835648790565_1_alg».proof.Proof.QmmRegion5
import proofs.«148380_j86835648790565_1_alg».proof.Proof.LinearLayout

set_option maxRecDepth 16384

noncomputable section

namespace Cert.KernelIdeal.ProjValue

open Idealize.ShloMosaic Idealize.ShloMosaic.TcCoe Idealize.ShloMosaic.ValueIdx Idealize.ShloMosaic.Pipeline
open Idealize.SL.Sem Cert.KernelIdeal Cert.KernelIdeal.Gen Cert.KernelIdeal.RunValue Cert.QAttn

variable (m : (ℓ : Loc nD τ sig) → Buf (Elt Ideal) ℓ) (ρ : Dev nD → PrngReg)

/-- The query projection: what region 0 leaves, read back as [2, 2048, 1024]. -/
theorem proj0 (c : Dev nD) :
    shapeCast S2x2048x1024 (out0 m ρ c) Gen.shapeCasts_S4096x1024_S2x2048x1024
      = fun i => (∑ k : Fin 1024,
            fq (scaleOf (F := Ideal) (arg m c main_arg0 : FVec Ideal S2x2048x1024 .f32) Gen.reducesTo_S2x2048x1024_S_d0_1_2 ix0) ((arg m c main_arg0 : FVec Ideal S2x2048x1024 .f32) (ix3 (i 0) (i 1) k))
              * fq (scaleOf (F := Ideal) (arg m c main_arg3 : FVec Ideal S1024x1024 .f32) Gen.reducesTo_S1024x1024_S_d0_1 ix0)
                  ((arg m c main_arg3 : FVec Ideal S1024x1024 .f32) (ix2 (i 2) k)))
          + (arg m c main_arg4 : FVec Ideal S1024 .f32) (ix1 (i 2)) := by
  have e0 : (V1 m ρ c main_v28 : FVec Ideal S4096x1024 .f32) = _ := found0_0 m ρ c
  have e1 : (V1 m ρ c main_v31 : FVec Ideal S1024x1024 .f32) = _ := found0_1 m ρ c
  have e2 : (V1 m ρ c main_v34 : FVec Ideal S1x1024 .f32) = _ := found0_2 m ρ c
  have e3 : (V1 m ρ c main_v32 : FVec Ideal S1x1 .f32) = _ := found0_3 m ρ c
  have e4 : (V1 m ρ c main_v33 : FVec Ideal S1x1 .f32) = _ := found0_4 m ρ c
  rw [show out0 m ρ c = _ from Cert.KernelIdeal.QmmRegion0.final (V1 m ρ) c]
  show shapeCast S2x2048x1024 (qmm (V1 m ρ c main_v28) (V1 m ρ c main_v31) (V1 m ρ c main_v34)
    ((V1 m ρ c main_v32 : S1x1.Idx → EReal) (ix2 0 0)) ((V1 m ρ c main_v33 : S1x1.Idx → EReal) (ix2 0 0))) _ = _
  rw [e0, e1, e2, e3, e4, unit_scalar, unit_scalar]
  exact qmm_relaid_unflat _ _ _ _ _ _ _ _ _

/-- The key projection: what region 1 leaves, read back as [2, 2048, 1024]. -/
theorem proj1 (c : Dev nD) :
    shapeCast S2x2048x1024 (out1 m ρ c) Gen.shapeCasts_S4096x1024_S2x2048x1024
      = fun i => (∑ k : Fin 1024,
            fq (scaleOf (F := Ideal) (arg m c main_arg1 : FVec Ideal S2x2048x1024 .f32) Gen.reducesTo_S2x2048x1024_S_d0_1_2 ix0) ((arg m c main_arg1 : FVec Ideal S2x2048x1024 .f32) (ix3 (i 0) (i 1) k))
              * fq (scaleOf (F := Ideal) (arg m c main_arg5 : FVec Ideal S1024x1024 .f32) Gen.reducesTo_S1024x1024_S_d0_1 ix0)
                  ((arg m c main_arg5 : FVec Ideal S1024x1024 .f32) (ix2 (i 2) k)))
          + (arg m c main_arg6 : FVec Ideal S1024 .f32) (ix1 (i 2)) := by
  have e0 : (V3 m ρ c main_v29 : FVec Ideal S4096x1024 .f32) = _ := found1_0 m ρ c
  have e1 : (V3 m ρ c main_v37 : FVec Ideal S1024x1024 .f32) = _ := found1_1 m ρ c
  have e2 : (V3 m ρ c main_v40 : FVec Ideal S1x1024 .f32) = _ := found1_2 m ρ c
  have e3 : (V3 m ρ c main_v38 : FVec Ideal S1x1 .f32) = _ := found1_3 m ρ c
  have e4 : (V3 m ρ c main_v39 : FVec Ideal S1x1 .f32) = _ := found1_4 m ρ c
  rw [show out1 m ρ c = _ from Cert.KernelIdeal.QmmRegion1.final (V3 m ρ) c]
  show shapeCast S2x2048x1024 (qmm (V3 m ρ c main_v29) (V3 m ρ c main_v37) (V3 m ρ c main_v40)
    ((V3 m ρ c main_v38 : S1x1.Idx → EReal) (ix2 0 0)) ((V3 m ρ c main_v39 : S1x1.Idx → EReal) (ix2 0 0))) _ = _
  rw [e0, e1, e2, e3, e4, unit_scalar, unit_scalar]
  exact qmm_relaid_unflat _ _ _ _ _ _ _ _ _

/-- The value projection: what region 2 leaves, read back as [2, 2048, 1024]. -/
theorem proj2 (c : Dev nD) :
    shapeCast S2x2048x1024 (out2 m ρ c) Gen.shapeCasts_S4096x1024_S2x2048x1024
      = fun i => (∑ k : Fin 1024,
            fq (scaleOf (F := Ideal) (arg m c main_arg2 : FVec Ideal S2x2048x1024 .f32) Gen.reducesTo_S2x2048x1024_S_d0_1_2 ix0) ((arg m c main_arg2 : FVec Ideal S2x2048x1024 .f32) (ix3 (i 0) (i 1) k))
              * fq (scaleOf (F := Ideal) (arg m c main_arg7 : FVec Ideal S1024x1024 .f32) Gen.reducesTo_S1024x1024_S_d0_1 ix0)
                  ((arg m c main_arg7 : FVec Ideal S1024x1024 .f32) (ix2 (i 2) k)))
          + (arg m c main_arg8 : FVec Ideal S1024 .f32) (ix1 (i 2)) := by
  have e0 : (V5 m ρ c main_v30 : FVec Ideal S4096x1024 .f32) = _ := found2_0 m ρ c
  have e1 : (V5 m ρ c main_v43 : FVec Ideal S1024x1024 .f32) = _ := found2_1 m ρ c
  have e2 : (V5 m ρ c main_v46 : FVec Ideal S1x1024 .f32) = _ := found2_2 m ρ c
  have e3 : (V5 m ρ c main_v44 : FVec Ideal S1x1 .f32) = _ := found2_3 m ρ c
  have e4 : (V5 m ρ c main_v45 : FVec Ideal S1x1 .f32) = _ := found2_4 m ρ c
  rw [show out2 m ρ c = _ from Cert.KernelIdeal.QmmRegion2.final (V5 m ρ) c]
  show shapeCast S2x2048x1024 (qmm (V5 m ρ c main_v30) (V5 m ρ c main_v43) (V5 m ρ c main_v46)
    ((V5 m ρ c main_v44 : S1x1.Idx → EReal) (ix2 0 0)) ((V5 m ρ c main_v45 : S1x1.Idx → EReal) (ix2 0 0))) _ = _
  rw [e0, e1, e2, e3, e4, unit_scalar, unit_scalar]
  exact qmm_relaid_unflat _ _ _ _ _ _ _ _ _

/-- The output projection: what region 5 leaves, read back as [2, 2048, 1024]; its activations are the attention output with the heads merged back. -/
theorem proj5 (c : Dev nD) :
    shapeCast S2x2048x1024 (out5 m ρ c) Gen.shapeCasts_S4096x1024_S2x2048x1024
      = fun i => (∑ k : Fin 1024,
            fq (scaleOf (F := Ideal) (mergeHeads (out4 m ρ c) : FVec Ideal S2x2048x1024 .f32) Gen.reducesTo_S2x2048x1024_S_d0_1_2 ix0) ((mergeHeads (out4 m ρ c) : FVec Ideal S2x2048x1024 .f32) (ix3 (i 0) (i 1) k))
              * fq (scaleOf (F := Ideal) (arg m c main_arg9 : FVec Ideal S1024x1024 .f32) Gen.reducesTo_S1024x1024_S_d0_1 ix0)
                  ((arg m c main_arg9 : FVec Ideal S1024x1024 .f32) (ix2 (i 2) k)))
          + (arg m c main_arg10 : FVec Ideal S1024 .f32) (ix1 (i 2)) := by
  have e0 : (V11 m ρ c main_v85 : FVec Ideal S4096x1024 .f32) = _ := found5_0 m ρ c
  have e1 : (V11 m ρ c main_v86 : FVec Ideal S1024x1024 .f32) = _ := found5_1 m ρ c
  have e2 : (V11 m ρ c main_v89 : FVec Ideal S1x1024 .f32) = _ := found5_2 m ρ c
  have e3 : (V11 m ρ c main_v87 : FVec Ideal S1x1 .f32) = _ := found5_3 m ρ c
  have e4 : (V11 m ρ c main_v88 : FVec Ideal S1x1 .f32) = _ := found5_4 m ρ c
  rw [show out5 m ρ c = _ from Cert.KernelIdeal.QmmRegion5.final (V11 m ρ) c]
  show shapeCast S2x2048x1024 (qmm (V11 m ρ c main_v85) (V11 m ρ c main_v86) (V11 m ρ c main_v89)
    ((V11 m ρ c main_v87 : S1x1.Idx → EReal) (ix2 0 0)) ((V11 m ρ c main_v88 : S1x1.Idx → EReal) (ix2 0 0))) _ = _
  rw [e0, e1, e2, e3, e4, unit_scalar, unit_scalar]
  exact qmm_relaid_unflat _ _ _ _ _ _ _ _ _

end Cert.KernelIdeal.ProjValue

end
-- ==== Proof.ScaleBridge.lean ====
/-
  The quantisation scales, read as suprema and infima over the extended reals.

  The scale of a whole tensor is its largest magnitude divided by 127, plus 1e-12; the largest magnitude is a maximum
  fold from minus infinity over every entry, which over the extended reals is the supremum of the magnitudes. The scale
  of the attention weights is one over the least row sum, divided by 127, plus 1e-12; the least row sum is a minimum fold
  from plus infinity, the infimum of the row sums. A supremum over all entries does not see how the entries are
  arranged: splitting the feature axis into heads and moving the head axis (a change of shape followed by a
  transposition), or undoing that, reads every entry exactly once, so the largest magnitude, and with it the scale, is
  the same before and after. Last, a supremum or infimum over a rank-four index set is the iterated one over its four
  coordinates.
-/
import proofs.«148380_j86835648790565_1_alg».proof.Proof.KernelGlueBase
import proofs.«148380_j86835648790565_1_alg».proof.Proof.LibReduceExtremum
import proofs.«148380_j86835648790565_1_alg».proof.Proof.QuantSpec

noncomputable section

namespace Cert.KernelIdeal.ScaleBridge

open Idealize.ShloMosaic Idealize.ShloMosaic.ValueIdx Idealize.ShloMosaic.ReduceExtremum
open Cert.KernelIdeal Cert.KernelIdeal.Gen Cert.KernelIdeal.RunValue

/-! ## The two scales at their one index -/

/-- The scale of a whole tensor: the supremum of the magnitudes, divided by 127, plus 1e-12. -/
theorem scaleOf_apply {s : Shape} {axes : List (Fin s.rank)} (x : FVec Ideal s .f32) (h : s.ReducesTo axes S_) :
    scaleOf (F := Ideal) x h ix0
      = Ideal.div (⨆ i, max (x i) (-(x i))) (Ideal.ofBits .f32 0x42FE0000#32) + Ideal.ofBits .f32 0x2B8CBCCC#32 := by
  unfold scaleOf
  rw [hostReduce_max_scalar_negInf (Host.absf x) h Gen.h_S_]
  rfl

/-- The scale of the attention weights: one over the infimum of the row sums, divided by 127, plus 1e-12. -/
theorem attnScaleOf_apply (l : FVec Ideal S2x16x2048x1 .f32) :
    attnScaleOf (F := Ideal) l ix0
      = Ideal.div (Ideal.div (Ideal.ofBits .f32 0x3F800000#32) (⨅ i, l i)) (Ideal.ofBits .f32 0x42FE0000#32)
          + Ideal.ofBits .f32 0x2B8CBCCC#32 := by
  unfold attnScaleOf
  rw [hostReduce_min_scalar_posInf l Gen.reducesTo_S2x16x2048x1_S_d0_1_2_3 Gen.h_S_]
  rfl

/-! ## Splitting and merging heads keeps the largest magnitude -/

/-- A supremum over the entries of the head-split tensor, of any function of the entry, is the supremum over the
    entries of the tensor itself: the split reads every entry once. -/
theorem iSup_comp_splitHeads (f : EReal → EReal) (x : FVec Ideal S2x2048x1024 .f32) :
    (⨆ i, f (splitHeads (F := Ideal) x i)) = ⨆ i, f (x i) := by
  show (⨆ j, transpose S2x16x2048x64 [0, 2, 1, 3]
      (fun k => f (shapeCast S2x2048x16x64 x Gen.shapeCasts_S2x2048x1024_S2x2048x16x64 k))
      Gen.transposes_S2x2048x16x64_S2x16x2048x64_0_2_1_3 j) = _
  rw [iSup_transpose]
  exact iSup_shapeCast (fun i => f (x i)) Gen.shapeCasts_S2x2048x1024_S2x2048x16x64

/-- The same for merging the heads back. -/
theorem iSup_comp_mergeHeads (f : EReal → EReal) (x : FVec Ideal S2x16x2048x64 .f32) :
    (⨆ i, f (mergeHeads (F := Ideal) x i)) = ⨆ i, f (x i) := by
  show (⨆ j, shapeCast S2x2048x1024
      (fun k => f (transpose S2x2048x16x64 [0, 2, 1, 3] x Gen.transposes_S2x16x2048x64_S2x2048x16x64_0_2_1_3 k))
      Gen.shapeCasts_S2x2048x16x64_S2x2048x1024 j) = _
  rw [iSup_shapeCast]
  exact iSup_transpose [0, 2, 1, 3] (fun i => f (x i)) Gen.transposes_S2x16x2048x64_S2x2048x16x64_0_2_1_3

/-- The largest magnitude of the head-split tensor is that of the tensor. -/
theorem iSup_abs_splitHeads (x : FVec Ideal S2x2048x1024 .f32) :
    (⨆ i, max (splitHeads (F := Ideal) x i) (-(splitHeads (F := Ideal) x i))) = ⨆ i, max (x i) (-(x i)) :=
  iSup_comp_splitHeads (fun z => max z (-z)) x

theorem iSup_abs_mergeHeads (x : FVec Ideal S2x16x2048x64 .f32) :
    (⨆ i, max (mergeHeads (F := Ideal) x i) (-(mergeHeads (F := Ideal) x i))) = ⨆ i, max (x i) (-(x i)) :=
  iSup_comp_mergeHeads (fun z => max z (-z)) x

/-- So the scale of the head-split tensor is the scale of the tensor, whatever evidence the two reductions carry. -/
theorem scaleOf_splitHeads {axes : List (Fin S2x2048x1024.rank)} {axes' : List (Fin S2x16x2048x64.rank)}
    (x : FVec Ideal S2x2048x1024 .f32) (h : S2x2048x1024.ReducesTo axes S_) (h' : S2x16x2048x64.ReducesTo axes' S_) :
    scaleOf (F := Ideal) (splitHeads x) h' ix0 = scaleOf (F := Ideal) x h ix0 := by
  rw [scaleOf_apply, scaleOf_apply, iSup_abs_splitHeads]

theorem scaleOf_mergeHeads {axes : List (Fin S2x16x2048x64.rank)} {axes' : List (Fin S2x2048x1024.rank)}
    (x : FVec Ideal S2x16x2048x64 .f32) (h : S2x16x2048x64.ReducesTo axes S_) (h' : S2x2048x1024.ReducesTo axes' S_) :
    scaleOf (F := Ideal) (mergeHeads x) h' ix0 = scaleOf (F := Ideal) x h ix0 := by
  rw [scaleOf_apply, scaleOf_apply, iSup_abs_mergeHeads]

/-! ## A rank-four index set is the product of its coordinate ranges -/

/-- A supremum over a rank-four index set is the iterated supremum over the four coordinates. -/
theorem iSup_idx4 {n0 n1 n2 n3 : Nat} (g : Fin n0 → Fin n1 → Fin n2 → Fin n3 → EReal) :
    (⨆ i : (⟨4, ![n0, n1, n2, n3]⟩ : Shape).Idx, g (i 0) (i 1) (i 2) (i 3)) = ⨆ a, ⨆ b, ⨆ c, ⨆ d, g a b c d :=
  le_antisymm
    (iSup_le fun i => le_iSup_of_le (i 0) (le_iSup_of_le (i 1) (le_iSup_of_le (i 2) (le_iSup_of_le (i 3) le_rfl))))
    (iSup_le fun a => iSup_le fun b => iSup_le fun c => iSup_le fun d =>
      le_iSup (fun i : (⟨4, ![n0, n1, n2, n3]⟩ : Shape).Idx => g (i 0) (i 1) (i 2) (i 3)) (ix4 a b c d))

/-- An infimum over a rank-four index set is the iterated infimum over the four coordinates. -/
theorem iInf_idx4 {n0 n1 n2 n3 : Nat} (g : Fin n0 → Fin n1 → Fin n2 → Fin n3 → EReal) :
    (⨅ i : (⟨4, ![n0, n1, n2, n3]⟩ : Shape).Idx, g (i 0) (i 1) (i 2) (i 3)) = ⨅ a, ⨅ b, ⨅ c, ⨅ d, g a b c d :=
  le_antisymm
    (le_iInf fun a => le_iInf fun b => le_iInf fun c => le_iInf fun d =>
      iInf_le (fun i : (⟨4, ![n0, n1, n2, n3]⟩ : Shape).Idx => g (i 0) (i 1) (i 2) (i 3)) (ix4 a b c d))
    (le_iInf fun i => iInf_le_of_le (i 0) (iInf_le_of_le (i 1) (iInf_le_of_le (i 2) (iInf_le_of_le (i 3) le_rfl))))

/-- With a last axis of extent one (a column of row statistics) the last coordinate drops out. -/
theorem iInf_idx4_unit {n0 n1 n2 : Nat} (f : Fin n0 → Fin n1 → Fin n2 → EReal) :
    (⨅ i : (⟨4, ![n0, n1, n2, 1]⟩ : Shape).Idx, f (i 0) (i 1) (i 2)) = ⨅ a, ⨅ b, ⨅ c, f a b c :=
  le_antisymm
    (le_iInf fun a => le_iInf fun b => le_iInf fun c =>
      iInf_le (fun i : (⟨4, ![n0, n1, n2, 1]⟩ : Shape).Idx => f (i 0) (i 1) (i 2)) (ix4 a b c 0))
    (le_iInf fun i => iInf_le_of_le (i 0) (iInf_le_of_le (i 1) (iInf_le_of_le (i 2) le_rfl)))

theorem iSup_idx4_unit {n0 n1 n2 : Nat} (f : Fin n0 → Fin n1 → Fin n2 → EReal) :
    (⨆ i : (⟨4, ![n0, n1, n2, 1]⟩ : Shape).Idx, f (i 0) (i 1) (i 2)) = ⨆ a, ⨆ b, ⨆ c, f a b c :=
  le_antisymm
    (iSup_le fun i => le_iSup_of_le (i 0) (le_iSup_of_le (i 1) (le_iSup_of_le (i 2) le_rfl)))
    (iSup_le fun a => iSup_le fun b => iSup_le fun c =>
      le_iSup (fun i : (⟨4, ![n0, n1, n2, 1]⟩ : Shape).Idx => f (i 0) (i 1) (i 2)) (ix4 a b c 0))

/-- The row statistics' index set: batch, head, row. -/
theorem iInf_rows (f : Fin 2 → Fin 16 → Fin 2048 → EReal) :
    (⨅ i : S2x16x2048x1.Idx, f (i 0) (i 1) (i 2)) = ⨅ b, ⨅ h, ⨅ n, f b h n :=
  iInf_idx4_unit f

theorem iSup_rows (f : Fin 2 → Fin 16 → Fin 2048 → EReal) :
    (⨆ i : S2x16x2048x1.Idx, f (i 0) (i 1) (i 2)) = ⨆ b, ⨆ h, ⨆ n, f b h n :=
  iSup_idx4_unit f

/-- The attention weights' index set: batch, head, query row, key row. -/
theorem iSup_weights (g : Fin 2 → Fin 16 → Fin 2048 → Fin 2048 → EReal) :
    (⨆ i : (⟨4, ![2, 16, 2048, 2048]⟩ : Shape).Idx, g (i 0) (i 1) (i 2) (i 3)) = ⨆ b, ⨆ h, ⨆ n, ⨆ j, g b h n j :=
  iSup_idx4 g

theorem iInf_weights (g : Fin 2 → Fin 16 → Fin 2048 → Fin 2048 → EReal) :
    (⨅ i : (⟨4, ![2, 16, 2048, 2048]⟩ : Shape).Idx, g (i 0) (i 1) (i 2) (i 3)) = ⨅ b, ⨅ h, ⨅ n, ⨅ j, g b h n j :=
  iInf_idx4 g

end Cert.KernelIdeal.ScaleBridge

end
-- ==== Proof.AttnSpec.lean ====
/-
  The whole computation after the three input projections, as one function.

  From the three projected tensors `X0`, `X1`, `X2` of shape [2, 2048, 1024] (queries, keys, values), the output
  weight matrix and bias, and the step `sa` at which the attention weights are quantised: split the heads, take each
  tensor's own quantisation step (its largest magnitude over 127, plus a small constant), form the scores, the row
  maxima and the row sums of exponentials, the quantised attention output, merge the heads back, and apply the
  quantised output projection. The step `sa` is a parameter because the two programs obtain it differently (from the
  largest attention weight, or as one over the least row sum); everything else is common.
-/
import proofs.«148380_j86835648790565_1_alg».proof.Proof.QuantSpec
import Idealize.ShloMosaic.Lib.Pipeline.Value

noncomputable section

namespace Cert.QAttn

open Idealize.ShloMosaic Idealize.ShloMosaic.ValueIdx

/-- The quantisation step of a whole tensor: its largest magnitude divided by 127, plus the small constant. -/
def stepOf {ι : Type} (x : ι → EReal) : EReal :=
  Ideal.div (⨆ i, max (x i) (-(x i))) (Ideal.ofBits .f32 0x42FE0000#32) + Ideal.ofBits .f32 0x2B8CBCCC#32

/-- The step of the attention weights as the kernel's host code computes it: one over the least row sum, divided by
    127, plus the small constant. -/
def stepOfRowSums (L : Fin 2 → Fin 16 → Fin 2048 → EReal) : EReal :=
  Ideal.div (Ideal.div (Ideal.ofBits .f32 0x3F800000#32) (⨅ b, ⨅ h, ⨅ n, L b h n)) (Ideal.ofBits .f32 0x42FE0000#32)
    + Ideal.ofBits .f32 0x2B8CBCCC#32

section
variable (hs : (⟨3, ![2, 2048, 1024]⟩ : Shape).ShapeCasts ⟨4, ![2, 2048, 16, 64]⟩)
  (ht : (⟨4, ![2, 2048, 16, 64]⟩ : Shape).Transposes [0, 2, 1, 3] ⟨4, ![2, 16, 2048, 64]⟩)
  (ht' : (⟨4, ![2, 16, 2048, 64]⟩ : Shape).Transposes [0, 2, 1, 3] ⟨4, ![2, 2048, 16, 64]⟩)
  (hs' : (⟨4, ![2, 2048, 16, 64]⟩ : Shape).ShapeCasts ⟨3, ![2, 2048, 1024]⟩)

/-- Heads split: [2, 2048, 1024] read as [2, 2048, 16, 64], the head axis moved before the sequence axis. -/
def heads (x : (⟨3, ![2, 2048, 1024]⟩ : Shape).Idx → EReal) : (⟨4, ![2, 16, 2048, 64]⟩ : Shape).Idx → EReal :=
  transpose ⟨4, ![2, 16, 2048, 64]⟩ [0, 2, 1, 3] (shapeCast ⟨4, ![2, 2048, 16, 64]⟩ x hs) ht

/-- Heads merged back. -/
def unheads (y : (⟨4, ![2, 16, 2048, 64]⟩ : Shape).Idx → EReal) : (⟨3, ![2, 2048, 1024]⟩ : Shape).Idx → EReal :=
  shapeCast ⟨3, ![2, 2048, 1024]⟩ (transpose ⟨4, ![2, 2048, 16, 64]⟩ [0, 2, 1, 3] y ht') hs'

/-- The attention output on the split heads, with the row statistics taken from the scores themselves. -/
def attnHeads (X0 X1 X2 : (⟨3, ![2, 2048, 1024]⟩ : Shape).Idx → EReal) (sa : EReal) : (⟨4, ![2, 16, 2048, 64]⟩ : Shape).Idx → EReal :=
  attnOut (heads hs ht X0) (heads hs ht X1) (heads hs ht X2)
    (fun i => rowMax (heads hs ht X0) (heads hs ht X1) (stepOf X0) (stepOf X1) (i 0) (i 1) (i 2))
    (fun i => rowSum (heads hs ht X0) (heads hs ht X1) (stepOf X0) (stepOf X1) (i 0) (i 1) (i 2))
    (stepOf X0) (stepOf X1) (stepOf X2) sa

/-- The quantised output projection of a tensor `X` of shape [2, 2048, 1024]. -/
def outProj (X : (⟨3, ![2, 2048, 1024]⟩ : Shape).Idx → EReal) (w : (⟨2, ![1024, 1024]⟩ : Shape).Idx → EReal)
    (bias : (⟨1, ![1024]⟩ : Shape).Idx → EReal) : (⟨3, ![2, 2048, 1024]⟩ : Shape).Idx → EReal :=
  fun i => (∑ k : Fin 1024, fq (stepOf X) (X (ix3 (i 0) (i 1) k)) * fq (stepOf w) (w (ix2 (i 2) k))) + bias (ix1 (i 2))

/-- EVERYTHING AFTER THE INPUT PROJECTIONS. -/
def attnSpec (X0 X1 X2 : (⟨3, ![2, 2048, 1024]⟩ : Shape).Idx → EReal) (w : (⟨2, ![1024, 1024]⟩ : Shape).Idx → EReal)
    (bias : (⟨1, ![1024]⟩ : Shape).Idx → EReal) (sa : EReal) : (⟨3, ![2, 2048, 1024]⟩ : Shape).Idx → EReal :=
  outProj (unheads ht' hs' (attnHeads hs ht X0 X1 X2 sa)) w bias

/-- The rows' sums of exponentials of the split heads, as a function of batch, head and row. -/
def headRowSums (X0 X1 : (⟨3, ![2, 2048, 1024]⟩ : Shape).Idx → EReal) : Fin 2 → Fin 16 → Fin 2048 → EReal :=
  fun b h n => rowSum (heads hs ht X0) (heads hs ht X1) (stepOf X0) (stepOf X1) b h n

/-- The attention weights of the split heads, entry by entry. -/
def headWeights (X0 X1 : (⟨3, ![2, 2048, 1024]⟩ : Shape).Idx → EReal) : Fin 2 → Fin 16 → Fin 2048 → Fin 2048 → EReal :=
  fun b h n j => Ideal.div (Ideal.exp (scores (heads hs ht X0) (heads hs ht X1) (stepOf X0) (stepOf X1) b h n j
      - rowMax (heads hs ht X0) (heads hs ht X1) (stepOf X0) (stepOf X1) b h n))
    (rowSum (heads hs ht X0) (heads hs ht X1) (stepOf X0) (stepOf X1) b h n)

end

end Cert.QAttn

end
-- ==== Proof.KernelSpec.lean ====
/-
  The idealized kernel's result, as the specification applied to its three input projections.

  After the three projection regions the kernel splits the heads of the projected queries, keys and values, takes each
  projected tensor's quantisation step, computes in one region the row maxima and the row sums of exponentials of the
  scores and in the next the quantised attention output from those row statistics, with the step of the attention
  weights taken as one over the least row sum (over 127, plus the small constant); it merges the heads back and applies
  the quantised output projection. Reading each region's arrays back through what the region finds at its entry, the
  result buffer holds exactly the specification's function of the three projections, the output weights and bias, with
  the attention step the one computed from the row sums.
-/
import proofs.«148380_j86835648790565_1_alg».proof.Proof.KernelGlue
import proofs.«148380_j86835648790565_1_alg».proof.Proof.StatsRegion
import proofs.«148380_j86835648790565_1_alg».proof.Proof.OutRegion
import proofs.«148380_j86835648790565_1_alg».proof.Proof.ProjValue
import proofs.«148380_j86835648790565_1_alg».proof.Proof.ScaleBridge
import proofs.«148380_j86835648790565_1_alg».proof.Proof.AttnSpec

set_option maxRecDepth 16384

noncomputable section

namespace Cert.KernelIdeal.KernelSpec

open Idealize.ShloMosaic Idealize.ShloMosaic.TcCoe Idealize.ShloMosaic.ValueIdx Idealize.ShloMosaic.Pipeline
open Idealize.SL.Sem Cert.KernelIdeal Cert.KernelIdeal.Gen Cert.KernelIdeal.RunValue Cert.QAttn

variable (m : (ℓ : Loc nD τ sig) → Buf (Elt Ideal) ℓ) (ρ : Dev nD → PrngReg)

/-- The three projections the first three regions leave, read back as [2, 2048, 1024]. -/
abbrev X0 (c : Dev nD) : S2x2048x1024.Idx → EReal := shapeCast S2x2048x1024 (out0 m ρ c) Gen.shapeCasts_S4096x1024_S2x2048x1024
abbrev X1 (c : Dev nD) : S2x2048x1024.Idx → EReal := shapeCast S2x2048x1024 (out1 m ρ c) Gen.shapeCasts_S4096x1024_S2x2048x1024
abbrev X2 (c : Dev nD) : S2x2048x1024.Idx → EReal := shapeCast S2x2048x1024 (out2 m ρ c) Gen.shapeCasts_S4096x1024_S2x2048x1024

/-- The query heads and the key heads. -/
abbrev Q (c : Dev nD) : S2x16x2048x64.Idx → EReal :=
  heads Gen.shapeCasts_S2x2048x1024_S2x2048x16x64 Gen.transposes_S2x2048x16x64_S2x16x2048x64_0_2_1_3 (X0 m ρ c)
abbrev K (c : Dev nD) : S2x16x2048x64.Idx → EReal :=
  heads Gen.shapeCasts_S2x2048x1024_S2x2048x16x64 Gen.transposes_S2x2048x16x64_S2x16x2048x64_0_2_1_3 (X1 m ρ c)

/-- The rows' sums of exponentials of the kernel's scores, by batch, head and row. -/
abbrev rowSums (c : Dev nD) : Fin 2 → Fin 16 → Fin 2048 → EReal :=
  headRowSums Gen.shapeCasts_S2x2048x1024_S2x2048x16x64 Gen.transposes_S2x2048x16x64_S2x16x2048x64_0_2_1_3 (X0 m ρ c) (X1 m ρ c)

/-- A whole tensor's scale, at its one index, is the specification's step of the tensor. -/
theorem scale_eq_step {s : Shape} {axes : List (Fin s.rank)} (x : FVec Ideal s .f32) (h : s.ReducesTo axes S_) :
    scaleOf (F := Ideal) x h ix0 = stepOf x :=
  Cert.KernelIdeal.ScaleBridge.scaleOf_apply x h

/-- The row maxima region 3 leaves are the row maxima of the scores of the query heads against the key heads, at the
    steps of the projected queries and keys. -/
theorem stats_max (c : Dev nD) :
    out3m m ρ c = fun i => rowMax (Q m ρ c) (K m ρ c) (stepOf (X0 m ρ c)) (stepOf (X1 m ρ c)) (i 0) (i 1) (i 2) := by
  have e0 : (V7 m ρ c main_v62 : FVec Ideal S2x16x2048x64 .f32) = _ := found3_0 m ρ c
  have e1 : (V7 m ρ c main_v64 : FVec Ideal S2x16x2048x64 .f32) = _ := found3_1 m ρ c
  have e2 : (V7 m ρ c main_v67 : FVec Ideal S1x1 .f32) = _ := found3_2 m ρ c
  have e3 : (V7 m ρ c main_v68 : FVec Ideal S1x1 .f32) = _ := found3_3 m ρ c
  rw [show out3m m ρ c = _ from Cert.KernelIdeal.StatsRegion.final_max (V7 m ρ) c]
  show (fun i : S2x16x2048x1.Idx => rowMax (V7 m ρ c main_v62) (V7 m ρ c main_v64)
    ((V7 m ρ c main_v67 : S1x1.Idx → EReal) (ix2 0 0)) ((V7 m ρ c main_v68 : S1x1.Idx → EReal) (ix2 0 0)) (i 0) (i 1) (i 2)) = _
  rw [e0, e1, e2, e3, unit_scalar, unit_scalar, scale_eq_step, scale_eq_step]
  rfl

/-- The row sums region 3 leaves are the row sums of exponentials of the same scores. -/
theorem stats_sum (c : Dev nD) :
    out3l m ρ c = fun i => rowSum (Q m ρ c) (K m ρ c) (stepOf (X0 m ρ c)) (stepOf (X1 m ρ c)) (i 0) (i 1) (i 2) := by
  have e0 : (V7 m ρ c main_v62 : FVec Ideal S2x16x2048x64 .f32) = _ := found3_0 m ρ c
  have e1 : (V7 m ρ c main_v64 : FVec Ideal S2x16x2048x64 .f32) = _ := found3_1 m ρ c
  have e2 : (V7 m ρ c main_v67 : FVec Ideal S1x1 .f32) = _ := found3_2 m ρ c
  have e3 : (V7 m ρ c main_v68 : FVec Ideal S1x1 .f32) = _ := found3_3 m ρ c
  rw [show out3l m ρ c = _ from Cert.KernelIdeal.StatsRegion.final_sum (V7 m ρ) c]
  show (fun i : S2x16x2048x1.Idx => rowSum (V7 m ρ c main_v62) (V7 m ρ c main_v64)
    ((V7 m ρ c main_v67 : S1x1.Idx → EReal) (ix2 0 0)) ((V7 m ρ c main_v68 : S1x1.Idx → EReal) (ix2 0 0)) (i 0) (i 1) (i 2)) = _
  rw [e0, e1, e2, e3, unit_scalar, unit_scalar, scale_eq_step, scale_eq_step]
  rfl

/-- The step of the attention weights the kernel computes from the row sums is the specification's step of the row
    sums: the infimum over the column of row sums is the iterated infimum over batch, head and row. -/
theorem attn_step (c : Dev nD) : attnScaleOf (F := Ideal) (out3l m ρ c) ix0 = stepOfRowSums (rowSums m ρ c) := by
  rw [Cert.KernelIdeal.ScaleBridge.attnScaleOf_apply, stats_sum m ρ c]
  show Ideal.div (Ideal.div _ (⨅ i : S2x16x2048x1.Idx, rowSums m ρ c (i 0) (i 1) (i 2))) _ + _ = _
  rw [Cert.KernelIdeal.ScaleBridge.iInf_rows]
  rfl

/-- The attention output region 4 leaves is the specification's attention output on the split heads, at the step
    computed from the row sums. -/
theorem attn_out (c : Dev nD) :
    out4 m ρ c = attnHeads Gen.shapeCasts_S2x2048x1024_S2x2048x16x64 Gen.transposes_S2x2048x16x64_S2x16x2048x64_0_2_1_3
      (X0 m ρ c) (X1 m ρ c) (X2 m ρ c) (stepOfRowSums (rowSums m ρ c)) := by
  have e0 : (V9 m ρ c main_v62 : FVec Ideal S2x16x2048x64 .f32) = _ := found4_0 m ρ c
  have e1 : (V9 m ρ c main_v64 : FVec Ideal S2x16x2048x64 .f32) = _ := found4_1 m ρ c
  have e2 : (V9 m ρ c main_v66 : FVec Ideal S2x16x2048x64 .f32) = _ := found4_2 m ρ c
  have e3 : (V9 m ρ c main_v69_0 : FVec Ideal S2x16x2048x1 .f32) = _ := found4_3 m ρ c
  have e4 : (V9 m ρ c main_v69_1 : FVec Ideal S2x16x2048x1 .f32) = _ := found4_4 m ρ c
  have e5 : (V9 m ρ c main_v74 : FVec Ideal S1x1 .f32) = _ := found4_5 m ρ c
  have e6 : (V9 m ρ c main_v75 : FVec Ideal S1x1 .f32) = _ := found4_6 m ρ c
  have e7 : (V9 m ρ c main_v76 : FVec Ideal S1x1 .f32) = _ := found4_7 m ρ c
  have e8 : (V9 m ρ c main_v77 : FVec Ideal S1x1 .f32) = _ := found4_8 m ρ c
  rw [show out4 m ρ c = _ from Cert.KernelIdeal.OutRegion.final (V9 m ρ) c]
  show attnOut (V9 m ρ c main_v62) (V9 m ρ c main_v64) (V9 m ρ c main_v66) (V9 m ρ c main_v69_0) (V9 m ρ c main_v69_1)
    ((V9 m ρ c main_v74 : S1x1.Idx → EReal) (ix2 0 0)) ((V9 m ρ c main_v75 : S1x1.Idx → EReal) (ix2 0 0))
    ((V9 m ρ c main_v76 : S1x1.Idx → EReal) (ix2 0 0)) ((V9 m ρ c main_v77 : S1x1.Idx → EReal) (ix2 0 0)) = _
  rw [e0, e1, e2, e3, e4, e5, e6, e7, e8, unit_scalar, unit_scalar, unit_scalar, unit_scalar,
    scale_eq_step, scale_eq_step, scale_eq_step, attn_step m ρ c, stats_max m ρ c, stats_sum m ρ c]
  rfl

/-- THE KERNEL'S RESULT: the specification applied to the three projections, the output weights and bias, with the
    attention step computed from the row sums. -/
theorem ker_eq_spec (c : Dev nD) :
    (W13 m ρ c (Proc.devRef .tc main_v91) : S2x2048x1024.Idx → EReal)
      = attnSpec Gen.shapeCasts_S2x2048x1024_S2x2048x16x64 Gen.transposes_S2x2048x16x64_S2x16x2048x64_0_2_1_3
          Gen.transposes_S2x16x2048x64_S2x2048x16x64_0_2_1_3 Gen.shapeCasts_S2x2048x16x64_S2x2048x1024
          (X0 m ρ c) (X1 m ρ c) (X2 m ρ c) (arg m c main_arg9) (arg m c main_arg10) (stepOfRowSums (rowSums m ρ c)) := by
  refine (result_array m ρ c).trans ?_
  rw [Cert.KernelIdeal.ProjValue.proj5 m ρ c, attn_out m ρ c, scale_eq_step, scale_eq_step]
  rfl

end Cert.KernelIdeal.KernelSpec

end
-- ==== Proof.RefLinear.lean ====
/-
  The reference's three input projections, read at an index.

  Each projection quantises its activations and its weight matrix entry by entry at their own steps, contracts the
  input-feature axis of the two, and adds the bias: at batch `b`, row `n`, output feature `d` the result is the sum over
  the 1024 input features `k` of the quantised activation at `(b, n, k)` times the quantised weight at `(d, k)`, plus
  the bias at `d`.
-/
import proofs.«148380_j86835648790565_1_alg».proof.Proof.Gen.ReferenceIdeal.Read
import proofs.«148380_j86835648790565_1_alg».proof.Proof.QuantSpec

noncomputable section

namespace Cert.ReferenceIdeal.RefValue

open Cert.ReferenceIdeal Cert.ReferenceIdeal.Gen Cert.ReferenceIdeal.Read Idealize.ShloMosaic Idealize.ShloMosaic.ValueIdx Cert.QAttn

/-- The query projection: the quantised activations entry by entry. -/
theorem q_act (x : FVec Ideal S2x2048x1024 .f32) (i : S2x2048x1024.Idx) :
    val_main_v9 (F := Ideal) x i = fq (val_main_v3 (F := Ideal) x ix0) (x i) := by
  rw [val_main_v9_apply, val_main_v7_apply, val_main_v6_apply, val_main_call0_v4_apply, val_main_call0_v3_apply, val_main_cst_3_apply, val_main_call0_v2_apply, val_main_call0_v1_apply, val_main_call0_v0_apply, val_main_cst_2_apply, val_main_v5_apply, val_main_v4_apply, val_main_v8_apply]
  rfl

/-- The query projection: the quantised weights entry by entry. -/
theorem q_wgt (w : FVec Ideal S1024x1024 .f32) (i : S1024x1024.Idx) :
    val_main_v19 (F := Ideal) w i = fq (val_main_v13 (F := Ideal) w ix0) (w i) := by
  rw [val_main_v19_apply, val_main_v17_apply, val_main_v16_apply, val_main_call2_v4_apply, val_main_call2_v3_apply, val_main_cst_8_apply, val_main_call2_v2_apply, val_main_call2_v1_apply, val_main_call2_v0_apply, val_main_cst_7_apply, val_main_v15_apply, val_main_v14_apply, val_main_v18_apply]
  rfl

/-- The query projection at batch `b`, row `n`, output feature `d`: the sum over the input features of quantised activation times
    quantised weight, plus the bias. -/
theorem q_proj (x : FVec Ideal S2x2048x1024 .f32) (w : FVec Ideal S1024x1024 .f32) (bias : FVec Ideal S1024 .f32)
    (b : Fin 2) (n : Fin 2048) (d : Fin 1024) :
    val_main_v23 (F := Ideal) x w bias (ix3 b n d)
      = (∑ k : Fin 1024, fq (val_main_v3 (F := Ideal) x ix0) (x (ix3 b n k)) * fq (val_main_v13 (F := Ideal) w ix0) (w (ix2 d k)))
        + bias (ix1 d) := by
  rw [val_main_v23_apply, val_main_v20_apply, val_main_v22_apply, val_main_v21_apply]
  refine congrArg₂ (fun u v : EReal => u + v) (Finset.sum_congr rfl fun k _ => ?_) (congrArg bias (funext fun a => ?_))
  · rw [q_act, q_wgt]
    have e1 : lidx_main_v20 (ix3 b n d) k = ix3 b n k := funext fun a => by
      match a with
      | ⟨0, _⟩ => rfl
      | ⟨1, _⟩ => rfl
      | ⟨2, _⟩ => rfl
    have e2 : ridx_main_v20 (ix3 b n d) k = ix2 d k := funext fun a => by
      match a with
      | ⟨0, _⟩ => rfl
      | ⟨1, _⟩ => rfl
    rw [e1, e2]
  · match a with
    | ⟨0, _⟩ => rfl

/-- The key projection: the quantised activations entry by entry. -/
theorem k_act (x : FVec Ideal S2x2048x1024 .f32) (i : S2x2048x1024.Idx) :
    val_main_v33 (F := Ideal) x i = fq (val_main_v27 (F := Ideal) x ix0) (x i) := by
  rw [val_main_v33_apply, val_main_v31_apply, val_main_v30_apply, val_main_call4_v4_apply, val_main_call4_v3_apply, val_main_cst_13_apply, val_main_call4_v2_apply, val_main_call4_v1_apply, val_main_call4_v0_apply, val_main_cst_12_apply, val_main_v29_apply, val_main_v28_apply, val_main_v32_apply]
  rfl

/-- The key projection: the quantised weights entry by entry. -/
theorem k_wgt (w : FVec Ideal S1024x1024 .f32) (i : S1024x1024.Idx) :
    val_main_v43 (F := Ideal) w i = fq (val_main_v37 (F := Ideal) w ix0) (w i) := by
  rw [val_main_v43_apply, val_main_v41_apply, val_main_v40_apply, val_main_call6_v4_apply, val_main_call6_v3_apply, val_main_cst_18_apply, val_main_call6_v2_apply, val_main_call6_v1_apply, val_main_call6_v0_apply, val_main_cst_17_apply, val_main_v39_apply, val_main_v38_apply, val_main_v42_apply]
  rfl

/-- The key projection at batch `b`, row `n`, output feature `d`: the sum over the input features of quantised activation times
    quantised weight, plus the bias. -/
theorem k_proj (x : FVec Ideal S2x2048x1024 .f32) (w : FVec Ideal S1024x1024 .f32) (bias : FVec Ideal S1024 .f32)
    (b : Fin 2) (n : Fin 2048) (d : Fin 1024) :
    val_main_v47 (F := Ideal) x w bias (ix3 b n d)
      = (∑ k : Fin 1024, fq (val_main_v27 (F := Ideal) x ix0) (x (ix3 b n k)) * fq (val_main_v37 (F := Ideal) w ix0) (w (ix2 d k)))
        + bias (ix1 d) := by
  rw [val_main_v47_apply, val_main_v44_apply, val_main_v46_apply, val_main_v45_apply]
  refine congrArg₂ (fun u v : EReal => u + v) (Finset.sum_congr rfl fun k _ => ?_) (congrArg bias (funext fun a => ?_))
  · rw [k_act, k_wgt]
    have e1 : lidx_main_v44 (ix3 b n d) k = ix3 b n k := funext fun a => by
      match a with
      | ⟨0, _⟩ => rfl
      | ⟨1, _⟩ => rfl
      | ⟨2, _⟩ => rfl
    have e2 : ridx_main_v44 (ix3 b n d) k = ix2 d k := funext fun a => by
      match a with
      | ⟨0, _⟩ => rfl
      | ⟨1, _⟩ => rfl
    rw [e1, e2]
  · match a with
    | ⟨0, _⟩ => rfl

/-- The value projection: the quantised activations entry by entry. -/
theorem v_act (x : FVec Ideal S2x2048x1024 .f32) (i : S2x2048x1024.Idx) :
    val_main_v57 (F := Ideal) x i = fq (val_main_v51 (F := Ideal) x ix0) (x i) := by
  rw [val_main_v57_apply, val_main_v55_apply, val_main_v54_apply, val_main_call8_v4_apply, val_main_call8_v3_apply, val_main_cst_23_apply, val_main_call8_v2_apply, val_main_call8_v1_apply, val_main_call8_v0_apply, val_main_cst_22_apply, val_main_v53_apply, val_main_v52_apply, val_main_v56_apply]
  rfl

/-- The value projection: the quantised weights entry by entry. -/
theorem v_wgt (w : FVec Ideal S1024x1024 .f32) (i : S1024x1024.Idx) :
    val_main_v67 (F := Ideal) w i = fq (val_main_v61 (F := Ideal) w ix0) (w i) := by
  rw [val_main_v67_apply, val_main_v65_apply, val_main_v64_apply, val_main_call10_v4_apply, val_main_call10_v3_apply, val_main_cst_28_apply, val_main_call10_v2_apply, val_main_call10_v1_apply, val_main_call10_v0_apply, val_main_cst_27_apply, val_main_v63_apply, val_main_v62_apply, val_main_v66_apply]
  rfl

/-- The value projection at batch `b`, row `n`, output feature `d`: the sum over the input features of quantised activation times
    quantised weight, plus the bias. -/
theorem v_proj (x : FVec Ideal S2x2048x1024 .f32) (w : FVec Ideal S1024x1024 .f32) (bias : FVec Ideal S1024 .f32)
    (b : Fin 2) (n : Fin 2048) (d : Fin 1024) :
    val_main_v71 (F := Ideal) x w bias (ix3 b n d)
      = (∑ k : Fin 1024, fq (val_main_v51 (F := Ideal) x ix0) (x (ix3 b n k)) * fq (val_main_v61 (F := Ideal) w ix0) (w (ix2 d k)))
        + bias (ix1 d) := by
  rw [val_main_v71_apply, val_main_v68_apply, val_main_v70_apply, val_main_v69_apply]
  refine congrArg₂ (fun u v : EReal => u + v) (Finset.sum_congr rfl fun k _ => ?_) (congrArg bias (funext fun a => ?_))
  · rw [v_act, v_wgt]
    have e1 : lidx_main_v68 (ix3 b n d) k = ix3 b n k := funext fun a => by
      match a with
      | ⟨0, _⟩ => rfl
      | ⟨1, _⟩ => rfl
      | ⟨2, _⟩ => rfl
    have e2 : ridx_main_v68 (ix3 b n d) k = ix2 d k := funext fun a => by
      match a with
      | ⟨0, _⟩ => rfl
      | ⟨1, _⟩ => rfl
    rw [e1, e2]
  · match a with
    | ⟨0, _⟩ => rfl

/-! ## The output projection: its activations are the merged attention output -/

section Output
variable (x0 x1 x2 : FVec Ideal S2x2048x1024 .f32) (x3 x5 x7 x9 : FVec Ideal S1024x1024 .f32) (x4 x6 x8 x10 : FVec Ideal S1024 .f32)

/-- The output projection: the quantised merged attention output entry by entry. -/
theorem o_act (i : S2x2048x1024.Idx) :
    val_main_v145 (F := Ideal) x0 x1 x2 x3 x4 x5 x6 x7 x8 i
      = fq (val_main_v139 (F := Ideal) x0 x1 x2 x3 x4 x5 x6 x7 x8 ix0) (val_main_v135 (F := Ideal) x0 x1 x2 x3 x4 x5 x6 x7 x8 i) := by
  rw [val_main_v145_apply, val_main_v143_apply, val_main_v142_apply, val_main_call20_v4_apply, val_main_call20_v3_apply, val_main_cst_57_apply, val_main_call20_v2_apply, val_main_call20_v1_apply, val_main_call20_v0_apply, val_main_cst_56_apply, val_main_v141_apply, val_main_v140_apply, val_main_v144_apply]
  rfl

/-- The output projection: the quantised weights entry by entry. -/
theorem o_wgt (i : S1024x1024.Idx) :
    val_main_v155 (F := Ideal) x9 i = fq (val_main_v149 (F := Ideal) x9 ix0) (x9 i) := by
  rw [val_main_v155_apply, val_main_v153_apply, val_main_v152_apply, val_main_call22_v4_apply, val_main_call22_v3_apply, val_main_cst_62_apply, val_main_call22_v2_apply, val_main_call22_v1_apply, val_main_call22_v0_apply, val_main_cst_61_apply, val_main_v151_apply, val_main_v150_apply, val_main_v154_apply]
  rfl

/-- The reference's result at batch `b`, row `n`, output feature `d`. -/
theorem o_proj (b : Fin 2) (n : Fin 2048) (d : Fin 1024) :
    val_main_v159 (F := Ideal) x0 x1 x2 x3 x4 x5 x6 x7 x8 x9 x10 (ix3 b n d)
      = (∑ k : Fin 1024, fq (val_main_v139 (F := Ideal) x0 x1 x2 x3 x4 x5 x6 x7 x8 ix0) (val_main_v135 (F := Ideal) x0 x1 x2 x3 x4 x5 x6 x7 x8 (ix3 b n k))
            * fq (val_main_v149 (F := Ideal) x9 ix0) (x9 (ix2 d k)))
        + x10 (ix1 d) := by
  rw [val_main_v159_apply, val_main_v156_apply, val_main_v158_apply, val_main_v157_apply]
  refine congrArg₂ (fun u v : EReal => u + v) (Finset.sum_congr rfl fun k _ => ?_) (congrArg x10 (funext fun a => ?_))
  · rw [o_act, o_wgt]
    have e1 : lidx_main_v156 (ix3 b n d) k = ix3 b n k := funext fun a => by
      match a with
      | ⟨0, _⟩ => rfl
      | ⟨1, _⟩ => rfl
      | ⟨2, _⟩ => rfl
    have e2 : ridx_main_v156 (ix3 b n d) k = ix2 d k := funext fun a => by
      match a with
      | ⟨0, _⟩ => rfl
      | ⟨1, _⟩ => rfl
    rw [e1, e2]
  · match a with
    | ⟨0, _⟩ => rfl

end Output

end Cert.ReferenceIdeal.RefValue

end
-- ==== Proof.JoinProj.lean ====
/-
  The kernel's three projections are the reference's.

  What the kernel's first three regions leave, read back as [2, 2048, 1024], is at (b, n, d) the sum over the input
  features of quantised activation times quantised weight plus the bias, the steps being the scales of the whole
  activation tensor and of the whole weight matrix. The reference's projections of the same arguments are the same
  sums, and its steps are the same expression (largest magnitude over 127, plus 1e-12) of the same tensors. So the two
  arrays are equal entry by entry.
-/
import proofs.«148380_j86835648790565_1_alg».proof.Proof.ProjValue
import proofs.«148380_j86835648790565_1_alg».proof.Proof.RefLinear

noncomputable section

namespace Cert.Proof.Join

open Idealize.ShloMosaic Idealize.ShloMosaic.TcCoe Idealize.ShloMosaic.ValueIdx Idealize.SL.Sem
open Cert.KernelIdeal.RunValue

variable (m : (ℓ : Loc Cert.KernelIdeal.nD Cert.KernelIdeal.τ Cert.KernelIdeal.sig) → Buf (Elt Ideal) ℓ)
  (ρ : Dev Cert.KernelIdeal.nD → PrngReg)

/-- The kernel's scale of a whole tensor and the reference's step of the same tensor are one expression. -/
theorem scale_act_eq (x : FVec Ideal Cert.KernelIdeal.S2x2048x1024 .f32) :
    scaleOf (F := Ideal) x Cert.KernelIdeal.Gen.reducesTo_S2x2048x1024_S_d0_1_2 = Cert.ReferenceIdeal.Read.val_main_v3 (F := Ideal) x := rfl
theorem scale_wgt_eq (w : FVec Ideal Cert.KernelIdeal.S1024x1024 .f32) :
    scaleOf (F := Ideal) w Cert.KernelIdeal.Gen.reducesTo_S1024x1024_S_d0_1 = Cert.ReferenceIdeal.Read.val_main_v13 (F := Ideal) w := rfl

/-- The query projections agree. -/
theorem X0_eq (c : Dev Cert.KernelIdeal.nD) :
    shapeCast Cert.KernelIdeal.S2x2048x1024 (out0 m ρ c) Cert.KernelIdeal.Gen.shapeCasts_S4096x1024_S2x2048x1024
      = Cert.ReferenceIdeal.Read.val_main_v23 (F := Ideal) (arg m c Cert.KernelIdeal.main_arg0)
          (arg m c Cert.KernelIdeal.main_arg3) (arg m c Cert.KernelIdeal.main_arg4) :=
  (Cert.KernelIdeal.ProjValue.proj0 m ρ c).trans (funext fun i => by
    obtain ⟨b, n, d, rfl⟩ : ∃ (b : Fin 2) (n : Fin 2048) (d : Fin 1024), i = ix3 b n d := ⟨i 0, i 1, i 2, eq_ix3 i⟩
    exact (Cert.ReferenceIdeal.RefValue.q_proj (arg m c Cert.KernelIdeal.main_arg0) (arg m c Cert.KernelIdeal.main_arg3)
      (arg m c Cert.KernelIdeal.main_arg4) b n d).symm)

/-- The key projections agree. -/
theorem X1_eq (c : Dev Cert.KernelIdeal.nD) :
    shapeCast Cert.KernelIdeal.S2x2048x1024 (out1 m ρ c) Cert.KernelIdeal.Gen.shapeCasts_S4096x1024_S2x2048x1024
      = Cert.ReferenceIdeal.Read.val_main_v47 (F := Ideal) (arg m c Cert.KernelIdeal.main_arg1)
          (arg m c Cert.KernelIdeal.main_arg5) (arg m c Cert.KernelIdeal.main_arg6) :=
  (Cert.KernelIdeal.ProjValue.proj1 m ρ c).trans (funext fun i => by
    obtain ⟨b, n, d, rfl⟩ : ∃ (b : Fin 2) (n : Fin 2048) (d : Fin 1024), i = ix3 b n d := ⟨i 0, i 1, i 2, eq_ix3 i⟩
    exact (Cert.ReferenceIdeal.RefValue.k_proj (arg m c Cert.KernelIdeal.main_arg1) (arg m c Cert.KernelIdeal.main_arg5)
      (arg m c Cert.KernelIdeal.main_arg6) b n d).symm)

/-- The value projections agree. -/
theorem X2_eq (c : Dev Cert.KernelIdeal.nD) :
    shapeCast Cert.KernelIdeal.S2x2048x1024 (out2 m ρ c) Cert.KernelIdeal.Gen.shapeCasts_S4096x1024_S2x2048x1024
      = Cert.ReferenceIdeal.Read.val_main_v71 (F := Ideal) (arg m c Cert.KernelIdeal.main_arg2)
          (arg m c Cert.KernelIdeal.main_arg7) (arg m c Cert.KernelIdeal.main_arg8) :=
  (Cert.KernelIdeal.ProjValue.proj2 m ρ c).trans (funext fun i => by
    obtain ⟨b, n, d, rfl⟩ : ∃ (b : Fin 2) (n : Fin 2048) (d : Fin 1024), i = ix3 b n d := ⟨i 0, i 1, i 2, eq_ix3 i⟩
    exact (Cert.ReferenceIdeal.RefValue.v_proj (arg m c Cert.KernelIdeal.main_arg2) (arg m c Cert.KernelIdeal.main_arg7)
      (arg m c Cert.KernelIdeal.main_arg8) b n d).symm)

end Cert.Proof.Join

end
-- ==== Proof.LibSoftmaxPeak.lean ====
/-
  The peak of a softmax, over the reals and then over the extended reals.

  For a row of real scores `s k` with maximum `m`, the shifted exponentials `e k = exp (s k - m)` lie in
  `(0, 1]`, and the maximising column has `e k = exp 0 = 1`. So the row's sum `l = ∑ k, e k` is at
  least `1`, every softmax entry `e k / l` is positive and at most `1 / l`, and the bound is attained at
  the maximising column: the largest absolute value in the row is `1 / l`. Over several rows the largest
  absolute value of all softmax entries is the largest `1 / l r`, and because `x ↦ 1 / x` reverses the
  order of positive numbers that is `1 / (the smallest l r)`. The last section restates this with every
  quantity an extended real and the operations those of the exact (ideal) reading of floats: the
  supremum of `|e / l|` over all entries is `1` divided by the infimum of the row sums.
-/
import Mathlib.Analysis.SpecialFunctions.Exp
import Mathlib.Data.EReal.Basic
import Mathlib.Data.EReal.Operations
import Mathlib.Data.EReal.Inv
import Idealize.ShloMosaic.PureOps.Ideal

namespace Idealize.ShloMosaic.SoftmaxPeak

open Idealize.ShloMosaic
open scoped BigOperators

/-! ## Over the reals -/

section Real
variable {ρ κ : Type} [Fintype ρ] [Fintype κ] [Nonempty ρ] [Nonempty κ] (s : ρ → κ → ℝ)

/-- The maximum of row `r` of the scores. -/
noncomputable def rowMax (r : ρ) : ℝ := Finset.univ.sup' Finset.univ_nonempty (s r)

/-- The shifted exponential `exp (s r k - max of row r)`. -/
noncomputable def expShift (r : ρ) (k : κ) : ℝ := Real.exp (s r k - rowMax s r)

/-- The sum of row `r` of the shifted exponentials. -/
noncomputable def rowSum (r : ρ) : ℝ := ∑ k, expShift s r k

/-- Every score is at most its row's maximum. -/
theorem le_rowMax (r : ρ) (k : κ) : s r k ≤ rowMax s r := Finset.le_sup' (s r) (Finset.mem_univ k)

/-- The row's maximum is attained at some column. -/
theorem exists_eq_rowMax (r : ρ) : ∃ k, s r k = rowMax s r := by
  obtain ⟨k, _, hk⟩ := Finset.exists_mem_eq_sup' Finset.univ_nonempty (s r)
  exact ⟨k, hk.symm⟩

/-- A shifted exponential is positive. -/
theorem expShift_pos (r : ρ) (k : κ) : 0 < expShift s r k := Real.exp_pos _

/-- A shifted exponential is at most `1`: its exponent is at most `0`. -/
theorem expShift_le_one (r : ρ) (k : κ) : expShift s r k ≤ 1 :=
  Real.exp_le_one_iff.2 (sub_nonpos.2 (le_rowMax s r k))

/-- At a maximising column the shifted exponential is `exp 0 = 1`. -/
theorem expShift_eq_one {r : ρ} {k : κ} (hk : s r k = rowMax s r) : expShift s r k = 1 := by
  unfold expShift; rw [hk, sub_self, Real.exp_zero]

/-- (a) The row sum is at least `1`: the maximising column contributes `1` and every term is positive. -/
theorem one_le_rowSum (r : ρ) : 1 ≤ rowSum s r := by
  obtain ⟨k0, hk0⟩ := exists_eq_rowMax s r
  calc (1 : ℝ) = expShift s r k0 := (expShift_eq_one s hk0).symm
    _ ≤ ∑ k, expShift s r k :=
      Finset.single_le_sum (f := fun k => expShift s r k) (fun k _ => (expShift_pos s r k).le) (Finset.mem_univ k0)

/-- Hence the row sum is positive … -/
theorem rowSum_pos (r : ρ) : 0 < rowSum s r := lt_of_lt_of_le one_pos (one_le_rowSum s r)

/-- … and not zero. -/
theorem rowSum_ne_zero (r : ρ) : rowSum s r ≠ 0 := (rowSum_pos s r).ne'

/-- A softmax entry is positive, so its absolute value is itself. -/
theorem abs_softmax (r : ρ) (k : κ) : |expShift s r k / rowSum s r| = expShift s r k / rowSum s r :=
  abs_of_pos (div_pos (expShift_pos s r k) (rowSum_pos s r))

/-- A softmax entry is at most `1 / l r`. -/
theorem softmax_le (r : ρ) (k : κ) : expShift s r k / rowSum s r ≤ 1 / rowSum s r := by
  rw [div_eq_mul_inv, div_eq_mul_inv]
  exact mul_le_mul_of_nonneg_right (expShift_le_one s r k) (inv_nonneg.2 (rowSum_pos s r).le)

/-- (b) In each row the largest absolute value of a softmax entry is `1 / l r`, attained at the maximising column. -/
theorem sup'_abs_softmax_row (r : ρ) :
    Finset.univ.sup' Finset.univ_nonempty (fun k => |expShift s r k / rowSum s r|) = 1 / rowSum s r := by
  apply le_antisymm
  · refine Finset.sup'_le _ _ fun k _ => ?_
    rw [abs_softmax]; exact softmax_le s r k
  · obtain ⟨k0, hk0⟩ := exists_eq_rowMax s r
    have h : |expShift s r k0 / rowSum s r| = 1 / rowSum s r := by rw [abs_softmax, expShift_eq_one s hk0]
    rw [← h]
    exact Finset.le_sup' (fun k => |expShift s r k / rowSum s r|) (Finset.mem_univ k0)

/-- (c) Over all rows and columns the largest absolute value of a softmax entry is `1` over the smallest row sum. -/
theorem sup'_abs_softmax :
    Finset.univ.sup' Finset.univ_nonempty (fun rk : ρ × κ => |expShift s rk.1 rk.2 / rowSum s rk.1|)
      = 1 / Finset.univ.inf' Finset.univ_nonempty (rowSum s) := by
  obtain ⟨r0, _, hr0⟩ := Finset.exists_mem_eq_inf' Finset.univ_nonempty (rowSum s)
  have hmin : ∀ r, rowSum s r0 ≤ rowSum s r := fun r => hr0 ▸ Finset.inf'_le (rowSum s) (Finset.mem_univ r)
  rw [hr0]
  apply le_antisymm
  · refine Finset.sup'_le _ _ fun rk _ => ?_
    rw [abs_softmax]
    exact (softmax_le s rk.1 rk.2).trans (one_div_le_one_div_of_le (rowSum_pos s r0) (hmin rk.1))
  · obtain ⟨k0, hk0⟩ := exists_eq_rowMax s r0
    have h : |expShift s r0 k0 / rowSum s r0| = 1 / rowSum s r0 := by rw [abs_softmax, expShift_eq_one s hk0]
    rw [← h]
    exact Finset.le_sup' (fun rk : ρ × κ => |expShift s rk.1 rk.2 / rowSum s rk.1|) (Finset.mem_univ (r0, k0))

/-- The smallest row sum is itself at least `1`, hence not zero. -/
theorem one_le_inf'_rowSum : 1 ≤ Finset.univ.inf' Finset.univ_nonempty (rowSum s) :=
  (Finset.le_inf'_iff _ _).2 fun r _ => one_le_rowSum s r

end Real

/-! ## Finite suprema and sums of reals inside the extended reals -/

section Coe
variable {ι : Type} [Fintype ι]

/-- The supremum in the extended reals of finitely many reals (at least one) is their maximum. -/
theorem iSup_coe_eq_coe_sup' [Nonempty ι] (f : ι → ℝ) :
    ⨆ i, ((f i : ℝ) : EReal) = ((Finset.univ.sup' Finset.univ_nonempty f : ℝ) : EReal) := by
  apply le_antisymm
  · exact iSup_le fun i => EReal.coe_le_coe_iff.2 (Finset.le_sup' f (Finset.mem_univ i))
  · obtain ⟨i0, _, hi0⟩ := Finset.exists_mem_eq_sup' Finset.univ_nonempty f
    rw [hi0]
    exact le_iSup (fun i => ((f i : ℝ) : EReal)) i0

/-- The infimum in the extended reals of finitely many reals (at least one) is their minimum. -/
theorem iInf_coe_eq_coe_inf' [Nonempty ι] (f : ι → ℝ) :
    ⨅ i, ((f i : ℝ) : EReal) = ((Finset.univ.inf' Finset.univ_nonempty f : ℝ) : EReal) := by
  apply le_antisymm
  · obtain ⟨i0, _, hi0⟩ := Finset.exists_mem_eq_inf' Finset.univ_nonempty f
    rw [hi0]
    exact iInf_le (fun i => ((f i : ℝ) : EReal)) i0
  · exact le_iInf fun i => EReal.coe_le_coe_iff.2 (Finset.inf'_le f (Finset.mem_univ i))

/-- A finite sum of reals, taken in the extended reals, is the real sum. -/
theorem sum_coe (f : ι → ℝ) : ∑ i, ((f i : ℝ) : EReal) = ((∑ i, f i : ℝ) : EReal) := by
  classical
  induction (Finset.univ : Finset ι) using Finset.induction_on with
  | empty => simp
  | insert a S ha ih => rw [Finset.sum_insert ha, Finset.sum_insert ha, ih, EReal.coe_add]

/-- On a real, the ideal reading's absolute value `max x (-x)` is the real absolute value. -/
theorem max_neg_coe (q : ℝ) : max (q : EReal) (-(q : EReal)) = ((|q| : ℝ) : EReal) := by
  rw [← EReal.coe_neg, abs_eq_max_neg]
  exact (EReal.coe_strictMono.monotone.map_max).symm

end Coe

/-! ## Over the extended reals, with the ideal reading's operations -/

section Ideal
variable {ρ κ : Type} [Fintype ρ] [Fintype κ] [Nonempty ρ] [Nonempty κ]

/-- (d) The peak of a softmax in the exact reading. The scores `S r k` are finite (each is the real `s r k`);
    `M r` is the row's supremum, `E r k = exp (S r k - M r)` the shifted exponential, `L r = ∑ k, E r k` the row's sum,
    all extended reals. Then the supremum over every row and column of the absolute value `max x (-x)` of the
    quotient `E r k / L r` is `1` divided by the infimum of the row sums — division being the exact reading's
    `Ideal.div`, whose corner at a zero divisor is never met because every row sum is at least `1`. -/
theorem iSup_abs_softmax_eq_one_div_iInf (s : ρ → κ → ℝ)
    (S : ρ → κ → EReal) (hS : ∀ r k, S r k = ((s r k : ℝ) : EReal))
    (M : ρ → EReal) (hM : ∀ r, M r = ⨆ k, S r k)
    (E : ρ → κ → EReal) (hE : ∀ r k, E r k = Ideal.exp (S r k - M r))
    (L : ρ → EReal) (hL : ∀ r, L r = ∑ k, E r k) :
    (⨆ r, ⨆ k, max (Ideal.div (E r k) (L r)) (-(Ideal.div (E r k) (L r)))) = Ideal.div 1 (⨅ r, L r) := by
  have hM' : ∀ r, M r = ((rowMax s r : ℝ) : EReal) := fun r => by
    rw [hM]; simp only [hS]; exact iSup_coe_eq_coe_sup' (s r)
  have hE' : ∀ r k, E r k = ((expShift s r k : ℝ) : EReal) := fun r k => by
    rw [hE, hS, hM', ← EReal.coe_sub]; rfl
  have hL' : ∀ r, L r = ((rowSum s r : ℝ) : EReal) := fun r => by
    rw [hL]; simp only [hE']; exact sum_coe _
  have hq : ∀ r k, max (Ideal.div (E r k) (L r)) (-(Ideal.div (E r k) (L r)))
      = ((|expShift s r k / rowSum s r| : ℝ) : EReal) := fun r k => by
    rw [hE', hL', Ideal.div_coe (rowSum_ne_zero s r), ← EReal.coe_mul, max_neg_coe, mul_one_div]
  have hinf : (⨅ r, L r) = ((Finset.univ.inf' Finset.univ_nonempty (rowSum s) : ℝ) : EReal) := by
    simp only [hL']; exact iInf_coe_eq_coe_inf' (rowSum s)
  have hne : Finset.univ.inf' Finset.univ_nonempty (rowSum s) ≠ 0 :=
    (lt_of_lt_of_le one_pos (one_le_inf'_rowSum s)).ne'
  simp only [hq]
  rw [hinf, Ideal.div_coe hne, one_mul, ← sup'_abs_softmax s, ← iSup_coe_eq_coe_sup', iSup_prod]

/-- The same, for scores known only to be finite extended reals (neither `-∞` nor `+∞`). -/
theorem iSup_abs_softmax_eq_one_div_iInf_of_finite
    (S : ρ → κ → EReal) (hS : ∀ r k, S r k ≠ ⊥ ∧ S r k ≠ ⊤)
    (M : ρ → EReal) (hM : ∀ r, M r = ⨆ k, S r k)
    (E : ρ → κ → EReal) (hE : ∀ r k, E r k = Ideal.exp (S r k - M r))
    (L : ρ → EReal) (hL : ∀ r, L r = ∑ k, E r k) :
    (⨆ r, ⨆ k, max (Ideal.div (E r k) (L r)) (-(Ideal.div (E r k) (L r)))) = Ideal.div 1 (⨅ r, L r) :=
  iSup_abs_softmax_eq_one_div_iInf (fun r k => (S r k).toReal) S
    (fun r k => (EReal.coe_toReal (hS r k).2 (hS r k).1).symm) M hM E hE L hL

end Ideal

end Idealize.ShloMosaic.SoftmaxPeak
-- ==== Proof.QuantFinite.lean ====
/-
  Finiteness of quantised attention, and the peak of its softmax.

  Every quantity of the quantised-attention specification is a real number (neither infinity) as soon as the inputs
  are: a quotient of reals by a nonzero real is real, clamping between two real bounds and rounding to an integer
  keep a real real, and finite sums, products, exponentials and finite nonempty suprema of reals are real. The step
  of a real array — its largest absolute value over 127, plus a small positive constant — is a POSITIVE real, hence
  a legitimate nonzero divisor. A score row's sum of shifted exponentials is a real that is at least one, so the
  softmax weights are real; and the largest absolute softmax weight over all rows is one over the smallest row sum.
-/
import Idealize.ShloMosaic.PureOps.Ideal
import Idealize.ShloMosaic.Lib.ValueIdx
import proofs.«148380_j86835648790565_1_alg».proof.Proof.QuantSpec
import proofs.«148380_j86835648790565_1_alg».proof.Proof.LibSoftmaxPeak

noncomputable section

namespace Cert.QAttn.Finite

open Idealize.ShloMosaic Idealize.ShloMosaic.ValueIdx Idealize.ShloMosaic.SoftmaxPeak
open scoped BigOperators

/-! ## Being a real number -/

/-- An extended real that is a real number: neither `-∞` nor `+∞`. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.ne_bot {x : EReal} (h : IsReal x) : x ≠ ⊥ := by
  obtain ⟨r, rfl⟩ := h; exact EReal.coe_ne_bot r
theorem IsReal.ne_top {x : EReal} (h : IsReal x) : x ≠ ⊤ := by
  obtain ⟨r, rfl⟩ := h; exact EReal.coe_ne_top r
theorem IsReal.finite {x : EReal} (h : IsReal x) : x ≠ ⊥ ∧ x ≠ ⊤ := ⟨h.ne_bot, h.ne_top⟩
theorem isReal_of_ne {x : EReal} (hb : x ≠ ⊥) (ht : x ≠ ⊤) : IsReal x := ⟨x.toReal, (EReal.coe_toReal ht hb).symm⟩
theorem isReal_iff {x : EReal} : IsReal x ↔ x ≠ ⊥ ∧ x ≠ ⊤ := ⟨IsReal.finite, fun h => isReal_of_ne h.1 h.2⟩

/-- Sums, differences, products, negations, maxima and minima of reals are real. -/
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  obtain ⟨a, rfl⟩ := hx; obtain ⟨b, rfl⟩ := hy; exact ⟨Max.max a b, (EReal.coe_strictMono.monotone.map_max).symm⟩
theorem IsReal.min {x y : EReal} (hx : IsReal x) (hy : IsReal y) : IsReal (min x y) := by
  obtain ⟨a, rfl⟩ := hx; obtain ⟨b, rfl⟩ := hy; exact ⟨Min.min a b, (EReal.coe_strictMono.monotone.map_min).symm⟩

/-- A finite sum of reals is real. -/
theorem isReal_sum {ι : Type} (S : Finset ι) (f : ι → EReal) (h : ∀ i ∈ S, IsReal (f i)) : IsReal (∑ i ∈ S, f i) :=
  Finset.sum_induction f IsReal (fun _ _ => IsReal.add) isReal_zero h

/-- The quotient of a real by a nonzero real is real (the division's corner at a zero divisor is not met). -/
theorem IsReal.div {x y : EReal} (hx : IsReal x) (hy : IsReal y) (hy0 : y ≠ 0) : IsReal (Ideal.div x y) := by
  obtain ⟨a, rfl⟩ := hx; obtain ⟨b, rfl⟩ := hy
  have hb : b ≠ 0 := fun h => hy0 (by rw [h]; rfl)
  rw [Ideal.div_coe hb, ← EReal.coe_mul]; exact ⟨_, rfl⟩

/-- Rounding a real to an integer gives a real. -/
theorem IsReal.liftRound (f : ℝ → ℤ) {x : EReal} (hx : IsReal x) : IsReal (Ideal.liftRound f x) := by
  obtain ⟨a, rfl⟩ := hx; exact ⟨(f a : ℝ), rfl⟩

/-- The exponential of a real is real. -/
theorem IsReal.exp {x : EReal} (hx : IsReal x) : IsReal (Ideal.exp x) := by
  obtain ⟨a, rfl⟩ := hx; exact ⟨Real.exp a, rfl⟩

/-- The supremum of finitely many reals (at least one) is real: it is their maximum. -/
theorem isReal_iSup {ι : Type} [Fintype ι] [Nonempty ι] (f : ι → EReal) (h : ∀ i, IsReal (f i)) : IsReal (⨆ i, f i) := by
  choose g hg using h
  simp only [hg]
  exact ⟨_, iSup_coe_eq_coe_sup' g⟩

/-! ## The constants of the programs -/

/-- The f32 patterns the programs spell, as the reals they denote: `127`, `-128`, `1/8`, `64`, `1`, `0`. -/
theorem ofBits_127 : Ideal.ofBits .f32 0x42FE0000#32 = ((127 : ℝ) : EReal) := by
  simp [Ideal.ofBits, Ideal.ieee, -EReal.coe_mul]; norm_num
theorem ofBits_neg128 : Ideal.ofBits .f32 0xC3000000#32 = ((-128 : ℝ) : EReal) := by
  simp [Ideal.ofBits, Ideal.ieee, -EReal.coe_mul]; norm_num
theorem ofBits_eighth : Ideal.ofBits .f32 0x3E000000#32 = ((1 / 8 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_one' : Ideal.ofBits .f32 0x3F800000#32 = 1 := by rw [ofBits_one]; rfl
theorem ofBits_zero : Ideal.ofBits .f32 0x00000000#32 = 0 := by
  simp [Ideal.ofBits, Ideal.ieee]

/-- The pattern `0x2B8CBCCC` (the f32 nearest to `1e-12`) is the real `9223372 · 2⁻⁶³`. -/
theorem ofBits_eps_val : Ideal.ofBits .f32 0x2B8CBCCC#32 = ((9223372 * (2 : ℝ) ^ (-63 : ℤ) : ℝ) : EReal) := by
  simp [Ideal.ofBits, Ideal.ieee, -EReal.coe_mul]

/-- … a POSITIVE real; only that is used. -/
theorem ofBits_eps : ∃ e : ℝ, 0 < e ∧ Ideal.ofBits .f32 0x2B8CBCCC#32 = (e : EReal) :=
  ⟨_, by positivity, ofBits_eps_val⟩

theorem isReal_ofBits_127 : IsReal (Ideal.ofBits .f32 0x42FE0000#32) := ⟨_, ofBits_127⟩
theorem isReal_ofBits_neg128 : IsReal (Ideal.ofBits .f32 0xC3000000#32) := ⟨_, ofBits_neg128⟩
theorem isReal_ofBits_eighth : IsReal (Ideal.ofBits .f32 0x3E000000#32) := ⟨_, ofBits_eighth⟩

/-- The square root of `64` is `8`. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- In the programs' spelling: the square root of the constant `64.0` is the real `8`. -/
theorem sqrt_ofBits_64 : Ideal.sqrt (Ideal.ofBits .f32 0x42800000#32) = ((8 : ℝ) : EReal) := by
  rw [ofBits_64, sqrt_64]

/-- Dividing by `8` is multiplying by `1/8`, for every extended real. -/
theorem div_eight (x : EReal) : Ideal.div x ((8 : ℝ) : EReal) = x * ((1 / 8 : ℝ) : EReal) :=
  Ideal.div_coe (by norm_num) x

/-- Dividing by the square root of the constant `64.0` is multiplying by the constant `0.125`. -/
theorem div_sqrt_64_eq_mul_eighth (x : EReal) :
    Ideal.div x (Ideal.sqrt (Ideal.ofBits .f32 0x42800000#32)) = x * Ideal.ofBits .f32 0x3E000000#32 := by
  rw [sqrt_ofBits_64, div_eight, ofBits_eighth]

/-! ## The step of a real array is a positive real -/

/-- The largest absolute value of finitely many reals (at least one) is a nonnegative real. -/
theorem exists_real_iSup_abs {ι : Type} [Fintype ι] [Nonempty ι] (x : ι → EReal) (hx : ∀ i, IsReal (x i)) :
    ∃ m : ℝ, 0 ≤ m ∧ (⨆ i, max (x i) (-(x i))) = (m : EReal) := by
  choose g hg using hx
  refine ⟨Finset.univ.sup' Finset.univ_nonempty (fun i => |g i|), ?_, ?_⟩
  · obtain ⟨i0⟩ := (inferInstance : Nonempty ι)
    exact (abs_nonneg (g i0)).trans (Finset.le_sup' (fun i => |g i|) (Finset.mem_univ i0))
  · simp only [hg, max_neg_coe]
    exact iSup_coe_eq_coe_sup' (fun i => |g i|)

/-- The step of a real array — its largest absolute value divided by `127`, plus the small positive constant — is
    a positive real. -/
theorem step_pos_real {ι : Type} [Fintype ι] [Nonempty ι] (x : ι → EReal) (hx : ∀ i, IsReal (x i)) :
    ∃ s : ℝ, 0 < s ∧
      Ideal.div (⨆ i, max (x i) (-(x i))) (Ideal.ofBits .f32 0x42FE0000#32) + Ideal.ofBits .f32 0x2B8CBCCC#32
        = (s : EReal) := by
  obtain ⟨m, hm0, hm⟩ := exists_real_iSup_abs x hx
  obtain ⟨e, he0, he⟩ := ofBits_eps
  refine ⟨m * (1 / 127) + e, by positivity, ?_⟩
  rw [hm, he, ofBits_127, Ideal.div_coe (by norm_num), ← EReal.coe_mul, ← EReal.coe_add]

/-- Hence the step is real and not zero. -/
theorem step_isReal_ne_zero {ι : Type} [Fintype ι] [Nonempty ι] (x : ι → EReal) (hx : ∀ i, IsReal (x i)) :
    IsReal (Ideal.div (⨆ i, max (x i) (-(x i))) (Ideal.ofBits .f32 0x42FE0000#32) + Ideal.ofBits .f32 0x2B8CBCCC#32)
      ∧ Ideal.div (⨆ i, max (x i) (-(x i))) (Ideal.ofBits .f32 0x42FE0000#32) + Ideal.ofBits .f32 0x2B8CBCCC#32 ≠ 0 := by
  obtain ⟨s, hs0, hs⟩ := step_pos_real x hx
  rw [hs]
  exact ⟨isReal_coe s, fun h => hs0.ne' (EReal.coe_eq_zero.1 h)⟩

/-! ## Quantisation keeps reals real -/

/-- An entry put on the grid of a nonzero real step is real. -/
theorem isReal_fq {s x : EReal} (hs : IsReal s) (hs0 : s ≠ 0) (hx : IsReal x) : IsReal (fq s x) := by
  unfold fq
  exact ((isReal_ofBits_127.min (isReal_ofBits_neg128.max (hx.div hs hs0))).liftRound _).mul hs

/-! ## The quantised linear layer and the scores are real -/

section Layers
variable {M : Nat}

/-- An entry of the quantised linear layer is real when the activations, weights and bias are and the two steps are
    nonzero reals. -/
theorem isReal_qmm (X : (⟨2, ![M, 1024]⟩ : Shape).Idx → EReal) (WT : (⟨2, ![1024, 1024]⟩ : Shape).Idx → EReal)
    (B : (⟨2, ![1, 1024]⟩ : Shape).Idx → EReal) (sx sw : EReal)
    (hX : ∀ i, IsReal (X i)) (hW : ∀ i, IsReal (WT i)) (hB : ∀ i, IsReal (B i))
    (hsx : IsReal sx) (hsx0 : sx ≠ 0) (hsw : IsReal sw) (hsw0 : sw ≠ 0) (i : (⟨2, ![M, 1024]⟩ : Shape).Idx) :
    IsReal (qmm X WT B sx sw i) := by
  unfold qmm
  exact (isReal_sum _ _ fun k _ => (isReal_fq hsx hsx0 (hX _)).mul (isReal_fq hsw hsw0 (hW _))).add (hB _)

end Layers

section Attention
variable (Q K : (⟨4, ![2, 16, 2048, 64]⟩ : Shape).Idx → EReal) (sq sk : EReal)

/-- A score is real when the queries and keys are and the two steps are nonzero reals. -/
theorem isReal_scores (hQ : ∀ i, IsReal (Q i)) (hK : ∀ i, IsReal (K i))
    (hsq : IsReal sq) (hsq0 : sq ≠ 0) (hsk : IsReal sk) (hsk0 : sk ≠ 0) (b : Fin 2) (h : Fin 16) (n j : Fin 2048) :
    IsReal (scores Q K sq sk b h n j) := by
  unfold scores
  exact (isReal_sum _ _ fun c _ => (isReal_fq hsq hsq0 (hQ _)).mul (isReal_fq hsk hsk0 (hK _))).mul isReal_ofBits_eighth

/-- The rows of the attention: batch, head and query position together. -/
abbrev Row : Type := Fin 2 × Fin 16 × Fin 2048

/-- Real scores, named: a real matrix `σ` (rows by key positions) whose coercion the scores are. -/
theorem exists_real_scores (hQ : ∀ i, IsReal (Q i)) (hK : ∀ i, IsReal (K i))
    (hsq : IsReal sq) (hsq0 : sq ≠ 0) (hsk : IsReal sk) (hsk0 : sk ≠ 0) :
    ∃ σ : Row → Fin 2048 → ℝ, ∀ (r : Row) (j : Fin 2048), scores Q K sq sk r.1 r.2.1 r.2.2 j = ((σ r j : ℝ) : EReal) := by
  choose σ hσ using fun (r : Row) (j : Fin 2048) => isReal_scores Q K sq sk hQ hK hsq hsq0 hsk hsk0 r.1 r.2.1 r.2.2 j
  exact ⟨σ, hσ⟩

variable {Q K sq sk}

/-- With the scores the real matrix `σ`, a row's largest score is the real maximum of `σ`'s row. -/
theorem rowMax_eq_coe {σ : Row → Fin 2048 → ℝ}
    (hσ : ∀ (r : Row) (j : Fin 2048), scores Q K sq sk r.1 r.2.1 r.2.2 j = ((σ r j : ℝ) : EReal)) (r : Row) :
    rowMax Q K sq sk r.1 r.2.1 r.2.2 = ((SoftmaxPeak.rowMax σ r : ℝ) : EReal) := by
  unfold rowMax
  simp only [hσ r]
  exact iSup_coe_eq_coe_sup' (σ r)

/-- … and the row's sum of shifted exponentials is the real one of `σ`'s row. -/
theorem rowSum_eq_coe {σ : Row → Fin 2048 → ℝ}
    (hσ : ∀ (r : Row) (j : Fin 2048), scores Q K sq sk r.1 r.2.1 r.2.2 j = ((σ r j : ℝ) : EReal)) (r : Row) :
    rowSum Q K sq sk r.1 r.2.1 r.2.2 = ((SoftmaxPeak.rowSum σ r : ℝ) : EReal) := by
  unfold rowSum
  simp only [hσ r, rowMax_eq_coe hσ r, ← EReal.coe_sub, Ideal.exp_coe]
  exact sum_coe _

variable (Q K sq sk)

/-- A row's largest score is real. -/
theorem isReal_rowMax (hQ : ∀ i, IsReal (Q i)) (hK : ∀ i, IsReal (K i))
    (hsq : IsReal sq) (hsq0 : sq ≠ 0) (hsk : IsReal sk) (hsk0 : sk ≠ 0) (b : Fin 2) (h : Fin 16) (n : Fin 2048) :
    IsReal (rowMax Q K sq sk b h n) := by
  obtain ⟨σ, hσ⟩ := exists_real_scores Q K sq sk hQ hK hsq hsq0 hsk hsk0
  exact ⟨_, rowMax_eq_coe hσ (b, h, n)⟩

/-- A row's sum of shifted exponentials is a real that is at least `1`. -/
theorem exists_real_rowSum (hQ : ∀ i, IsReal (Q i)) (hK : ∀ i, IsReal (K i))
    (hsq : IsReal sq) (hsq0 : sq ≠ 0) (hsk : IsReal sk) (hsk0 : sk ≠ 0) (b : Fin 2) (h : Fin 16) (n : Fin 2048) :
    ∃ l : ℝ, 1 ≤ l ∧ rowSum Q K sq sk b h n = (l : EReal) := by
  obtain ⟨σ, hσ⟩ := exists_real_scores Q K sq sk hQ hK hsq hsq0 hsk hsk0
  exact ⟨_, one_le_rowSum σ (b, h, n), rowSum_eq_coe hσ (b, h, n)⟩

theorem isReal_rowSum (hQ : ∀ i, IsReal (Q i)) (hK : ∀ i, IsReal (K i))
    (hsq : IsReal sq) (hsq0 : sq ≠ 0) (hsk : IsReal sk) (hsk0 : sk ≠ 0) (b : Fin 2) (h : Fin 16) (n : Fin 2048) :
    IsReal (rowSum Q K sq sk b h n) := by
  obtain ⟨l, _, hl⟩ := exists_real_rowSum Q K sq sk hQ hK hsq hsq0 hsk hsk0 b h n
  exact ⟨l, hl⟩

theorem one_le_rowSum_ereal (hQ : ∀ i, IsReal (Q i)) (hK : ∀ i, IsReal (K i))
    (hsq : IsReal sq) (hsq0 : sq ≠ 0) (hsk : IsReal sk) (hsk0 : sk ≠ 0) (b : Fin 2) (h : Fin 16) (n : Fin 2048) :
    (1 : EReal) ≤ rowSum Q K sq sk b h n := by
  obtain ⟨l, hl1, hl⟩ := exists_real_rowSum Q K sq sk hQ hK hsq hsq0 hsk hsk0 b h n
  rw [hl]; exact_mod_cast hl1

theorem rowSum_ne_zero_ereal (hQ : ∀ i, IsReal (Q i)) (hK : ∀ i, IsReal (K i))
    (hsq : IsReal sq) (hsq0 : sq ≠ 0) (hsk : IsReal sk) (hsk0 : sk ≠ 0) (b : Fin 2) (h : Fin 16) (n : Fin 2048) :
    rowSum Q K sq sk b h n ≠ 0 := by
  obtain ⟨l, hl1, hl⟩ := exists_real_rowSum Q K sq sk hQ hK hsq hsq0 hsk hsk0 b h n
  rw [hl]; exact fun h0 => (lt_of_lt_of_le one_pos hl1).ne' (EReal.coe_eq_zero.1 h0)

/-- A softmax weight `exp (score − row maximum) / row sum` is real. -/
theorem isReal_softmax (hQ : ∀ i, IsReal (Q i)) (hK : ∀ i, IsReal (K i))
    (hsq : IsReal sq) (hsq0 : sq ≠ 0) (hsk : IsReal sk) (hsk0 : sk ≠ 0) (b : Fin 2) (h : Fin 16) (n j : Fin 2048) :
    IsReal (Ideal.div (Ideal.exp (scores Q K sq sk b h n j - rowMax Q K sq sk b h n)) (rowSum Q K sq sk b h n)) :=
  (((isReal_scores Q K sq sk hQ hK hsq hsq0 hsk hsk0 b h n j).sub
      (isReal_rowMax Q K sq sk hQ hK hsq hsq0 hsk hsk0 b h n)).exp).div
    (isReal_rowSum Q K sq sk hQ hK hsq hsq0 hsk hsk0 b h n)
    (rowSum_ne_zero_ereal Q K sq sk hQ hK hsq hsq0 hsk hsk0 b h n)

/-- An entry of the attention output is real when the queries, keys and values are, the row statistics it is given
    are real with nonzero sums, and the four steps are nonzero reals. -/
theorem isReal_attnOut (Vv : (⟨4, ![2, 16, 2048, 64]⟩ : Shape).Idx → EReal)
    (Mx Lx : (⟨4, ![2, 16, 2048, 1]⟩ : Shape).Idx → EReal) (sv sa : EReal)
    (hQ : ∀ i, IsReal (Q i)) (hK : ∀ i, IsReal (K i)) (hV : ∀ i, IsReal (Vv i))
    (hM : ∀ i, IsReal (Mx i)) (hL : ∀ i, IsReal (Lx i)) (hL0 : ∀ i, Lx i ≠ 0)
    (hsq : IsReal sq) (hsq0 : sq ≠ 0) (hsk : IsReal sk) (hsk0 : sk ≠ 0)
    (hsv : IsReal sv) (hsv0 : sv ≠ 0) (hsa : IsReal sa) (hsa0 : sa ≠ 0) (i : (⟨4, ![2, 16, 2048, 64]⟩ : Shape).Idx) :
    IsReal (attnOut Q K Vv Mx Lx sq sk sv sa i) := by
  unfold attnOut
  exact isReal_sum _ _ fun j _ =>
    (isReal_fq hsa hsa0 ((((isReal_scores Q K sq sk hQ hK hsq hsq0 hsk hsk0 _ _ _ j).sub (hM _)).exp).div (hL _) (hL0 _))).mul
      (isReal_fq hsv hsv0 (hV _))

/-! ## The peak of the softmax -/

/-- The largest absolute softmax weight over every batch, head, query and key position is `1` divided by the smallest
    row sum: in each row the weight at the largest score is `exp 0` over the row sum, no weight in the row exceeds it,
    and dividing `1` by positive reals reverses their order. -/
theorem iSup_abs_softmax_eq (hQ : ∀ i, IsReal (Q i)) (hK : ∀ i, IsReal (K i))
    (hsq : IsReal sq) (hsq0 : sq ≠ 0) (hsk : IsReal sk) (hsk0 : sk ≠ 0) :
    (⨆ b : Fin 2, ⨆ h : Fin 16, ⨆ n : Fin 2048, ⨆ j : Fin 2048,
        max (Ideal.div (Ideal.exp (scores Q K sq sk b h n j - rowMax Q K sq sk b h n)) (rowSum Q K sq sk b h n))
          (-(Ideal.div (Ideal.exp (scores Q K sq sk b h n j - rowMax Q K sq sk b h n)) (rowSum Q K sq sk b h n))))
      = Ideal.div 1 (⨅ b : Fin 2, ⨅ h : Fin 16, ⨅ n : Fin 2048, rowSum Q K sq sk b h n) := by
  obtain ⟨σ, hσ⟩ := exists_real_scores Q K sq sk hQ hK hsq hsq0 hsk hsk0
  have key := iSup_abs_softmax_eq_one_div_iInf σ
    (fun (r : Row) (j : Fin 2048) => scores Q K sq sk r.1 r.2.1 r.2.2 j) hσ
    (fun r => rowMax Q K sq sk r.1 r.2.1 r.2.2) (fun _ => rfl)
    (fun r j => Ideal.exp (scores Q K sq sk r.1 r.2.1 r.2.2 j - rowMax Q K sq sk r.1 r.2.1 r.2.2)) (fun _ _ => rfl)
    (fun r => rowSum Q K sq sk r.1 r.2.1 r.2.2) (fun _ => rfl)
  simpa only [iSup_prod, iInf_prod] using key

end Attention

end Cert.QAttn.Finite

end
-- ==== Proof.RefFinite.lean ====
/-
  The reference's heads and steps are real when its inputs are.

  A whole-tensor step is the tensor's largest magnitude (a maximum fold from minus infinity, which over the extended
  reals is the supremum of the magnitudes) divided by 127, plus a small positive constant: for a tensor of real entries
  it is a positive real, so dividing by it is legitimate. A projection's entry is a finite sum of products of entries
  put on the grids of two such steps, plus a bias entry, hence real; splitting the heads only re-arranges the entries,
  so the head tensors are real too, and their own steps are again positive reals.
-/
import proofs.«148380_j86835648790565_1_alg».proof.Proof.Gen.ReferenceIdeal.Read
import proofs.«148380_j86835648790565_1_alg».proof.Proof.RefLinear
import proofs.«148380_j86835648790565_1_alg».proof.Proof.QuantFinite
import proofs.«148380_j86835648790565_1_alg».proof.Proof.LibReduceExtremum

noncomputable section

namespace Cert.ReferenceIdeal.RefValue

open Cert.ReferenceIdeal Cert.ReferenceIdeal.Gen Cert.ReferenceIdeal.Read Idealize.ShloMosaic Idealize.ShloMosaic.ValueIdx
open Cert.QAttn Cert.QAttn.Finite Idealize.ShloMosaic.ReduceExtremum

/-! ## A whole-tensor step -/

/-- The step of a whole tensor as the programs compute it: the maximum fold of the magnitudes from minus infinity,
    divided by 127, plus 1e-12, as a rank-zero tensor. -/
def hostStep {s : Shape} {axes : List (Fin s.rank)} (x : FVec Ideal s .f32) (h : s.ReducesTo axes S_) : FVec Ideal S_ .f32 :=
  addf (Host.divf (Host.reduce FloatOps.maximumf (Host.absf x) (constant S_ .f32 0xFF800000#32) h h_S_)
    (constant S_ .f32 0x42FE0000#32)) (constant S_ .f32 0x2B8CBCCC#32)

/-- At its one index: the supremum of the magnitudes over 127, plus 1e-12. -/
theorem hostStep_apply {s : Shape} {axes : List (Fin s.rank)} (x : FVec Ideal s .f32) (h : s.ReducesTo axes S_) :
    hostStep x h ix0
      = Ideal.div (⨆ i, max (x i) (-(x i))) (Ideal.ofBits .f32 0x42FE0000#32) + Ideal.ofBits .f32 0x2B8CBCCC#32 := by
  unfold hostStep
  rw [hostReduce_max_scalar_negInf (Host.absf x) h h_S_]
  rfl

/-- The step of a tensor of real entries (at least one) is a real that is not zero. -/
theorem hostStep_isReal_ne_zero {s : Shape} {axes : List (Fin s.rank)} [Nonempty s.Idx] (x : FVec Ideal s .f32)
    (h : s.ReducesTo axes S_) (hx : ∀ i, IsReal (x i)) : IsReal (hostStep x h ix0) ∧ hostStep x h ix0 ≠ 0 := by
  rw [hostStep_apply]
  exact step_isReal_ne_zero x hx

instance : Nonempty S2x2048x1024.Idx := ⟨ix3 (0 : Fin 2) (0 : Fin 2048) (0 : Fin 1024)⟩
instance : Nonempty S1024x1024.Idx := ⟨ix2 (0 : Fin 1024) (0 : Fin 1024)⟩
instance : Nonempty S2x16x2048x64.Idx := ⟨ix4 (0 : Fin 2) (0 : Fin 16) (0 : Fin 2048) (0 : Fin 64)⟩

/-! ## The six input steps -/

theorem step_q_act_eq (x : FVec Ideal S2x2048x1024 .f32) :
    val_main_v3 (F := Ideal) x = hostStep x reducesTo_S2x2048x1024_S_d0_1_2 := rfl
theorem step_q_wgt_eq (w : FVec Ideal S1024x1024 .f32) :
    val_main_v13 (F := Ideal) w = hostStep w reducesTo_S1024x1024_S_d0_1 := rfl
theorem step_k_act_eq (x : FVec Ideal S2x2048x1024 .f32) :
    val_main_v27 (F := Ideal) x = hostStep x reducesTo_S2x2048x1024_S_d0_1_2 := rfl
theorem step_k_wgt_eq (w : FVec Ideal S1024x1024 .f32) :
    val_main_v37 (F := Ideal) w = hostStep w reducesTo_S1024x1024_S_d0_1 := rfl
theorem step_v_act_eq (x : FVec Ideal S2x2048x1024 .f32) :
    val_main_v51 (F := Ideal) x = hostStep x reducesTo_S2x2048x1024_S_d0_1_2 := rfl
theorem step_v_wgt_eq (w : FVec Ideal S1024x1024 .f32) :
    val_main_v61 (F := Ideal) w = hostStep w reducesTo_S1024x1024_S_d0_1 := rfl

/-- The query activations' step is a nonzero real. -/
theorem step_q_act (x : FVec Ideal S2x2048x1024 .f32) (hx : ∀ i, IsReal (x i)) :
    IsReal (val_main_v3 (F := Ideal) x ix0) ∧ val_main_v3 (F := Ideal) x ix0 ≠ 0 := by
  rw [step_q_act_eq]; exact hostStep_isReal_ne_zero x _ hx
/-- The query weights' step is a nonzero real. -/
theorem step_q_wgt (w : FVec Ideal S1024x1024 .f32) (hw : ∀ i, IsReal (w i)) :
    IsReal (val_main_v13 (F := Ideal) w ix0) ∧ val_main_v13 (F := Ideal) w ix0 ≠ 0 := by
  rw [step_q_wgt_eq]; exact hostStep_isReal_ne_zero w _ hw
/-- The key activations' step is a nonzero real. -/
theorem step_k_act (x : FVec Ideal S2x2048x1024 .f32) (hx : ∀ i, IsReal (x i)) :
    IsReal (val_main_v27 (F := Ideal) x ix0) ∧ val_main_v27 (F := Ideal) x ix0 ≠ 0 := by
  rw [step_k_act_eq]; exact hostStep_isReal_ne_zero x _ hx
/-- The key weights' step is a nonzero real. -/
theorem step_k_wgt (w : FVec Ideal S1024x1024 .f32) (hw : ∀ i, IsReal (w i)) :
    IsReal (val_main_v37 (F := Ideal) w ix0) ∧ val_main_v37 (F := Ideal) w ix0 ≠ 0 := by
  rw [step_k_wgt_eq]; exact hostStep_isReal_ne_zero w _ hw
/-- The value activations' step is a nonzero real. -/
theorem step_v_act (x : FVec Ideal S2x2048x1024 .f32) (hx : ∀ i, IsReal (x i)) :
    IsReal (val_main_v51 (F := Ideal) x ix0) ∧ val_main_v51 (F := Ideal) x ix0 ≠ 0 := by
  rw [step_v_act_eq]; exact hostStep_isReal_ne_zero x _ hx
/-- The value weights' step is a nonzero real. -/
theorem step_v_wgt (w : FVec Ideal S1024x1024 .f32) (hw : ∀ i, IsReal (w i)) :
    IsReal (val_main_v61 (F := Ideal) w ix0) ∧ val_main_v61 (F := Ideal) w ix0 ≠ 0 := by
  rw [step_v_wgt_eq]; exact hostStep_isReal_ne_zero w _ hw

/-! ## The three projections, before and after the head split -/

section Projections
variable (x : FVec Ideal S2x2048x1024 .f32) (w : FVec Ideal S1024x1024 .f32) (bias : FVec Ideal S1024 .f32)
variable (hx : ∀ i, IsReal (x i)) (hw : ∀ i, IsReal (w i)) (hb : ∀ i, IsReal (bias i))
include hx hw hb

/-- Every entry of the query projection is real. -/
theorem isReal_q_proj (i : S2x2048x1024.Idx) : IsReal (val_main_v23 (F := Ideal) x w bias i) := by
  obtain ⟨b, n, d, rfl⟩ : ∃ (b : Fin 2) (n : Fin 2048) (d : Fin 1024), i = ix3 b n d := ⟨i 0, i 1, i 2, eq_ix3 i⟩
  obtain ⟨hs, hs0⟩ := step_q_act x hx
  obtain ⟨ht, ht0⟩ := step_q_wgt w hw
  rw [q_proj]
  exact (isReal_sum _ _ fun k _ => (isReal_fq hs hs0 (hx _)).mul (isReal_fq ht ht0 (hw _))).add (hb _)

/-- Every entry of the key projection is real. -/
theorem isReal_k_proj (i : S2x2048x1024.Idx) : IsReal (val_main_v47 (F := Ideal) x w bias i) := by
  obtain ⟨b, n, d, rfl⟩ : ∃ (b : Fin 2) (n : Fin 2048) (d : Fin 1024), i = ix3 b n d := ⟨i 0, i 1, i 2, eq_ix3 i⟩
  obtain ⟨hs, hs0⟩ := step_k_act x hx
  obtain ⟨ht, ht0⟩ := step_k_wgt w hw
  rw [k_proj]
  exact (isReal_sum _ _ fun k _ => (isReal_fq hs hs0 (hx _)).mul (isReal_fq ht ht0 (hw _))).add (hb _)

/-- Every entry of the value projection is real. -/
theorem isReal_v_proj (i : S2x2048x1024.Idx) : IsReal (val_main_v71 (F := Ideal) x w bias i) := by
  obtain ⟨b, n, d, rfl⟩ : ∃ (b : Fin 2) (n : Fin 2048) (d : Fin 1024), i = ix3 b n d := ⟨i 0, i 1, i 2, eq_ix3 i⟩
  obtain ⟨hs, hs0⟩ := step_v_act x hx
  obtain ⟨ht, ht0⟩ := step_v_wgt w hw
  rw [v_proj]
  exact (isReal_sum _ _ fun k _ => (isReal_fq hs hs0 (hx _)).mul (isReal_fq ht ht0 (hw _))).add (hb _)

/-- Every entry of the query heads is real: the split reads an entry of the projection. -/
theorem isReal_q_heads (i : S2x16x2048x64.Idx) : IsReal (val_main_v73 (F := Ideal) x w bias i) := by
  rw [val_main_v73_apply, val_main_v72_apply]
  exact isReal_q_proj x w bias hx hw hb _

/-- Every entry of the key heads is real. -/
theorem isReal_k_heads (i : S2x16x2048x64.Idx) : IsReal (val_main_v75 (F := Ideal) x w bias i) := by
  rw [val_main_v75_apply, val_main_v74_apply]
  exact isReal_k_proj x w bias hx hw hb _

/-- Every entry of the value heads is real. -/
theorem isReal_v_heads (i : S2x16x2048x64.Idx) : IsReal (val_main_v77 (F := Ideal) x w bias i) := by
  rw [val_main_v77_apply, val_main_v76_apply]
  exact isReal_v_proj x w bias hx hw hb _

omit hx hw hb in
theorem step_q_heads_eq :
    val_main_v81 (F := Ideal) x w bias = hostStep (val_main_v73 (F := Ideal) x w bias) reducesTo_S2x16x2048x64_S_d0_1_2_3 := rfl
omit hx hw hb in
theorem step_k_heads_eq :
    val_main_v91 (F := Ideal) x w bias = hostStep (val_main_v75 (F := Ideal) x w bias) reducesTo_S2x16x2048x64_S_d0_1_2_3 := rfl
omit hx hw hb in
theorem step_v_heads_eq :
    val_main_v126 (F := Ideal) x w bias = hostStep (val_main_v77 (F := Ideal) x w bias) reducesTo_S2x16x2048x64_S_d0_1_2_3 := rfl

/-- The query heads' step is a nonzero real. -/
theorem step_q_heads : IsReal (val_main_v81 (F := Ideal) x w bias ix0) ∧ val_main_v81 (F := Ideal) x w bias ix0 ≠ 0 := by
  rw [step_q_heads_eq]; exact hostStep_isReal_ne_zero _ _ (isReal_q_heads x w bias hx hw hb)

/-- The key heads' step is a nonzero real. -/
theorem step_k_heads : IsReal (val_main_v91 (F := Ideal) x w bias ix0) ∧ val_main_v91 (F := Ideal) x w bias ix0 ≠ 0 := by
  rw [step_k_heads_eq]; exact hostStep_isReal_ne_zero _ _ (isReal_k_heads x w bias hx hw hb)

/-- The value heads' step is a nonzero real. -/
theorem step_v_heads : IsReal (val_main_v126 (F := Ideal) x w bias ix0) ∧ val_main_v126 (F := Ideal) x w bias ix0 ≠ 0 := by
  rw [step_v_heads_eq]; exact hostStep_isReal_ne_zero _ _ (isReal_v_heads x w bias hx hw hb)

end Projections

end Cert.ReferenceIdeal.RefValue

end
-- ==== Proof.InputsFinite.lean ====
/-
  FINITENESS OF THE INPUTS, READ OFF THE PRECONDITION. The precondition applies, to each of the eleven argument
  arrays x, the whole-array test jnp.all (|x| < +∞) — the absolute value, a comparison "less than" against the
  constant +∞ broadcast to x's shape, and a reduction by "and" over every axis from the initial bit 1 — and joins the
  eleven resulting bits by "and". Read at the extended reals, |x| is max x (-x) and the comparison is the linear
  order's, so one entry passing the test says max x (-x) < ⊤, which excludes both infinities: the entry is a real
  number. A reduction by "and" that answers 1 met only 1s, and a conjunction that answers 1 had every conjunct 1.
  Hence: under the precondition every entry of every argument is (the embedding of) a real number.
-/
import proofs.«148380_j86835648790565_1_alg».proof.Pre_finite_inputs
import proofs.«148380_j86835648790565_1_alg».proof.Proof.Gen.Pre_finite_inputs
import Idealize.ShloMosaic.Lib.ReduceAll
import Idealize.ShloMosaic.PureOps.Ideal
import Idealize.ShloMosaic.Lib.ValueIdx

noncomputable section

namespace Cert.Pre_finite_inputs.Finite

open Idealize.ShloMosaic Cert.Pre_finite_inputs

/-- The shape of rank zero has one index. -/
instance : Subsingleton S_.Idx := ⟨fun a b => funext fun d => d.elim0⟩

/-- An extended real whose absolute value lies strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The single-precision pattern 0x7F800000 denotes +∞. -/
theorem ofBits_posInf : Ideal.ofBits .f32 0x7F800000#32 = ⊤ := by simp [Ideal.ofBits, Ideal.ieee]

/-- One entry's test: the comparison |x| < +∞ answering 1 says x is a real number. -/
theorem real_of_cmp (x : Ideal .f32)
    (h : FloatOps.cmpf (F := Ideal) (φ := .f32) .olt (FloatOps.hostAbsf x) (FloatOps.ofBits .f32 0x7F800000#32) = 1#1) :
    ∃ r : ℝ, x = (r : EReal) := by
  refine real_of_abs_lt_top x ?_
  change Ideal.cmp .olt (max x (-x)) (Ideal.ofBits .f32 0x7F800000#32) = 1#1 at h
  rw [ofBits_posInf] at h
  unfold Ideal.cmp at h
  by_contra hn
  simp only [hn, decide_false] at h
  exact absurd h (by decide)

/-- The whole-array test jnp.all (|x| < +∞), over any shape: answering 1, it says every entry of x is a real number. -/
theorem all_real {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
          (constantI S_ 1 1#1) hr hu j = 1#1) (i : s.Idx) : ∃ r : ℝ, x i = (r : EReal) :=
  real_of_cmp (x i) (Host.reduce_andi_all _ _ hr hu j e i)

/-- The precondition decoded: when the printed test of the eleven argument arrays answers 1, every entry of every
    argument is a real number. The test is the conjunction, nested to the left, of one whole-array test
    jnp.all (|x| < +∞) per argument; each conjunct is read by `all_real`. -/
theorem inputs_real (a0 a1 a2 : FVec Ideal S2x2048x1024 .f32) (a3 a5 a7 a9 : FVec Ideal S1024x1024 .f32)
    (a4 a6 a8 a10 : FVec Ideal S1024 .f32)
    (h : Cert.Pre_finite_inputs.fn (F := Ideal) a0 a1 a2 a3 a4 a5 a6 a7 a8 a9 a10 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal))
    ∧ (∀ i, ∃ r : ℝ, a9 i = (r : EReal)) ∧ (∀ i, ∃ r : ℝ, a10 i = (r : EReal)) := by
  have e := congrFun h ValueIdx.ix0
  dsimp only [fn, fn_part1, fn_part2, fn_part3] at e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨all_real a0 _ _ _ _ h0, all_real a1 _ _ _ _ h1, all_real a2 _ _ _ _ h2, all_real a3 _ _ _ _ h3,
    all_real a4 _ _ _ _ h4, all_real a5 _ _ _ _ h5, all_real a6 _ _ _ _ h6, all_real a7 _ _ _ _ h7,
    all_real a8 _ _ _ _ h8, all_real a9 _ _ _ _ h9, all_real a10 _ _ _ _ h10⟩

end Cert.Pre_finite_inputs.Finite

end
-- ==== Proof.PreFinite.lean ====
/-
  THE PRECONDITION OVER THE MEMORY. The idealized kernel's precondition says, device by device, that the printed test of
  the eleven argument arrays the memory holds answers 1. Decoded (InputsFinite), that makes every entry of every
  argument array, on every device, a real number.
-/
import proofs.«148380_j86835648790565_1_alg».proof.Defs
import proofs.«148380_j86835648790565_1_alg».proof.Proof.Gen.KernelIdeal
import proofs.«148380_j86835648790565_1_alg».proof.Proof.Gen.Pre_finite_inputs
import proofs.«148380_j86835648790565_1_alg».proof.Proof.InputsFinite

noncomputable section

namespace Cert.Proof.PreFinite

open Idealize.ShloMosaic Idealize.SL.Sem

/-- Under the idealized kernel's precondition every entry of each of its eleven argument arrays, on every device, is a
    real number: the precondition at a device is the printed test of those arrays answering 1, which
    `Cert.Pre_finite_inputs.Finite.inputs_real` decodes. -/
theorem pre_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0) : Cert.KernelIdeal.S2x2048x1024.Idx → EReal) i = (r : EReal))
    ∧ (∀ i, ∃ r : ℝ, (m ((c.tc : Thread Cert.KernelIdeal.nD Cert.KernelIdeal.τ).loc Cert.KernelIdeal.main_arg1) : Cert.KernelIdeal.S2x2048x1024.Idx → EReal) i = (r : EReal))
    ∧ (∀ i, ∃ r : ℝ, (m ((c.tc : Thread Cert.KernelIdeal.nD Cert.KernelIdeal.τ).loc Cert.KernelIdeal.main_arg2) : Cert.KernelIdeal.S2x2048x1024.Idx → EReal) i = (r : EReal))
    ∧ (∀ i, ∃ r : ℝ, (m ((c.tc : Thread Cert.KernelIdeal.nD Cert.KernelIdeal.τ).loc Cert.KernelIdeal.main_arg3) : Cert.KernelIdeal.S1024x1024.Idx → EReal) i = (r : EReal))
    ∧ (∀ i, ∃ r : ℝ, (m ((c.tc : Thread Cert.KernelIdeal.nD Cert.KernelIdeal.τ).loc Cert.KernelIdeal.main_arg4) : Cert.KernelIdeal.S1024.Idx → EReal) i = (r : EReal))
    ∧ (∀ i, ∃ r : ℝ, (m ((c.tc : Thread Cert.KernelIdeal.nD Cert.KernelIdeal.τ).loc Cert.KernelIdeal.main_arg5) : Cert.KernelIdeal.S1024x1024.Idx → EReal) i = (r : EReal))
    ∧ (∀ i, ∃ r : ℝ, (m ((c.tc : Thread Cert.KernelIdeal.nD Cert.KernelIdeal.τ).loc Cert.KernelIdeal.main_arg6) : Cert.KernelIdeal.S1024.Idx → EReal) i = (r : EReal))
    ∧ (∀ i, ∃ r : ℝ, (m ((c.tc : Thread Cert.KernelIdeal.nD Cert.KernelIdeal.τ).loc Cert.KernelIdeal.main_arg7) : Cert.KernelIdeal.S1024x1024.Idx → EReal) i = (r : EReal))
    ∧ (∀ i, ∃ r : ℝ, (m ((c.tc : Thread Cert.KernelIdeal.nD Cert.KernelIdeal.τ).loc Cert.KernelIdeal.main_arg8) : Cert.KernelIdeal.S1024.Idx → EReal) i = (r : EReal))
    ∧ (∀ i, ∃ r : ℝ, (m ((c.tc : Thread Cert.KernelIdeal.nD Cert.KernelIdeal.τ).loc Cert.KernelIdeal.main_arg9) : Cert.KernelIdeal.S1024x1024.Idx → EReal) i = (r : EReal))
    ∧ (∀ i, ∃ r : ℝ, (m ((c.tc : Thread Cert.KernelIdeal.nD Cert.KernelIdeal.τ).loc Cert.KernelIdeal.main_arg10) : Cert.KernelIdeal.S1024.Idx → EReal) i = (r : EReal)) :=
  Cert.Pre_finite_inputs.Finite.inputs_real _ _ _ _ _ _ _ _ _ _ _ (h c)

end Cert.Proof.PreFinite

end
-- ==== Proof.RefAttention.lean ====
/-
  The reference's attention, read against the quantised-attention specification.

  After the three input projections are split into heads, the reference quantises the queries and the keys at their
  own steps, takes each query row's products with every key row over the 64 head features and divides by the square
  root of 64 — which is 8, so the quotient is the product with one eighth —, turns each score row into weights
  `exp (score − row maximum) / row sum`, quantises the weights at the step of their largest absolute value, and
  multiplies them with the quantised values. Each stage is the specification's function of the head-split
  projections; a step is the largest absolute value of its array over 127 plus a small constant, the largest absolute
  value being a supremum over every index. For the weights that supremum is one over the smallest row sum.
-/
import proofs.«148380_j86835648790565_1_alg».proof.Proof.Gen.ReferenceIdeal.Read
import proofs.«148380_j86835648790565_1_alg».proof.Proof.QuantSpec
import proofs.«148380_j86835648790565_1_alg».proof.Proof.QuantFinite
import proofs.«148380_j86835648790565_1_alg».proof.Proof.LibReduceExtremum

noncomputable section

namespace Cert.ReferenceIdeal.RefValue

open Cert.ReferenceIdeal Cert.ReferenceIdeal.Gen Cert.ReferenceIdeal.Read Idealize.ShloMosaic Idealize.ShloMosaic.ValueIdx Cert.QAttn
open Cert.QAttn.Finite Idealize.ShloMosaic.ReduceExtremum

/-! ## Names for the head-split projections, the four steps and the weights -/

/-- The head-split query projection `[2, 16, 2048, 64]`. -/
abbrev Qh (x0 : FVec Ideal S2x2048x1024 .f32) (x3 : FVec Ideal S1024x1024 .f32) (x4 : FVec Ideal S1024 .f32) :
    S2x16x2048x64.Idx → EReal := val_main_v73 (F := Ideal) x0 x3 x4
/-- The head-split key projection. -/
abbrev Kh (x1 : FVec Ideal S2x2048x1024 .f32) (x5 : FVec Ideal S1024x1024 .f32) (x6 : FVec Ideal S1024 .f32) :
    S2x16x2048x64.Idx → EReal := val_main_v75 (F := Ideal) x1 x5 x6
/-- The head-split value projection. -/
abbrev Vh (x2 : FVec Ideal S2x2048x1024 .f32) (x7 : FVec Ideal S1024x1024 .f32) (x8 : FVec Ideal S1024 .f32) :
    S2x16x2048x64.Idx → EReal := val_main_v77 (F := Ideal) x2 x7 x8
/-- The queries' step. -/
abbrev stepQ (x0 : FVec Ideal S2x2048x1024 .f32) (x3 : FVec Ideal S1024x1024 .f32) (x4 : FVec Ideal S1024 .f32) : EReal :=
  val_main_v81 (F := Ideal) x0 x3 x4 ix0
/-- The keys' step. -/
abbrev stepK (x1 : FVec Ideal S2x2048x1024 .f32) (x5 : FVec Ideal S1024x1024 .f32) (x6 : FVec Ideal S1024 .f32) : EReal :=
  val_main_v91 (F := Ideal) x1 x5 x6 ix0
/-- The values' step. -/
abbrev stepV (x2 : FVec Ideal S2x2048x1024 .f32) (x7 : FVec Ideal S1024x1024 .f32) (x8 : FVec Ideal S1024 .f32) : EReal :=
  val_main_v126 (F := Ideal) x2 x7 x8 ix0
/-- The softmax weights `[2, 16, 2048, 2048]`. -/
abbrev Pw (x0 x1 : FVec Ideal S2x2048x1024 .f32) (x3 : FVec Ideal S1024x1024 .f32) (x4 : FVec Ideal S1024 .f32)
    (x5 : FVec Ideal S1024x1024 .f32) (x6 : FVec Ideal S1024 .f32) : S2x16x2048x2048.Idx → EReal :=
  val_main_v112 (F := Ideal) x0 x1 x3 x4 x5 x6
/-- The weights' step. -/
abbrev stepA (x0 x1 : FVec Ideal S2x2048x1024 .f32) (x3 : FVec Ideal S1024x1024 .f32) (x4 : FVec Ideal S1024 .f32)
    (x5 : FVec Ideal S1024x1024 .f32) (x6 : FVec Ideal S1024 .f32) : EReal :=
  val_main_v116 (F := Ideal) x0 x1 x3 x4 x5 x6 ix0

variable (x0 x1 x2 : FVec Ideal S2x2048x1024 .f32) (x3 : FVec Ideal S1024x1024 .f32) (x4 : FVec Ideal S1024 .f32)
  (x5 : FVec Ideal S1024x1024 .f32) (x6 : FVec Ideal S1024 .f32) (x7 : FVec Ideal S1024x1024 .f32) (x8 : FVec Ideal S1024 .f32)

/-! ## The steps: largest absolute value over 127, plus the small constant -/

/-- The queries' step is the supremum of the absolute values of the head-split queries, over 127, plus the constant. -/
theorem stepQ_eq : stepQ x0 x3 x4
    = Ideal.div (⨆ i, max (Qh x0 x3 x4 i) (-(Qh x0 x3 x4 i))) (Ideal.ofBits .f32 0x42FE0000#32)
        + Ideal.ofBits .f32 0x2B8CBCCC#32 := by
  have h : val_main_v79 (F := Ideal) x0 x3 x4 = fun _ => ⨆ i, max (Qh x0 x3 x4 i) (-(Qh x0 x3 x4 i)) :=
    hostReduce_max_scalar_negInf (val_main_v78 (F := Ideal) x0 x3 x4) reducesTo_S2x16x2048x64_S_d0_1_2_3 h_S_
  show val_main_v81 (F := Ideal) x0 x3 x4 ix0 = _
  rw [val_main_v81_apply, val_main_v80_apply, h]
  rfl

/-- The keys' step likewise. -/
theorem stepK_eq : stepK x1 x5 x6
    = Ideal.div (⨆ i, max (Kh x1 x5 x6 i) (-(Kh x1 x5 x6 i))) (Ideal.ofBits .f32 0x42FE0000#32)
        + Ideal.ofBits .f32 0x2B8CBCCC#32 := by
  have h : val_main_v89 (F := Ideal) x1 x5 x6 = fun _ => ⨆ i, max (Kh x1 x5 x6 i) (-(Kh x1 x5 x6 i)) :=
    hostReduce_max_scalar_negInf (val_main_v88 (F := Ideal) x1 x5 x6) reducesTo_S2x16x2048x64_S_d0_1_2_3 h_S_
  show val_main_v91 (F := Ideal) x1 x5 x6 ix0 = _
  rw [val_main_v91_apply, val_main_v90_apply, h]
  rfl

/-- The values' step likewise. -/
theorem stepV_eq : stepV x2 x7 x8
    = Ideal.div (⨆ i, max (Vh x2 x7 x8 i) (-(Vh x2 x7 x8 i))) (Ideal.ofBits .f32 0x42FE0000#32)
        + Ideal.ofBits .f32 0x2B8CBCCC#32 := by
  have h : val_main_v124 (F := Ideal) x2 x7 x8 = fun _ => ⨆ i, max (Vh x2 x7 x8 i) (-(Vh x2 x7 x8 i)) :=
    hostReduce_max_scalar_negInf (val_main_v123 (F := Ideal) x2 x7 x8) reducesTo_S2x16x2048x64_S_d0_1_2_3 h_S_
  show val_main_v126 (F := Ideal) x2 x7 x8 ix0 = _
  rw [val_main_v126_apply, val_main_v125_apply, h]
  rfl

/-- The weights' step likewise, over the softmax weights. -/
theorem stepA_eq_sup : stepA x0 x1 x3 x4 x5 x6
    = Ideal.div (⨆ i, max (Pw x0 x1 x3 x4 x5 x6 i) (-(Pw x0 x1 x3 x4 x5 x6 i))) (Ideal.ofBits .f32 0x42FE0000#32)
        + Ideal.ofBits .f32 0x2B8CBCCC#32 := by
  have h : val_main_v114 (F := Ideal) x0 x1 x3 x4 x5 x6
      = fun _ => ⨆ i, max (Pw x0 x1 x3 x4 x5 x6 i) (-(Pw x0 x1 x3 x4 x5 x6 i)) :=
    hostReduce_max_scalar_negInf (val_main_v113 (F := Ideal) x0 x1 x3 x4 x5 x6) reducesTo_S2x16x2048x2048_S_d0_1_2_3 h_S_
  show val_main_v116 (F := Ideal) x0 x1 x3 x4 x5 x6 ix0 = _
  rw [val_main_v116_apply, val_main_v115_apply, h]
  rfl

/-! ## The quantised tensors, entry by entry -/

/-- The quantised queries. -/
theorem q_quant (i : S2x16x2048x64.Idx) :
    val_main_v87 (F := Ideal) x0 x3 x4 i = fq (stepQ x0 x3 x4) (Qh x0 x3 x4 i) := by
  rw [val_main_v87_apply, val_main_v85_apply, val_main_v84_apply, val_main_call12_v4_apply, val_main_call12_v3_apply, val_main_cst_33_apply, val_main_call12_v2_apply, val_main_call12_v1_apply, val_main_call12_v0_apply, val_main_cst_32_apply, val_main_v83_apply, val_main_v82_apply, val_main_v86_apply]
  rfl

/-- The quantised keys. -/
theorem k_quant (i : S2x16x2048x64.Idx) :
    val_main_v97 (F := Ideal) x1 x5 x6 i = fq (stepK x1 x5 x6) (Kh x1 x5 x6 i) := by
  rw [val_main_v97_apply, val_main_v95_apply, val_main_v94_apply, val_main_call14_v4_apply, val_main_call14_v3_apply, val_main_cst_38_apply, val_main_call14_v2_apply, val_main_call14_v1_apply, val_main_call14_v0_apply, val_main_cst_37_apply, val_main_v93_apply, val_main_v92_apply, val_main_v96_apply]
  rfl

/-- The quantised values. -/
theorem v_quant (i : S2x16x2048x64.Idx) :
    val_main_v132 (F := Ideal) x2 x7 x8 i = fq (stepV x2 x7 x8) (Vh x2 x7 x8 i) := by
  rw [val_main_v132_apply, val_main_v130_apply, val_main_v129_apply, val_main_call18_v4_apply, val_main_call18_v3_apply, val_main_cst_52_apply, val_main_call18_v2_apply, val_main_call18_v1_apply, val_main_call18_v0_apply, val_main_cst_51_apply, val_main_v128_apply, val_main_v127_apply, val_main_v131_apply]
  rfl

/-- The quantised softmax weights. -/
theorem a_quant (i : S2x16x2048x2048.Idx) :
    val_main_v122 (F := Ideal) x0 x1 x3 x4 x5 x6 i = fq (stepA x0 x1 x3 x4 x5 x6) (Pw x0 x1 x3 x4 x5 x6 i) := by
  rw [val_main_v122_apply, val_main_v120_apply, val_main_v119_apply, val_main_call16_v4_apply, val_main_call16_v3_apply, val_main_cst_47_apply, val_main_call16_v2_apply, val_main_call16_v1_apply, val_main_call16_v0_apply, val_main_cst_46_apply, val_main_v118_apply, val_main_v117_apply, val_main_v121_apply]
  rfl

/-! ## Scores, row statistics, weights -/

/-- The scaled scores: the products of a quantised query row and a quantised key row over the head features, divided
    by the square root of 64, that is multiplied by one eighth. -/
theorem scores_eq (b : Fin 2) (h : Fin 16) (n j : Fin 2048) :
    val_main_v101 (F := Ideal) x0 x1 x3 x4 x5 x6 (ix4 b h n j)
      = scores (Qh x0 x3 x4) (Kh x1 x5 x6) (stepQ x0 x3 x4) (stepK x1 x5 x6) b h n j := by
  rw [val_main_v101_apply, val_main_v100_apply, val_main_v99_apply, val_main_cst_39_apply, val_main_v98_apply]
  refine (div_sqrt_64_eq_mul_eighth _).trans ?_
  unfold scores
  refine congrArg (fun u : EReal => u * Ideal.ofBits .f32 0x3E000000#32) (Finset.sum_congr rfl fun k _ => ?_)
  rw [q_quant, k_quant]
  have e1 : lidx_main_v98 (ix4 b h n j) k = ix4 b h n k := funext fun a => by
      match a with
      | ⟨0, _⟩ => rfl
      | ⟨1, _⟩ => rfl
      | ⟨2, _⟩ => rfl
      | ⟨3, _⟩ => rfl
  have e2 : ridx_main_v98 (ix4 b h n j) k = ix4 b h j k := funext fun a => by
      match a with
      | ⟨0, _⟩ => rfl
      | ⟨1, _⟩ => rfl
      | ⟨2, _⟩ => rfl
      | ⟨3, _⟩ => rfl
  rw [e1, e2]

/-- A score row's maximum, as the reference takes it: the maximum over the key positions, then the maximum with
    `-∞`, which changes nothing. -/
theorem rowMax_eq (b : Fin 2) (h : Fin 16) (n : Fin 2048) :
    val_main_v104 (F := Ideal) x0 x1 x3 x4 x5 x6 (ix3 b h n)
      = rowMax (Qh x0 x3 x4) (Kh x1 x5 x6) (stepQ x0 x3 x4) (stepK x1 x5 x6) b h n := by
  have hR : S2x16x2048x2048.Reduces [3] S2x16x2048 := by decide
  have h102 : val_main_v102 (F := Ideal) x0 x1 x3 x4 x5 x6 (ix3 b h n)
      = ⨆ k : Fin 2048, val_main_v101 (F := Ideal) x0 x1 x3 x4 x5 x6 (ix4 b h n k) := by
    refine (hostReduce_max_single_negInf (val_main_v101 (F := Ideal) x0 x1 x3 x4 x5 x6)
      reducesTo_S2x16x2048x2048_S2x16x2048_d3 hR h_S_ (ix3 b h n)).trans ?_
    exact iSup_congr fun k => congrArg (val_main_v101 (F := Ideal) x0 x1 x3 x4 x5 x6) (lift_last4 hR (ix3 b h n) k)
  rw [val_main_v104_apply, val_main_v103_apply, val_main_cst_41_apply, h102]
  refine (congrArg (fun u : EReal => max u _) ofBits_negInf_f32).trans ?_
  refine (max_eq_right bot_le).trans ?_
  unfold rowMax
  exact iSup_congr fun k => scores_eq x0 x1 x3 x4 x5 x6 b h n k

/-- A score row's sum of exponentials relative to its maximum. -/
theorem rowSum_eq (b : Fin 2) (h : Fin 16) (n : Fin 2048) :
    val_main_v109 (F := Ideal) x0 x1 x3 x4 x5 x6 (ix3 b h n)
      = rowSum (Qh x0 x3 x4) (Kh x1 x5 x6) (stepQ x0 x3 x4) (stepK x1 x5 x6) b h n := by
  rw [val_main_v109_apply, val_main_cst_42_apply]
  refine (congrArg (fun u : EReal => u + _) Ideal.ofBits_zero_f32).trans ?_
  refine (zero_add _).trans ?_
  unfold rowSum
  refine Finset.sum_congr rfl fun k _ => ?_
  rw [val_main_v108_apply, val_main_v107_apply, val_main_v106_apply, val_main_v105_apply]
  have e1 : idx_main_v109 (ix3 b h n) k = ix4 b h n k := funext fun a => by
      match a with
      | ⟨0, _⟩ => rfl
      | ⟨1, _⟩ => rfl
      | ⟨2, _⟩ => rfl
      | ⟨3, _⟩ => rfl
  have e2 : idx_main_v105 (idx_main_v106 (idx_main_v109 (ix3 b h n) k)) = ix3 b h n := funext fun a => by
      match a with
      | ⟨0, _⟩ => rfl
      | ⟨1, _⟩ => rfl
      | ⟨2, _⟩ => rfl
  rw [e2, e1, scores_eq, rowMax_eq]
  rfl

/-- A softmax weight in the reference's own stages: the exponential of the score less the row's maximum, over the
    row's sum. -/
theorem softmax_raw (b : Fin 2) (h : Fin 16) (n j : Fin 2048) :
    val_main_v112 (F := Ideal) x0 x1 x3 x4 x5 x6 (ix4 b h n j)
      = Ideal.div (Ideal.exp (val_main_v101 (F := Ideal) x0 x1 x3 x4 x5 x6 (ix4 b h n j)
            - val_main_v104 (F := Ideal) x0 x1 x3 x4 x5 x6 (ix3 b h n)))
          (val_main_v109 (F := Ideal) x0 x1 x3 x4 x5 x6 (ix3 b h n)) := by
  rw [val_main_v112_apply, val_main_v111_apply, val_main_v110_apply, val_main_v108_apply, val_main_v107_apply, val_main_v106_apply, val_main_v105_apply]
  have e1 : idx_main_v110 (idx_main_v111 (ix4 b h n j)) = ix3 b h n := funext fun a => by
      match a with
      | ⟨0, _⟩ => rfl
      | ⟨1, _⟩ => rfl
      | ⟨2, _⟩ => rfl
  have e2 : idx_main_v105 (idx_main_v106 (ix4 b h n j)) = ix3 b h n := funext fun a => by
      match a with
      | ⟨0, _⟩ => rfl
      | ⟨1, _⟩ => rfl
      | ⟨2, _⟩ => rfl
  rw [e1, e2]
  rfl

/-- A softmax weight as the specification writes it. -/
theorem softmax_eq (b : Fin 2) (h : Fin 16) (n j : Fin 2048) :
    Pw x0 x1 x3 x4 x5 x6 (ix4 b h n j)
      = Ideal.div (Ideal.exp (scores (Qh x0 x3 x4) (Kh x1 x5 x6) (stepQ x0 x3 x4) (stepK x1 x5 x6) b h n j
            - rowMax (Qh x0 x3 x4) (Kh x1 x5 x6) (stepQ x0 x3 x4) (stepK x1 x5 x6) b h n))
          (rowSum (Qh x0 x3 x4) (Kh x1 x5 x6) (stepQ x0 x3 x4) (stepK x1 x5 x6) b h n) := by
  show val_main_v112 (F := Ideal) x0 x1 x3 x4 x5 x6 (ix4 b h n j) = _
  rw [softmax_raw, scores_eq, rowMax_eq, rowSum_eq]

/-! ## The attention output -/

/-- The attention output at batch `b`, head `h`, query row `n`, head feature `c`: the quantised weights of row `n`
    times the quantised values' column `c`, summed over the key positions — the specification's output, given the
    reference's own row maxima and row sums. -/
theorem attn_eq (b : Fin 2) (h : Fin 16) (n : Fin 2048) (c : Fin 64) :
    val_main_v133 (F := Ideal) x0 x1 x2 x3 x4 x5 x6 x7 x8 (ix4 b h n c)
      = attnOut (Qh x0 x3 x4) (Kh x1 x5 x6) (Vh x2 x7 x8)
          (fun i => val_main_v104 (F := Ideal) x0 x1 x3 x4 x5 x6 (ix3 (i 0) (i 1) (i 2)))
          (fun i => val_main_v109 (F := Ideal) x0 x1 x3 x4 x5 x6 (ix3 (i 0) (i 1) (i 2)))
          (stepQ x0 x3 x4) (stepK x1 x5 x6) (stepV x2 x7 x8) (stepA x0 x1 x3 x4 x5 x6) (ix4 b h n c) := by
  rw [val_main_v133_apply]
  unfold attnOut
  refine Finset.sum_congr rfl fun k _ => ?_
  have e1 : lidx_main_v133 (ix4 b h n c) k = ix4 b h n k := funext fun a => by
      match a with
      | ⟨0, _⟩ => rfl
      | ⟨1, _⟩ => rfl
      | ⟨2, _⟩ => rfl
      | ⟨3, _⟩ => rfl
  have e2 : ridx_main_v133 (ix4 b h n c) k = ix4 b h k c := funext fun a => by
      match a with
      | ⟨0, _⟩ => rfl
      | ⟨1, _⟩ => rfl
      | ⟨2, _⟩ => rfl
      | ⟨3, _⟩ => rfl
  rw [e1, e2, a_quant, v_quant]
  show fq _ (val_main_v112 (F := Ideal) x0 x1 x3 x4 x5 x6 (ix4 b h n k)) * _ = _
  rw [softmax_raw, scores_eq]

/-! ## The weights' step through the peak of the softmax -/

/-- With real head-split queries and keys and nonzero real steps, the weights' step is one over the smallest row sum,
    over 127, plus the constant: the largest softmax weight of a row sits at the row's largest score and is one over
    the row's sum. -/
theorem stepA_eq (hQ : ∀ i, IsReal (Qh x0 x3 x4 i)) (hK : ∀ i, IsReal (Kh x1 x5 x6 i))
    (hsq : IsReal (stepQ x0 x3 x4)) (hsq0 : stepQ x0 x3 x4 ≠ 0)
    (hsk : IsReal (stepK x1 x5 x6)) (hsk0 : stepK x1 x5 x6 ≠ 0) :
    stepA x0 x1 x3 x4 x5 x6
      = Ideal.div (Ideal.div 1 (⨅ b : Fin 2, ⨅ h : Fin 16, ⨅ n : Fin 2048,
            rowSum (Qh x0 x3 x4) (Kh x1 x5 x6) (stepQ x0 x3 x4) (stepK x1 x5 x6) b h n))
          (Ideal.ofBits .f32 0x42FE0000#32)
        + Ideal.ofBits .f32 0x2B8CBCCC#32 := by
  rw [stepA_eq_sup, iSup_ix4]
  simp only [softmax_eq]
  rw [iSup_abs_softmax_eq (Qh x0 x3 x4) (Kh x1 x5 x6) (stepQ x0 x3 x4) (stepK x1 x5 x6) hQ hK hsq hsq0 hsk hsk0]

end Cert.ReferenceIdeal.RefValue

end
-- ==== Proof.AttnSpecLaws.lean ====
/-
  Laws of the attention specification that both programs use.

  A tensor's quantisation step is taken from its largest magnitude, a supremum over every index; splitting the heads
  only rearranges the entries (a reshape followed by a transpose, each reading every entry exactly once), so the step
  of the split tensor is the step of the tensor. And the step computed from the row sums is written with the constant
  `1.0`, which is the real number one.
-/
import proofs.«148380_j86835648790565_1_alg».proof.Proof.AttnSpec
import proofs.«148380_j86835648790565_1_alg».proof.Proof.LibReduceExtremum
import proofs.«148380_j86835648790565_1_alg».proof.Proof.QuantFinite

noncomputable section

namespace Cert.QAttn

open Idealize.ShloMosaic Idealize.ShloMosaic.ValueIdx Idealize.ShloMosaic.ReduceExtremum Cert.QAttn.Finite

section
variable (hs : (⟨3, ![2, 2048, 1024]⟩ : Shape).ShapeCasts ⟨4, ![2, 2048, 16, 64]⟩)
  (ht : (⟨4, ![2, 2048, 16, 64]⟩ : Shape).Transposes [0, 2, 1, 3] ⟨4, ![2, 16, 2048, 64]⟩)

/-- The step of the head-split tensor is the step of the tensor: the same entries, rearranged. -/
theorem stepOf_heads (x : (⟨3, ![2, 2048, 1024]⟩ : Shape).Idx → EReal) : stepOf (heads hs ht x) = stepOf x :=
  congrArg (fun m : EReal => Ideal.div m (Ideal.ofBits .f32 0x42FE0000#32) + Ideal.ofBits .f32 0x2B8CBCCC#32)
    ((iSup_abs_transpose [0, 2, 1, 3] (shapeCast ⟨4, ![2, 2048, 16, 64]⟩ x hs) ht).trans (iSup_abs_shapeCast x hs))

end

/-- The step taken from the row sums, with the constant `1.0` read as the number one. -/
theorem stepOfRowSums_eq (L : Fin 2 → Fin 16 → Fin 2048 → EReal) :
    stepOfRowSums L
      = Ideal.div (Ideal.div 1 (⨅ b, ⨅ h, ⨅ n, L b h n)) (Ideal.ofBits .f32 0x42FE0000#32)
        + Ideal.ofBits .f32 0x2B8CBCCC#32 := by
  unfold stepOfRowSums
  rw [ofBits_one']

/-- A step is a positive real when the tensor's entries are real (and there is at least one entry). -/
theorem stepOf_pos_real {ι : Type} [Fintype ι] [Nonempty ι] (x : ι → EReal) (hx : ∀ i, IsReal (x i)) :
    ∃ s : ℝ, 0 < s ∧ stepOf x = (s : EReal) :=
  step_pos_real x hx

/-- … hence real and not zero. -/
theorem stepOf_isReal_ne_zero {ι : Type} [Fintype ι] [Nonempty ι] (x : ι → EReal) (hx : ∀ i, IsReal (x i)) :
    IsReal (stepOf x) ∧ stepOf x ≠ 0 :=
  step_isReal_ne_zero x hx

end Cert.QAttn

end
-- ==== Proof.RefSpec.lean ====
/-
  The reference computes the attention specification.

  The reference's result is the specification's function of the three input projections, the output weights and bias
  and the step of the attention weights: its head-split tensors are the specification's reshape-and-transpose of the
  projections, its steps are the specification's steps (the largest magnitude does not see the rearrangement), its row
  maxima and row sums are the specification's, its attention output and its merged output are the specification's, and
  its last projection is the specification's quantised projection. Separately, the step of the attention weights, which
  the reference takes from the largest weight, is the step taken from the least row sum.
-/
import proofs.«148380_j86835648790565_1_alg».proof.Proof.Gen.ReferenceIdeal.Read
import proofs.«148380_j86835648790565_1_alg».proof.Proof.RefLinear
import proofs.«148380_j86835648790565_1_alg».proof.Proof.RefAttention
import proofs.«148380_j86835648790565_1_alg».proof.Proof.AttnSpec
import proofs.«148380_j86835648790565_1_alg».proof.Proof.AttnSpecLaws
import proofs.«148380_j86835648790565_1_alg».proof.Proof.LibReduceExtremum

noncomputable section

namespace Cert.ReferenceIdeal.RefValue

open Cert.ReferenceIdeal Cert.ReferenceIdeal.Gen Cert.ReferenceIdeal.Read Idealize.ShloMosaic Idealize.ShloMosaic.ValueIdx Cert.QAttn
open Cert.QAttn.Finite Idealize.ShloMosaic.ReduceExtremum

variable (x0 x1 x2 : FVec Ideal S2x2048x1024 .f32) (x3 : FVec Ideal S1024x1024 .f32) (x4 : FVec Ideal S1024 .f32)
  (x5 : FVec Ideal S1024x1024 .f32) (x6 : FVec Ideal S1024 .f32) (x7 : FVec Ideal S1024x1024 .f32) (x8 : FVec Ideal S1024 .f32)
  (x9 : FVec Ideal S1024x1024 .f32) (x10 : FVec Ideal S1024 .f32)

/-! ## The head-split tensors and the steps are the specification's -/

/-- The head-split queries are the specification's split of the query projection (a reshape, then a transpose). -/
theorem Qh_eq_heads : Qh x0 x3 x4
    = heads shapeCasts_S2x2048x1024_S2x2048x16x64 transposes_S2x2048x16x64_S2x16x2048x64_0_2_1_3 (val_main_v23 (F := Ideal) x0 x3 x4) := rfl

theorem Kh_eq_heads : Kh x1 x5 x6
    = heads shapeCasts_S2x2048x1024_S2x2048x16x64 transposes_S2x2048x16x64_S2x16x2048x64_0_2_1_3 (val_main_v47 (F := Ideal) x1 x5 x6) := rfl

theorem Vh_eq_heads : Vh x2 x7 x8
    = heads shapeCasts_S2x2048x1024_S2x2048x16x64 transposes_S2x2048x16x64_S2x16x2048x64_0_2_1_3 (val_main_v71 (F := Ideal) x2 x7 x8) := rfl

/-- The queries' step is the step of the query projection itself. -/
theorem stepQ_eq_stepOf : stepQ x0 x3 x4 = stepOf (val_main_v23 (F := Ideal) x0 x3 x4) :=
  (stepQ_eq x0 x3 x4).trans
    (stepOf_heads shapeCasts_S2x2048x1024_S2x2048x16x64 transposes_S2x2048x16x64_S2x16x2048x64_0_2_1_3 (val_main_v23 (F := Ideal) x0 x3 x4))

theorem stepK_eq_stepOf : stepK x1 x5 x6 = stepOf (val_main_v47 (F := Ideal) x1 x5 x6) :=
  (stepK_eq x1 x5 x6).trans
    (stepOf_heads shapeCasts_S2x2048x1024_S2x2048x16x64 transposes_S2x2048x16x64_S2x16x2048x64_0_2_1_3 (val_main_v47 (F := Ideal) x1 x5 x6))

theorem stepV_eq_stepOf : stepV x2 x7 x8 = stepOf (val_main_v71 (F := Ideal) x2 x7 x8) :=
  (stepV_eq x2 x7 x8).trans
    (stepOf_heads shapeCasts_S2x2048x1024_S2x2048x16x64 transposes_S2x2048x16x64_S2x16x2048x64_0_2_1_3 (val_main_v71 (F := Ideal) x2 x7 x8))

/-- The step of the merged attention output. -/
theorem stepO_eq : val_main_v139 (F := Ideal) x0 x1 x2 x3 x4 x5 x6 x7 x8 ix0
    = stepOf (val_main_v135 (F := Ideal) x0 x1 x2 x3 x4 x5 x6 x7 x8) := by
  have h : val_main_v137 (F := Ideal) x0 x1 x2 x3 x4 x5 x6 x7 x8
      = fun _ => ⨆ i, max (val_main_v135 (F := Ideal) x0 x1 x2 x3 x4 x5 x6 x7 x8 i)
          (-(val_main_v135 (F := Ideal) x0 x1 x2 x3 x4 x5 x6 x7 x8 i)) :=
    hostReduce_max_scalar_negInf (val_main_v136 (F := Ideal) x0 x1 x2 x3 x4 x5 x6 x7 x8) reducesTo_S2x2048x1024_S_d0_1_2 h_S_
  rw [val_main_v139_apply, val_main_v138_apply, h]
  rfl

/-- The step of the output weights. -/
theorem stepW_eq : val_main_v149 (F := Ideal) x9 ix0 = stepOf x9 := by
  have h : val_main_v147 (F := Ideal) x9 = fun _ => ⨆ i, max (x9 i) (-(x9 i)) :=
    hostReduce_max_scalar_negInf (val_main_v146 (F := Ideal) x9) reducesTo_S1024x1024_S_d0_1 h_S_
  rw [val_main_v149_apply, val_main_v148_apply, h]
  rfl

/-! ## The attention output and its merge -/

/-- The reference's attention output on the split heads is the specification's. -/
theorem attn_eq_spec : val_main_v133 (F := Ideal) x0 x1 x2 x3 x4 x5 x6 x7 x8
    = attnHeads shapeCasts_S2x2048x1024_S2x2048x16x64 transposes_S2x2048x16x64_S2x16x2048x64_0_2_1_3
        (val_main_v23 (F := Ideal) x0 x3 x4) (val_main_v47 (F := Ideal) x1 x5 x6) (val_main_v71 (F := Ideal) x2 x7 x8)
        (stepA x0 x1 x3 x4 x5 x6) := by
  funext i
  obtain ⟨b, h, n, c, rfl⟩ : ∃ b h n c, i = ix4 b h n c := ⟨i 0, i 1, i 2, i 3, eq_ix4 i⟩
  have hM : (fun i : S2x16x2048x1.Idx => val_main_v104 (F := Ideal) x0 x1 x3 x4 x5 x6 (ix3 (i 0) (i 1) (i 2)))
      = fun i => rowMax (Qh x0 x3 x4) (Kh x1 x5 x6) (stepQ x0 x3 x4) (stepK x1 x5 x6) (i 0) (i 1) (i 2) :=
    funext fun i => rowMax_eq x0 x1 x3 x4 x5 x6 (i 0) (i 1) (i 2)
  have hL : (fun i : S2x16x2048x1.Idx => val_main_v109 (F := Ideal) x0 x1 x3 x4 x5 x6 (ix3 (i 0) (i 1) (i 2)))
      = fun i => rowSum (Qh x0 x3 x4) (Kh x1 x5 x6) (stepQ x0 x3 x4) (stepK x1 x5 x6) (i 0) (i 1) (i 2) :=
    funext fun i => rowSum_eq x0 x1 x3 x4 x5 x6 (i 0) (i 1) (i 2)
  rw [attn_eq, hM, hL, stepQ_eq_stepOf, stepK_eq_stepOf, stepV_eq_stepOf]
  rfl

/-- The merged attention output is the specification's merge of the attention output. -/
theorem merged_eq_spec : val_main_v135 (F := Ideal) x0 x1 x2 x3 x4 x5 x6 x7 x8
    = unheads transposes_S2x16x2048x64_S2x2048x16x64_0_2_1_3 shapeCasts_S2x2048x16x64_S2x2048x1024
        (attnHeads shapeCasts_S2x2048x1024_S2x2048x16x64 transposes_S2x2048x16x64_S2x16x2048x64_0_2_1_3
          (val_main_v23 (F := Ideal) x0 x3 x4) (val_main_v47 (F := Ideal) x1 x5 x6) (val_main_v71 (F := Ideal) x2 x7 x8)
          (stepA x0 x1 x3 x4 x5 x6)) := by
  rw [← attn_eq_spec]
  rfl

/-! ## The reference is the specification -/

/-- The reference's result is the specification's function of the three input projections, the output weights and
    bias, and the reference's own step of the attention weights. -/
theorem ref_eq_spec : val_main_v159 (F := Ideal) x0 x1 x2 x3 x4 x5 x6 x7 x8 x9 x10
    = attnSpec shapeCasts_S2x2048x1024_S2x2048x16x64 transposes_S2x2048x16x64_S2x16x2048x64_0_2_1_3
        transposes_S2x16x2048x64_S2x2048x16x64_0_2_1_3 shapeCasts_S2x2048x16x64_S2x2048x1024
        (val_main_v23 (F := Ideal) x0 x3 x4) (val_main_v47 (F := Ideal) x1 x5 x6) (val_main_v71 (F := Ideal) x2 x7 x8)
        x9 x10 (stepA x0 x1 x3 x4 x5 x6) := by
  funext i
  obtain ⟨b, n, d, rfl⟩ : ∃ b n d, i = ix3 b n d := ⟨i 0, i 1, i 2, eq_ix3 i⟩
  rw [o_proj, stepO_eq, stepW_eq, merged_eq_spec]
  rfl

/-! ## The weights' step, from the least row sum -/

/-- With real head-split queries and keys and nonzero real steps, the reference's step of the attention weights is
    the step taken from the least row sum. -/
theorem ref_step (hQ : ∀ i, IsReal (Qh x0 x3 x4 i)) (hK : ∀ i, IsReal (Kh x1 x5 x6 i))
    (hsq : IsReal (stepQ x0 x3 x4)) (hsq0 : stepQ x0 x3 x4 ≠ 0)
    (hsk : IsReal (stepK x1 x5 x6)) (hsk0 : stepK x1 x5 x6 ≠ 0) :
    stepA x0 x1 x3 x4 x5 x6
      = stepOfRowSums (headRowSums shapeCasts_S2x2048x1024_S2x2048x16x64 transposes_S2x2048x16x64_S2x16x2048x64_0_2_1_3
          (val_main_v23 (F := Ideal) x0 x3 x4) (val_main_v47 (F := Ideal) x1 x5 x6)) := by
  rw [stepA_eq x0 x1 x3 x4 x5 x6 hQ hK hsq hsq0 hsk hsk0, stepOfRowSums_eq, stepQ_eq_stepOf, stepK_eq_stepOf]
  rfl

end Cert.ReferenceIdeal.RefValue

end
-- ==== Proof.MainEq.lean ====
/-
  The two programs compute the same array.

  The kernel's result is the attention specification applied to its own three projections, with the attention weights
  quantised at the step taken from the least row sum. Its projections are the reference's projections of the same
  arguments. The reference's result is the same specification of those projections with the weights quantised at the
  step of the largest weight; and when every input entry is a real number — the precondition — the projections, their
  head-split forms and their steps are real, the steps not zero, so the largest weight is one over the least row sum
  and the two steps coincide. What is left differs only in which proofs of the shape conditions the two sides carry.
-/
import proofs.«148380_j86835648790565_1_alg».proof.Defs
import proofs.«148380_j86835648790565_1_alg».proof.Proof.Gen.KernelIdeal
import proofs.«148380_j86835648790565_1_alg».proof.Proof.Gen.Pre_finite_inputs
import proofs.«148380_j86835648790565_1_alg».proof.Proof.KernelGlueBase
import proofs.«148380_j86835648790565_1_alg».proof.Proof.KernelSpec
import proofs.«148380_j86835648790565_1_alg».proof.Proof.JoinProj
import proofs.«148380_j86835648790565_1_alg».proof.Proof.RefFinite
import proofs.«148380_j86835648790565_1_alg».proof.Proof.PreFinite
import proofs.«148380_j86835648790565_1_alg».proof.Proof.RefSpec
import proofs.«148380_j86835648790565_1_alg».proof.Proof.AttnSpec

noncomputable section

namespace Cert.Proof.Join

open Idealize.ShloMosaic Idealize.ShloMosaic.TcCoe Idealize.ShloMosaic.ValueIdx Idealize.SL.Sem
open Cert.KernelIdeal.RunValue Cert.QAttn Cert.QAttn.Finite Cert.ReferenceIdeal.RefValue

/-- Under the precondition the kernel's result array, on every device, is the reference's composed term of the same
    eleven arguments. -/
theorem main_eq (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W13 m ρ c (Proc.devRef .tc Cert.KernelIdeal.main_v91)
      = Cert.ReferenceIdeal.Read.val_main_v159 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10)) := by
  obtain ⟨h0, h1, _, h3, h4, h5, h6, _, _, _, _⟩ := Cert.Proof.PreFinite.pre_real m hpre c
  -- the kernel's side: the specification of the reference's projections
  have hk : (Cert.KernelIdeal.Gen.W13 m ρ c (Proc.devRef .tc Cert.KernelIdeal.main_v91) : Cert.KernelIdeal.S2x2048x1024.Idx → EReal)
      = attnSpec Cert.KernelIdeal.Gen.shapeCasts_S2x2048x1024_S2x2048x16x64 Cert.KernelIdeal.Gen.transposes_S2x2048x16x64_S2x16x2048x64_0_2_1_3
          Cert.KernelIdeal.Gen.transposes_S2x16x2048x64_S2x2048x16x64_0_2_1_3 Cert.KernelIdeal.Gen.shapeCasts_S2x2048x16x64_S2x2048x1024
          (shapeCast Cert.KernelIdeal.S2x2048x1024 (out0 m ρ c) Cert.KernelIdeal.Gen.shapeCasts_S4096x1024_S2x2048x1024)
          (shapeCast Cert.KernelIdeal.S2x2048x1024 (out1 m ρ c) Cert.KernelIdeal.Gen.shapeCasts_S4096x1024_S2x2048x1024)
          (shapeCast Cert.KernelIdeal.S2x2048x1024 (out2 m ρ c) Cert.KernelIdeal.Gen.shapeCasts_S4096x1024_S2x2048x1024)
          (arg m c Cert.KernelIdeal.main_arg9) (arg m c Cert.KernelIdeal.main_arg10)
          (stepOfRowSums (headRowSums Cert.KernelIdeal.Gen.shapeCasts_S2x2048x1024_S2x2048x16x64
            Cert.KernelIdeal.Gen.transposes_S2x2048x16x64_S2x16x2048x64_0_2_1_3
            (shapeCast Cert.KernelIdeal.S2x2048x1024 (out0 m ρ c) Cert.KernelIdeal.Gen.shapeCasts_S4096x1024_S2x2048x1024)
            (shapeCast Cert.KernelIdeal.S2x2048x1024 (out1 m ρ c) Cert.KernelIdeal.Gen.shapeCasts_S4096x1024_S2x2048x1024))) :=
    Cert.KernelIdeal.KernelSpec.ker_eq_spec m ρ c
  rw [X0_eq m ρ c, X1_eq m ρ c, X2_eq m ρ c] at hk
  refine hk.trans ?_
  -- the reference's side: the same specification, and its step through the least row sum
  have hQ := isReal_q_heads (arg m c Cert.KernelIdeal.main_arg0) (arg m c Cert.KernelIdeal.main_arg3)
    (arg m c Cert.KernelIdeal.main_arg4) h0 h3 h4
  have hK := isReal_k_heads (arg m c Cert.KernelIdeal.main_arg1) (arg m c Cert.KernelIdeal.main_arg5)
    (arg m c Cert.KernelIdeal.main_arg6) h1 h5 h6
  obtain ⟨hsq, hsq0⟩ := step_q_heads (arg m c Cert.KernelIdeal.main_arg0) (arg m c Cert.KernelIdeal.main_arg3)
    (arg m c Cert.KernelIdeal.main_arg4) h0 h3 h4
  obtain ⟨hsk, hsk0⟩ := step_k_heads (arg m c Cert.KernelIdeal.main_arg1) (arg m c Cert.KernelIdeal.main_arg5)
    (arg m c Cert.KernelIdeal.main_arg6) h1 h5 h6
  refine Eq.trans ?_ (ref_eq_spec (arg m c Cert.KernelIdeal.main_arg0) (arg m c Cert.KernelIdeal.main_arg1)
    (arg m c Cert.KernelIdeal.main_arg2) (arg m c Cert.KernelIdeal.main_arg3) (arg m c Cert.KernelIdeal.main_arg4)
    (arg m c Cert.KernelIdeal.main_arg5) (arg m c Cert.KernelIdeal.main_arg6) (arg m c Cert.KernelIdeal.main_arg7)
    (arg m c Cert.KernelIdeal.main_arg8) (arg m c Cert.KernelIdeal.main_arg9) (arg m c Cert.KernelIdeal.main_arg10)).symm
  rw [ref_step (arg m c Cert.KernelIdeal.main_arg0) (arg m c Cert.KernelIdeal.main_arg1)
    (arg m c Cert.KernelIdeal.main_arg3) (arg m c Cert.KernelIdeal.main_arg4) (arg m c Cert.KernelIdeal.main_arg5)
    (arg m c Cert.KernelIdeal.main_arg6) hQ hK hsq hsq0 hsk hsk0]

end Cert.Proof.Join

end
-- ==== Proof.lean ====
/-
  Quantised multi-head attention: the Pallas kernel against its jnp reference, over the extended reals.

  Both programs project queries, keys and values with a quantised linear layer (activations and weights put on the
  signed eight-bit grid of their own step, the largest magnitude over 127 plus a small constant), split sixteen heads,
  form the scores of quantised queries against quantised keys, take a softmax written as exp (s - row maximum) over
  the row's sum of exponentials, quantise the weights and the values, multiply them, merge the heads and apply a
  last quantised linear layer. They differ in two places. The reference divides the scores by the square root of 64
  where the kernel multiplies by one eighth: the same map on every extended real. And the reference quantises the
  softmax weights at the step of their largest entry, where the kernel uses one over the least row sum: in a row the
  entry at the maximum is exp 0 = 1 over the row sum and no entry is larger, so the largest weight overall is one over
  the least row sum — for finite scores, which is where the precondition (every input entry finite) is used.

  The kernel's run ends with its result array holding the last region's output read back as [2, 2048, 1024]; each of
  its six regions writes the blocks of one whole-array function of what it finds (a row block of the linear layer depends on the same
  row block of the activations; an attention block on one batch and head), and the host operations between the regions
  are read off the launch memory. The reference's run is read one operation at a time. Both results are the same
  function of the three projections, which agree entry by entry.
-/
import proofs.«148380_j86835648790565_1_alg».proof.Defs
import proofs.«148380_j86835648790565_1_alg».proof.Proof.Gen.Kernel
import proofs.«148380_j86835648790565_1_alg».proof.Proof.Gen.Kernel.Frame
import proofs.«148380_j86835648790565_1_alg».proof.Proof.Gen.KernelIdeal
import proofs.«148380_j86835648790565_1_alg».proof.Proof.Gen.KernelIdeal.Frame
import proofs.«148380_j86835648790565_1_alg».proof.Proof.Gen.ReferenceIdeal
import proofs.«148380_j86835648790565_1_alg».proof.Proof.Gen.ReferenceIdeal.Run
import proofs.«148380_j86835648790565_1_alg».proof.Proof.Gen.ReferenceIdeal.Read
import proofs.«148380_j86835648790565_1_alg».proof.Proof.Gen.Pre_finite_inputs
import proofs.«148380_j86835648790565_1_alg».proof.Proof.KernelRun
import proofs.«148380_j86835648790565_1_alg».proof.Proof.MainEq

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a host program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the same result array on every device: the
    kernel's is the last region's output read back as [2, 2048, 1024], the reference's its composed term, and the two
    are one function of the arguments when every input entry is finite. -/
theorem algebraic : Cert.algebraic_KernelIdeal_ReferenceIdeal := by
  intro m ρ m' ρ' hpre hagree
  refine ⟨fun c => Cert.KernelIdeal.Gen.W13 m ρ c (Proc.devRef .tc Cert.KernelIdeal.main_v91),
    Cert.KernelIdeal.RunValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v159_eq, e0, e1, e2, e3, e4, e5, e6, e7, e8, e9, e10]
  exact (Cert.Proof.Join.main_eq m ρ hpre c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
